-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v20)) (v3 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_v97) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v132) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1024x4096 : Shape := ⟨2, ![1024, 4096]⟩
abbrev S8x32 : Shape := ⟨2, ![8, 32]⟩
abbrev S4x512 : Shape := ⟨2, ![4, 512]⟩
abbrev S256 : Shape := ⟨1, ![256]⟩
abbrev S512x256 : Shape := ⟨2, ![512, 256]⟩
abbrev S8192x1024 : Shape := ⟨2, ![8192, 1024]⟩
abbrev S2048x512 : Shape := ⟨2, ![2048, 512]⟩
abbrev S8192 : Shape := ⟨1, ![8192]⟩
abbrev S4x32 : Shape := ⟨2, ![4, 32]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S8x32 : S_.BroadcastsInDim S8x32 (![] : Fin 0 → Fin S8x32.rank)
  reducesTo_S8x32_S_d0_1 : S8x32.ReducesTo [0, 1] S_
  bcast_S_S4x512 : S_.BroadcastsInDim S4x512 (![] : Fin 0 → Fin S4x512.rank)
  reducesTo_S4x512_S_d0_1 : S4x512.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn_part2 {F : FTy → Type} [FloatOps F] (main_arg7 : FVec F S2048x512 .f32) (main_v33 : IVec S_ 1) : IVec S_ 1 :=
  let main_v34 : FVec F S2048x512 .f32 := Host.absf main_arg7
  let main_cst_12 : FVec F S_ .f32 := constant S_ .f32 0x7F800000#32
  let main_v35 : FVec F S2048x512 .f32 := broadcastInDim S2048x512 ![] bcast_S_S2048x512 main_cst_12
  let main_v36 : IVec S2048x512 1 := cmpf .olt main_v34 main_v35
  let main_c_13 : IVec S_ 1 := constantI S_ 1 1#1
  let main_v37 : IVec S_ 1 := (fun x v => Host.reduce IntOp.andi x v reducesTo_S2048x512_S_d0_1 h_S_) main_v36 main_c_13
  let main_v38 : IVec S_ 1 := andi main_v33 main_v37
  main_v38

def fn_part1 {F : FTy → Type} [FloatOps F] (main_arg4 : FVec F S256 .f32) (main_arg5 : FVec F S512x256 .f32) (main_arg6 : FVec F S8192x1024 .f32) (main_arg7 : FVec F S2048x512 .f32) (main_v13 : IVec S_ 1) (main_v16 : IVec S4x512 1) : IVec S_ 1 :=
  let main_c_5 : IVec S_ 1 := constantI S_ 1 1#1
  let main_v17 : IVec S_ 1 := (fun x v => Host.reduce IntOp.andi x v reducesTo_S4x512_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  fn_part2 (F := F) main_arg7 main_v33

def fn {F : FTy → Type} [FloatOps F] (main_arg0 : FVec F S8192x4096 .f32) (main_arg1 : FVec F S1024x4096 .f32) (main_arg2 : FVec F S8x32 .f32) (main_arg3 : FVec F S4x512 .f32) (main_arg4 : FVec F S256 .f32) (main_arg5 : FVec F S512x256 .f32) (main_arg6 : FVec F S8192x1024 .f32) (main_arg7 : FVec F S2048x512 .f32) (main_arg8 : IVec S8192 32) (main_arg9 : IVec S8192 32) (main_arg10 : IVec S8192 32) (main_arg11 : IVec S4x32 32) (main_arg12 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S8x32 .f32 := Host.absf main_arg2
  let main_cst_2 : FVec F S_ .f32 := constant S_ .f32 0x7F800000#32
  let main_v10 : FVec F S8x32 .f32 := broadcastInDim S8x32 ![] bcast_S_S8x32 main_cst_2
  let main_v11 : IVec S8x32 1 := cmpf .olt main_v9 main_v10
  let main_c_3 : IVec S_ 1 := constantI S_ 1 1#1
  let main_v12 : IVec S_ 1 := (fun x v => Host.reduce IntOp.andi x v reducesTo_S8x32_S_d0_1 h_S_) main_v11 main_c_3
  let main_v13 : IVec S_ 1 := andi main_v8 main_v12
  let main_v14 : FVec F S4x512 .f32 := Host.absf main_arg3
  let main_cst_4 : FVec F S_ .f32 := constant S_ .f32 0x7F800000#32
  let main_v15 : FVec F S4x512 .f32 := broadcastInDim S4x512 ![] bcast_S_S4x512 main_cst_4
  let main_v16 : IVec S4x512 1 := cmpf .olt main_v14 main_v15
  fn_part1 (F := F) main_arg4 main_arg5 main_arg6 main_arg7 main_v13 main_v16
-- ==== Kernel.lean ====
abbrev S8192x4096 : Shape := ⟨2, ![8192, 4096]⟩
abbrev S1024x4096 : Shape := ⟨2, ![1024, 4096]⟩
abbrev S8x32 : Shape := ⟨2, ![8, 32]⟩
abbrev S4x512 : Shape := ⟨2, ![4, 512]⟩
abbrev S256 : Shape := ⟨1, ![256]⟩
abbrev S512x256 : Shape := ⟨2, ![512, 256]⟩
abbrev S8192x1024 : Shape := ⟨2, ![8192, 1024]⟩
abbrev S2048x512 : Shape := ⟨2, ![2048, 512]⟩
abbrev S8192 : Shape := ⟨1, ![8192]⟩
abbrev S4x32 : Shape := ⟨2, ![4, 32]⟩
abbrev S32x8 : Shape := ⟨2, ![32, 8]⟩
abbrev S256x4096 : Shape := ⟨2, ![256, 4096]⟩
abbrev S256x1024 : Shape := ⟨2, ![256, 1024]⟩
abbrev S1024x512 : Shape := ⟨2, ![1024, 512]⟩
abbrev S4x8 : Shape := ⟨2, ![4, 8]⟩
abbrev S8x4 : Shape := ⟨2, ![8, 4]⟩
abbrev S8x1x4x1 : Shape := ⟨4, ![8, 1, 4, 1]⟩
abbrev S8x128x4x128 : Shape := ⟨4, ![8, 128, 4, 128]⟩
abbrev S256x512 : Shape := ⟨2, ![256, 512]⟩
abbrev S512x1024 : Shape := ⟨2, ![512, 1024]⟩
abbrev S8192x512 : Shape := ⟨2, ![8192, 512]⟩
abbrev S_ : Shape := ⟨0, ![]⟩
abbrev S8192x1 : Shape := ⟨2, ![8192, 1]⟩
abbrev S4 : Shape := ⟨1, ![4]⟩
abbrev S1x4 : Shape := ⟨2, ![1, 4]⟩
abbrev S8192x4 : Shape := ⟨2, ![8192, 4]⟩
abbrev S8192x4x1 : Shape := ⟨3, ![8192, 4, 1]⟩
abbrev S8192x4x2 : Shape := ⟨3, ![8192, 4, 2]⟩
abbrev S8192x4x1024 : Shape := ⟨3, ![8192, 4, 1024]⟩
abbrev S8192x4x512 : Shape := ⟨3, ![8192, 4, 512]⟩
abbrev S8192x1x512 : Shape := ⟨3, ![8192, 1, 512]⟩
abbrev S8192x256 : Shape := ⟨2, ![8192, 256]⟩
abbrev S1x256 : Shape := ⟨2, ![1, 256]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩
abbrev S1x512 : Shape := ⟨2, ![1, 512]⟩
abbrev S2049x512 : Shape := ⟨2, ![2049, 512]⟩

abbrev nBuf : Space → Nat
  | .hbm => 234
  | .vmem => 14
  | .smem => 0
  | _ => 0

abbrev hbmTy0_0 (i : Nat) : BufTy := match i % 128 with
  | 0 => ⟨S8192x4096, .f32⟩
  | 1 => ⟨S1024x4096, .f32⟩
  | 2 => ⟨S8x32, .f32⟩
  | 3 => ⟨S4x512, .f32⟩
  | 4 => ⟨S256, .f32⟩
  | 5 => ⟨S512x256, .f32⟩
  | 6 => ⟨S8192x1024, .f32⟩
  | 7 => ⟨S2048x512, .f32⟩
  | 8 => ⟨S8192, .i32⟩
  | 9 => ⟨S8192, .i32⟩
  | 10 => ⟨S8192, .i32⟩
  | 11 => ⟨S4x32, .i32⟩
  | 12 => ⟨S8192, .i32⟩
  | 13 => ⟨S32x8, .f32⟩
  | 14 => ⟨S8192x1024, .f32⟩
  | 15 => ⟨S8192x512, .f32⟩
  | 16 => ⟨S8192x512, .f32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S8192, .i32⟩
  | 24 => ⟨S8192, .i32⟩
  | 25 => ⟨S_, .i32⟩
  | 26 => ⟨S8192, .i32⟩
  | 27 => ⟨S8192, .i1⟩
  | 28 => ⟨S_, .i32⟩
  | 29 => ⟨S8192, .i32⟩
  | 30 => ⟨S8192, .i1⟩
  | 31 => ⟨S_, .i32⟩
  | 32 => ⟨S_, .i1⟩
  | 33 => ⟨S8192, .i1⟩
  | 34 => ⟨S8192, .i1⟩
  | 35 => ⟨S8192, .i1⟩
  | 36 => ⟨S8192, .i32⟩
  | 37 => ⟨S8192, .i32⟩
  | 38 => ⟨S8192, .i32⟩
  | 39 => ⟨S_, .i32⟩
  | 40 => ⟨S8192, .i32⟩
  | 41 => ⟨S8192, .i1⟩
  | 42 => ⟨S_, .i32⟩
  | 43 => ⟨S8192, .i32⟩
  | 44 => ⟨S8192, .i32⟩
  | 45 => ⟨S8192, .i32⟩
  | 46 => ⟨S8192x1, .i32⟩
  | 47 => ⟨S8192x512, .f32⟩
  | 48 => ⟨S8192x512, .f32⟩
  | 49 => ⟨S8192x1024, .f32⟩
  | 50 => ⟨S_, .i32⟩
  | 51 => ⟨S8192, .i32⟩
  | 52 => ⟨S8192, .i1⟩
  | 53 => ⟨S_, .i32⟩
  | 54 => ⟨S8192, .i32⟩
  | 55 => ⟨S8192, .i32⟩
  | 56 => ⟨S8192, .i32⟩
  | 57 => ⟨S8192x1, .i32⟩
  | 58 => ⟨S8192x1024, .f32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S8192, .i32⟩
  | 66 => ⟨S8192, .i32⟩
  | 67 => ⟨S_, .i32⟩
  | 68 => ⟨S8192, .i32⟩
  | 69 => ⟨S8192, .i1⟩
  | 70 => ⟨S_, .i32⟩
  | 71 => ⟨S8192, .i32⟩
  | 72 => ⟨S8192, .i1⟩
  | 73 => ⟨S_, .i32⟩
  | 74 => ⟨S_, .i1⟩
  | 75 => ⟨S8192, .i1⟩
  | 76 => ⟨S8192, .i1⟩
  | 77 => ⟨S8192, .i1⟩
  | 78 => ⟨S8192, .i32⟩
  | 79 => ⟨S8192, .i32⟩
  | 80 => ⟨S8192, .i32⟩
  | 81 => ⟨S_, .i32⟩
  | 82 => ⟨S8192, .i32⟩
  | 83 => ⟨S8192, .i1⟩
  | 84 => ⟨S_, .i32⟩
  | 85 => ⟨S8192, .i32⟩
  | 86 => ⟨S8192, .i32⟩
  | 87 => ⟨S8192x1, .i32⟩
  | 88 => ⟨S4, .i32⟩
  | 89 => ⟨S1x4, .i32⟩
  | 90 => ⟨S8192x4, .i32⟩
  | 91 => ⟨S8192x4, .i32⟩
  | 92 => ⟨S8192x4, .i32⟩
  | 93 => ⟨S_, .i32⟩
  | 94 => ⟨S8192x4, .i32⟩
  | 95 => ⟨S8192x4, .i32⟩
  | 96 => ⟨S8192x1, .i32⟩
  | 97 => ⟨S_, .i32⟩
  | 98 => ⟨S_, .i32⟩
  | 99 => ⟨S8192x4, .i32⟩
  | 100 => ⟨S8192x4, .i32⟩
  | 101 => ⟨S8192x4, .i32⟩
  | 102 => ⟨S_, .i32⟩
  | 103 => ⟨S8192x4, .i32⟩
  | 104 => ⟨S8192x4, .i1⟩
  | 105 => ⟨S8192x4, .i32⟩
  | 106 => ⟨S8192x4, .i32⟩
  | 107 => ⟨S_, .i32⟩
  | 108 => ⟨S8192x4, .i32⟩
  | 109 => ⟨S8192x4, .i1⟩
  | 110 => ⟨S8192x4, .i1⟩
  | 111 => ⟨S_, .i32⟩
  | 112 => ⟨S8192x4, .i32⟩
  | 113 => ⟨S8192x4, .i32⟩
  | 114 => ⟨S8192x4, .i32⟩
  | 115 => ⟨S_, .i32⟩
  | 116 => ⟨S8192x1, .i32⟩
  | 117 => ⟨S8192x1, .i1⟩
  | 118 => ⟨S_, .i32⟩
  | 119 => ⟨S8192x1, .i32⟩
  | 120 => ⟨S8192x1, .i32⟩
  | 121 => ⟨S8192x1, .i32⟩
  | 122 => ⟨S_, .i32⟩
  | 123 => ⟨S8192x4, .i32⟩
  | 124 => ⟨S8192x4, .i1⟩
  | 125 => ⟨S_, .i32⟩
  | 126 => ⟨S8192x4, .i32⟩
  | 127 => ⟨S8192x4, .i32⟩
  | _ => ⟨S8192x4096, .f32⟩

abbrev hbmTy0_1 (i : Nat) : BufTy := match i % 128 with
  | 0 => ⟨S8192x4, .i32⟩
  | 1 => ⟨S8192x4, .i32⟩
  | 2 => ⟨S8192x4x1, .i32⟩
  | 3 => ⟨S8192x4x1, .i32⟩
  | 4 => ⟨S8192x4x2, .i32⟩
  | 5 => ⟨S8192x4, .i32⟩
  | 6 => ⟨S_, .i32⟩
  | 7 => ⟨S8192x4, .i32⟩
  | 8 => ⟨S8192x4, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S8192x4, .i32⟩
  | 16 => ⟨S8192x4, .i32⟩
  | 17 => ⟨S_, .i32⟩
  | 18 => ⟨S8192x4, .i32⟩
  | 19 => ⟨S8192x4, .i1⟩
  | 20 => ⟨S_, .i32⟩
  | 21 => ⟨S8192x4, .i32⟩
  | 22 => ⟨S8192x4, .i1⟩
  | 23 => ⟨S_, .i32⟩
  | 24 => ⟨S_, .i1⟩
  | 25 => ⟨S8192x4, .i1⟩
  | 26 => ⟨S8192x4, .i1⟩
  | 27 => ⟨S8192x4, .i1⟩
  | 28 => ⟨S8192x4, .i32⟩
  | 29 => ⟨S8192x4, .i32⟩
  | 30 => ⟨S8192x4, .i32⟩
  | 31 => ⟨S8192x4, .i32⟩
  | 32 => ⟨S_, .i32⟩
  | 33 => ⟨S8192x4, .i32⟩
  | 34 => ⟨S8192x4, .i1⟩
  | 35 => ⟨S_, .i32⟩
  | 36 => ⟨S8192x4, .i32⟩
  | 37 => ⟨S8192x4, .i32⟩
  | 38 => ⟨S8192x4, .i32⟩
  | 39 => ⟨S8192x4x1, .i32⟩
  | 40 => ⟨S8192x4x1024, .f32⟩
  | 41 => ⟨S8192x4x512, .f32⟩
  | 42 => ⟨S8192x4x512, .f32⟩
  | 43 => ⟨S_, .f32⟩
  | 44 => ⟨S8192x512, .f32⟩
  | 45 => ⟨S_, .f32⟩
  | 46 => ⟨S8192x512, .f32⟩
  | 47 => ⟨S8192x512, .f32⟩
  | 48 => ⟨S8192x1x512, .f32⟩
  | 49 => ⟨S8192x4x512, .f32⟩
  | 50 => ⟨S8192x4x512, .f32⟩
  | 51 => ⟨S8192x4x512, .f32⟩
  | 52 => ⟨S_, .f32⟩
  | 53 => ⟨S8192x512, .f32⟩
  | 54 => ⟨S8192x1x512, .f32⟩
  | 55 => ⟨S8192x4x512, .f32⟩
  | 56 => ⟨S8192x4x512, .f32⟩
  | 57 => ⟨S8192x4x512, .f32⟩
  | 58 => ⟨S_, .f32⟩
  | 59 => ⟨S8192x512, .f32⟩
  | 60 => ⟨S_, .i32⟩
  | 61 => ⟨S_, .i32⟩
  | 62 => ⟨S8192, .i32⟩
  | 63 => ⟨S8192, .i32⟩
  | 64 => ⟨S8192, .i32⟩
  | 65 => ⟨S_, .i32⟩
  | 66 => ⟨S8192, .i32⟩
  | 67 => ⟨S8192, .i1⟩
  | 68 => ⟨S8192, .i32⟩
  | 69 => ⟨S8192, .i32⟩
  | 70 => ⟨S_, .i32⟩
  | 71 => ⟨S8192, .i32⟩
  | 72 => ⟨S8192, .i1⟩
  | 73 => ⟨S8192, .i1⟩
  | 74 => ⟨S_, .i32⟩
  | 75 => ⟨S8192, .i32⟩
  | 76 => ⟨S8192, .i32⟩
  | 77 => ⟨S8192, .i32⟩
  | 78 => ⟨S_, .i32⟩
  | 79 => ⟨S8192, .i32⟩
  | 80 => ⟨S8192, .i1⟩
  | 81 => ⟨S_, .i32⟩
  | 82 => ⟨S8192, .i32⟩
  | 83 => ⟨S8192, .i32⟩
  | 84 => ⟨S8192, .i32⟩
  | 85 => ⟨S8192x1, .i32⟩
  | 86 => ⟨S8192x256, .f32⟩
  | 87 => ⟨S1x256, .f32⟩
  | 88 => ⟨S8192x512, .f32⟩
  | 89 => ⟨S_, .i32⟩
  | 90 => ⟨S_, .i32⟩
  | 91 => ⟨S8192, .i32⟩
  | 92 => ⟨S8192, .i32⟩
  | 93 => ⟨S_, .f32⟩
  | 94 => ⟨S1x512, .f32⟩
  | 95 => ⟨S2049x512, .f32⟩
  | 96 => ⟨S_, .i32⟩
  | 97 => ⟨S8192, .i32⟩
  | 98 => ⟨S8192, .i1⟩
  | 99 => ⟨S_, .i32⟩
  | 100 => ⟨S8192, .i32⟩
  | 101 => ⟨S8192, .i32⟩
  | 102 => ⟨S8192, .i32⟩
  | 103 => ⟨S8192x1, .i32⟩
  | 104 => ⟨S2049x512, .f32⟩
  | 105 => ⟨S2048x512, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | .local _ .vmem, ⟨0, _⟩ => ⟨S256x4096, .f32⟩
  | .local _ .vmem, ⟨1, _⟩ => ⟨S256x4096, .f32⟩
  | .local _ .vmem, ⟨2, _⟩ => ⟨S1024x4096, .f32⟩
  | .local _ .vmem, ⟨3, _⟩ => ⟨S32x8, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1024x512, .f32⟩
  | .local _ .vmem, ⟨8, _⟩ => ⟨S1024x512, .f32⟩
  | .local _ .vmem, ⟨9, _⟩ => ⟨S1x256, .f32⟩
  | .local _ .vmem, ⟨10, _⟩ => ⟨S1024x256, .f32⟩
  | .local _ .vmem, ⟨11, _⟩ => ⟨S1024x256, .f32⟩
  | .local _ .vmem, ⟨12, _⟩ => ⟨S1024x512, .f32⟩
  | .local _ .vmem, ⟨13, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v4 : Ref sig .tc := ⟨.hbm, 38, rfl⟩
abbrev main_c_0 : Ref sig .tc := ⟨.hbm, 39, rfl⟩
abbrev main_v5 : Ref sig .tc := ⟨.hbm, 40, rfl⟩
abbrev main_v6 : Ref sig .tc := ⟨.hbm, 41, rfl⟩
abbrev main_c_1 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_c_2 : Ref sig .tc := ⟨.hbm, 50, rfl⟩
abbrev main_v14 : Ref sig .tc := ⟨.hbm, 51, rfl⟩
abbrev main_v15 : Ref sig .tc := ⟨.hbm, 52, rfl⟩
abbrev main_c_3 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_c_4 : Ref sig .tc := ⟨.hbm, 59, rfl⟩
abbrev main_call1_v0 : Ref sig .tc := ⟨.hbm, 60, rfl⟩
abbrev main_call1_c : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_c_1 : Ref sig .tc := ⟨.hbm, 67, rfl⟩
abbrev main_call1_v5 : Ref sig .tc := ⟨.hbm, 68, rfl⟩
abbrev main_call1_v6 : Ref sig .tc := ⟨.hbm, 69, rfl⟩
abbrev main_call1_c_2 : Ref sig .tc := ⟨.hbm, 70, rfl⟩
abbrev main_call1_v7 : Ref sig .tc := ⟨.hbm, 71, rfl⟩
abbrev main_call1_v8 : Ref sig .tc := ⟨.hbm, 72, rfl⟩
abbrev main_call1_c_3 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_v21 : Ref sig .tc := ⟨.hbm, 80, rfl⟩
abbrev main_c_5 : Ref sig .tc := ⟨.hbm, 81, rfl⟩
abbrev main_v22 : Ref sig .tc := ⟨.hbm, 82, rfl⟩
abbrev main_v23 : Ref sig .tc := ⟨.hbm, 83, rfl⟩
abbrev main_c_6 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_c_7 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_c_8 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_v7 : Ref sig .tc := ⟨.hbm, 105, rfl⟩
abbrev main_call2_v8 : Ref sig .tc := ⟨.hbm, 106, rfl⟩
abbrev main_call2_c : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_c_0 : Ref sig .tc := ⟨.hbm, 111, rfl⟩
abbrev main_call2_v12 : Ref sig .tc := ⟨.hbm, 112, rfl⟩
abbrev main_call2_v13 : Ref sig .tc := ⟨.hbm, 113, rfl⟩
abbrev main_v35 : Ref sig .tc := ⟨.hbm, 114, rfl⟩
abbrev main_c_9 : Ref sig .tc := ⟨.hbm, 115, rfl⟩
abbrev main_v36 : Ref sig .tc := ⟨.hbm, 116, rfl⟩
abbrev main_v37 : Ref sig .tc := ⟨.hbm, 117, rfl⟩
abbrev main_c_10 : Ref sig .tc := ⟨.hbm, 118, rfl⟩
abbrev main_v38 : Ref sig .tc := ⟨.hbm, 119, rfl⟩
abbrev main_v39 : Ref sig .tc := ⟨.hbm, 120, rfl⟩
abbrev main_v40 : Ref sig .tc := ⟨.hbm, 121, rfl⟩
abbrev main_c_11 : Ref sig .tc := ⟨.hbm, 122, rfl⟩
abbrev main_v41 : Ref sig .tc := ⟨.hbm, 123, rfl⟩
abbrev main_v42 : Ref sig .tc := ⟨.hbm, 124, rfl⟩
abbrev main_c_12 : Ref sig .tc := ⟨.hbm, 125, rfl⟩
abbrev main_v43 : Ref sig .tc := ⟨.hbm, 126, rfl⟩
abbrev main_v44 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_c_13 : Ref sig .tc := ⟨.hbm, 134, rfl⟩
abbrev main_v51 : Ref sig .tc := ⟨.hbm, 135, rfl⟩
abbrev main_v52 : Ref sig .tc := ⟨.hbm, 136, rfl⟩
abbrev main_c_14 : Ref sig .tc := ⟨.hbm, 137, rfl⟩
abbrev main_call3_v0 : Ref sig .tc := ⟨.hbm, 138, rfl⟩
abbrev main_call3_c : Ref sig .tc := ⟨.hbm, 139, rfl⟩
abbrev main_call3_v1 : Ref sig .tc := ⟨.hbm, 140, rfl⟩
abbrev main_call3_c_0 : Ref sig .tc := ⟨.hbm, 141, rfl⟩
abbrev main_call3_v2 : Ref sig .tc := ⟨.hbm, 142, rfl⟩
abbrev main_call3_v3 : Ref sig .tc := ⟨.hbm, 143, rfl⟩
abbrev main_call3_v4 : Ref sig .tc := ⟨.hbm, 144, rfl⟩
abbrev main_call3_c_1 : Ref sig .tc := ⟨.hbm, 145, rfl⟩
abbrev main_call3_v5 : Ref sig .tc := ⟨.hbm, 146, rfl⟩
abbrev main_call3_v6 : Ref sig .tc := ⟨.hbm, 147, rfl⟩
abbrev main_call3_c_2 : Ref sig .tc := ⟨.hbm, 148, rfl⟩
abbrev main_call3_v7 : Ref sig .tc := ⟨.hbm, 149, rfl⟩
abbrev main_call3_v8 : Ref sig .tc := ⟨.hbm, 150, rfl⟩
abbrev main_call3_c_3 : Ref sig .tc := ⟨.hbm, 151, rfl⟩
abbrev main_call3_v9 : Ref sig .tc := ⟨.hbm, 152, rfl⟩
abbrev main_call3_v10 : Ref sig .tc := ⟨.hbm, 153, rfl⟩
abbrev main_call3_v11 : Ref sig .tc := ⟨.hbm, 154, rfl⟩
abbrev main_call3_v12 : Ref sig .tc := ⟨.hbm, 155, rfl⟩
abbrev main_call3_v13 : Ref sig .tc := ⟨.hbm, 156, rfl⟩
abbrev main_call3_v14 : Ref sig .tc := ⟨.hbm, 157, rfl⟩
abbrev main_v53 : Ref sig .tc := ⟨.hbm, 158, rfl⟩
abbrev main_v54 : Ref sig .tc := ⟨.hbm, 159, rfl⟩
abbrev main_c_15 : Ref sig .tc := ⟨.hbm, 160, rfl⟩
abbrev main_v55 : Ref sig .tc := ⟨.hbm, 161, rfl⟩
abbrev main_v56 : Ref sig .tc := ⟨.hbm, 162, rfl⟩
abbrev main_c_16 : Ref sig .tc := ⟨.hbm, 163, rfl⟩
abbrev main_v57 : Ref sig .tc := ⟨.hbm, 164, rfl⟩
abbrev main_v58 : Ref sig .tc := ⟨.hbm, 165, rfl⟩
abbrev main_v59 : Ref sig .tc := ⟨.hbm, 166, rfl⟩
abbrev main_v60 : Ref sig .tc := ⟨.hbm, 167, rfl⟩
abbrev main_v61 : Ref sig .tc := ⟨.hbm, 168, rfl⟩
abbrev main_v62 : Ref sig .tc := ⟨.hbm, 169, rfl⟩
abbrev main_v63 : Ref sig .tc := ⟨.hbm, 170, rfl⟩
abbrev main_cst : Ref sig .tc := ⟨.hbm, 171, rfl⟩
abbrev main_v64 : Ref sig .tc := ⟨.hbm, 172, rfl⟩
abbrev main_cst_17 : Ref sig .tc := ⟨.hbm, 173, rfl⟩
abbrev main_v65 : Ref sig .tc := ⟨.hbm, 174, rfl⟩
abbrev main_v66 : Ref sig .tc := ⟨.hbm, 175, rfl⟩
abbrev main_v67 : Ref sig .tc := ⟨.hbm, 176, rfl⟩
abbrev main_v68 : Ref sig .tc := ⟨.hbm, 177, rfl⟩
abbrev main_v69 : Ref sig .tc := ⟨.hbm, 178, rfl⟩
abbrev main_v70 : Ref sig .tc := ⟨.hbm, 179, rfl⟩
abbrev main_cst_18 : Ref sig .tc := ⟨.hbm, 180, rfl⟩
abbrev main_v71 : Ref sig .tc := ⟨.hbm, 181, rfl⟩
abbrev main_v72 : Ref sig .tc := ⟨.hbm, 182, rfl⟩
abbrev main_v73 : Ref sig .tc := ⟨.hbm, 183, rfl⟩
abbrev main_v74 : Ref sig .tc := ⟨.hbm, 184, rfl⟩
abbrev main_v75 : Ref sig .tc := ⟨.hbm, 185, rfl⟩
abbrev main_cst_19 : Ref sig .tc := ⟨.hbm, 186, rfl⟩
abbrev main_v76 : Ref sig .tc := ⟨.hbm, 187, rfl⟩
abbrev main_c_20 : Ref sig .tc := ⟨.hbm, 188, rfl⟩
abbrev main_call4_v0 : Ref sig .tc := ⟨.hbm, 189, rfl⟩
abbrev main_call4_v1 : Ref sig .tc := ⟨.hbm, 190, rfl⟩
abbrev main_call4_v2 : Ref sig .tc := ⟨.hbm, 191, rfl⟩
abbrev main_call4_v3 : Ref sig .tc := ⟨.hbm, 192, rfl⟩
abbrev main_call4_v4 : Ref sig .tc := ⟨.hbm, 193, rfl⟩
abbrev main_call4_v5 : Ref sig .tc := ⟨.hbm, 194, rfl⟩
abbrev main_call4_v6 : Ref sig .tc := ⟨.hbm, 195, rfl⟩
abbrev main_call4_v7 : Ref sig .tc := ⟨.hbm, 196, rfl⟩
abbrev main_call4_v8 : Ref sig .tc := ⟨.hbm, 197, rfl⟩
abbrev main_call4_c : Ref sig .tc := ⟨.hbm, 198, rfl⟩
abbrev main_call4_v9 : Ref sig .tc := ⟨.hbm, 199, rfl⟩
abbrev main_call4_v10 : Ref sig .tc := ⟨.hbm, 200, rfl⟩
abbrev main_call4_v11 : Ref sig .tc := ⟨.hbm, 201, rfl⟩
abbrev main_call4_c_0 : Ref sig .tc := ⟨.hbm, 202, rfl⟩
abbrev main_call4_v12 : Ref sig .tc := ⟨.hbm, 203, rfl⟩
abbrev main_call4_v13 : Ref sig .tc := ⟨.hbm, 204, rfl⟩
abbrev main_v77 : Ref sig .tc := ⟨.hbm, 205, rfl⟩
abbrev main_c_21 : Ref sig .tc := ⟨.hbm, 206, rfl⟩
abbrev main_v78 : Ref sig .tc := ⟨.hbm, 207, rfl⟩
abbrev main_v79 : Ref sig .tc := ⟨.hbm, 208, rfl⟩
abbrev main_c_22 : Ref sig .tc := ⟨.hbm, 209, rfl⟩
abbrev main_v80 : Ref sig .tc := ⟨.hbm, 210, rfl⟩
abbrev main_v81 : Ref sig .tc := ⟨.hbm, 211, rfl⟩
abbrev main_v82 : Ref sig .tc := ⟨.hbm, 212, rfl⟩
abbrev main_v83 : Ref sig .tc := ⟨.hbm, 213, rfl⟩
abbrev main_v84 : Ref sig .tc := ⟨.hbm, 214, rfl⟩
abbrev main_v85 : Ref sig .tc := ⟨.hbm, 215, rfl⟩
abbrev main_v86 : Ref sig .tc := ⟨.hbm, 216, rfl⟩
abbrev main_c_23 : Ref sig .tc := ⟨.hbm, 217, rfl⟩
abbrev main_call5_v0 : Ref sig .tc := ⟨.hbm, 218, rfl⟩
abbrev main_call5_v1 : Ref sig .tc := ⟨.hbm, 219, rfl⟩
abbrev main_v87 : Ref sig .tc := ⟨.hbm, 220, rfl⟩
abbrev main_cst_24 : Ref sig .tc := ⟨.hbm, 221, rfl⟩
abbrev main_v88 : Ref sig .tc := ⟨.hbm, 222, rfl⟩
abbrev main_v89 : Ref sig .tc := ⟨.hbm, 223, rfl⟩
abbrev main_c_25 : Ref sig .tc := ⟨.hbm, 224, rfl⟩
abbrev main_v90 : Ref sig .tc := ⟨.hbm, 225, rfl⟩
abbrev main_v91 : Ref sig .tc := ⟨.hbm, 226, rfl⟩
abbrev main_c_26 : Ref sig .tc := ⟨.hbm, 227, rfl⟩
abbrev main_v92 : Ref sig .tc := ⟨.hbm, 228, rfl⟩
abbrev main_v93 : Ref sig .tc := ⟨.hbm, 229, rfl⟩
abbrev main_v94 : Ref sig .tc := ⟨.hbm, 230, rfl⟩
abbrev main_v95 : Ref sig .tc := ⟨.hbm, 231, rfl⟩
abbrev main_v96 : Ref sig .tc := ⟨.hbm, 232, rfl⟩
abbrev main_v97 : Ref sig .tc := ⟨.hbm, 233, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S8x32_S32x8_1_0 : S8x32.Transposes [1, 0] S32x8
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x512_0_0 : ∀ a, (![0, 0] : Fin 2 → Nat) a + S1024x512.size a ≤ S1024x4096.size a
  h_S1024x512 : 0 < S1024x512.numel
  inb_S32x8_S4x8_0_0 : ∀ a, (![0, 0] : Fin 2 → Nat) a + S4x8.size a ≤ S32x8.size a
  h_S4x8 : 0 < S4x8.numel
  shapeCasts_S4x8_S4x8 : S4x8.ShapeCasts S4x8
  transposes_S4x8_p1_0_S8x4 : S4x8.Transposes [1, 0] S8x4
  shapeCasts_S8x4_S8x1x4x1 : S8x4.ShapeCasts S8x1x4x1
  shapeCasts_S8x1x4x1_S8x1x4x1 : S8x1x4x1.ShapeCasts S8x1x4x1
  broadcasts_S8x1x4x1_S8x128x4x128 : S8x1x4x1.Broadcasts S8x128x4x128
  shapeCasts_S8x128x4x128_S1024x512 : S8x128x4x128.ShapeCasts S1024x512
  bitsLt_bf16_f32 : FTy.bits .bf16 < FTy.bits .f32
  inb_S256x4096_S256x512_0_0 : ∀ a, (![0, 0] : Fin 2 → Nat) a + S256x512.size a ≤ S256x4096.size a
  h_S256x512 : 0 < S256x512.numel
  transposes_S1024x512_p1_0_S512x1024 : S1024x512.Transposes [1, 0] S512x1024
  inb_S1024x4096_S1024x512_0_512 : ∀ a, (![0, 512] : Fin 2 → Nat) a + S1024x512.size a ≤ S1024x4096.size a
  inb_S32x8_S4x8_4_0 : ∀ a, (![4, 0] : Fin 2 → Nat) a + S4x8.size a ≤ S32x8.size a
  inb_S256x4096_S256x512_0_512 : ∀ a, (![0, 512] : Fin 2 → Nat) a + S256x512.size a ≤ S256x4096.size a
  inb_S1024x4096_S1024x512_0_1024 : ∀ a, (![0, 1024] : Fin 2 → Nat) a + S1024x512.size a ≤ S1024x4096.size a
  inb_S32x8_S4x8_8_0 : ∀ a, (![8, 0] : Fin 2 → Nat) a + S4x8.size a ≤ S32x8.size a
  inb_S256x4096_S256x512_0_1024 : ∀ a, (![0, 1024] : Fin 2 → Nat) a + S256x512.size a ≤ S256x4096.size a
  inb_S1024x4096_S1024x512_0_1536 : ∀ a, (![0, 1536] : Fin 2 → Nat) a + S1024x512.size a ≤ S1024x4096.size a
  inb_S32x8_S4x8_12_0 : ∀ a, (![12, 0] : Fin 2 → Nat) a + S4x8.size a ≤ S32x8.size a
  inb_S256x4096_S256x512_0_1536 : ∀ a, (![0, 1536] : Fin 2 → Nat) a + S256x512.size a ≤ S256x4096.size a
  inb_S1024x4096_S1024x512_0_2048 : ∀ a, (![0, 2048] : Fin 2 → Nat) a + S1024x512.size a ≤ S1024x4096.size a
  inb_S32x8_S4x8_16_0 : ∀ a, (![16, 0] : Fin 2 → Nat) a + S4x8.size a ≤ S32x8.size a
  inb_S256x4096_S256x512_0_2048 : ∀ a, (![0, 2048] : Fin 2 → Nat) a + S256x512.size a ≤ S256x4096.size a
  inb_S1024x4096_S1024x512_0_2560 : ∀ a, (![0, 2560] : Fin 2 → Nat) a + S1024x512.size a ≤ S1024x4096.size a
  inb_S32x8_S4x8_20_0 : ∀ a, (![20, 0] : Fin 2 → Nat) a + S4x8.size a ≤ S32x8.size a
  inb_S256x4096_S256x512_0_2560 : ∀ a, (![0, 2560] : Fin 2 → Nat) a + S256x512.size a ≤ S256x4096.size a
  inb_S1024x4096_S1024x512_0_3072 : ∀ a, (![0, 3072] : Fin 2 → Nat) a + S1024x512.size a ≤ S1024x4096.size a
  inb_S32x8_S4x8_24_0 : ∀ a, (![24, 0] : Fin 2 → Nat) a + S4x8.size a ≤ S32x8.size a
  inb_S256x4096_S256x512_0_3072 : ∀ a, (![0, 3072] : Fin 2 → Nat) a + S256x512.size a ≤ S256x4096.size a
  inb_S1024x4096_S1024x512_0_3584 : ∀ a, (![0, 3584] : Fin 2 → Nat) a + S1024x512.size a ≤ S1024x4096.size a
  inb_S32x8_S4x8_28_0 : ∀ a, (![28, 0] : Fin 2 → Nat) a + S4x8.size a ≤ S32x8.size a
  inb_S256x4096_S256x512_0_3584 : ∀ a, (![0, 3584] : Fin 2 → Nat) a + S256x512.size a ≤ S256x4096.size a
  slices_S8192x1024_S8192x512_0_0 : S8192x1024.Slices ![0, 0] S8192x512
  slices_S8192x1024_S8192x512_0_512 : S8192x1024.Slices ![0, 512] S8192x512
  bcast_S_S8192 : S_.BroadcastsInDim S8192 (![] : Fin 0 → Fin S8192.rank)
  bcast_S8192_S8192x1_0 : S8192.BroadcastsInDim S8192x1 (![0] : Fin 1 → Fin S8192x1.rank)
  concatenates_S8192x512_S8192x512_S8192x1024_d1 : Shape.Concatenates [S8192x512, S8192x512] S8192x1024 1
  bcast_S4_S1x4_1 : S4.BroadcastsInDim S1x4 (![1] : Fin 1 → Fin S1x4.rank)
  bcast_S8192x1_S8192x4_0_1 : S8192x1.BroadcastsInDim S8192x4 (![0, 1] : Fin 2 → Fin S8192x4.rank)
  bcast_S1x4_S8192x4_0_1 : S1x4.BroadcastsInDim S8192x4 (![0, 1] : Fin 2 → Fin S8192x4.rank)
  bcast_S_S8192x4 : S_.BroadcastsInDim S8192x4 (![] : Fin 0 → Fin S8192x4.rank)
  bcast_S_S8192x1 : S_.BroadcastsInDim S8192x1 (![] : Fin 0 → Fin S8192x1.rank)
  bcast_S8192x4_S8192x4x1_0_1 : S8192x4.BroadcastsInDim S8192x4x1 (![0, 1] : Fin 2 → Fin S8192x4x1.rank)
  concatenates_S8192x4x1_S8192x4x1_S8192x4x2_d2 : Shape.Concatenates [S8192x4x1, S8192x4x1] S8192x4x2 2
  slices_S8192x4x1024_S8192x4x512_0_0_0 : S8192x4x1024.Slices ![0, 0, 0] S8192x4x512
  slices_S8192x4x1024_S8192x4x512_0_0_512 : S8192x4x1024.Slices ![0, 0, 512] S8192x4x512
  reducesTo_S8192x4x512_S8192x512_d1 : S8192x4x512.ReducesTo [1] S8192x512
  h_S_ : 0 < S_.numel
  bcast_S_S8192x512 : S_.BroadcastsInDim S8192x512 (![] : Fin 0 → Fin S8192x512.rank)
  bcast_S8192x512_S8192x1x512_0_2 : S8192x512.BroadcastsInDim S8192x1x512 (![0, 2] : Fin 2 → Fin S8192x1x512.rank)
  bcast_S8192x1x512_S8192x4x512_0_1_2 : S8192x1x512.BroadcastsInDim S8192x4x512 (![0, 1, 2] : Fin 3 → Fin S8192x4x512.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  slices_S1024x256_o0_0_S1024x128 : S1024x256.Slices ![0, 0] S1024x128
  slices_S1024x256_o0_128_S1024x128 : S1024x256.Slices ![0, 128] S1024x128
  inb_S1024x512_S1024x256_0_0 : ∀ a, (![0, 0] : Fin 2 → Nat) a + S1024x256.size a ≤ S1024x512.size a
  inb_S1024x512_S1024x256_0_256 : ∀ a, (![0, 256] : Fin 2 → Nat) a + S1024x256.size a ≤ S1024x512.size a
  reduces_S1024x256_S1024 : S1024x256.Reduces [1] S1024
  shapeCasts_S1024_S1024x1 : S1024.ShapeCasts S1024x1
  broadcasts_S1024x1_S1024x256 : S1024x1.Broadcasts S1024x256
  broadcasts_S1x256_S1024x256 : S1x256.Broadcasts S1024x256
  inb_S1024x512_S1024x128_0_0 : ∀ a, (![0, 0] : Fin 2 → Nat) a + S1024x128.size a ≤ S1024x512.size a
  h_S1024x128 : 0 < S1024x128.numel
  inb_S1024x512_S1024x128_0_128 : ∀ a, (![0, 128] : Fin 2 → Nat) a + S1024x128.size a ≤ S1024x512.size a
  inb_S1024x512_S1024x128_0_256 : ∀ a, (![0, 256] : Fin 2 → Nat) a + S1024x128.size a ≤ S1024x512.size a
  inb_S1024x512_S1024x128_0_384 : ∀ a, (![0, 384] : Fin 2 → Nat) a + S1024x128.size a ≤ S1024x512.size a
  bcast_S_S1x512 : S_.BroadcastsInDim S1x512 (![] : Fin 0 → Fin S1x512.rank)
  concatenates_S2048x512_S1x512_S2049x512_d0 : Shape.Concatenates [S2048x512, S1x512] S2049x512 0
  slices_S2049x512_S2048x512_0_0 : S2049x512.Slices ![0, 0] S2048x512
  dot_S256x512_S512x1024_S256x1024_1_0_0_1_n_n_wf : DotDims.WF S256x512 S512x1024 S256x1024 [1] [0] [0] [1] [] []
  gather_S4x512_S8192x1_S8192x512_1_0_n_n_0_1_1512_wf : GatherDims.WF S4x512 S8192x1 S8192x512 [1] [0] [] [0] [] 1 ![1, 512]
  scatter_S8192x1024_S8192x1_S8192x1024_1_0_0_1_wf : ScatterDims.WF S8192x1024 S8192x1 S8192x1024 [1] [0] [0] 1
  gather_S4x32_S8192x4x2_S8192x4_n_01_n_n_01_2_11_wf : GatherDims.WF S4x32 S8192x4x2 S8192x4 [] [0, 1] [] [0, 1] [] 2 ![1, 1]
  gather_S8192x1024_S8192x4x1_S8192x4x1024_2_0_n_n_0_2_11024_wf : GatherDims.WF S8192x1024 S8192x4x1 S8192x4x1024 [2] [0] [] [0] [] 2 ![1, 1024]
  gather_S512x256_S8192x1_S8192x256_1_0_n_n_0_1_1256_wf : GatherDims.WF S512x256 S8192x1 S8192x256 [1] [0] [] [0] [] 1 ![1, 256]
  scatter_S2049x512_S8192x1_S8192x512_1_0_0_1_wf : ScatterDims.WF S2049x512 S8192x1 S8192x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .f32 = 32 ∨ (Rect.block (s := S1024x4096) S1024x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x8.size a ≤ S32x8.size a
  hwx0_2 : ∀ i : grid0.Coords, EltTy.bits .f32 = 32 ∨ (Rect.block (s := S32x8) S32x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x1024.size a
  hwx0_3 : ∀ i : grid0.Coords, EltTy.bits .f32 = 32 ∨ (Rect.block (s := S8192x1024) S256x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x512.size a
  hwx1_3 : ∀ i : grid1.Coords, EltTy.bits .f32 = 32 ∨ (Rect.block (s := S8192x512) S1024x512.size (cc1_transform_3 i) (hinb1_3 i)).WholeWords (EltTy.packing .f32)

variable [Facts₀]

def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def gather_S4x512_S8192x1_S8192x512_1_0_n_n_0_1_1512 : GatherDims S4x512 S8192x1 S8192x512 where
  offsetDims := [1]
  collapsedSliceDims := [0]
  operandBatchingDims := []
  startIndicesBatchingDims := []
  startIndexMap := [0]
  indexVectorDim := 1
  sliceSizes := ![1, 512]
  wf := gather_S4x512_S8192x1_S8192x512_1_0_n_n_0_1_1512_wf
def scatter_S8192x1024_S8192x1_S8192x1024_1_0_0_1 : ScatterDims S8192x1024 S8192x1 S8192x1024 where
  updateWindowDims := [1]
  insertedWindowDims := [0]
  scatterDimsToOperandDims := [0]
  indexVectorDim := 1
  wf := scatter_S8192x1024_S8192x1_S8192x1024_1_0_0_1_wf
def gather_S4x32_S8192x4x2_S8192x4_n_01_n_n_01_2_11 : GatherDims S4x32 S8192x4x2 S8192x4 where
  offsetDims := []
  collapsedSliceDims := [0, 1]
  operandBatchingDims := []
  startIndicesBatchingDims := []
  startIndexMap := [0, 1]
  indexVectorDim := 2
  sliceSizes := ![1, 1]
  wf := gather_S4x32_S8192x4x2_S8192x4_n_01_n_n_01_2_11_wf
def gather_S8192x1024_S8192x4x1_S8192x4x1024_2_0_n_n_0_2_11024 : GatherDims S8192x1024 S8192x4x1 S8192x4x1024 where
  offsetDims := [2]
  collapsedSliceDims := [0]
  operandBatchingDims := []
  startIndicesBatchingDims := []
  startIndexMap := [0]
  indexVectorDim := 2
  sliceSizes := ![1, 1024]
  wf := gather_S8192x1024_S8192x4x1_S8192x4x1024_2_0_n_n_0_2_11024_wf
def gather_S512x256_S8192x1_S8192x256_1_0_n_n_0_1_1256 : GatherDims S512x256 S8192x1 S8192x256 where
  offsetDims := [1]
  collapsedSliceDims := [0]
  operandBatchingDims := []
  startIndicesBatchingDims := []
  startIndexMap := [0]
  indexVectorDim := 1
  sliceSizes := ![1, 256]
  wf := gather_S512x256_S8192x1_S8192x256_1_0_n_n_0_1_1256_wf
def scatter_S2049x512_S8192x1_S8192x512_1_0_0_1 : ScatterDims S2049x512 S8192x1 S8192x512 where
  updateWindowDims := [1]
  insertedWindowDims := [0]
  scatterDimsToOperandDims := [0]
  indexVectorDim := 1
  wf := scatter_S2049x512_S8192x1_S8192x512_1_0_0_1_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v76) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v85) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v84) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v86) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S1024x4096 : Shape := ⟨2, ![1024, 4096]⟩
abbrev S8x32 : Shape := ⟨2, ![8, 32]⟩
abbrev S4x512 : Shape := ⟨2, ![4, 512]⟩
abbrev S256 : Shape := ⟨1, ![256]⟩
abbrev S512x256 : Shape := ⟨2, ![512, 256]⟩
abbrev S8192x1024 : Shape := ⟨2, ![8192, 1024]⟩
abbrev S2048x512 : Shape := ⟨2, ![2048, 512]⟩
abbrev S8192 : Shape := ⟨1, ![8192]⟩
abbrev S4x32 : Shape := ⟨2, ![4, 32]⟩
abbrev S8x128x32 : Shape := ⟨3, ![8, 128, 32]⟩
abbrev S1024x32 : Shape := ⟨2, ![1024, 32]⟩
abbrev S1024x32x128 : Shape := ⟨3, ![1024, 32, 128]⟩
abbrev S4096x1024 : Shape := ⟨2, ![4096, 1024]⟩
abbrev S8192x512 : Shape := ⟨2, ![8192, 512]⟩
abbrev S_ : Shape := ⟨0, ![]⟩
abbrev S8192x1 : Shape := ⟨2, ![8192, 1]⟩
abbrev S4 : Shape := ⟨1, ![4]⟩
abbrev S1x4 : Shape := ⟨2, ![1, 4]⟩
abbrev S8192x4 : Shape := ⟨2, ![8192, 4]⟩
abbrev S8192x4x1 : Shape := ⟨3, ![8192, 4, 1]⟩
abbrev S8192x4x2 : Shape := ⟨3, ![8192, 4, 2]⟩
abbrev S8192x4x1024 : Shape := ⟨3, ![8192, 4, 1024]⟩
abbrev S8192x4x512 : Shape := ⟨3, ![8192, 4, 512]⟩
abbrev S8192x1x512 : Shape := ⟨3, ![8192, 1, 512]⟩
abbrev S8192x2x256 : Shape := ⟨3, ![8192, 2, 256]⟩
abbrev S8192x2 : Shape := ⟨2, ![8192, 2]⟩
abbrev S8192x2x1 : Shape := ⟨3, ![8192, 2, 1]⟩
abbrev S1x1x256 : Shape := ⟨3, ![1, 1, 256]⟩
abbrev S8192x256 : Shape := ⟨2, ![8192, 256]⟩
abbrev S8192x128 : Shape := ⟨2, ![8192, 128]⟩
abbrev S8192x1x128 : Shape := ⟨3, ![8192, 1, 128]⟩
abbrev S8192x2x128 : Shape := ⟨3, ![8192, 2, 128]⟩
abbrev S1x512 : Shape := ⟨2, ![1, 512]⟩
abbrev S2049x512 : Shape := ⟨2, ![2049, 512]⟩

abbrev nBuf : Space → Nat
  | .hbm => 272
  | .vmem => 0
  | .smem => 0
  | _ => 0

abbrev hbmTy0_0 (i : Nat) : BufTy := match i % 128 with
  | 0 => ⟨S8192x4096, .f32⟩
  | 1 => ⟨S1024x4096, .f32⟩
  | 2 => ⟨S8x32, .f32⟩
  | 3 => ⟨S4x512, .f32⟩
  | 4 => ⟨S256, .f32⟩
  | 5 => ⟨S512x256, .f32⟩
  | 6 => ⟨S8192x1024, .f32⟩
  | 7 => ⟨S2048x512, .f32⟩
  | 8 => ⟨S8192, .i32⟩
  | 9 => ⟨S8192, .i32⟩
  | 10 => ⟨S8192, .i32⟩
  | 11 => ⟨S4x32, .i32⟩
  | 12 => ⟨S8192, .i32⟩
  | 13 => ⟨S8x128x32, .f32⟩
  | 14 => ⟨S1024x32, .f32⟩
  | 15 => ⟨S1024x32x128, .f32⟩
  | 16 => ⟨S1024x4096, .f32⟩
  | 17 => ⟨S1024x4096, .f32⟩
  | 18 => ⟨S4096x1024, .f32⟩
  | 19 => ⟨S8192x1024, .f32⟩
  | 20 => ⟨S8192x512, .f32⟩
  | 21 => ⟨S8192x512, .f32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S8192, .i32⟩
  | 29 => ⟨S8192, .i32⟩
  | 30 => ⟨S_, .i32⟩
  | 31 => ⟨S8192, .i32⟩
  | 32 => ⟨S8192, .i1⟩
  | 33 => ⟨S_, .i32⟩
  | 34 => ⟨S8192, .i32⟩
  | 35 => ⟨S8192, .i1⟩
  | 36 => ⟨S_, .i32⟩
  | 37 => ⟨S_, .i1⟩
  | 38 => ⟨S8192, .i1⟩
  | 39 => ⟨S8192, .i1⟩
  | 40 => ⟨S8192, .i1⟩
  | 41 => ⟨S8192, .i32⟩
  | 42 => ⟨S8192, .i32⟩
  | 43 => ⟨S8192, .i32⟩
  | 44 => ⟨S_, .i32⟩
  | 45 => ⟨S8192, .i32⟩
  | 46 => ⟨S8192, .i1⟩
  | 47 => ⟨S_, .i32⟩
  | 48 => ⟨S8192, .i32⟩
  | 49 => ⟨S8192, .i32⟩
  | 50 => ⟨S8192, .i32⟩
  | 51 => ⟨S8192x1, .i32⟩
  | 52 => ⟨S8192x512, .f32⟩
  | 53 => ⟨S8192x512, .f32⟩
  | 54 => ⟨S8192x1024, .f32⟩
  | 55 => ⟨S_, .i32⟩
  | 56 => ⟨S8192, .i32⟩
  | 57 => ⟨S8192, .i1⟩
  | 58 => ⟨S_, .i32⟩
  | 59 => ⟨S8192, .i32⟩
  | 60 => ⟨S8192, .i32⟩
  | 61 => ⟨S8192, .i32⟩
  | 62 => ⟨S8192x1, .i32⟩
  | 63 => ⟨S8192x1024, .f32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S8192, .i32⟩
  | 71 => ⟨S8192, .i32⟩
  | 72 => ⟨S_, .i32⟩
  | 73 => ⟨S8192, .i32⟩
  | 74 => ⟨S8192, .i1⟩
  | 75 => ⟨S_, .i32⟩
  | 76 => ⟨S8192, .i32⟩
  | 77 => ⟨S8192, .i1⟩
  | 78 => ⟨S_, .i32⟩
  | 79 => ⟨S_, .i1⟩
  | 80 => ⟨S8192, .i1⟩
  | 81 => ⟨S8192, .i1⟩
  | 82 => ⟨S8192, .i1⟩
  | 83 => ⟨S8192, .i32⟩
  | 84 => ⟨S8192, .i32⟩
  | 85 => ⟨S8192, .i32⟩
  | 86 => ⟨S_, .i32⟩
  | 87 => ⟨S8192, .i32⟩
  | 88 => ⟨S8192, .i1⟩
  | 89 => ⟨S_, .i32⟩
  | 90 => ⟨S8192, .i32⟩
  | 91 => ⟨S8192, .i32⟩
  | 92 => ⟨S8192x1, .i32⟩
  | 93 => ⟨S4, .i32⟩
  | 94 => ⟨S1x4, .i32⟩
  | 95 => ⟨S8192x4, .i32⟩
  | 96 => ⟨S8192x4, .i32⟩
  | 97 => ⟨S8192x4, .i32⟩
  | 98 => ⟨S_, .i32⟩
  | 99 => ⟨S8192x4, .i32⟩
  | 100 => ⟨S8192x4, .i32⟩
  | 101 => ⟨S8192x1, .i32⟩
  | 102 => ⟨S_, .i32⟩
  | 103 => ⟨S_, .i32⟩
  | 104 => ⟨S8192x4, .i32⟩
  | 105 => ⟨S8192x4, .i32⟩
  | 106 => ⟨S8192x4, .i32⟩
  | 107 => ⟨S_, .i32⟩
  | 108 => ⟨S8192x4, .i32⟩
  | 109 => ⟨S8192x4, .i1⟩
  | 110 => ⟨S8192x4, .i32⟩
  | 111 => ⟨S8192x4, .i32⟩
  | 112 => ⟨S_, .i32⟩
  | 113 => ⟨S8192x4, .i32⟩
  | 114 => ⟨S8192x4, .i1⟩
  | 115 => ⟨S8192x4, .i1⟩
  | 116 => ⟨S_, .i32⟩
  | 117 => ⟨S8192x4, .i32⟩
  | 118 => ⟨S8192x4, .i32⟩
  | 119 => ⟨S8192x4, .i32⟩
  | 120 => ⟨S_, .i32⟩
  | 121 => ⟨S8192x1, .i32⟩
  | 122 => ⟨S8192x1, .i1⟩
  | 123 => ⟨S_, .i32⟩
  | 124 => ⟨S8192x1, .i32⟩
  | 125 => ⟨S8192x1, .i32⟩
  | 126 => ⟨S8192x1, .i32⟩
  | 127 => ⟨S_, .i32⟩
  | _ => ⟨S8192x4096, .f32⟩

abbrev hbmTy0_1 (i : Nat) : BufTy := match i % 128 with
  | 0 => ⟨S8192x4, .i32⟩
  | 1 => ⟨S8192x4, .i1⟩
  | 2 => ⟨S_, .i32⟩
  | 3 => ⟨S8192x4, .i32⟩
  | 4 => ⟨S8192x4, .i32⟩
  | 5 => ⟨S8192x4, .i32⟩
  | 6 => ⟨S8192x4, .i32⟩
  | 7 => ⟨S8192x4x1, .i32⟩
  | 8 => ⟨S8192x4x1, .i32⟩
  | 9 => ⟨S8192x4x2, .i32⟩
  | 10 => ⟨S8192x4, .i32⟩
  | 11 => ⟨S_, .i32⟩
  | 12 => ⟨S8192x4, .i32⟩
  | 13 => ⟨S8192x4, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S8192x4, .i32⟩
  | 21 => ⟨S8192x4, .i32⟩
  | 22 => ⟨S_, .i32⟩
  | 23 => ⟨S8192x4, .i32⟩
  | 24 => ⟨S8192x4, .i1⟩
  | 25 => ⟨S_, .i32⟩
  | 26 => ⟨S8192x4, .i32⟩
  | 27 => ⟨S8192x4, .i1⟩
  | 28 => ⟨S_, .i32⟩
  | 29 => ⟨S_, .i1⟩
  | 30 => ⟨S8192x4, .i1⟩
  | 31 => ⟨S8192x4, .i1⟩
  | 32 => ⟨S8192x4, .i1⟩
  | 33 => ⟨S8192x4, .i32⟩
  | 34 => ⟨S8192x4, .i32⟩
  | 35 => ⟨S8192x4, .i32⟩
  | 36 => ⟨S8192x4, .i32⟩
  | 37 => ⟨S_, .i32⟩
  | 38 => ⟨S8192x4, .i32⟩
  | 39 => ⟨S8192x4, .i1⟩
  | 40 => ⟨S_, .i32⟩
  | 41 => ⟨S8192x4, .i32⟩
  | 42 => ⟨S8192x4, .i32⟩
  | 43 => ⟨S8192x4, .i32⟩
  | 44 => ⟨S8192x4x1, .i32⟩
  | 45 => ⟨S8192x4x1024, .f32⟩
  | 46 => ⟨S8192x4x512, .f32⟩
  | 47 => ⟨S8192x4x512, .f32⟩
  | 48 => ⟨S_, .f32⟩
  | 49 => ⟨S8192x512, .f32⟩
  | 50 => ⟨S_, .f32⟩
  | 51 => ⟨S8192x512, .f32⟩
  | 52 => ⟨S8192x512, .f32⟩
  | 53 => ⟨S8192x1x512, .f32⟩
  | 54 => ⟨S8192x4x512, .f32⟩
  | 55 => ⟨S8192x4x512, .f32⟩
  | 56 => ⟨S8192x4x512, .f32⟩
  | 57 => ⟨S_, .f32⟩
  | 58 => ⟨S8192x512, .f32⟩
  | 59 => ⟨S8192x1x512, .f32⟩
  | 60 => ⟨S8192x4x512, .f32⟩
  | 61 => ⟨S8192x4x512, .f32⟩
  | 62 => ⟨S8192x4x512, .f32⟩
  | 63 => ⟨S_, .f32⟩
  | 64 => ⟨S8192x512, .f32⟩
  | 65 => ⟨S8192x2x256, .f32⟩
  | 66 => ⟨S8192x2x256, .f32⟩
  | 67 => ⟨S_, .f32⟩
  | 68 => ⟨S8192x2, .f32⟩
  | 69 => ⟨S8192x2x1, .f32⟩
  | 70 => ⟨S_, .f32⟩
  | 71 => ⟨S8192x2x1, .f32⟩
  | 72 => ⟨S8192x2x1, .f32⟩
  | 73 => ⟨S_, .f32⟩
  | 74 => ⟨S8192x2x1, .f32⟩
  | 75 => ⟨S8192x2x1, .f32⟩
  | 76 => ⟨S8192x2x1, .f32⟩
  | 77 => ⟨S8192x2x256, .f32⟩
  | 78 => ⟨S8192x2x256, .f32⟩
  | 79 => ⟨S1x1x256, .f32⟩
  | 80 => ⟨S8192x2x256, .f32⟩
  | 81 => ⟨S8192x2x256, .f32⟩
  | 82 => ⟨S_, .i32⟩
  | 83 => ⟨S_, .i32⟩
  | 84 => ⟨S8192, .i32⟩
  | 85 => ⟨S8192, .i32⟩
  | 86 => ⟨S8192, .i32⟩
  | 87 => ⟨S_, .i32⟩
  | 88 => ⟨S8192, .i32⟩
  | 89 => ⟨S8192, .i1⟩
  | 90 => ⟨S8192, .i32⟩
  | 91 => ⟨S8192, .i32⟩
  | 92 => ⟨S_, .i32⟩
  | 93 => ⟨S8192, .i32⟩
  | 94 => ⟨S8192, .i1⟩
  | 95 => ⟨S8192, .i1⟩
  | 96 => ⟨S_, .i32⟩
  | 97 => ⟨S8192, .i32⟩
  | 98 => ⟨S8192, .i32⟩
  | 99 => ⟨S8192, .i32⟩
  | 100 => ⟨S_, .i32⟩
  | 101 => ⟨S8192, .i32⟩
  | 102 => ⟨S8192, .i1⟩
  | 103 => ⟨S_, .i32⟩
  | 104 => ⟨S8192, .i32⟩
  | 105 => ⟨S8192, .i32⟩
  | 106 => ⟨S8192, .i32⟩
  | 107 => ⟨S8192x1, .i32⟩
  | 108 => ⟨S8192x256, .f32⟩
  | 109 => ⟨S8192x128, .f32⟩
  | 110 => ⟨S8192x1x128, .f32⟩
  | 111 => ⟨S8192x128, .f32⟩
  | 112 => ⟨S8192x1x128, .f32⟩
  | 113 => ⟨S8192x2x128, .f32⟩
  | 114 => ⟨S8192x2x128, .f32⟩
  | 115 => ⟨S8192x2x128, .f32⟩
  | 116 => ⟨S8192x2x128, .f32⟩
  | 117 => ⟨S8192x2x128, .f32⟩
  | 118 => ⟨S8192x2x128, .f32⟩
  | 119 => ⟨S8192x2x128, .f32⟩
  | 120 => ⟨S8192x2x128, .f32⟩
  | 121 => ⟨S8192x2x128, .f32⟩
  | 122 => ⟨S8192x2x128, .f32⟩
  | 123 => ⟨S8192x2x128, .f32⟩
  | 124 => ⟨S8192x2x128, .f32⟩
  | 125 => ⟨S8192x2x256, .f32⟩
  | 126 => ⟨S8192x512, .f32⟩
  | 127 => ⟨S_, .i32⟩
  | _ => ⟨S8192x4096, .f32⟩

abbrev hbmTy0_2 (i : Nat) : BufTy := match i % 128 with
  | 0 => ⟨S_, .i32⟩
  | 1 => ⟨S8192, .i32⟩
  | 2 => ⟨S8192, .i32⟩
  | 3 => ⟨S_, .f32⟩
  | 4 => ⟨S1x512, .f32⟩
  | 5 => ⟨S2049x512, .f32⟩
  | 6 => ⟨S_, .i32⟩
  | 7 => ⟨S8192, .i32⟩
  | 8 => ⟨S8192, .i1⟩
  | 9 => ⟨S_, .i32⟩
  | 10 => ⟨S8192, .i32⟩
  | 11 => ⟨S8192, .i32⟩
  | 12 => ⟨S8192, .i32⟩
  | 13 => ⟨S8192x1, .i32⟩
  | 14 => ⟨S2049x512, .f32⟩
  | 15 => ⟨S2048x512, .f32⟩
  | _ => ⟨S8192x4096, .f32⟩

abbrev hbmTy (i : Nat) : BufTy := match i / 128 with
  | 0 => hbmTy0_0 i
  | 1 => hbmTy0_1 i
  | 2 => hbmTy0_2 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_1 : Ref sig .tc := ⟨.hbm, 30, rfl⟩
abbrev main_call0_v5 : Ref sig .tc := ⟨.hbm, 31, rfl⟩
abbrev main_call0_v6 : Ref sig .tc := ⟨.hbm, 32, rfl⟩
abbrev main_call0_c_2 : Ref sig .tc := ⟨.hbm, 33, rfl⟩
abbrev main_call0_v7 : Ref sig .tc := ⟨.hbm, 34, rfl⟩
abbrev main_call0_v8 : Ref sig .tc := ⟨.hbm, 35, rfl⟩
abbrev main_call0_c_3 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_v9 : Ref sig .tc := ⟨.hbm, 43, rfl⟩
abbrev main_c_0 : Ref sig .tc := ⟨.hbm, 44, rfl⟩
abbrev main_v10 : Ref sig .tc := ⟨.hbm, 45, rfl⟩
abbrev main_v11 : Ref sig .tc := ⟨.hbm, 46, rfl⟩
abbrev main_c_1 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_c_2 : Ref sig .tc := ⟨.hbm, 55, rfl⟩
abbrev main_v19 : Ref sig .tc := ⟨.hbm, 56, rfl⟩
abbrev main_v20 : Ref sig .tc := ⟨.hbm, 57, rfl⟩
abbrev main_c_3 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_c_4 : Ref sig .tc := ⟨.hbm, 64, rfl⟩
abbrev main_call1_v0 : Ref sig .tc := ⟨.hbm, 65, rfl⟩
abbrev main_call1_c : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_c_1 : Ref sig .tc := ⟨.hbm, 72, rfl⟩
abbrev main_call1_v5 : Ref sig .tc := ⟨.hbm, 73, rfl⟩
abbrev main_call1_v6 : Ref sig .tc := ⟨.hbm, 74, rfl⟩
abbrev main_call1_c_2 : Ref sig .tc := ⟨.hbm, 75, rfl⟩
abbrev main_call1_v7 : Ref sig .tc := ⟨.hbm, 76, rfl⟩
abbrev main_call1_v8 : Ref sig .tc := ⟨.hbm, 77, rfl⟩
abbrev main_call1_c_3 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_v26 : Ref sig .tc := ⟨.hbm, 85, rfl⟩
abbrev main_c_5 : Ref sig .tc := ⟨.hbm, 86, rfl⟩
abbrev main_v27 : Ref sig .tc := ⟨.hbm, 87, rfl⟩
abbrev main_v28 : Ref sig .tc := ⟨.hbm, 88, rfl⟩
abbrev main_c_6 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_c_7 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_c_8 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_v6 : Ref sig .tc := ⟨.hbm, 109, rfl⟩
abbrev main_call2_v7 : Ref sig .tc := ⟨.hbm, 110, rfl⟩
abbrev main_call2_v8 : Ref sig .tc := ⟨.hbm, 111, rfl⟩
abbrev main_call2_c : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_call2_c_0 : Ref sig .tc := ⟨.hbm, 116, rfl⟩
abbrev main_call2_v12 : Ref sig .tc := ⟨.hbm, 117, rfl⟩
abbrev main_call2_v13 : Ref sig .tc := ⟨.hbm, 118, rfl⟩
abbrev main_v40 : Ref sig .tc := ⟨.hbm, 119, rfl⟩
abbrev main_c_9 : Ref sig .tc := ⟨.hbm, 120, rfl⟩
abbrev main_v41 : Ref sig .tc := ⟨.hbm, 121, rfl⟩
abbrev main_v42 : Ref sig .tc := ⟨.hbm, 122, rfl⟩
abbrev main_c_10 : Ref sig .tc := ⟨.hbm, 123, rfl⟩
abbrev main_v43 : Ref sig .tc := ⟨.hbm, 124, rfl⟩
abbrev main_v44 : Ref sig .tc := ⟨.hbm, 125, rfl⟩
abbrev main_v45 : Ref sig .tc := ⟨.hbm, 126, rfl⟩
abbrev main_c_11 : Ref sig .tc := ⟨.hbm, 127, rfl⟩
abbrev main_v46 : Ref sig .tc := ⟨.hbm, 128, rfl⟩
abbrev main_v47 : Ref sig .tc := ⟨.hbm, 129, rfl⟩
abbrev main_c_12 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_c_13 : Ref sig .tc := ⟨.hbm, 139, rfl⟩
abbrev main_v56 : Ref sig .tc := ⟨.hbm, 140, rfl⟩
abbrev main_v57 : Ref sig .tc := ⟨.hbm, 141, rfl⟩
abbrev main_c_14 : Ref sig .tc := ⟨.hbm, 142, rfl⟩
abbrev main_call3_v0 : Ref sig .tc := ⟨.hbm, 143, rfl⟩
abbrev main_call3_c : Ref sig .tc := ⟨.hbm, 144, rfl⟩
abbrev main_call3_v1 : Ref sig .tc := ⟨.hbm, 145, rfl⟩
abbrev main_call3_c_0 : Ref sig .tc := ⟨.hbm, 146, rfl⟩
abbrev main_call3_v2 : Ref sig .tc := ⟨.hbm, 147, rfl⟩
abbrev main_call3_v3 : Ref sig .tc := ⟨.hbm, 148, rfl⟩
abbrev main_call3_v4 : Ref sig .tc := ⟨.hbm, 149, rfl⟩
abbrev main_call3_c_1 : Ref sig .tc := ⟨.hbm, 150, rfl⟩
abbrev main_call3_v5 : Ref sig .tc := ⟨.hbm, 151, rfl⟩
abbrev main_call3_v6 : Ref sig .tc := ⟨.hbm, 152, rfl⟩
abbrev main_call3_c_2 : Ref sig .tc := ⟨.hbm, 153, rfl⟩
abbrev main_call3_v7 : Ref sig .tc := ⟨.hbm, 154, rfl⟩
abbrev main_call3_v8 : Ref sig .tc := ⟨.hbm, 155, rfl⟩
abbrev main_call3_c_3 : Ref sig .tc := ⟨.hbm, 156, rfl⟩
abbrev main_call3_v9 : Ref sig .tc := ⟨.hbm, 157, rfl⟩
abbrev main_call3_v10 : Ref sig .tc := ⟨.hbm, 158, rfl⟩
abbrev main_call3_v11 : Ref sig .tc := ⟨.hbm, 159, rfl⟩
abbrev main_call3_v12 : Ref sig .tc := ⟨.hbm, 160, rfl⟩
abbrev main_call3_v13 : Ref sig .tc := ⟨.hbm, 161, rfl⟩
abbrev main_call3_v14 : Ref sig .tc := ⟨.hbm, 162, rfl⟩
abbrev main_v58 : Ref sig .tc := ⟨.hbm, 163, rfl⟩
abbrev main_v59 : Ref sig .tc := ⟨.hbm, 164, rfl⟩
abbrev main_c_15 : Ref sig .tc := ⟨.hbm, 165, rfl⟩
abbrev main_v60 : Ref sig .tc := ⟨.hbm, 166, rfl⟩
abbrev main_v61 : Ref sig .tc := ⟨.hbm, 167, rfl⟩
abbrev main_c_16 : Ref sig .tc := ⟨.hbm, 168, rfl⟩
abbrev main_v62 : Ref sig .tc := ⟨.hbm, 169, rfl⟩
abbrev main_v63 : Ref sig .tc := ⟨.hbm, 170, rfl⟩
abbrev main_v64 : Ref sig .tc := ⟨.hbm, 171, rfl⟩
abbrev main_v65 : Ref sig .tc := ⟨.hbm, 172, rfl⟩
abbrev main_v66 : Ref sig .tc := ⟨.hbm, 173, rfl⟩
abbrev main_v67 : Ref sig .tc := ⟨.hbm, 174, rfl⟩
abbrev main_v68 : Ref sig .tc := ⟨.hbm, 175, rfl⟩
abbrev main_cst : Ref sig .tc := ⟨.hbm, 176, rfl⟩
abbrev main_v69 : Ref sig .tc := ⟨.hbm, 177, rfl⟩
abbrev main_cst_17 : Ref sig .tc := ⟨.hbm, 178, rfl⟩
abbrev main_v70 : Ref sig .tc := ⟨.hbm, 179, rfl⟩
abbrev main_v71 : Ref sig .tc := ⟨.hbm, 180, rfl⟩
abbrev main_v72 : Ref sig .tc := ⟨.hbm, 181, rfl⟩
abbrev main_v73 : Ref sig .tc := ⟨.hbm, 182, rfl⟩
abbrev main_v74 : Ref sig .tc := ⟨.hbm, 183, rfl⟩
abbrev main_v75 : Ref sig .tc := ⟨.hbm, 184, rfl⟩
abbrev main_cst_18 : Ref sig .tc := ⟨.hbm, 185, rfl⟩
abbrev main_v76 : Ref sig .tc := ⟨.hbm, 186, rfl⟩
abbrev main_v77 : Ref sig .tc := ⟨.hbm, 187, rfl⟩
abbrev main_v78 : Ref sig .tc := ⟨.hbm, 188, rfl⟩
abbrev main_v79 : Ref sig .tc := ⟨.hbm, 189, rfl⟩
abbrev main_v80 : Ref sig .tc := ⟨.hbm, 190, rfl⟩
abbrev main_cst_19 : Ref sig .tc := ⟨.hbm, 191, rfl⟩
abbrev main_v81 : Ref sig .tc := ⟨.hbm, 192, rfl⟩
abbrev main_v82 : Ref sig .tc := ⟨.hbm, 193, rfl⟩
abbrev main_v83 : Ref sig .tc := ⟨.hbm, 194, rfl⟩
abbrev main_cst_20 : Ref sig .tc := ⟨.hbm, 195, rfl⟩
abbrev main_v84 : Ref sig .tc := ⟨.hbm, 196, rfl⟩
abbrev main_v85 : Ref sig .tc := ⟨.hbm, 197, rfl⟩
abbrev main_cst_21 : Ref sig .tc := ⟨.hbm, 198, rfl⟩
abbrev main_v86 : Ref sig .tc := ⟨.hbm, 199, rfl⟩
abbrev main_v87 : Ref sig .tc := ⟨.hbm, 200, rfl⟩
abbrev main_cst_22 : Ref sig .tc := ⟨.hbm, 201, rfl⟩
abbrev main_v88 : Ref sig .tc := ⟨.hbm, 202, rfl⟩
abbrev main_v89 : Ref sig .tc := ⟨.hbm, 203, rfl⟩
abbrev main_v90 : Ref sig .tc := ⟨.hbm, 204, rfl⟩
abbrev main_v91 : Ref sig .tc := ⟨.hbm, 205, rfl⟩
abbrev main_v92 : Ref sig .tc := ⟨.hbm, 206, rfl⟩
abbrev main_v93 : Ref sig .tc := ⟨.hbm, 207, rfl⟩
abbrev main_v94 : Ref sig .tc := ⟨.hbm, 208, rfl⟩
abbrev main_v95 : Ref sig .tc := ⟨.hbm, 209, rfl⟩
abbrev main_c_23 : Ref sig .tc := ⟨.hbm, 210, rfl⟩
abbrev main_call4_v0 : Ref sig .tc := ⟨.hbm, 211, rfl⟩
abbrev main_call4_v1 : Ref sig .tc := ⟨.hbm, 212, rfl⟩
abbrev main_call4_v2 : Ref sig .tc := ⟨.hbm, 213, rfl⟩
abbrev main_call4_v3 : Ref sig .tc := ⟨.hbm, 214, rfl⟩
abbrev main_call4_v4 : Ref sig .tc := ⟨.hbm, 215, rfl⟩
abbrev main_call4_v5 : Ref sig .tc := ⟨.hbm, 216, rfl⟩
abbrev main_call4_v6 : Ref sig .tc := ⟨.hbm, 217, rfl⟩
abbrev main_call4_v7 : Ref sig .tc := ⟨.hbm, 218, rfl⟩
abbrev main_call4_v8 : Ref sig .tc := ⟨.hbm, 219, rfl⟩
abbrev main_call4_c : Ref sig .tc := ⟨.hbm, 220, rfl⟩
abbrev main_call4_v9 : Ref sig .tc := ⟨.hbm, 221, rfl⟩
abbrev main_call4_v10 : Ref sig .tc := ⟨.hbm, 222, rfl⟩
abbrev main_call4_v11 : Ref sig .tc := ⟨.hbm, 223, rfl⟩
abbrev main_call4_c_0 : Ref sig .tc := ⟨.hbm, 224, rfl⟩
abbrev main_call4_v12 : Ref sig .tc := ⟨.hbm, 225, rfl⟩
abbrev main_call4_v13 : Ref sig .tc := ⟨.hbm, 226, rfl⟩
abbrev main_v96 : Ref sig .tc := ⟨.hbm, 227, rfl⟩
abbrev main_c_24 : Ref sig .tc := ⟨.hbm, 228, rfl⟩
abbrev main_v97 : Ref sig .tc := ⟨.hbm, 229, rfl⟩
abbrev main_v98 : Ref sig .tc := ⟨.hbm, 230, rfl⟩
abbrev main_c_25 : Ref sig .tc := ⟨.hbm, 231, rfl⟩
abbrev main_v99 : Ref sig .tc := ⟨.hbm, 232, rfl⟩
abbrev main_v100 : Ref sig .tc := ⟨.hbm, 233, rfl⟩
abbrev main_v101 : Ref sig .tc := ⟨.hbm, 234, rfl⟩
abbrev main_v102 : Ref sig .tc := ⟨.hbm, 235, rfl⟩
abbrev main_v103 : Ref sig .tc := ⟨.hbm, 236, rfl⟩
abbrev main_v104 : Ref sig .tc := ⟨.hbm, 237, rfl⟩
abbrev main_v105 : Ref sig .tc := ⟨.hbm, 238, rfl⟩
abbrev main_v106 : Ref sig .tc := ⟨.hbm, 239, rfl⟩
abbrev main_v107 : Ref sig .tc := ⟨.hbm, 240, rfl⟩
abbrev main_v108 : Ref sig .tc := ⟨.hbm, 241, rfl⟩
abbrev main_v109 : Ref sig .tc := ⟨.hbm, 242, rfl⟩
abbrev main_v110 : Ref sig .tc := ⟨.hbm, 243, rfl⟩
abbrev main_v111 : Ref sig .tc := ⟨.hbm, 244, rfl⟩
abbrev main_v112 : Ref sig .tc := ⟨.hbm, 245, rfl⟩
abbrev main_v113 : Ref sig .tc := ⟨.hbm, 246, rfl⟩
abbrev main_v114 : Ref sig .tc := ⟨.hbm, 247, rfl⟩
abbrev main_v115 : Ref sig .tc := ⟨.hbm, 248, rfl⟩
abbrev main_v116 : Ref sig .tc := ⟨.hbm, 249, rfl⟩
abbrev main_v117 : Ref sig .tc := ⟨.hbm, 250, rfl⟩
abbrev main_v118 : Ref sig .tc := ⟨.hbm, 251, rfl⟩
abbrev main_v119 : Ref sig .tc := ⟨.hbm, 252, rfl⟩
abbrev main_v120 : Ref sig .tc := ⟨.hbm, 253, rfl⟩
abbrev main_v121 : Ref sig .tc := ⟨.hbm, 254, rfl⟩
abbrev main_c_26 : Ref sig .tc := ⟨.hbm, 255, rfl⟩
abbrev main_call5_v0 : Ref sig .tc := ⟨.hbm, 256, rfl⟩
abbrev main_call5_v1 : Ref sig .tc := ⟨.hbm, 257, rfl⟩
abbrev main_v122 : Ref sig .tc := ⟨.hbm, 258, rfl⟩
abbrev main_cst_27 : Ref sig .tc := ⟨.hbm, 259, rfl⟩
abbrev main_v123 : Ref sig .tc := ⟨.hbm, 260, rfl⟩
abbrev main_v124 : Ref sig .tc := ⟨.hbm, 261, rfl⟩
abbrev main_c_28 : Ref sig .tc := ⟨.hbm, 262, rfl⟩
abbrev main_v125 : Ref sig .tc := ⟨.hbm, 263, rfl⟩
abbrev main_v126 : Ref sig .tc := ⟨.hbm, 264, rfl⟩
abbrev main_c_29 : Ref sig .tc := ⟨.hbm, 265, rfl⟩
abbrev main_v127 : Ref sig .tc := ⟨.hbm, 266, rfl⟩
abbrev main_v128 : Ref sig .tc := ⟨.hbm, 267, rfl⟩
abbrev main_v129 : Ref sig .tc := ⟨.hbm, 268, rfl⟩
abbrev main_v130 : Ref sig .tc := ⟨.hbm, 269, rfl⟩
abbrev main_v131 : Ref sig .tc := ⟨.hbm, 270, rfl⟩
abbrev main_v132 : Ref sig .tc := ⟨.hbm, 271, rfl⟩

abbrev nD : Nat := 1
abbrev τ : Topo := Topo.v7x

variable {F : FTy → Type} [FloatOps F]

class Facts₀ : Prop where
  bcast_S8x32_S8x128x32_0_2 : S8x32.BroadcastsInDim S8x128x32 (![0, 2] : Fin 2 → Fin S8x128x32.rank)
  shapeCasts_S8x128x32_S1024x32 : S8x128x32.ShapeCasts S1024x32
  bcast_S1024x32_S1024x32x128_0_1 : S1024x32.BroadcastsInDim S1024x32x128 (![0, 1] : Fin 2 → Fin S1024x32x128.rank)
  shapeCasts_S1024x32x128_S1024x4096 : S1024x32x128.ShapeCasts S1024x4096
  transposes_S1024x4096_S4096x1024_1_0 : S1024x4096.Transposes [1, 0] S4096x1024
  slices_S8192x1024_S8192x512_0_0 : S8192x1024.Slices ![0, 0] S8192x512
  slices_S8192x1024_S8192x512_0_512 : S8192x1024.Slices ![0, 512] S8192x512
  bcast_S_S8192 : S_.BroadcastsInDim S8192 (![] : Fin 0 → Fin S8192.rank)
  bcast_S8192_S8192x1_0 : S8192.BroadcastsInDim S8192x1 (![0] : Fin 1 → Fin S8192x1.rank)
  concatenates_S8192x512_S8192x512_S8192x1024_d1 : Shape.Concatenates [S8192x512, S8192x512] S8192x1024 1
  bcast_S4_S1x4_1 : S4.BroadcastsInDim S1x4 (![1] : Fin 1 → Fin S1x4.rank)
  bcast_S8192x1_S8192x4_0_1 : S8192x1.BroadcastsInDim S8192x4 (![0, 1] : Fin 2 → Fin S8192x4.rank)
  bcast_S1x4_S8192x4_0_1 : S1x4.BroadcastsInDim S8192x4 (![0, 1] : Fin 2 → Fin S8192x4.rank)
  bcast_S_S8192x4 : S_.BroadcastsInDim S8192x4 (![] : Fin 0 → Fin S8192x4.rank)
  bcast_S_S8192x1 : S_.BroadcastsInDim S8192x1 (![] : Fin 0 → Fin S8192x1.rank)
  bcast_S8192x4_S8192x4x1_0_1 : S8192x4.BroadcastsInDim S8192x4x1 (![0, 1] : Fin 2 → Fin S8192x4x1.rank)
  concatenates_S8192x4x1_S8192x4x1_S8192x4x2_d2 : Shape.Concatenates [S8192x4x1, S8192x4x1] S8192x4x2 2
  slices_S8192x4x1024_S8192x4x512_0_0_0 : S8192x4x1024.Slices ![0, 0, 0] S8192x4x512
  slices_S8192x4x1024_S8192x4x512_0_0_512 : S8192x4x1024.Slices ![0, 0, 512] S8192x4x512
  reducesTo_S8192x4x512_S8192x512_d1 : S8192x4x512.ReducesTo [1] S8192x512
  h_S_ : 0 < S_.numel
  bcast_S_S8192x512 : S_.BroadcastsInDim S8192x512 (![] : Fin 0 → Fin S8192x512.rank)
  bcast_S8192x512_S8192x1x512_0_2 : S8192x512.BroadcastsInDim S8192x1x512 (![0, 2] : Fin 2 → Fin S8192x1x512.rank)
  bcast_S8192x1x512_S8192x4x512_0_1_2 : S8192x1x512.BroadcastsInDim S8192x4x512 (![0, 1, 2] : Fin 3 → Fin S8192x4x512.rank)
  shapeCasts_S8192x512_S8192x2x256 : S8192x512.ShapeCasts S8192x2x256
  reducesTo_S8192x2x256_S8192x2_d2 : S8192x2x256.ReducesTo [2] S8192x2
  bcast_S8192x2_S8192x2x1_0_1 : S8192x2.BroadcastsInDim S8192x2x1 (![0, 1] : Fin 2 → Fin S8192x2x1.rank)
  bcast_S_S8192x2x1 : S_.BroadcastsInDim S8192x2x1 (![] : Fin 0 → Fin S8192x2x1.rank)
  bcast_S8192x2x1_S8192x2x256_0_1_2 : S8192x2x1.BroadcastsInDim S8192x2x256 (![0, 1, 2] : Fin 3 → Fin S8192x2x256.rank)
  bcast_S256_S1x1x256_2 : S256.BroadcastsInDim S1x1x256 (![2] : Fin 1 → Fin S1x1x256.rank)
  bcast_S1x1x256_S8192x2x256_0_1_2 : S1x1x256.BroadcastsInDim S8192x2x256 (![0, 1, 2] : Fin 3 → Fin S8192x2x256.rank)
  slices_S8192x256_S8192x128_0_0 : S8192x256.Slices ![0, 0] S8192x128
  bcast_S8192x128_S8192x1x128_0_2 : S8192x128.BroadcastsInDim S8192x1x128 (![0, 2] : Fin 2 → Fin S8192x1x128.rank)
  slices_S8192x256_S8192x128_0_128 : S8192x256.Slices ![0, 128] S8192x128
  slices_S8192x2x256_S8192x2x128_0_0_0 : S8192x2x256.Slices ![0, 0, 0] S8192x2x128
  slices_S8192x2x256_S8192x2x128_0_0_128 : S8192x2x256.Slices ![0, 0, 128] S8192x2x128
  bcast_S8192x1x128_S8192x2x128_0_1_2 : S8192x1x128.BroadcastsInDim S8192x2x128 (![0, 1, 2] : Fin 3 → Fin S8192x2x128.rank)
  concatenates_S8192x2x128_S8192x2x128_S8192x2x256_d2 : Shape.Concatenates [S8192x2x128, S8192x2x128] S8192x2x256 2
  shapeCasts_S8192x2x256_S8192x512 : S8192x2x256.ShapeCasts S8192x512
  bcast_S_S1x512 : S_.BroadcastsInDim S1x512 (![] : Fin 0 → Fin S1x512.rank)
  concatenates_S2048x512_S1x512_S2049x512_d0 : Shape.Concatenates [S2048x512, S1x512] S2049x512 0
  slices_S2049x512_S2048x512_0_0 : S2049x512.Slices ![0, 0] S2048x512
  dot_S8192x4096_S4096x1024_S8192x1024_1_0_0_1_n_n_wf : DotDims.WF S8192x4096 S4096x1024 S8192x1024 [1] [0] [0] [1] [] []
  gather_S4x512_S8192x1_S8192x512_1_0_n_n_0_1_1512_wf : GatherDims.WF S4x512 S8192x1 S8192x512 [1] [0] [] [0] [] 1 ![1, 512]
  scatter_S8192x1024_S8192x1_S8192x1024_1_0_0_1_wf : ScatterDims.WF S8192x1024 S8192x1 S8192x1024 [1] [0] [0] 1
  gather_S4x32_S8192x4x2_S8192x4_n_01_n_n_01_2_11_wf : GatherDims.WF S4x32 S8192x4x2 S8192x4 [] [0, 1] [] [0, 1] [] 2 ![1, 1]
  gather_S8192x1024_S8192x4x1_S8192x4x1024_2_0_n_n_0_2_11024_wf : GatherDims.WF S8192x1024 S8192x4x1 S8192x4x1024 [2] [0] [] [0] [] 2 ![1, 1024]
  gather_S512x256_S8192x1_S8192x256_1_0_n_n_0_1_1256_wf : GatherDims.WF S512x256 S8192x1 S8192x256 [1] [0] [] [0] [] 1 ![1, 256]
  scatter_S2049x512_S8192x1_S8192x512_1_0_0_1_wf : ScatterDims.WF S2049x512 S8192x1 S8192x512 [1] [0] [0] 1

variable [Facts₀]

def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf
def gather_S4x512_S8192x1_S8192x512_1_0_n_n_0_1_1512 : GatherDims S4x512 S8192x1 S8192x512 where
  offsetDims := [1]
  collapsedSliceDims := [0]
  operandBatchingDims := []
  startIndicesBatchingDims := []
  startIndexMap := [0]
  indexVectorDim := 1
  sliceSizes := ![1, 512]
  wf := gather_S4x512_S8192x1_S8192x512_1_0_n_n_0_1_1512_wf
def scatter_S8192x1024_S8192x1_S8192x1024_1_0_0_1 : ScatterDims S8192x1024 S8192x1 S8192x1024 where
  updateWindowDims := [1]
  insertedWindowDims := [0]
  scatterDimsToOperandDims := [0]
  indexVectorDim := 1
  wf := scatter_S8192x1024_S8192x1_S8192x1024_1_0_0_1_wf
def gather_S4x32_S8192x4x2_S8192x4_n_01_n_n_01_2_11 : GatherDims S4x32 S8192x4x2 S8192x4 where
  offsetDims := []
  collapsedSliceDims := [0, 1]
  operandBatchingDims := []
  startIndicesBatchingDims := []
  startIndexMap := [0, 1]
  indexVectorDim := 2
  sliceSizes := ![1, 1]
  wf := gather_S4x32_S8192x4x2_S8192x4_n_01_n_n_01_2_11_wf
def gather_S8192x1024_S8192x4x1_S8192x4x1024_2_0_n_n_0_2_11024 : GatherDims S8192x1024 S8192x4x1 S8192x4x1024 where
  offsetDims := [2]
  collapsedSliceDims := [0]
  operandBatchingDims := []
  startIndicesBatchingDims := []
  startIndexMap := [0]
  indexVectorDim := 2
  sliceSizes := ![1, 1024]
  wf := gather_S8192x1024_S8192x4x1_S8192x4x1024_2_0_n_n_0_2_11024_wf
def gather_S512x256_S8192x1_S8192x256_1_0_n_n_0_1_1256 : GatherDims S512x256 S8192x1 S8192x256 where
  offsetDims := [1]
  collapsedSliceDims := [0]
  operandBatchingDims := []
  startIndicesBatchingDims := []
  startIndexMap := [0]
  indexVectorDim := 1
  sliceSizes := ![1, 256]
  wf := gather_S512x256_S8192x1_S8192x256_1_0_n_n_0_1_1256_wf
def scatter_S2049x512_S8192x1_S8192x512_1_0_0_1 : ScatterDims S2049x512 S8192x1 S8192x512 where
  updateWindowDims := [1]
  insertedWindowDims := [0]
  scatterDimsToOperandDims := [0]
  indexVectorDim := 1
  wf := scatter_S2049x512_S8192x1_S8192x512_1_0_0_1_wf

class Facts : Prop extends Facts₀ where

variable [Facts]
-- ==== Proof.KernelRun.lean ====
/-
  The idealized kernel's run with every unscoped buffer named: every weakly fair execution of @main on the
  TensorCores terminates, nothing faulting, and each unscoped buffer of each core ends at the contents the fold of
  @main's segments leaves there — a stretch of host operations rewrites the buffers it writes, a region leaves its
  arrays at what its write-backs make of them and every other buffer as it found it. The four results and the
  thirteen arguments are read off this one statement.
-/
import proofs.«114737_j78752520339581_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer of every core ends at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W17 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c b hb => h c _ (mem_uc b hb))

end Cert.KernelIdeal.KRun

end
-- ==== Proof.RefRun.lean ====
/-
  The reference program's run, written out. @main is three windows of straight-line tensor operations, and a call of an
  outlined function is the callee's body over the call's own buffers, so @main is one line of 259 operations
  (116, 80, 63 by window), each writing a buffer no other writes, none of them an argument. From any memory
  with zero counters every weakly fair execution terminates with each TensorCore buffer at the fold of these operations
  over its launch contents (`run_all`); the four results are read there and the thirteen arguments end as they began (`run`).
-/
import proofs.«114737_j78752520339581_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-! ## The operations, window by window -/

/-- Window 0 of @main, its calls unfolded: 116 operations in order. -/
abbrev ops0 : List (HloOp τ sig (Elt F)) :=
  [ StableHlo.unary main_arg2 main_v0 (broadcastInDim S8x128x32 ![0, 2] bcast_S8x32_S8x128x32_0_2 : (⟨S8x32, .f32⟩ : BufTy).Contents (Elt F) → (⟨S8x128x32, .f32⟩ : BufTy).Contents (Elt F)),
    StableHlo.reshape main_v0 main_v1 rfl shapeCasts_S8x128x32_S1024x32,
    StableHlo.unary main_v1 main_v2 (broadcastInDim S1024x32x128 ![0, 1] bcast_S1024x32_S1024x32x128_0_1 : (⟨S1024x32, .f32⟩ : BufTy).Contents (Elt F) → (⟨S1024x32x128, .f32⟩ : BufTy).Contents (Elt F)),
    StableHlo.reshape main_v2 main_v3 rfl shapeCasts_S1024x32x128_S1024x4096,
    StableHlo.binary main_arg1 main_v3 main_v4 (mulf : (⟨S1024x4096, .f32⟩ : BufTy).Contents (Elt F) → (⟨S1024x4096, .f32⟩ : BufTy).Contents (Elt F) → (⟨S1024x4096, .f32⟩ : BufTy).Contents (Elt F)),
    StableHlo.unary main_v4 main_v5 ((transpose S4096x1024 [1, 0] · transposes_S1024x4096_S4096x1024_1_0) : (⟨S1024x4096, .f32⟩ : BufTy).Contents (Elt F) → (⟨S4096x1024, .f32⟩ : BufTy).Contents (Elt F)),
    StableHlo.binary main_arg0 main_v5 main_v6 ((fun l r => Host.dotGeneral dot_S8192x4096_S4096x1024_S8192x1024_1_0_0_1_n_n none l r) : (⟨S8192x4096, .f32⟩ : BufTy).Contents (Elt F) → (⟨S4096x1024, .f32⟩ : BufTy).Contents (Elt F) → (⟨S8192x1024, .f32⟩ : BufTy).Contents (Elt F)),
    StableHlo.unary main_v6 main_v7 ((extractStridedSlice S8192x512 ![0, 0] · slices_S8192x1024_S8192x512_0_0) : (⟨S8192x1024, .f32⟩ : BufTy).Contents (Elt F) → (⟨S8192x512, .f32⟩ : BufTy).Contents (Elt F)),
    StableHlo.unary main_v6 main_v8 ((extractStridedSlice S8192x512 ![0, 512] · slices_S8192x1024_S8192x512_0_512) : (⟨S8192x1024, .f32⟩ : BufTy).Contents (Elt F) → (⟨S8192x512, .f32⟩ : BufTy).Contents (Elt F)),
    StableHlo.nullary main_c (constantI S_ 32 4#32),
    StableHlo.TRef.unary (.of main_c : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary (.of main_call0_v2 : StableHlo.TRef sig ⟨S_, .i32⟩) (.of main_call0_v3 : StableHlo.TRef sig ⟨S8192, .i32⟩) (broadcastInDim S8192 ![] bcast_S_S8192),
    StableHlo.TRef.binary (.of main_arg8 : StableHlo.TRef sig ⟨S8192, .i32⟩) (.of main_call0_v3 : StableHlo.TRef sig ⟨S8192, .i32⟩) (.of main_call0_v4 : StableHlo.TRef sig ⟨S8192, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S8192, .i32⟩) (broadcastInDim S8192 ![] bcast_S_S8192),
    StableHlo.TRef.binary (.of main_call0_v4 : StableHlo.TRef sig ⟨S8192, .i32⟩) (.of main_call0_v5 : StableHlo.TRef sig ⟨S8192, .i32⟩) (.of main_call0_v6 : StableHlo.TRef sig ⟨S8192, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S8192, .i32⟩) (broadcastInDim S8192 ![] bcast_S_S8192),
    StableHlo.TRef.binary (.of main_call0_v4 : StableHlo.TRef sig ⟨S8192, .i32⟩) (.of main_call0_v7 : StableHlo.TRef sig ⟨S8192, .i32⟩) (.of main_call0_v8 : StableHlo.TRef sig ⟨S8192, .i1⟩) (cmpi .slt),
    StableHlo.TRef.nullary (.of main_call0_c_3 : StableHlo.TRef sig ⟨S_, .i32⟩) (constantI S_ 32 0#32),
    StableHlo.TRef.binary (.of main_call0_v2 : StableHlo.TRef sig ⟨S_, .i32⟩) (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S8192, .i1⟩) (broadcastInDim S8192 ![] bcast_S_S8192),
    StableHlo.TRef.binary (.of main_call0_v8 : StableHlo.TRef sig ⟨S8192, .i1⟩) (.of main_call0_v10 : StableHlo.TRef sig ⟨S8192, .i1⟩) (.of main_call0_v11 : StableHlo.TRef sig ⟨S8192, .i1⟩) (cmpi .ne),
    StableHlo.TRef.binary (.of main_call0_v11 : StableHlo.TRef sig ⟨S8192, .i1⟩) (.of main_call0_v6 : StableHlo.TRef sig ⟨S8192, .i1⟩) (.of main_call0_v12 : StableHlo.TRef sig ⟨S8192, .i1⟩) andi,
    StableHlo.TRef.unary (.of main_call0_v2 : StableHlo.TRef sig ⟨S_, .i32⟩) (.of main_call0_v13 : StableHlo.TRef sig ⟨S8192, .i32⟩) (broadcastInDim S8192 ![] bcast_S_S8192),
    StableHlo.TRef.binary (.of main_call0_v4 : StableHlo.TRef sig ⟨S8192, .i32⟩) (.of main_call0_v13 : StableHlo.TRef sig ⟨S8192, .i32⟩) (.of main_call0_v14 : StableHlo.TRef sig ⟨S8192, .i32⟩) addi,
    StableHlo.TRef.ternary (.of main_call0_v12 : StableHlo.TRef sig ⟨S8192, .i1⟩) (.of main_call0_v14 : StableHlo.TRef sig ⟨S8192, .i32⟩) (.of main_call0_v4 : StableHlo.TRef sig ⟨S8192, .i32⟩) (.of main_v9 : StableHlo.TRef sig ⟨S8192, .i32⟩) select,
    StableHlo.nullary main_c_0 (constantI S_ 32 0#32),
    StableHlo.unary main_c_0 main_v10 (broadcastInDim S8192 ![] bcast_S_S8192 : (⟨S_, .i32⟩ : BufTy).Contents (Elt F) → (⟨S8192, .i32⟩ : BufTy).Contents (Elt F)),
    StableHlo.binary main_v9 main_v10 main_v11 (cmpi .slt : (⟨S8192, .i32⟩ : BufTy).Contents (Elt F) → (⟨S8192, .i32⟩ : BufTy).Contents (Elt F) → (⟨S8192, .i1⟩ : BufTy).Contents (Elt F)),
    StableHlo.nullary main_c_1 (constantI S_ 32 4#32),
    StableHlo.unary main_c_1 main_v12 (broadcastInDim S8192 ![] bcast_S_S8192 : (⟨S_, .i32⟩ : BufTy).Contents (Elt F) → (⟨S8192, .i32⟩ : BufTy).Contents (Elt F)),
    StableHlo.binary main_v9 main_v12 main_v13 (addi : (⟨S8192, .i32⟩ : BufTy).Contents (Elt F) → (⟨S8192, .i32⟩ : BufTy).Contents (Elt F) → (⟨S8192, .i32⟩ : BufTy).Contents (Elt F)),
    StableHlo.ternary main_v11 main_v13 main_v9 main_v14 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v14 main_v15 (broadcastInDim S8192x1 ![0] bcast_S8192_S8192x1_0 : (⟨S8192, .i32⟩ : BufTy).Contents (Elt F) → (⟨S8192x1, .i32⟩ : BufTy).Contents (Elt F)),
    StableHlo.binary main_arg3 main_v15 main_v16 ((fun x i => Host.gather gather_S4x512_S8192x1_S8192x512_1_0_n_n_0_1_1512 x i) : (⟨S4x512, .f32⟩ : BufTy).Contents (Elt F) → (⟨S8192x1, .i32⟩ : BufTy).Contents (Elt F) → (⟨S8192x512, .f32⟩ : BufTy).Contents (Elt F)),
    StableHlo.binary main_v7 main_v16 main_v17 (addf : (⟨S8192x512, .f32⟩ : BufTy).Contents (Elt F) → (⟨S8192x512, .f32⟩ : BufTy).Contents (Elt F) → (⟨S8192x512, .f32⟩ : BufTy).Contents (Elt F)),
    StableHlo.binary main_v17 main_v8 main_v18 ((fun a b => concatenate S8192x1024 1 [⟨S8192x512, a⟩, ⟨S8192x512, b⟩] concatenates_S8192x512_S8192x512_S8192x1024_d1) : (⟨S8192x512, .f32⟩ : BufTy).Contents (Elt F) → (⟨S8192x512, .f32⟩ : BufTy).Contents (Elt F) → (⟨S8192x1024, .f32⟩ : BufTy).Contents (Elt F)),
    StableHlo.nullary main_c_2 (constantI S_ 32 0#32),
    StableHlo.unary main_c_2 main_v19 (broadcastInDim S8192 ![] bcast_S_S8192 : (⟨S_, .i32⟩ : BufTy).Contents (Elt F) → (⟨S8192, .i32⟩ : BufTy).Contents (Elt F)),
    StableHlo.binary main_arg9 main_v19 main_v20 (cmpi .slt : (⟨S8192, .i32⟩ : BufTy).Contents (Elt F) → (⟨S8192, .i32⟩ : BufTy).Contents (Elt F) → (⟨S8192, .i1⟩ : BufTy).Contents (Elt F)),
    StableHlo.nullary main_c_3 (constantI S_ 32 8192#32),
    StableHlo.unary main_c_3 main_v21 (broadcastInDim S8192 ![] bcast_S_S8192 : (⟨S_, .i32⟩ : BufTy).Contents (Elt F) → (⟨S8192, .i32⟩ : BufTy).Contents (Elt F)),
    StableHlo.binary main_arg9 main_v21 main_v22 (addi : (⟨S8192, .i32⟩ : BufTy).Contents (Elt F) → (⟨S8192, .i32⟩ : BufTy).Contents (Elt F) → (⟨S8192, .i32⟩ : BufTy).Contents (Elt F)),
    StableHlo.ternary main_v20 main_v22 main_arg9 main_v23 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v23 main_v24 (broadcastInDim S8192x1 ![0] bcast_S8192_S8192x1_0 : (⟨S8192, .i32⟩ : BufTy).Contents (Elt F) → (⟨S8192x1, .i32⟩ : BufTy).Contents (Elt F)),
    StableHlo.ternary main_arg6 main_v24 main_v18 main_v25 ((fun x i u => Host.scatter scatter_S8192x1024_S8192x1_S8192x1024_1_0_0_1 (fun _ b => b) x i u) : (⟨S8192x1024, .f32⟩ : BufTy).Contents (Elt F) → (⟨S8192x1, .i32⟩ : BufTy).Contents (Elt F) → (⟨S8192x1024, .f32⟩ : BufTy).Contents (Elt F) → (⟨S8192x1024, .f32⟩ : BufTy).Contents (Elt F)),
    StableHlo.nullary main_c_4 (constantI S_ 32 4#32),
    StableHlo.TRef.unary (.of main_c_4 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary (.of main_call1_v2 : StableHlo.TRef sig ⟨S_, .i32⟩) (.of main_call1_v3 : StableHlo.TRef sig ⟨S8192, .i32⟩) (broadcastInDim S8192 ![] bcast_S_S8192),
    StableHlo.TRef.binary (.of main_arg8 : StableHlo.TRef sig ⟨S8192, .i32⟩) (.of main_call1_v3 : StableHlo.TRef sig ⟨S8192, .i32⟩) (.of main_call1_v4 : StableHlo.TRef sig ⟨S8192, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S8192, .i32⟩) (broadcastInDim S8192 ![] bcast_S_S8192),
    StableHlo.TRef.binary (.of main_call1_v4 : StableHlo.TRef sig ⟨S8192, .i32⟩) (.of main_call1_v5 : StableHlo.TRef sig ⟨S8192, .i32⟩) (.of main_call1_v6 : StableHlo.TRef sig ⟨S8192, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S8192, .i32⟩) (broadcastInDim S8192 ![] bcast_S_S8192),
    StableHlo.TRef.binary (.of main_call1_v4 : StableHlo.TRef sig ⟨S8192, .i32⟩) (.of main_call1_v7 : StableHlo.TRef sig ⟨S8192, .i32⟩) (.of main_call1_v8 : StableHlo.TRef sig ⟨S8192, .i1⟩) (cmpi .slt),
    StableHlo.TRef.nullary (.of main_call1_c_3 : StableHlo.TRef sig ⟨S_, .i32⟩) (constantI S_ 32 0#32),
    StableHlo.TRef.binary (.of main_call1_v2 : StableHlo.TRef sig ⟨S_, .i32⟩) (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S8192, .i1⟩) (broadcastInDim S8192 ![] bcast_S_S8192),
    StableHlo.TRef.binary (.of main_call1_v8 : StableHlo.TRef sig ⟨S8192, .i1⟩) (.of main_call1_v10 : StableHlo.TRef sig ⟨S8192, .i1⟩) (.of main_call1_v11 : StableHlo.TRef sig ⟨S8192, .i1⟩) (cmpi .ne),
    StableHlo.TRef.binary (.of main_call1_v11 : StableHlo.TRef sig ⟨S8192, .i1⟩) (.of main_call1_v6 : StableHlo.TRef sig ⟨S8192, .i1⟩) (.of main_call1_v12 : StableHlo.TRef sig ⟨S8192, .i1⟩) andi,
    StableHlo.TRef.unary (.of main_call1_v2 : StableHlo.TRef sig ⟨S_, .i32⟩) (.of main_call1_v13 : StableHlo.TRef sig ⟨S8192, .i32⟩) (broadcastInDim S8192 ![] bcast_S_S8192),
    StableHlo.TRef.binary (.of main_call1_v4 : StableHlo.TRef sig ⟨S8192, .i32⟩) (.of main_call1_v13 : StableHlo.TRef sig ⟨S8192, .i32⟩) (.of main_call1_v14 : StableHlo.TRef sig ⟨S8192, .i32⟩) addi,
    StableHlo.TRef.ternary (.of main_call1_v12 : StableHlo.TRef sig ⟨S8192, .i1⟩) (.of main_call1_v14 : StableHlo.TRef sig ⟨S8192, .i32⟩) (.of main_call1_v4 : StableHlo.TRef sig ⟨S8192, .i32⟩) (.of main_v26 : StableHlo.TRef sig ⟨S8192, .i32⟩) select,
    StableHlo.nullary main_c_5 (constantI S_ 32 3#32),
    StableHlo.unary main_c_5 main_v27 (broadcastInDim S8192 ![] bcast_S_S8192 : (⟨S_, .i32⟩ : BufTy).Contents (Elt F) → (⟨S8192, .i32⟩ : BufTy).Contents (Elt F)),
    StableHlo.binary main_v26 main_v27 main_v28 (cmpi .eq : (⟨S8192, .i32⟩ : BufTy).Contents (Elt F) → (⟨S8192, .i32⟩ : BufTy).Contents (Elt F) → (⟨S8192, .i1⟩ : BufTy).Contents (Elt F)),
    StableHlo.nullary main_c_6 (constantI S_ 32 3#32),
    StableHlo.unary main_c_6 main_v29 (broadcastInDim S8192 ![] bcast_S_S8192 : (⟨S_, .i32⟩ : BufTy).Contents (Elt F) → (⟨S8192, .i32⟩ : BufTy).Contents (Elt F)),
    StableHlo.binary main_arg8 main_v29 main_v30 (subi : (⟨S8192, .i32⟩ : BufTy).Contents (Elt F) → (⟨S8192, .i32⟩ : BufTy).Contents (Elt F) → (⟨S8192, .i32⟩ : BufTy).Contents (Elt F)),
    StableHlo.unary main_v30 main_v31 (broadcastInDim S8192x1 ![0] bcast_S8192_S8192x1_0 : (⟨S8192, .i32⟩ : BufTy).Contents (Elt F) → (⟨S8192x1, .i32⟩ : BufTy).Contents (Elt F)),
    StableHlo.nullary main_v32 (iotaInDim S4 32 0),
    StableHlo.unary main_v32 main_v33 (broadcastInDim S1x4 ![1] bcast_S4_S1x4_1 : (⟨S4, .i32⟩ : BufTy).Contents (Elt F) → (⟨S1x4, .i32⟩ : BufTy).Contents (Elt F)),
    StableHlo.unary main_v31 main_v34 (broadcastInDim S8192x4 ![0, 1] bcast_S8192x1_S8192x4_0_1 : (⟨S8192x1, .i32⟩ : BufTy).Contents (Elt F) → (⟨S8192x4, .i32⟩ : BufTy).Contents (Elt F)),
    StableHlo.unary main_v33 main_v35 (broadcastInDim S8192x4 ![0, 1] bcast_S1x4_S8192x4_0_1 : (⟨S1x4, .i32⟩ : BufTy).Contents (Elt F) → (⟨S8192x4, .i32⟩ : BufTy).Contents (Elt F)),
    StableHlo.binary main_v34 main_v35 main_v36 (addi : (⟨S8192x4, .i32⟩ : BufTy).Contents (Elt F) → (⟨S8192x4, .i32⟩ : BufTy).Contents (Elt F) → (⟨S8192x4, .i32⟩ : BufTy).Contents (Elt F)),
    StableHlo.nullary main_c_7 (constantI S_ 32 0#32),
    StableHlo.unary main_c_7 main_v37 (broadcastInDim S8192x4 ![] bcast_S_S8192x4 : (⟨S_, .i32⟩ : BufTy).Contents (Elt F) → (⟨S8192x4, .i32⟩ : BufTy).Contents (Elt F)),
    StableHlo.binary main_v36 main_v37 main_v38 (maxsi : (⟨S8192x4, .i32⟩ : BufTy).Contents (Elt F) → (⟨S8192x4, .i32⟩ : BufTy).Contents (Elt F) → (⟨S8192x4, .i32⟩ : BufTy).Contents (Elt F)),
    StableHlo.unary main_arg10 main_v39 (broadcastInDim S8192x1 ![0] bcast_S8192_S8192x1_0 : (⟨S8192, .i32⟩ : BufTy).Contents (Elt F) → (⟨S8192x1, .i32⟩ : BufTy).Contents (Elt F)),
    StableHlo.nullary main_c_8 (constantI S_ 32 64#32),
    StableHlo.TRef.unary (.of main_c_8 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S8192x4, .i32⟩) (broadcastInDim S8192x4 ![] bcast_S_S8192x4),
    StableHlo.TRef.binary (.of main_v38 : StableHlo.TRef sig ⟨S8192x4, .i32⟩) (.of main_call2_v1 : StableHlo.TRef sig ⟨S8192x4, .i32⟩) (.of main_call2_v2 : StableHlo.TRef sig ⟨S8192x4, .i32⟩) Host.divsi,
    StableHlo.TRef.unary (.of main_v38 : StableHlo.TRef sig ⟨S8192x4, .i32⟩) (.of main_call2_v3 : StableHlo.TRef sig ⟨S8192x4, .i32⟩) signi,
    StableHlo.TRef.unary (.of main_call2_v0 : StableHlo.TRef sig ⟨S_, .i32⟩) (.of main_call2_v4 : StableHlo.TRef sig ⟨S_, .i32⟩) signi,
    StableHlo.TRef.unary (.of main_call2_v4 : StableHlo.TRef sig ⟨S_, .i32⟩) (.of main_call2_v5 : StableHlo.TRef sig ⟨S8192x4, .i32⟩) (broadcastInDim S8192x4 ![] bcast_S_S8192x4),
    StableHlo.TRef.binary (.of main_call2_v3 : StableHlo.TRef sig ⟨S8192x4, .i32⟩) (.of main_call2_v5 : StableHlo.TRef sig ⟨S8192x4, .i32⟩) (.of main_call2_v6 : StableHlo.TRef sig ⟨S8192x4, .i1⟩) (cmpi .ne),
    StableHlo.TRef.unary (.of main_call2_v0 : StableHlo.TRef sig ⟨S_, .i32⟩) (.of main_call2_v7 : StableHlo.TRef sig ⟨S8192x4, .i32⟩) (broadcastInDim S8192x4 ![] bcast_S_S8192x4),
    StableHlo.TRef.binary (.of main_v38 : StableHlo.TRef sig ⟨S8192x4, .i32⟩) (.of main_call2_v7 : StableHlo.TRef sig ⟨S8192x4, .i32⟩) (.of main_call2_v8 : StableHlo.TRef sig ⟨S8192x4, .i32⟩) Host.remsi,
    StableHlo.TRef.nullary (.of main_call2_c : StableHlo.TRef sig ⟨S_, .i32⟩) (constantI S_ 32 0#32),
    StableHlo.TRef.unary (.of main_call2_c : StableHlo.TRef sig ⟨S_, .i32⟩) (.of main_call2_v9 : StableHlo.TRef sig ⟨S8192x4, .i32⟩) (broadcastInDim S8192x4 ![] bcast_S_S8192x4),
    StableHlo.TRef.binary (.of main_call2_v8 : StableHlo.TRef sig ⟨S8192x4, .i32⟩) (.of main_call2_v9 : StableHlo.TRef sig ⟨S8192x4, .i32⟩) (.of main_call2_v10 : StableHlo.TRef sig ⟨S8192x4, .i1⟩) (cmpi .ne),
    StableHlo.TRef.binary (.of main_call2_v6 : StableHlo.TRef sig ⟨S8192x4, .i1⟩) (.of main_call2_v10 : StableHlo.TRef sig ⟨S8192x4, .i1⟩) (.of main_call2_v11 : StableHlo.TRef sig ⟨S8192x4, .i1⟩) andi,
    StableHlo.TRef.nullary (.of main_call2_c_0 : StableHlo.TRef sig ⟨S_, .i32⟩) (constantI S_ 32 1#32),
    StableHlo.TRef.unary (.of main_call2_c_0 : StableHlo.TRef sig ⟨S_, .i32⟩) (.of main_call2_v12 : StableHlo.TRef sig ⟨S8192x4, .i32⟩) (broadcastInDim S8192x4 ![] bcast_S_S8192x4),
    StableHlo.TRef.binary (.of main_call2_v2 : StableHlo.TRef sig ⟨S8192x4, .i32⟩) (.of main_call2_v12 : StableHlo.TRef sig ⟨S8192x4, .i32⟩) (.of main_call2_v13 : StableHlo.TRef sig ⟨S8192x4, .i32⟩) subi,
    StableHlo.TRef.ternary (.of main_call2_v11 : StableHlo.TRef sig ⟨S8192x4, .i1⟩) (.of main_call2_v13 : StableHlo.TRef sig ⟨S8192x4, .i32⟩) (.of main_call2_v2 : StableHlo.TRef sig ⟨S8192x4, .i32⟩) (.of main_v40 : StableHlo.TRef sig ⟨S8192x4, .i32⟩) select,
    StableHlo.nullary main_c_9 (constantI S_ 32 0#32),
    StableHlo.unary main_c_9 main_v41 (broadcastInDim S8192x1 ![] bcast_S_S8192x1 : (⟨S_, .i32⟩ : BufTy).Contents (Elt F) → (⟨S8192x1, .i32⟩ : BufTy).Contents (Elt F)),
    StableHlo.binary main_v39 main_v41 main_v42 (cmpi .slt : (⟨S8192x1, .i32⟩ : BufTy).Contents (Elt F) → (⟨S8192x1, .i32⟩ : BufTy).Contents (Elt F) → (⟨S8192x1, .i1⟩ : BufTy).Contents (Elt F)),
    StableHlo.nullary main_c_10 (constantI S_ 32 4#32),
    StableHlo.unary main_c_10 main_v43 (broadcastInDim S8192x1 ![] bcast_S_S8192x1 : (⟨S_, .i32⟩ : BufTy).Contents (Elt F) → (⟨S8192x1, .i32⟩ : BufTy).Contents (Elt F)),
    StableHlo.binary main_v39 main_v43 main_v44 (addi : (⟨S8192x1, .i32⟩ : BufTy).Contents (Elt F) → (⟨S8192x1, .i32⟩ : BufTy).Contents (Elt F) → (⟨S8192x1, .i32⟩ : BufTy).Contents (Elt F)),
    StableHlo.ternary main_v42 main_v44 main_v39 main_v45 (select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)),
    StableHlo.nullary main_c_11 (constantI S_ 32 0#32),
    StableHlo.unary main_c_11 main_v46 (broadcastInDim S8192x4 ![] bcast_S_S8192x4 : (⟨S_, .i32⟩ : BufTy).Contents (Elt F) → (⟨S8192x4, .i32⟩ : BufTy).Contents (Elt F)) ]

set_option maxRecDepth 65536 in
set_option maxHeartbeats 4000000 in
/-- The window is that straight line: each callee's definition unfolded at its call and sequencing reassociated, both
    sides are one chain of the same steps. -/
theorem part0_eq (c : Dev nD) : main_part0 (F := F) c = StableHlo.seq ops0 := by
  simp only [main_part0, fn_remainder.body, fn_where.body, fn_floor_divide.body, fn_where_0.body, StableHlo.seq, bind_assoc, pure_bind]
  <;> rfl

set_option maxRecDepth 65536 in
/-- Each operation of the window touches TensorCore references only. -/
theorem ops0_sub : (ops0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub ..,
    StableHlo.unary_bufs_sub .., StableHlo.binary_bufs_sub .., StableHlo.unary_bufs_sub .., StableHlo.unary_bufs_sub .., StableHlo.nullary_bufs_sub ..,
    StableHlo.unary_bufs_sub .., StableHlo.nullary_bufs_sub .., StableHlo.binary_bufs_sub .., StableHlo.nullary_bufs_sub .., StableHlo.ternary_bufs_sub ..,
    StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.nullary_bufs_sub .., StableHlo.binary_bufs_sub ..,
    StableHlo.unary_bufs_sub .., StableHlo.binary_bufs_sub .., StableHlo.binary_bufs_sub .., StableHlo.unary_bufs_sub .., StableHlo.binary_bufs_sub ..,
    StableHlo.ternary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub ..,
    StableHlo.binary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.unary_bufs_sub ..,
    StableHlo.ternary_bufs_sub .., StableHlo.nullary_bufs_sub .., StableHlo.unary_bufs_sub .., StableHlo.nullary_bufs_sub .., StableHlo.binary_bufs_sub ..,
    StableHlo.nullary_bufs_sub .., StableHlo.ternary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub .., StableHlo.binary_bufs_sub ..,
    StableHlo.nullary_bufs_sub .., StableHlo.binary_bufs_sub .., StableHlo.unary_bufs_sub .., StableHlo.binary_bufs_sub .., StableHlo.binary_bufs_sub ..,
    StableHlo.unary_bufs_sub .., StableHlo.binary_bufs_sub .., StableHlo.ternary_bufs_sub .., StableHlo.nullary_bufs_sub .., StableHlo.unary_bufs_sub ..,
    StableHlo.binary_bufs_sub .., StableHlo.nullary_bufs_sub .., StableHlo.unary_bufs_sub .., StableHlo.binary_bufs_sub .., StableHlo.unary_bufs_sub ..,
    StableHlo.nullary_bufs_sub .., StableHlo.unary_bufs_sub .., StableHlo.unary_bufs_sub .., StableHlo.unary_bufs_sub .., StableHlo.binary_bufs_sub ..,
    StableHlo.nullary_bufs_sub .., StableHlo.unary_bufs_sub .., StableHlo.binary_bufs_sub .., StableHlo.unary_bufs_sub .., StableHlo.nullary_bufs_sub ..,
    StableHlo.unary_bufs_sub .., StableHlo.unary_bufs_sub .., StableHlo.binary_bufs_sub .., StableHlo.unary_bufs_sub .., StableHlo.unary_bufs_sub ..,
    StableHlo.unary_bufs_sub .., StableHlo.binary_bufs_sub .., StableHlo.unary_bufs_sub .., StableHlo.binary_bufs_sub .., StableHlo.nullary_bufs_sub ..,
    StableHlo.unary_bufs_sub .., StableHlo.binary_bufs_sub .., StableHlo.binary_bufs_sub .., StableHlo.nullary_bufs_sub .., StableHlo.unary_bufs_sub ..,
    StableHlo.binary_bufs_sub .., StableHlo.ternary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.nullary_bufs_sub ..,
    StableHlo.unary_bufs_sub ..⟩

set_option maxRecDepth 65536 in
/-- Each operation of the window determines everything it writes. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

/-- Window 1 of @main, its calls unfolded: 80 operations in order. -/
abbrev ops1 : List (HloOp τ sig (Elt F)) :=
  [ StableHlo.binary main_v40 main_v46 main_v47 (cmpi .slt : (⟨S8192x4, .i32⟩ : BufTy).Contents (Elt F) → (⟨S8192x4, .i32⟩ : BufTy).Contents (Elt F) → (⟨S8192x4, .i1⟩ : BufTy).Contents (Elt F)),
    StableHlo.nullary main_c_12 (constantI S_ 32 32#32),
    StableHlo.unary main_c_12 main_v48 (broadcastInDim S8192x4 ![] bcast_S_S8192x4 : (⟨S_, .i32⟩ : BufTy).Contents (Elt F) → (⟨S8192x4, .i32⟩ : BufTy).Contents (Elt F)),
    StableHlo.binary main_v40 main_v48 main_v49 (addi : (⟨S8192x4, .i32⟩ : BufTy).Contents (Elt F) → (⟨S8192x4, .i32⟩ : BufTy).Contents (Elt F) → (⟨S8192x4, .i32⟩ : BufTy).Contents (Elt F)),
    StableHlo.ternary main_v47 main_v49 main_v40 main_v50 (select : (⟨S8192x4, .i1⟩ : BufTy).Contents (Elt F) → (⟨S8192x4, .i32⟩ : BufTy).Contents (Elt F) → (⟨S8192x4, .i32⟩ : BufTy).Contents (Elt F) → (⟨S8192x4, .i32⟩ : BufTy).Contents (Elt F)),
    StableHlo.unary main_v45 main_v51 (broadcastInDim S8192x4 ![0, 1] bcast_S8192x1_S8192x4_0_1 : (⟨S8192x1, .i32⟩ : BufTy).Contents (Elt F) → (⟨S8192x4, .i32⟩ : BufTy).Contents (Elt F)),
    StableHlo.unary main_v51 main_v52 (broadcastInDim S8192x4x1 ![0, 1] bcast_S8192x4_S8192x4x1_0_1 : (⟨S8192x4, .i32⟩ : BufTy).Contents (Elt F) → (⟨S8192x4x1, .i32⟩ : BufTy).Contents (Elt F)),
    StableHlo.unary main_v50 main_v53 (broadcastInDim S8192x4x1 ![0, 1] bcast_S8192x4_S8192x4x1_0_1 : (⟨S8192x4, .i32⟩ : BufTy).Contents (Elt F) → (⟨S8192x4x1, .i32⟩ : BufTy).Contents (Elt F)),
    StableHlo.binary main_v52 main_v53 main_v54 ((fun a b => concatenate S8192x4x2 2 [⟨S8192x4x1, a⟩, ⟨S8192x4x1, b⟩] concatenates_S8192x4x1_S8192x4x1_S8192x4x2_d2) : (⟨S8192x4x1, .i32⟩ : BufTy).Contents (Elt F) → (⟨S8192x4x1, .i32⟩ : BufTy).Contents (Elt F) → (⟨S8192x4x2, .i32⟩ : BufTy).Contents (Elt F)),
    StableHlo.binary main_arg11 main_v54 main_v55 ((fun x i => Host.gather gather_S4x32_S8192x4x2_S8192x4_n_01_n_n_01_2_11 x i) : (⟨S4x32, .i32⟩ : BufTy).Contents (Elt F) → (⟨S8192x4x2, .i32⟩ : BufTy).Contents (Elt F) → (⟨S8192x4, .i32⟩ : BufTy).Contents (Elt F)),
    StableHlo.nullary main_c_13 (constantI S_ 32 64#32),
    StableHlo.unary main_c_13 main_v56 (broadcastInDim S8192x4 ![] bcast_S_S8192x4 : (⟨S_, .i32⟩ : BufTy).Contents (Elt F) → (⟨S8192x4, .i32⟩ : BufTy).Contents (Elt F)),
    StableHlo.binary main_v55 main_v56 main_v57 (muli : (⟨S8192x4, .i32⟩ : BufTy).Contents (Elt F) → (⟨S8192x4, .i32⟩ : BufTy).Contents (Elt F) → (⟨S8192x4, .i32⟩ : BufTy).Contents (Elt F)),
    StableHlo.nullary main_c_14 (constantI S_ 32 64#32),
    StableHlo.TRef.unary (.of main_c_14 : StableHlo.TRef sig ⟨S_, .i32⟩) (.of main_call3_v0 : StableHlo.TRef sig ⟨S_, .i32⟩) id,
    StableHlo.TRef.nullary (.of main_call3_c : StableHlo.TRef sig ⟨S_, .i32⟩) (constantI S_ 32 0#32),
    StableHlo.TRef.binary (.of main_call3_v0 : StableHlo.TRef sig ⟨S_, .i32⟩) (.of main_call3_c : StableHlo.TRef sig ⟨S_, .i32⟩) (.of main_call3_v1 : StableHlo.TRef sig ⟨S_, .i1⟩) (cmpi .eq),
    StableHlo.TRef.nullary (.of main_call3_c_0 : StableHlo.TRef sig ⟨S_, .i32⟩) (constantI S_ 32 1#32),
    StableHlo.TRef.ternary (.of main_call3_v1 : StableHlo.TRef sig ⟨S_, .i1⟩) (.of main_call3_c_0 : StableHlo.TRef sig ⟨S_, .i32⟩) (.of main_call3_v0 : StableHlo.TRef sig ⟨S_, .i32⟩) (.of main_call3_v2 : StableHlo.TRef sig ⟨S_, .i32⟩) select,
    StableHlo.TRef.unary (.of main_call3_v2 : StableHlo.TRef sig ⟨S_, .i32⟩) (.of main_call3_v3 : StableHlo.TRef sig ⟨S8192x4, .i32⟩) (broadcastInDim S8192x4 ![] bcast_S_S8192x4),
    StableHlo.TRef.binary (.of main_v38 : StableHlo.TRef sig ⟨S8192x4, .i32⟩) (.of main_call3_v3 : StableHlo.TRef sig ⟨S8192x4, .i32⟩) (.of main_call3_v4 : StableHlo.TRef sig ⟨S8192x4, .i32⟩) Host.remsi,
    StableHlo.TRef.nullary (.of main_call3_c_1 : StableHlo.TRef sig ⟨S_, .i32⟩) (constantI S_ 32 0#32),
    StableHlo.TRef.unary (.of main_call3_c_1 : StableHlo.TRef sig ⟨S_, .i32⟩) (.of main_call3_v5 : StableHlo.TRef sig ⟨S8192x4, .i32⟩) (broadcastInDim S8192x4 ![] bcast_S_S8192x4),
    StableHlo.TRef.binary (.of main_call3_v4 : StableHlo.TRef sig ⟨S8192x4, .i32⟩) (.of main_call3_v5 : StableHlo.TRef sig ⟨S8192x4, .i32⟩) (.of main_call3_v6 : StableHlo.TRef sig ⟨S8192x4, .i1⟩) (cmpi .ne),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v7 : StableHlo.TRef sig ⟨S8192x4, .i32⟩) (broadcastInDim S8192x4 ![] bcast_S_S8192x4),
    StableHlo.TRef.binary (.of main_call3_v4 : StableHlo.TRef sig ⟨S8192x4, .i32⟩) (.of main_call3_v7 : StableHlo.TRef sig ⟨S8192x4, .i32⟩) (.of main_call3_v8 : StableHlo.TRef sig ⟨S8192x4, .i1⟩) (cmpi .slt),
    StableHlo.TRef.nullary (.of main_call3_c_3 : StableHlo.TRef sig ⟨S_, .i32⟩) (constantI S_ 32 0#32),
    StableHlo.TRef.binary (.of main_call3_v2 : StableHlo.TRef sig ⟨S_, .i32⟩) (.of main_call3_c_3 : StableHlo.TRef sig ⟨S_, .i32⟩) (.of main_call3_v9 : StableHlo.TRef sig ⟨S_, .i1⟩) (cmpi .slt),
    StableHlo.TRef.unary (.of main_call3_v9 : StableHlo.TRef sig ⟨S_, .i1⟩) (.of main_call3_v10 : StableHlo.TRef sig ⟨S8192x4, .i1⟩) (broadcastInDim S8192x4 ![] bcast_S_S8192x4),
    StableHlo.TRef.binary (.of main_call3_v8 : StableHlo.TRef sig ⟨S8192x4, .i1⟩) (.of main_call3_v10 : StableHlo.TRef sig ⟨S8192x4, .i1⟩) (.of main_call3_v11 : StableHlo.TRef sig ⟨S8192x4, .i1⟩) (cmpi .ne),
    StableHlo.TRef.binary (.of main_call3_v11 : StableHlo.TRef sig ⟨S8192x4, .i1⟩) (.of main_call3_v6 : StableHlo.TRef sig ⟨S8192x4, .i1⟩) (.of main_call3_v12 : StableHlo.TRef sig ⟨S8192x4, .i1⟩) andi,
    StableHlo.TRef.unary (.of main_call3_v2 : StableHlo.TRef sig ⟨S_, .i32⟩) (.of main_call3_v13 : StableHlo.TRef sig ⟨S8192x4, .i32⟩) (broadcastInDim S8192x4 ![] bcast_S_S8192x4),
    StableHlo.TRef.binary (.of main_call3_v4 : StableHlo.TRef sig ⟨S8192x4, .i32⟩) (.of main_call3_v13 : StableHlo.TRef sig ⟨S8192x4, .i32⟩) (.of main_call3_v14 : StableHlo.TRef sig ⟨S8192x4, .i32⟩) addi,
    StableHlo.TRef.ternary (.of main_call3_v12 : StableHlo.TRef sig ⟨S8192x4, .i1⟩) (.of main_call3_v14 : StableHlo.TRef sig ⟨S8192x4, .i32⟩) (.of main_call3_v4 : StableHlo.TRef sig ⟨S8192x4, .i32⟩) (.of main_v58 : StableHlo.TRef sig ⟨S8192x4, .i32⟩) select,
    StableHlo.binary main_v57 main_v58 main_v59 (addi : (⟨S8192x4, .i32⟩ : BufTy).Contents (Elt F) → (⟨S8192x4, .i32⟩ : BufTy).Contents (Elt F) → (⟨S8192x4, .i32⟩ : BufTy).Contents (Elt F)),
    StableHlo.nullary main_c_15 (constantI S_ 32 0#32),
    StableHlo.unary main_c_15 main_v60 (broadcastInDim S8192x4 ![] bcast_S_S8192x4 : (⟨S_, .i32⟩ : BufTy).Contents (Elt F) → (⟨S8192x4, .i32⟩ : BufTy).Contents (Elt F)),
    StableHlo.binary main_v59 main_v60 main_v61 (cmpi .slt : (⟨S8192x4, .i32⟩ : BufTy).Contents (Elt F) → (⟨S8192x4, .i32⟩ : BufTy).Contents (Elt F) → (⟨S8192x4, .i1⟩ : BufTy).Contents (Elt F)),
    StableHlo.nullary main_c_16 (constantI S_ 32 8192#32),
    StableHlo.unary main_c_16 main_v62 (broadcastInDim S8192x4 ![] bcast_S_S8192x4 : (⟨S_, .i32⟩ : BufTy).Contents (Elt F) → (⟨S8192x4, .i32⟩ : BufTy).Contents (Elt F)),
    StableHlo.binary main_v59 main_v62 main_v63 (addi : (⟨S8192x4, .i32⟩ : BufTy).Contents (Elt F) → (⟨S8192x4, .i32⟩ : BufTy).Contents (Elt F) → (⟨S8192x4, .i32⟩ : BufTy).Contents (Elt F)),
    StableHlo.ternary main_v61 main_v63 main_v59 main_v64 (select : (⟨S8192x4, .i1⟩ : BufTy).Contents (Elt F) → (⟨S8192x4, .i32⟩ : BufTy).Contents (Elt F) → (⟨S8192x4, .i32⟩ : BufTy).Contents (Elt F) → (⟨S8192x4, .i32⟩ : BufTy).Contents (Elt F)),
    StableHlo.unary main_v64 main_v65 (broadcastInDim S8192x4x1 ![0, 1] bcast_S8192x4_S8192x4x1_0_1 : (⟨S8192x4, .i32⟩ : BufTy).Contents (Elt F) → (⟨S8192x4x1, .i32⟩ : BufTy).Contents (Elt F)),
    StableHlo.binary main_v25 main_v65 main_v66 ((fun x i => Host.gather gather_S8192x1024_S8192x4x1_S8192x4x1024_2_0_n_n_0_2_11024 x i) : (⟨S8192x1024, .f32⟩ : BufTy).Contents (Elt F) → (⟨S8192x4x1, .i32⟩ : BufTy).Contents (Elt F) → (⟨S8192x4x1024, .f32⟩ : BufTy).Contents (Elt F)),
    StableHlo.unary main_v66 main_v67 ((extractStridedSlice S8192x4x512 ![0, 0, 0] · slices_S8192x4x1024_S8192x4x512_0_0_0) : (⟨S8192x4x1024, .f32⟩ : BufTy).Contents (Elt F) → (⟨S8192x4x512, .f32⟩ : BufTy).Contents (Elt F)),
    StableHlo.unary main_v66 main_v68 ((extractStridedSlice S8192x4x512 ![0, 0, 512] · slices_S8192x4x1024_S8192x4x512_0_0_512) : (⟨S8192x4x1024, .f32⟩ : BufTy).Contents (Elt F) → (⟨S8192x4x512, .f32⟩ : BufTy).Contents (Elt F)),
    StableHlo.nullary main_cst (constant S_ .f32 0xFF800000#32),
    StableHlo.binary main_v68 main_cst main_v69 ((fun x v => Host.reduce FloatOps.maximumf x v reducesTo_S8192x4x512_S8192x512_d1 h_S_) : (⟨S8192x4x512, .f32⟩ : BufTy).Contents (Elt F) → (⟨S_, .f32⟩ : BufTy).Contents (Elt F) → (⟨S8192x512, .f32⟩ : BufTy).Contents (Elt F)),
    StableHlo.nullary main_cst_17 (constant S_ .f32 0xFF800000#32),
    StableHlo.unary main_cst_17 main_v70 (broadcastInDim S8192x512 ![] bcast_S_S8192x512 : (⟨S_, .f32⟩ : BufTy).Contents (Elt F) → (⟨S8192x512, .f32⟩ : BufTy).Contents (Elt F)),
    StableHlo.binary main_v70 main_v69 main_v71 (maximumf : (⟨S8192x512, .f32⟩ : BufTy).Contents (Elt F) → (⟨S8192x512, .f32⟩ : BufTy).Contents (Elt F) → (⟨S8192x512, .f32⟩ : BufTy).Contents (Elt F)),
    StableHlo.unary main_v71 main_v72 (broadcastInDim S8192x1x512 ![0, 2] bcast_S8192x512_S8192x1x512_0_2 : (⟨S8192x512, .f32⟩ : BufTy).Contents (Elt F) → (⟨S8192x1x512, .f32⟩ : BufTy).Contents (Elt F)),
    StableHlo.unary main_v72 main_v73 (broadcastInDim S8192x4x512 ![0, 1, 2] bcast_S8192x1x512_S8192x4x512_0_1_2 : (⟨S8192x1x512, .f32⟩ : BufTy).Contents (Elt F) → (⟨S8192x4x512, .f32⟩ : BufTy).Contents (Elt F)),
    StableHlo.binary main_v68 main_v73 main_v74 (subf : (⟨S8192x4x512, .f32⟩ : BufTy).Contents (Elt F) → (⟨S8192x4x512, .f32⟩ : BufTy).Contents (Elt F) → (⟨S8192x4x512, .f32⟩ : BufTy).Contents (Elt F)),
    StableHlo.unary main_v74 main_v75 (Host.exp : (⟨S8192x4x512, .f32⟩ : BufTy).Contents (Elt F) → (⟨S8192x4x512, .f32⟩ : BufTy).Contents (Elt F)),
    StableHlo.nullary main_cst_18 (constant S_ .f32 0x00000000#32),
    StableHlo.binary main_v75 main_cst_18 main_v76 ((fun x v => Host.reduceAdd x v reducesTo_S8192x4x512_S8192x512_d1 h_S_) : (⟨S8192x4x512, .f32⟩ : BufTy).Contents (Elt F) → (⟨S_, .f32⟩ : BufTy).Contents (Elt F) → (⟨S8192x512, .f32⟩ : BufTy).Contents (Elt F)),
    StableHlo.unary main_v76 main_v77 (broadcastInDim S8192x1x512 ![0, 2] bcast_S8192x512_S8192x1x512_0_2 : (⟨S8192x512, .f32⟩ : BufTy).Contents (Elt F) → (⟨S8192x1x512, .f32⟩ : BufTy).Contents (Elt F)),
    StableHlo.unary main_v77 main_v78 (broadcastInDim S8192x4x512 ![0, 1, 2] bcast_S8192x1x512_S8192x4x512_0_1_2 : (⟨S8192x1x512, .f32⟩ : BufTy).Contents (Elt F) → (⟨S8192x4x512, .f32⟩ : BufTy).Contents (Elt F)),
    StableHlo.binary main_v75 main_v78 main_v79 (Host.divf : (⟨S8192x4x512, .f32⟩ : BufTy).Contents (Elt F) → (⟨S8192x4x512, .f32⟩ : BufTy).Contents (Elt F) → (⟨S8192x4x512, .f32⟩ : BufTy).Contents (Elt F)),
    StableHlo.binary main_v79 main_v67 main_v80 (mulf : (⟨S8192x4x512, .f32⟩ : BufTy).Contents (Elt F) → (⟨S8192x4x512, .f32⟩ : BufTy).Contents (Elt F) → (⟨S8192x4x512, .f32⟩ : BufTy).Contents (Elt F)),
    StableHlo.nullary main_cst_19 (constant S_ .f32 0x00000000#32),
    StableHlo.binary main_v80 main_cst_19 main_v81 ((fun x v => Host.reduceAdd x v reducesTo_S8192x4x512_S8192x512_d1 h_S_) : (⟨S8192x4x512, .f32⟩ : BufTy).Contents (Elt F) → (⟨S_, .f32⟩ : BufTy).Contents (Elt F) → (⟨S8192x512, .f32⟩ : BufTy).Contents (Elt F)),
    StableHlo.reshape main_v81 main_v82 rfl shapeCasts_S8192x512_S8192x2x256,
    StableHlo.binary main_v82 main_v82 main_v83 (mulf : (⟨S8192x2x256, .f32⟩ : BufTy).Contents (Elt F) → (⟨S8192x2x256, .f32⟩ : BufTy).Contents (Elt F) → (⟨S8192x2x256, .f32⟩ : BufTy).Contents (Elt F)),
    StableHlo.nullary main_cst_20 (constant S_ .f32 0x00000000#32),
    StableHlo.binary main_v83 main_cst_20 main_v84 ((fun x v => Host.reduceAdd x v reducesTo_S8192x2x256_S8192x2_d2 h_S_) : (⟨S8192x2x256, .f32⟩ : BufTy).Contents (Elt F) → (⟨S_, .f32⟩ : BufTy).Contents (Elt F) → (⟨S8192x2, .f32⟩ : BufTy).Contents (Elt F)),
    StableHlo.unary main_v84 main_v85 (broadcastInDim S8192x2x1 ![0, 1] bcast_S8192x2_S8192x2x1_0_1 : (⟨S8192x2, .f32⟩ : BufTy).Contents (Elt F) → (⟨S8192x2x1, .f32⟩ : BufTy).Contents (Elt F)),
    StableHlo.nullary main_cst_21 (constant S_ .f32 0x43800000#32),
    StableHlo.unary main_cst_21 main_v86 (broadcastInDim S8192x2x1 ![] bcast_S_S8192x2x1 : (⟨S_, .f32⟩ : BufTy).Contents (Elt F) → (⟨S8192x2x1, .f32⟩ : BufTy).Contents (Elt F)),
    StableHlo.binary main_v85 main_v86 main_v87 (Host.divf : (⟨S8192x2x1, .f32⟩ : BufTy).Contents (Elt F) → (⟨S8192x2x1, .f32⟩ : BufTy).Contents (Elt F) → (⟨S8192x2x1, .f32⟩ : BufTy).Contents (Elt F)),
    StableHlo.nullary main_cst_22 (constant S_ .f32 0x358637BD#32),
    StableHlo.unary main_cst_22 main_v88 (broadcastInDim S8192x2x1 ![] bcast_S_S8192x2x1 : (⟨S_, .f32⟩ : BufTy).Contents (Elt F) → (⟨S8192x2x1, .f32⟩ : BufTy).Contents (Elt F)),
    StableHlo.binary main_v87 main_v88 main_v89 (addf : (⟨S8192x2x1, .f32⟩ : BufTy).Contents (Elt F) → (⟨S8192x2x1, .f32⟩ : BufTy).Contents (Elt F) → (⟨S8192x2x1, .f32⟩ : BufTy).Contents (Elt F)),
    StableHlo.unary main_v89 main_v90 (Host.rsqrt : (⟨S8192x2x1, .f32⟩ : BufTy).Contents (Elt F) → (⟨S8192x2x1, .f32⟩ : BufTy).Contents (Elt F)),
    StableHlo.unary main_v90 main_v91 (broadcastInDim S8192x2x256 ![0, 1, 2] bcast_S8192x2x1_S8192x2x256_0_1_2 : (⟨S8192x2x1, .f32⟩ : BufTy).Contents (Elt F) → (⟨S8192x2x256, .f32⟩ : BufTy).Contents (Elt F)),
    StableHlo.binary main_v82 main_v91 main_v92 (mulf : (⟨S8192x2x256, .f32⟩ : BufTy).Contents (Elt F) → (⟨S8192x2x256, .f32⟩ : BufTy).Contents (Elt F) → (⟨S8192x2x256, .f32⟩ : BufTy).Contents (Elt F)),
    StableHlo.unary main_arg4 main_v93 (broadcastInDim S1x1x256 ![2] bcast_S256_S1x1x256_2 : (⟨S256, .f32⟩ : BufTy).Contents (Elt F) → (⟨S1x1x256, .f32⟩ : BufTy).Contents (Elt F)),
    StableHlo.unary main_v93 main_v94 (broadcastInDim S8192x2x256 ![0, 1, 2] bcast_S1x1x256_S8192x2x256_0_1_2 : (⟨S1x1x256, .f32⟩ : BufTy).Contents (Elt F) → (⟨S8192x2x256, .f32⟩ : BufTy).Contents (Elt F)) ]

set_option maxRecDepth 65536 in
set_option maxHeartbeats 4000000 in
/-- The window is that straight line: each callee's definition unfolded at its call and sequencing reassociated, both
    sides are one chain of the same steps. -/
theorem part1_eq (c : Dev nD) : main_part1 (F := F) c = StableHlo.seq ops1 := by
  simp only [main_part1, fn_remainder_1.body, fn_where.body, StableHlo.seq, bind_assoc, pure_bind]
  <;> rfl

set_option maxRecDepth 65536 in
/-- Each operation of the window touches TensorCore references only. -/
theorem ops1_sub : (ops1 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.ternary_bufs_sub ..,
    StableHlo.unary_bufs_sub .., StableHlo.unary_bufs_sub .., StableHlo.unary_bufs_sub .., StableHlo.binary_bufs_sub .., StableHlo.binary_bufs_sub ..,
    StableHlo.nullary_bufs_sub .., StableHlo.unary_bufs_sub .., StableHlo.binary_bufs_sub .., StableHlo.nullary_bufs_sub .., StableHlo.unary_bufs_sub ..,
    StableHlo.nullary_bufs_sub .., StableHlo.binary_bufs_sub .., StableHlo.nullary_bufs_sub .., StableHlo.ternary_bufs_sub .., StableHlo.unary_bufs_sub ..,
    StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.nullary_bufs_sub .., StableHlo.binary_bufs_sub .., StableHlo.unary_bufs_sub ..,
    StableHlo.binary_bufs_sub .., StableHlo.binary_bufs_sub .., StableHlo.unary_bufs_sub .., StableHlo.binary_bufs_sub .., StableHlo.ternary_bufs_sub ..,
    StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub ..,
    StableHlo.unary_bufs_sub .., StableHlo.unary_bufs_sub .., StableHlo.nullary_bufs_sub .., StableHlo.binary_bufs_sub .., StableHlo.nullary_bufs_sub ..,
    StableHlo.unary_bufs_sub .., StableHlo.binary_bufs_sub .., StableHlo.unary_bufs_sub .., StableHlo.unary_bufs_sub .., StableHlo.binary_bufs_sub ..,
    StableHlo.unary_bufs_sub .., StableHlo.nullary_bufs_sub .., StableHlo.binary_bufs_sub .., StableHlo.unary_bufs_sub .., StableHlo.unary_bufs_sub ..,
    StableHlo.binary_bufs_sub .., StableHlo.binary_bufs_sub .., StableHlo.nullary_bufs_sub .., StableHlo.binary_bufs_sub .., StableHlo.reshape_bufs_sub ..,
    StableHlo.binary_bufs_sub .., StableHlo.nullary_bufs_sub .., StableHlo.binary_bufs_sub .., StableHlo.unary_bufs_sub .., StableHlo.nullary_bufs_sub ..,
    StableHlo.unary_bufs_sub .., StableHlo.binary_bufs_sub .., StableHlo.nullary_bufs_sub .., StableHlo.unary_bufs_sub .., StableHlo.binary_bufs_sub ..,
    StableHlo.unary_bufs_sub .., StableHlo.unary_bufs_sub .., StableHlo.binary_bufs_sub .., StableHlo.unary_bufs_sub .., StableHlo.unary_bufs_sub ..⟩

set_option maxRecDepth 65536 in
/-- Each operation of the window determines everything it writes. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

/-- Window 2 of @main, its calls unfolded: 63 operations in order. -/
abbrev ops2 : List (HloOp τ sig (Elt F)) :=
  [ StableHlo.binary main_v92 main_v94 main_v95 (mulf : (⟨S8192x2x256, .f32⟩ : BufTy).Contents (Elt F) → (⟨S8192x2x256, .f32⟩ : BufTy).Contents (Elt F) → (⟨S8192x2x256, .f32⟩ : BufTy).Contents (Elt F)),
    StableHlo.nullary main_c_23 (constantI S_ 32 4#32),
    StableHlo.TRef.unary (.of main_c_23 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S8192, .i32⟩) (broadcastInDim S8192 ![] bcast_S_S8192),
    StableHlo.TRef.binary (.of main_arg8 : StableHlo.TRef sig ⟨S8192, .i32⟩) (.of main_call4_v1 : StableHlo.TRef sig ⟨S8192, .i32⟩) (.of main_call4_v2 : StableHlo.TRef sig ⟨S8192, .i32⟩) Host.divsi,
    StableHlo.TRef.unary (.of main_arg8 : StableHlo.TRef sig ⟨S8192, .i32⟩) (.of main_call4_v3 : StableHlo.TRef sig ⟨S8192, .i32⟩) signi,
    StableHlo.TRef.unary (.of main_call4_v0 : StableHlo.TRef sig ⟨S_, .i32⟩) (.of main_call4_v4 : StableHlo.TRef sig ⟨S_, .i32⟩) signi,
    StableHlo.TRef.unary (.of main_call4_v4 : StableHlo.TRef sig ⟨S_, .i32⟩) (.of main_call4_v5 : StableHlo.TRef sig ⟨S8192, .i32⟩) (broadcastInDim S8192 ![] bcast_S_S8192),
    StableHlo.TRef.binary (.of main_call4_v3 : StableHlo.TRef sig ⟨S8192, .i32⟩) (.of main_call4_v5 : StableHlo.TRef sig ⟨S8192, .i32⟩) (.of main_call4_v6 : StableHlo.TRef sig ⟨S8192, .i1⟩) (cmpi .ne),
    StableHlo.TRef.unary (.of main_call4_v0 : StableHlo.TRef sig ⟨S_, .i32⟩) (.of main_call4_v7 : StableHlo.TRef sig ⟨S8192, .i32⟩) (broadcastInDim S8192 ![] bcast_S_S8192),
    StableHlo.TRef.binary (.of main_arg8 : StableHlo.TRef sig ⟨S8192, .i32⟩) (.of main_call4_v7 : StableHlo.TRef sig ⟨S8192, .i32⟩) (.of main_call4_v8 : StableHlo.TRef sig ⟨S8192, .i32⟩) Host.remsi,
    StableHlo.TRef.nullary (.of main_call4_c : StableHlo.TRef sig ⟨S_, .i32⟩) (constantI S_ 32 0#32),
    StableHlo.TRef.unary (.of main_call4_c : StableHlo.TRef sig ⟨S_, .i32⟩) (.of main_call4_v9 : StableHlo.TRef sig ⟨S8192, .i32⟩) (broadcastInDim S8192 ![] bcast_S_S8192),
    StableHlo.TRef.binary (.of main_call4_v8 : StableHlo.TRef sig ⟨S8192, .i32⟩) (.of main_call4_v9 : StableHlo.TRef sig ⟨S8192, .i32⟩) (.of main_call4_v10 : StableHlo.TRef sig ⟨S8192, .i1⟩) (cmpi .ne),
    StableHlo.TRef.binary (.of main_call4_v6 : StableHlo.TRef sig ⟨S8192, .i1⟩) (.of main_call4_v10 : StableHlo.TRef sig ⟨S8192, .i1⟩) (.of main_call4_v11 : StableHlo.TRef sig ⟨S8192, .i1⟩) andi,
    StableHlo.TRef.nullary (.of main_call4_c_0 : StableHlo.TRef sig ⟨S_, .i32⟩) (constantI S_ 32 1#32),
    StableHlo.TRef.unary (.of main_call4_c_0 : StableHlo.TRef sig ⟨S_, .i32⟩) (.of main_call4_v12 : StableHlo.TRef sig ⟨S8192, .i32⟩) (broadcastInDim S8192 ![] bcast_S_S8192),
    StableHlo.TRef.binary (.of main_call4_v2 : StableHlo.TRef sig ⟨S8192, .i32⟩) (.of main_call4_v12 : StableHlo.TRef sig ⟨S8192, .i32⟩) (.of main_call4_v13 : StableHlo.TRef sig ⟨S8192, .i32⟩) subi,
    StableHlo.TRef.ternary (.of main_call4_v11 : StableHlo.TRef sig ⟨S8192, .i1⟩) (.of main_call4_v13 : StableHlo.TRef sig ⟨S8192, .i32⟩) (.of main_call4_v2 : StableHlo.TRef sig ⟨S8192, .i32⟩) (.of main_v96 : StableHlo.TRef sig ⟨S8192, .i32⟩) select,
    StableHlo.nullary main_c_24 (constantI S_ 32 0#32),
    StableHlo.unary main_c_24 main_v97 (broadcastInDim S8192 ![] bcast_S_S8192 : (⟨S_, .i32⟩ : BufTy).Contents (Elt F) → (⟨S8192, .i32⟩ : BufTy).Contents (Elt F)),
    StableHlo.binary main_v96 main_v97 main_v98 (cmpi .slt : (⟨S8192, .i32⟩ : BufTy).Contents (Elt F) → (⟨S8192, .i32⟩ : BufTy).Contents (Elt F) → (⟨S8192, .i1⟩ : BufTy).Contents (Elt F)),
    StableHlo.nullary main_c_25 (constantI S_ 32 512#32),
    StableHlo.unary main_c_25 main_v99 (broadcastInDim S8192 ![] bcast_S_S8192 : (⟨S_, .i32⟩ : BufTy).Contents (Elt F) → (⟨S8192, .i32⟩ : BufTy).Contents (Elt F)),
    StableHlo.binary main_v96 main_v99 main_v100 (addi : (⟨S8192, .i32⟩ : BufTy).Contents (Elt F) → (⟨S8192, .i32⟩ : BufTy).Contents (Elt F) → (⟨S8192, .i32⟩ : BufTy).Contents (Elt F)),
    StableHlo.ternary main_v98 main_v100 main_v96 main_v101 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v101 main_v102 (broadcastInDim S8192x1 ![0] bcast_S8192_S8192x1_0 : (⟨S8192, .i32⟩ : BufTy).Contents (Elt F) → (⟨S8192x1, .i32⟩ : BufTy).Contents (Elt F)),
    StableHlo.binary main_arg5 main_v102 main_v103 ((fun x i => Host.gather gather_S512x256_S8192x1_S8192x256_1_0_n_n_0_1_1256 x i) : (⟨S512x256, .f32⟩ : BufTy).Contents (Elt F) → (⟨S8192x1, .i32⟩ : BufTy).Contents (Elt F) → (⟨S8192x256, .f32⟩ : BufTy).Contents (Elt F)),
    StableHlo.unary main_v103 main_v104 ((extractStridedSlice S8192x128 ![0, 0] · slices_S8192x256_S8192x128_0_0) : (⟨S8192x256, .f32⟩ : BufTy).Contents (Elt F) → (⟨S8192x128, .f32⟩ : BufTy).Contents (Elt F)),
    StableHlo.unary main_v104 main_v105 (broadcastInDim S8192x1x128 ![0, 2] bcast_S8192x128_S8192x1x128_0_2 : (⟨S8192x128, .f32⟩ : BufTy).Contents (Elt F) → (⟨S8192x1x128, .f32⟩ : BufTy).Contents (Elt F)),
    StableHlo.unary main_v103 main_v106 ((extractStridedSlice S8192x128 ![0, 128] · slices_S8192x256_S8192x128_0_128) : (⟨S8192x256, .f32⟩ : BufTy).Contents (Elt F) → (⟨S8192x128, .f32⟩ : BufTy).Contents (Elt F)),
    StableHlo.unary main_v106 main_v107 (broadcastInDim S8192x1x128 ![0, 2] bcast_S8192x128_S8192x1x128_0_2 : (⟨S8192x128, .f32⟩ : BufTy).Contents (Elt F) → (⟨S8192x1x128, .f32⟩ : BufTy).Contents (Elt F)),
    StableHlo.unary main_v95 main_v108 ((extractStridedSlice S8192x2x128 ![0, 0, 0] · slices_S8192x2x256_S8192x2x128_0_0_0) : (⟨S8192x2x256, .f32⟩ : BufTy).Contents (Elt F) → (⟨S8192x2x128, .f32⟩ : BufTy).Contents (Elt F)),
    StableHlo.unary main_v95 main_v109 ((extractStridedSlice S8192x2x128 ![0, 0, 128] · slices_S8192x2x256_S8192x2x128_0_0_128) : (⟨S8192x2x256, .f32⟩ : BufTy).Contents (Elt F) → (⟨S8192x2x128, .f32⟩ : BufTy).Contents (Elt F)),
    StableHlo.unary main_v105 main_v110 (broadcastInDim S8192x2x128 ![0, 1, 2] bcast_S8192x1x128_S8192x2x128_0_1_2 : (⟨S8192x1x128, .f32⟩ : BufTy).Contents (Elt F) → (⟨S8192x2x128, .f32⟩ : BufTy).Contents (Elt F)),
    StableHlo.binary main_v108 main_v110 main_v111 (mulf : (⟨S8192x2x128, .f32⟩ : BufTy).Contents (Elt F) → (⟨S8192x2x128, .f32⟩ : BufTy).Contents (Elt F) → (⟨S8192x2x128, .f32⟩ : BufTy).Contents (Elt F)),
    StableHlo.unary main_v107 main_v112 (broadcastInDim S8192x2x128 ![0, 1, 2] bcast_S8192x1x128_S8192x2x128_0_1_2 : (⟨S8192x1x128, .f32⟩ : BufTy).Contents (Elt F) → (⟨S8192x2x128, .f32⟩ : BufTy).Contents (Elt F)),
    StableHlo.binary main_v109 main_v112 main_v113 (mulf : (⟨S8192x2x128, .f32⟩ : BufTy).Contents (Elt F) → (⟨S8192x2x128, .f32⟩ : BufTy).Contents (Elt F) → (⟨S8192x2x128, .f32⟩ : BufTy).Contents (Elt F)),
    StableHlo.binary main_v111 main_v113 main_v114 (subf : (⟨S8192x2x128, .f32⟩ : BufTy).Contents (Elt F) → (⟨S8192x2x128, .f32⟩ : BufTy).Contents (Elt F) → (⟨S8192x2x128, .f32⟩ : BufTy).Contents (Elt F)),
    StableHlo.unary main_v105 main_v115 (broadcastInDim S8192x2x128 ![0, 1, 2] bcast_S8192x1x128_S8192x2x128_0_1_2 : (⟨S8192x1x128, .f32⟩ : BufTy).Contents (Elt F) → (⟨S8192x2x128, .f32⟩ : BufTy).Contents (Elt F)),
    StableHlo.binary main_v109 main_v115 main_v116 (mulf : (⟨S8192x2x128, .f32⟩ : BufTy).Contents (Elt F) → (⟨S8192x2x128, .f32⟩ : BufTy).Contents (Elt F) → (⟨S8192x2x128, .f32⟩ : BufTy).Contents (Elt F)),
    StableHlo.unary main_v107 main_v117 (broadcastInDim S8192x2x128 ![0, 1, 2] bcast_S8192x1x128_S8192x2x128_0_1_2 : (⟨S8192x1x128, .f32⟩ : BufTy).Contents (Elt F) → (⟨S8192x2x128, .f32⟩ : BufTy).Contents (Elt F)),
    StableHlo.binary main_v108 main_v117 main_v118 (mulf : (⟨S8192x2x128, .f32⟩ : BufTy).Contents (Elt F) → (⟨S8192x2x128, .f32⟩ : BufTy).Contents (Elt F) → (⟨S8192x2x128, .f32⟩ : BufTy).Contents (Elt F)),
    StableHlo.binary main_v116 main_v118 main_v119 (addf : (⟨S8192x2x128, .f32⟩ : BufTy).Contents (Elt F) → (⟨S8192x2x128, .f32⟩ : BufTy).Contents (Elt F) → (⟨S8192x2x128, .f32⟩ : BufTy).Contents (Elt F)),
    StableHlo.binary main_v114 main_v119 main_v120 ((fun a b => concatenate S8192x2x256 2 [⟨S8192x2x128, a⟩, ⟨S8192x2x128, b⟩] concatenates_S8192x2x128_S8192x2x128_S8192x2x256_d2) : (⟨S8192x2x128, .f32⟩ : BufTy).Contents (Elt F) → (⟨S8192x2x128, .f32⟩ : BufTy).Contents (Elt F) → (⟨S8192x2x256, .f32⟩ : BufTy).Contents (Elt F)),
    StableHlo.reshape main_v120 main_v121 rfl shapeCasts_S8192x2x256_S8192x512,
    StableHlo.nullary main_c_26 (constantI S_ 32 2048#32),
    StableHlo.TRef.unary (.of main_c_26 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S8192, .i32⟩) (broadcastInDim S8192 ![] bcast_S_S8192),
    StableHlo.TRef.ternary (.of main_v28 : StableHlo.TRef sig ⟨S8192, .i1⟩) (.of main_arg12 : StableHlo.TRef sig ⟨S8192, .i32⟩) (.of main_call5_v1 : StableHlo.TRef sig ⟨S8192, .i32⟩) (.of main_v122 : StableHlo.TRef sig ⟨S8192, .i32⟩) select,
    StableHlo.nullary main_cst_27 (constant S_ .f32 0x00000000#32),
    StableHlo.unary main_cst_27 main_v123 (broadcastInDim S1x512 ![] bcast_S_S1x512 : (⟨S_, .f32⟩ : BufTy).Contents (Elt F) → (⟨S1x512, .f32⟩ : BufTy).Contents (Elt F)),
    StableHlo.binary main_arg7 main_v123 main_v124 ((fun a b => concatenate S2049x512 0 [⟨S2048x512, a⟩, ⟨S1x512, b⟩] concatenates_S2048x512_S1x512_S2049x512_d0) : (⟨S2048x512, .f32⟩ : BufTy).Contents (Elt F) → (⟨S1x512, .f32⟩ : BufTy).Contents (Elt F) → (⟨S2049x512, .f32⟩ : BufTy).Contents (Elt F)),
    StableHlo.nullary main_c_28 (constantI S_ 32 0#32),
    StableHlo.unary main_c_28 main_v125 (broadcastInDim S8192 ![] bcast_S_S8192 : (⟨S_, .i32⟩ : BufTy).Contents (Elt F) → (⟨S8192, .i32⟩ : BufTy).Contents (Elt F)),
    StableHlo.binary main_v122 main_v125 main_v126 (cmpi .slt : (⟨S8192, .i32⟩ : BufTy).Contents (Elt F) → (⟨S8192, .i32⟩ : BufTy).Contents (Elt F) → (⟨S8192, .i1⟩ : BufTy).Contents (Elt F)),
    StableHlo.nullary main_c_29 (constantI S_ 32 2049#32),
    StableHlo.unary main_c_29 main_v127 (broadcastInDim S8192 ![] bcast_S_S8192 : (⟨S_, .i32⟩ : BufTy).Contents (Elt F) → (⟨S8192, .i32⟩ : BufTy).Contents (Elt F)),
    StableHlo.binary main_v122 main_v127 main_v128 (addi : (⟨S8192, .i32⟩ : BufTy).Contents (Elt F) → (⟨S8192, .i32⟩ : BufTy).Contents (Elt F) → (⟨S8192, .i32⟩ : BufTy).Contents (Elt F)),
    StableHlo.ternary main_v126 main_v128 main_v122 main_v129 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v129 main_v130 (broadcastInDim S8192x1 ![0] bcast_S8192_S8192x1_0 : (⟨S8192, .i32⟩ : BufTy).Contents (Elt F) → (⟨S8192x1, .i32⟩ : BufTy).Contents (Elt F)),
    StableHlo.ternary main_v124 main_v130 main_v121 main_v131 ((fun x i u => Host.scatter scatter_S2049x512_S8192x1_S8192x512_1_0_0_1 (fun _ b => b) x i u) : (⟨S2049x512, .f32⟩ : BufTy).Contents (Elt F) → (⟨S8192x1, .i32⟩ : BufTy).Contents (Elt F) → (⟨S8192x512, .f32⟩ : BufTy).Contents (Elt F) → (⟨S2049x512, .f32⟩ : BufTy).Contents (Elt F)),
    StableHlo.unary main_v131 main_v132 ((extractStridedSlice S2048x512 ![0, 0] · slices_S2049x512_S2048x512_0_0) : (⟨S2049x512, .f32⟩ : BufTy).Contents (Elt F) → (⟨S2048x512, .f32⟩ : BufTy).Contents (Elt F)) ]

set_option maxRecDepth 65536 in
set_option maxHeartbeats 4000000 in
/-- The window is that straight line: each callee's definition unfolded at its call and sequencing reassociated, both
    sides are one chain of the same steps. -/
theorem part2_eq (c : Dev nD) : main_part2 (F := F) c = StableHlo.seq ops2 := by
  simp only [main_part2, fn_floor_divide_2.body, fn_where_3.body, fn_where_4.body, StableHlo.seq, bind_assoc, pure_bind]
  <;> rfl

set_option maxRecDepth 65536 in
/-- Each operation of the window touches TensorCore references only. -/
theorem ops2_sub : (ops2 : List (HloOp τ sig (Elt F))).Forall fun op => op.bufs ⊆ StableHlo.tcRefs τ sig :=
  ⟨StableHlo.binary_bufs_sub .., StableHlo.nullary_bufs_sub .., StableHlo.unary_bufs_sub .., StableHlo.unary_bufs_sub .., StableHlo.binary_bufs_sub ..,
    StableHlo.unary_bufs_sub .., StableHlo.unary_bufs_sub .., StableHlo.unary_bufs_sub .., StableHlo.binary_bufs_sub .., StableHlo.unary_bufs_sub ..,
    StableHlo.binary_bufs_sub .., StableHlo.nullary_bufs_sub .., StableHlo.unary_bufs_sub .., StableHlo.binary_bufs_sub .., StableHlo.binary_bufs_sub ..,
    StableHlo.nullary_bufs_sub .., StableHlo.unary_bufs_sub .., StableHlo.binary_bufs_sub .., StableHlo.ternary_bufs_sub .., StableHlo.nullary_bufs_sub ..,
    StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.unary_bufs_sub .., StableHlo.unary_bufs_sub ..,
    StableHlo.unary_bufs_sub .., StableHlo.unary_bufs_sub .., StableHlo.unary_bufs_sub .., StableHlo.unary_bufs_sub .., StableHlo.unary_bufs_sub ..,
    StableHlo.binary_bufs_sub .., StableHlo.unary_bufs_sub .., StableHlo.binary_bufs_sub .., StableHlo.binary_bufs_sub .., StableHlo.unary_bufs_sub ..,
    StableHlo.binary_bufs_sub .., StableHlo.unary_bufs_sub .., StableHlo.binary_bufs_sub .., StableHlo.binary_bufs_sub .., StableHlo.binary_bufs_sub ..,
    StableHlo.reshape_bufs_sub .., StableHlo.nullary_bufs_sub .., StableHlo.unary_bufs_sub .., StableHlo.unary_bufs_sub .., StableHlo.ternary_bufs_sub ..,
    StableHlo.nullary_bufs_sub .., StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub ..,
    StableHlo.unary_bufs_sub .., StableHlo.ternary_bufs_sub .., StableHlo.unary_bufs_sub ..⟩

set_option maxRecDepth 65536 in
/-- Each operation of the window determines everything it writes. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

/-! ## @main as one line -/

/-- @main's operations in order: the three windows one after the other. -/
abbrev ops : List (HloOp τ sig (Elt F)) := ops0 ++ (ops1 ++ ops2)

/-- @main runs its windows in order, and a line run after a line is their concatenation run as one. -/
theorem main_eq (c : Dev nD) : main (F := F) c = StableHlo.seq ops := by
  show (main_part0 (F := F) c >>= fun _ => main_part1 (F := F) c >>= fun _ => main_part2 (F := F) c)
    = StableHlo.seq (ops0 ++ (ops1 ++ ops2))
  rw [part0_eq, part1_eq, part2_eq, StableHlo.seq_append, StableHlo.seq_append]

/-- The fold over a concatenation is the fold over the second line from the fold over the first. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-- The fold over @main's line, window by window. -/
theorem after_ops (V : Valuation τ sig (Elt F)) :
    StableHlo.after ops V = StableHlo.after ops2 (StableHlo.after ops1 (StableHlo.after ops0 V)) := by
  show StableHlo.after (ops0 ++ (ops1 ++ ops2)) V = _
  rw [after_append, after_append]

theorem ops_sub : (ops : List (HloOp τ sig (Elt F))).Forall fun op => op.bufs ⊆ StableHlo.tcRefs τ sig :=
  List.forall_iff_forall_mem.2 fun op h => by
    rcases List.mem_append.1 h with h | h
    · exact List.forall_iff_forall_mem.1 ops0_sub op h
    · rcases List.mem_append.1 h with h | h
      · exact List.forall_iff_forall_mem.1 ops1_sub op h
      · exact List.forall_iff_forall_mem.1 ops2_sub op h

theorem ops_fresh : ∀ op ∈ (ops : List (HloOp τ sig (Elt F))), op.fresh = ∅ := fun op h => by
  rcases List.mem_append.1 h with h | h
  · exact List.forall_iff_forall_mem.1 ops0_fresh op h
  · rcases List.mem_append.1 h with h | h
    · exact List.forall_iff_forall_mem.1 ops1_fresh op h
    · exact List.forall_iff_forall_mem.1 ops2_fresh op h

theorem scopedRefs_eq : (Finset.univ.filter fun b : Ref sig .tc => b.isScoped) = ∅ := by decide
theorem scopedSems_eq : (Finset.univ.filter fun sm : SemLoc sig => sm.isScoped .tc) = ∅ := by decide

/-! ## The run -/

/-- On every device, for any float values, from any memory with zero counters: every weakly fair execution of @main
    terminates, and every final state has each TensorCore buffer at the fold of @main's operations over the device's
    launch contents. -/
theorem run_all (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ (fun _ => ops_fresh)

/-! ## What no operation writes -/

/-- An operation whose written set is one reference of a list writes inside the list. -/
theorem writes_sub_of_mem {W : List (Ref sig .tc)} {op : HloOp τ sig (Elt F)} {y : Ref sig .tc}
    (hw : op.writes = {Proc.devRef .tc y}) (hy : y ∈ W) : op.writes ⊆ (W.map (Proc.devRef (τ := τ) .tc)).toFinset := by
  rw [hw]
  exact Finset.singleton_subset_iff.2 (List.mem_toFinset.2 (List.mem_map.2 ⟨y, hy, rfl⟩))

/-- The buffers window 0 writes, in order: one per operation. -/
abbrev written0 : List (Ref sig .tc) :=
  [ main_v0, main_v1, main_v2, main_v3, main_v4, main_v5, main_v6, main_v7,
    main_v8, main_c, main_call0_v0, main_call0_c, main_call0_v1, main_call0_c_0, main_call0_v2, main_call0_v3,
    main_call0_v4, main_call0_c_1, main_call0_v5, main_call0_v6, main_call0_c_2, main_call0_v7, main_call0_v8, main_call0_c_3,
    main_call0_v9, main_call0_v10, main_call0_v11, main_call0_v12, main_call0_v13, main_call0_v14, main_v9, main_c_0,
    main_v10, main_v11, main_c_1, main_v12, main_v13, main_v14, main_v15, main_v16,
    main_v17, main_v18, main_c_2, main_v19, main_v20, main_c_3, main_v21, main_v22,
    main_v23, main_v24, main_v25, main_c_4, main_call1_v0, main_call1_c, main_call1_v1, main_call1_c_0,
    main_call1_v2, main_call1_v3, main_call1_v4, main_call1_c_1, main_call1_v5, main_call1_v6, main_call1_c_2, main_call1_v7,
    main_call1_v8, main_call1_c_3, main_call1_v9, main_call1_v10, main_call1_v11, main_call1_v12, main_call1_v13, main_call1_v14,
    main_v26, main_c_5, main_v27, main_v28, main_c_6, main_v29, main_v30, main_v31,
    main_v32, main_v33, main_v34, main_v35, main_v36, main_c_7, main_v37, main_v38,
    main_v39, main_c_8, main_call2_v0, main_call2_v1, main_call2_v2, main_call2_v3, main_call2_v4, main_call2_v5,
    main_call2_v6, main_call2_v7, main_call2_v8, main_call2_c, main_call2_v9, main_call2_v10, main_call2_v11, main_call2_c_0,
    main_call2_v12, main_call2_v13, main_v40, main_c_9, main_v41, main_v42, main_c_10, main_v43,
    main_v44, main_v45, main_c_11, main_v46 ]

set_option maxRecDepth 65536 in
/-- Each operation of window 0 writes only its own result buffer, which is in the list. -/
theorem ops0_writes : (ops0 : List (HloOp τ sig (Elt F))).Forall fun op =>
    op.writes ⊆ ((written0).map (Proc.devRef (τ := τ) .tc)).toFinset :=
  ⟨writes_sub_of_mem (y := main_v0) rfl (by decide), writes_sub_of_mem (y := main_v1) rfl (by decide), writes_sub_of_mem (y := main_v2) rfl (by decide),
    writes_sub_of_mem (y := main_v3) rfl (by decide), writes_sub_of_mem (y := main_v4) rfl (by decide), writes_sub_of_mem (y := main_v5) rfl (by decide),
    writes_sub_of_mem (y := main_v6) rfl (by decide), writes_sub_of_mem (y := main_v7) rfl (by decide), writes_sub_of_mem (y := main_v8) rfl (by decide),
    writes_sub_of_mem (y := main_c) rfl (by decide), writes_sub_of_mem (y := main_call0_v0) rfl (by decide), writes_sub_of_mem (y := main_call0_c) rfl (by decide),
    writes_sub_of_mem (y := main_call0_v1) rfl (by decide), writes_sub_of_mem (y := main_call0_c_0) rfl (by decide), writes_sub_of_mem (y := main_call0_v2) rfl (by decide),
    writes_sub_of_mem (y := main_call0_v3) rfl (by decide), writes_sub_of_mem (y := main_call0_v4) rfl (by decide), writes_sub_of_mem (y := main_call0_c_1) rfl (by decide),
    writes_sub_of_mem (y := main_call0_v5) rfl (by decide), writes_sub_of_mem (y := main_call0_v6) rfl (by decide), writes_sub_of_mem (y := main_call0_c_2) rfl (by decide),
    writes_sub_of_mem (y := main_call0_v7) rfl (by decide), writes_sub_of_mem (y := main_call0_v8) rfl (by decide), writes_sub_of_mem (y := main_call0_c_3) rfl (by decide),
    writes_sub_of_mem (y := main_call0_v9) rfl (by decide), writes_sub_of_mem (y := main_call0_v10) rfl (by decide), writes_sub_of_mem (y := main_call0_v11) rfl (by decide),
    writes_sub_of_mem (y := main_call0_v12) rfl (by decide), writes_sub_of_mem (y := main_call0_v13) rfl (by decide), writes_sub_of_mem (y := main_call0_v14) rfl (by decide),
    writes_sub_of_mem (y := main_v9) rfl (by decide), writes_sub_of_mem (y := main_c_0) rfl (by decide), writes_sub_of_mem (y := main_v10) rfl (by decide),
    writes_sub_of_mem (y := main_v11) rfl (by decide), writes_sub_of_mem (y := main_c_1) rfl (by decide), writes_sub_of_mem (y := main_v12) rfl (by decide),
    writes_sub_of_mem (y := main_v13) rfl (by decide), writes_sub_of_mem (y := main_v14) rfl (by decide), writes_sub_of_mem (y := main_v15) rfl (by decide),
    writes_sub_of_mem (y := main_v16) rfl (by decide), writes_sub_of_mem (y := main_v17) rfl (by decide), writes_sub_of_mem (y := main_v18) rfl (by decide),
    writes_sub_of_mem (y := main_c_2) rfl (by decide), writes_sub_of_mem (y := main_v19) rfl (by decide), writes_sub_of_mem (y := main_v20) rfl (by decide),
    writes_sub_of_mem (y := main_c_3) rfl (by decide), writes_sub_of_mem (y := main_v21) rfl (by decide), writes_sub_of_mem (y := main_v22) rfl (by decide),
    writes_sub_of_mem (y := main_v23) rfl (by decide), writes_sub_of_mem (y := main_v24) rfl (by decide), writes_sub_of_mem (y := main_v25) rfl (by decide),
    writes_sub_of_mem (y := main_c_4) rfl (by decide), writes_sub_of_mem (y := main_call1_v0) rfl (by decide), writes_sub_of_mem (y := main_call1_c) rfl (by decide),
    writes_sub_of_mem (y := main_call1_v1) rfl (by decide), writes_sub_of_mem (y := main_call1_c_0) rfl (by decide), writes_sub_of_mem (y := main_call1_v2) rfl (by decide),
    writes_sub_of_mem (y := main_call1_v3) rfl (by decide), writes_sub_of_mem (y := main_call1_v4) rfl (by decide), writes_sub_of_mem (y := main_call1_c_1) rfl (by decide),
    writes_sub_of_mem (y := main_call1_v5) rfl (by decide), writes_sub_of_mem (y := main_call1_v6) rfl (by decide), writes_sub_of_mem (y := main_call1_c_2) rfl (by decide),
    writes_sub_of_mem (y := main_call1_v7) rfl (by decide), writes_sub_of_mem (y := main_call1_v8) rfl (by decide), writes_sub_of_mem (y := main_call1_c_3) rfl (by decide),
    writes_sub_of_mem (y := main_call1_v9) rfl (by decide), writes_sub_of_mem (y := main_call1_v10) rfl (by decide), writes_sub_of_mem (y := main_call1_v11) rfl (by decide),
    writes_sub_of_mem (y := main_call1_v12) rfl (by decide), writes_sub_of_mem (y := main_call1_v13) rfl (by decide), writes_sub_of_mem (y := main_call1_v14) rfl (by decide),
    writes_sub_of_mem (y := main_v26) rfl (by decide), writes_sub_of_mem (y := main_c_5) rfl (by decide), writes_sub_of_mem (y := main_v27) rfl (by decide),
    writes_sub_of_mem (y := main_v28) rfl (by decide), writes_sub_of_mem (y := main_c_6) rfl (by decide), writes_sub_of_mem (y := main_v29) rfl (by decide),
    writes_sub_of_mem (y := main_v30) rfl (by decide), writes_sub_of_mem (y := main_v31) rfl (by decide), writes_sub_of_mem (y := main_v32) rfl (by decide),
    writes_sub_of_mem (y := main_v33) rfl (by decide), writes_sub_of_mem (y := main_v34) rfl (by decide), writes_sub_of_mem (y := main_v35) rfl (by decide),
    writes_sub_of_mem (y := main_v36) rfl (by decide), writes_sub_of_mem (y := main_c_7) rfl (by decide), writes_sub_of_mem (y := main_v37) rfl (by decide),
    writes_sub_of_mem (y := main_v38) rfl (by decide), writes_sub_of_mem (y := main_v39) rfl (by decide), writes_sub_of_mem (y := main_c_8) rfl (by decide),
    writes_sub_of_mem (y := main_call2_v0) rfl (by decide), writes_sub_of_mem (y := main_call2_v1) rfl (by decide), writes_sub_of_mem (y := main_call2_v2) rfl (by decide),
    writes_sub_of_mem (y := main_call2_v3) rfl (by decide), writes_sub_of_mem (y := main_call2_v4) rfl (by decide), writes_sub_of_mem (y := main_call2_v5) rfl (by decide),
    writes_sub_of_mem (y := main_call2_v6) rfl (by decide), writes_sub_of_mem (y := main_call2_v7) rfl (by decide), writes_sub_of_mem (y := main_call2_v8) rfl (by decide),
    writes_sub_of_mem (y := main_call2_c) rfl (by decide), writes_sub_of_mem (y := main_call2_v9) rfl (by decide), writes_sub_of_mem (y := main_call2_v10) rfl (by decide),
    writes_sub_of_mem (y := main_call2_v11) rfl (by decide), writes_sub_of_mem (y := main_call2_c_0) rfl (by decide), writes_sub_of_mem (y := main_call2_v12) rfl (by decide),
    writes_sub_of_mem (y := main_call2_v13) rfl (by decide), writes_sub_of_mem (y := main_v40) rfl (by decide), writes_sub_of_mem (y := main_c_9) rfl (by decide),
    writes_sub_of_mem (y := main_v41) rfl (by decide), writes_sub_of_mem (y := main_v42) rfl (by decide), writes_sub_of_mem (y := main_c_10) rfl (by decide),
    writes_sub_of_mem (y := main_v43) rfl (by decide), writes_sub_of_mem (y := main_v44) rfl (by decide), writes_sub_of_mem (y := main_v45) rfl (by decide),
    writes_sub_of_mem (y := main_c_11) rfl (by decide), writes_sub_of_mem (y := main_v46) rfl (by decide)⟩

/-- The buffers window 1 writes, in order: one per operation. -/
abbrev written1 : List (Ref sig .tc) :=
  [ main_v47, main_c_12, main_v48, main_v49, main_v50, main_v51, main_v52, main_v53,
    main_v54, main_v55, main_c_13, main_v56, main_v57, main_c_14, main_call3_v0, main_call3_c,
    main_call3_v1, main_call3_c_0, main_call3_v2, main_call3_v3, main_call3_v4, main_call3_c_1, main_call3_v5, main_call3_v6,
    main_call3_c_2, main_call3_v7, main_call3_v8, main_call3_c_3, main_call3_v9, main_call3_v10, main_call3_v11, main_call3_v12,
    main_call3_v13, main_call3_v14, main_v58, main_v59, main_c_15, main_v60, main_v61, main_c_16,
    main_v62, main_v63, main_v64, main_v65, main_v66, main_v67, main_v68, main_cst,
    main_v69, main_cst_17, main_v70, main_v71, main_v72, main_v73, main_v74, main_v75,
    main_cst_18, main_v76, main_v77, main_v78, main_v79, main_v80, main_cst_19, main_v81,
    main_v82, main_v83, main_cst_20, main_v84, main_v85, main_cst_21, main_v86, main_v87,
    main_cst_22, main_v88, main_v89, main_v90, main_v91, main_v92, main_v93, main_v94 ]

set_option maxRecDepth 65536 in
/-- Each operation of window 1 writes only its own result buffer, which is in the list. -/
theorem ops1_writes : (ops1 : List (HloOp τ sig (Elt F))).Forall fun op =>
    op.writes ⊆ ((written1).map (Proc.devRef (τ := τ) .tc)).toFinset :=
  ⟨writes_sub_of_mem (y := main_v47) rfl (by decide), writes_sub_of_mem (y := main_c_12) rfl (by decide), writes_sub_of_mem (y := main_v48) rfl (by decide),
    writes_sub_of_mem (y := main_v49) rfl (by decide), writes_sub_of_mem (y := main_v50) rfl (by decide), writes_sub_of_mem (y := main_v51) rfl (by decide),
    writes_sub_of_mem (y := main_v52) rfl (by decide), writes_sub_of_mem (y := main_v53) rfl (by decide), writes_sub_of_mem (y := main_v54) rfl (by decide),
    writes_sub_of_mem (y := main_v55) rfl (by decide), writes_sub_of_mem (y := main_c_13) rfl (by decide), writes_sub_of_mem (y := main_v56) rfl (by decide),
    writes_sub_of_mem (y := main_v57) rfl (by decide), writes_sub_of_mem (y := main_c_14) rfl (by decide), writes_sub_of_mem (y := main_call3_v0) rfl (by decide),
    writes_sub_of_mem (y := main_call3_c) rfl (by decide), writes_sub_of_mem (y := main_call3_v1) rfl (by decide), writes_sub_of_mem (y := main_call3_c_0) rfl (by decide),
    writes_sub_of_mem (y := main_call3_v2) rfl (by decide), writes_sub_of_mem (y := main_call3_v3) rfl (by decide), writes_sub_of_mem (y := main_call3_v4) rfl (by decide),
    writes_sub_of_mem (y := main_call3_c_1) rfl (by decide), writes_sub_of_mem (y := main_call3_v5) rfl (by decide), writes_sub_of_mem (y := main_call3_v6) rfl (by decide),
    writes_sub_of_mem (y := main_call3_c_2) rfl (by decide), writes_sub_of_mem (y := main_call3_v7) rfl (by decide), writes_sub_of_mem (y := main_call3_v8) rfl (by decide),
    writes_sub_of_mem (y := main_call3_c_3) rfl (by decide), writes_sub_of_mem (y := main_call3_v9) rfl (by decide), writes_sub_of_mem (y := main_call3_v10) rfl (by decide),
    writes_sub_of_mem (y := main_call3_v11) rfl (by decide), writes_sub_of_mem (y := main_call3_v12) rfl (by decide), writes_sub_of_mem (y := main_call3_v13) rfl (by decide),
    writes_sub_of_mem (y := main_call3_v14) rfl (by decide), writes_sub_of_mem (y := main_v58) rfl (by decide), writes_sub_of_mem (y := main_v59) rfl (by decide),
    writes_sub_of_mem (y := main_c_15) rfl (by decide), writes_sub_of_mem (y := main_v60) rfl (by decide), writes_sub_of_mem (y := main_v61) rfl (by decide),
    writes_sub_of_mem (y := main_c_16) rfl (by decide), writes_sub_of_mem (y := main_v62) rfl (by decide), writes_sub_of_mem (y := main_v63) rfl (by decide),
    writes_sub_of_mem (y := main_v64) rfl (by decide), writes_sub_of_mem (y := main_v65) rfl (by decide), writes_sub_of_mem (y := main_v66) rfl (by decide),
    writes_sub_of_mem (y := main_v67) rfl (by decide), writes_sub_of_mem (y := main_v68) rfl (by decide), writes_sub_of_mem (y := main_cst) rfl (by decide),
    writes_sub_of_mem (y := main_v69) rfl (by decide), writes_sub_of_mem (y := main_cst_17) rfl (by decide), writes_sub_of_mem (y := main_v70) rfl (by decide),
    writes_sub_of_mem (y := main_v71) rfl (by decide), writes_sub_of_mem (y := main_v72) rfl (by decide), writes_sub_of_mem (y := main_v73) rfl (by decide),
    writes_sub_of_mem (y := main_v74) rfl (by decide), writes_sub_of_mem (y := main_v75) rfl (by decide), writes_sub_of_mem (y := main_cst_18) rfl (by decide),
    writes_sub_of_mem (y := main_v76) rfl (by decide), writes_sub_of_mem (y := main_v77) rfl (by decide), writes_sub_of_mem (y := main_v78) rfl (by decide),
    writes_sub_of_mem (y := main_v79) rfl (by decide), writes_sub_of_mem (y := main_v80) rfl (by decide), writes_sub_of_mem (y := main_cst_19) rfl (by decide),
    writes_sub_of_mem (y := main_v81) rfl (by decide), writes_sub_of_mem (y := main_v82) rfl (by decide), writes_sub_of_mem (y := main_v83) rfl (by decide),
    writes_sub_of_mem (y := main_cst_20) rfl (by decide), writes_sub_of_mem (y := main_v84) rfl (by decide), writes_sub_of_mem (y := main_v85) rfl (by decide),
    writes_sub_of_mem (y := main_cst_21) rfl (by decide), writes_sub_of_mem (y := main_v86) rfl (by decide), writes_sub_of_mem (y := main_v87) rfl (by decide),
    writes_sub_of_mem (y := main_cst_22) rfl (by decide), writes_sub_of_mem (y := main_v88) rfl (by decide), writes_sub_of_mem (y := main_v89) rfl (by decide),
    writes_sub_of_mem (y := main_v90) rfl (by decide), writes_sub_of_mem (y := main_v91) rfl (by decide), writes_sub_of_mem (y := main_v92) rfl (by decide),
    writes_sub_of_mem (y := main_v93) rfl (by decide), writes_sub_of_mem (y := main_v94) rfl (by decide)⟩

/-- The buffers window 2 writes, in order: one per operation. -/
abbrev written2 : List (Ref sig .tc) :=
  [ main_v95, main_c_23, main_call4_v0, main_call4_v1, main_call4_v2, main_call4_v3, main_call4_v4, main_call4_v5,
    main_call4_v6, main_call4_v7, main_call4_v8, main_call4_c, main_call4_v9, main_call4_v10, main_call4_v11, main_call4_c_0,
    main_call4_v12, main_call4_v13, main_v96, main_c_24, main_v97, main_v98, main_c_25, main_v99,
    main_v100, main_v101, main_v102, main_v103, main_v104, main_v105, main_v106, main_v107,
    main_v108, main_v109, main_v110, main_v111, main_v112, main_v113, main_v114, main_v115,
    main_v116, main_v117, main_v118, main_v119, main_v120, main_v121, main_c_26, main_call5_v0,
    main_call5_v1, main_v122, main_cst_27, main_v123, main_v124, main_c_28, main_v125, main_v126,
    main_c_29, main_v127, main_v128, main_v129, main_v130, main_v131, main_v132 ]

set_option maxRecDepth 65536 in
/-- Each operation of window 2 writes only its own result buffer, which is in the list. -/
theorem ops2_writes : (ops2 : List (HloOp τ sig (Elt F))).Forall fun op =>
    op.writes ⊆ ((written2).map (Proc.devRef (τ := τ) .tc)).toFinset :=
  ⟨writes_sub_of_mem (y := main_v95) rfl (by decide), writes_sub_of_mem (y := main_c_23) rfl (by decide), writes_sub_of_mem (y := main_call4_v0) rfl (by decide),
    writes_sub_of_mem (y := main_call4_v1) rfl (by decide), writes_sub_of_mem (y := main_call4_v2) rfl (by decide), writes_sub_of_mem (y := main_call4_v3) rfl (by decide),
    writes_sub_of_mem (y := main_call4_v4) rfl (by decide), writes_sub_of_mem (y := main_call4_v5) rfl (by decide), writes_sub_of_mem (y := main_call4_v6) rfl (by decide),
    writes_sub_of_mem (y := main_call4_v7) rfl (by decide), writes_sub_of_mem (y := main_call4_v8) rfl (by decide), writes_sub_of_mem (y := main_call4_c) rfl (by decide),
    writes_sub_of_mem (y := main_call4_v9) rfl (by decide), writes_sub_of_mem (y := main_call4_v10) rfl (by decide), writes_sub_of_mem (y := main_call4_v11) rfl (by decide),
    writes_sub_of_mem (y := main_call4_c_0) rfl (by decide), writes_sub_of_mem (y := main_call4_v12) rfl (by decide), writes_sub_of_mem (y := main_call4_v13) rfl (by decide),
    writes_sub_of_mem (y := main_v96) rfl (by decide), writes_sub_of_mem (y := main_c_24) rfl (by decide), writes_sub_of_mem (y := main_v97) rfl (by decide),
    writes_sub_of_mem (y := main_v98) rfl (by decide), writes_sub_of_mem (y := main_c_25) rfl (by decide), writes_sub_of_mem (y := main_v99) rfl (by decide),
    writes_sub_of_mem (y := main_v100) rfl (by decide), writes_sub_of_mem (y := main_v101) rfl (by decide), writes_sub_of_mem (y := main_v102) rfl (by decide),
    writes_sub_of_mem (y := main_v103) rfl (by decide), writes_sub_of_mem (y := main_v104) rfl (by decide), writes_sub_of_mem (y := main_v105) rfl (by decide),
    writes_sub_of_mem (y := main_v106) rfl (by decide), writes_sub_of_mem (y := main_v107) rfl (by decide), writes_sub_of_mem (y := main_v108) rfl (by decide),
    writes_sub_of_mem (y := main_v109) rfl (by decide), writes_sub_of_mem (y := main_v110) rfl (by decide), writes_sub_of_mem (y := main_v111) rfl (by decide),
    writes_sub_of_mem (y := main_v112) rfl (by decide), writes_sub_of_mem (y := main_v113) rfl (by decide), writes_sub_of_mem (y := main_v114) rfl (by decide),
    writes_sub_of_mem (y := main_v115) rfl (by decide), writes_sub_of_mem (y := main_v116) rfl (by decide), writes_sub_of_mem (y := main_v117) rfl (by decide),
    writes_sub_of_mem (y := main_v118) rfl (by decide), writes_sub_of_mem (y := main_v119) rfl (by decide), writes_sub_of_mem (y := main_v120) rfl (by decide),
    writes_sub_of_mem (y := main_v121) rfl (by decide), writes_sub_of_mem (y := main_c_26) rfl (by decide), writes_sub_of_mem (y := main_call5_v0) rfl (by decide),
    writes_sub_of_mem (y := main_call5_v1) rfl (by decide), writes_sub_of_mem (y := main_v122) rfl (by decide), writes_sub_of_mem (y := main_cst_27) rfl (by decide),
    writes_sub_of_mem (y := main_v123) rfl (by decide), writes_sub_of_mem (y := main_v124) rfl (by decide), writes_sub_of_mem (y := main_c_28) rfl (by decide),
    writes_sub_of_mem (y := main_v125) rfl (by decide), writes_sub_of_mem (y := main_v126) rfl (by decide), writes_sub_of_mem (y := main_c_29) rfl (by decide),
    writes_sub_of_mem (y := main_v127) rfl (by decide), writes_sub_of_mem (y := main_v128) rfl (by decide), writes_sub_of_mem (y := main_v129) rfl (by decide),
    writes_sub_of_mem (y := main_v130) rfl (by decide), writes_sub_of_mem (y := main_v131) rfl (by decide), writes_sub_of_mem (y := main_v132) rfl (by decide)⟩

/-- A reference none of the three windows writes holds after @main what it held at launch. -/
theorem after_ops_of_not_written (V : Valuation τ sig (Elt F)) {r : Ref sig .tc}
    (h0 : r ∉ written0) (h1 : r ∉ written1) (h2 : r ∉ written2) :
    StableHlo.after ops V (Proc.devRef .tc r) = V (Proc.devRef .tc r) := by
  rw [after_ops, StableHlo.after_of_writes_sub ops2 _ ops2_writes h2, StableHlo.after_of_writes_sub ops1 _ ops1_writes h1,
    StableHlo.after_of_writes_sub ops0 _ ops0_writes h0]

theorem after_arg0 (V : Valuation τ sig (Elt F)) : StableHlo.after ops V (Proc.devRef .tc main_arg0) = V (Proc.devRef .tc main_arg0) :=
  after_ops_of_not_written V (by decide) (by decide) (by decide)
theorem after_arg1 (V : Valuation τ sig (Elt F)) : StableHlo.after ops V (Proc.devRef .tc main_arg1) = V (Proc.devRef .tc main_arg1) :=
  after_ops_of_not_written V (by decide) (by decide) (by decide)
theorem after_arg2 (V : Valuation τ sig (Elt F)) : StableHlo.after ops V (Proc.devRef .tc main_arg2) = V (Proc.devRef .tc main_arg2) :=
  after_ops_of_not_written V (by decide) (by decide) (by decide)
theorem after_arg3 (V : Valuation τ sig (Elt F)) : StableHlo.after ops V (Proc.devRef .tc main_arg3) = V (Proc.devRef .tc main_arg3) :=
  after_ops_of_not_written V (by decide) (by decide) (by decide)
theorem after_arg4 (V : Valuation τ sig (Elt F)) : StableHlo.after ops V (Proc.devRef .tc main_arg4) = V (Proc.devRef .tc main_arg4) :=
  after_ops_of_not_written V (by decide) (by decide) (by decide)
theorem after_arg5 (V : Valuation τ sig (Elt F)) : StableHlo.after ops V (Proc.devRef .tc main_arg5) = V (Proc.devRef .tc main_arg5) :=
  after_ops_of_not_written V (by decide) (by decide) (by decide)
theorem after_arg6 (V : Valuation τ sig (Elt F)) : StableHlo.after ops V (Proc.devRef .tc main_arg6) = V (Proc.devRef .tc main_arg6) :=
  after_ops_of_not_written V (by decide) (by decide) (by decide)
theorem after_arg7 (V : Valuation τ sig (Elt F)) : StableHlo.after ops V (Proc.devRef .tc main_arg7) = V (Proc.devRef .tc main_arg7) :=
  after_ops_of_not_written V (by decide) (by decide) (by decide)
theorem after_arg8 (V : Valuation τ sig (Elt F)) : StableHlo.after ops V (Proc.devRef .tc main_arg8) = V (Proc.devRef .tc main_arg8) :=
  after_ops_of_not_written V (by decide) (by decide) (by decide)
theorem after_arg9 (V : Valuation τ sig (Elt F)) : StableHlo.after ops V (Proc.devRef .tc main_arg9) = V (Proc.devRef .tc main_arg9) :=
  after_ops_of_not_written V (by decide) (by decide) (by decide)
theorem after_arg10 (V : Valuation τ sig (Elt F)) : StableHlo.after ops V (Proc.devRef .tc main_arg10) = V (Proc.devRef .tc main_arg10) :=
  after_ops_of_not_written V (by decide) (by decide) (by decide)
theorem after_arg11 (V : Valuation τ sig (Elt F)) : StableHlo.after ops V (Proc.devRef .tc main_arg11) = V (Proc.devRef .tc main_arg11) :=
  after_ops_of_not_written V (by decide) (by decide) (by decide)
theorem after_arg12 (V : Valuation τ sig (Elt F)) : StableHlo.after ops V (Proc.devRef .tc main_arg12) = V (Proc.devRef .tc main_arg12) :=
  after_ops_of_not_written V (by decide) (by decide) (by decide)

/-- On every device, for any float values, from any memory with zero counters: every weakly fair execution of @main
    terminates with the four results at the fold of @main's operations over the launch contents and the thirteen
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = StableHlo.after ops (StableHlo.launchContents m c) (Proc.devRef .tc main_v7)
      ∧ r.2.mem ((c.tc : Thread nD τ).loc main_v8) = StableHlo.after ops (StableHlo.launchContents m c) (Proc.devRef .tc main_v8)
      ∧ r.2.mem ((c.tc : Thread nD τ).loc main_v25) = StableHlo.after ops (StableHlo.launchContents m c) (Proc.devRef .tc main_v25)
      ∧ r.2.mem ((c.tc : Thread nD τ).loc main_v132) = StableHlo.after ops (StableHlo.launchContents m c) (Proc.devRef .tc main_v132)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨h c main_v7, h c main_v8, h c main_v25, h c main_v132,
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _),
      (h c main_arg9).trans (after_arg9 _),
      (h c main_arg10).trans (after_arg10 _),
      (h c main_arg11).trans (after_arg11 _),
      (h c main_arg12).trans (after_arg12 _)⟩)
    (run_all m ρ)

end Cert.ReferenceIdeal.RefRun

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.RefCuts.lean ====
/-
  The reference's line of operations cut in four: the seven operations that form the block-scaled weight and the
  one matrix product; the operations from its two column halves to the gated window sum; the normalisation and
  rotation of that sum, with the gather of the rotary rows; and the last scatter into the compressed cache. What the
  whole line leaves at a buffer is what the later pieces leave there from what the earlier ones left.
-/
import proofs.«114737_j78752520339581_1_alg».proof.Proof.RefRun
import proofs.«114737_j78752520339581_1_alg».proof.Proof.LibHostWalk

set_option maxRecDepth 16384

noncomputable section

namespace Cert.ReferenceIdeal.RefCuts

open Cert.ReferenceIdeal Cert.ReferenceIdeal.Gen Idealize.ShloMosaic Idealize.ShloMosaic.TcCoe Idealize.SL.Sem

variable {F : FTy → Type} [FloatOps F]

/-- The scaled weight and the matrix product: 7 operations. -/
abbrev pre : List (HloOp τ sig (Elt F)) :=
  [ StableHlo.unary main_arg2 main_v0 (broadcastInDim S8x128x32 ![0, 2] bcast_S8x32_S8x128x32_0_2 : (⟨S8x32, .f32⟩ : BufTy).Contents (Elt F) → (⟨S8x128x32, .f32⟩ : BufTy).Contents (Elt F)),
    StableHlo.reshape main_v0 main_v1 rfl shapeCasts_S8x128x32_S1024x32,
    StableHlo.unary main_v1 main_v2 (broadcastInDim S1024x32x128 ![0, 1] bcast_S1024x32_S1024x32x128_0_1 : (⟨S1024x32, .f32⟩ : BufTy).Contents (Elt F) → (⟨S1024x32x128, .f32⟩ : BufTy).Contents (Elt F)),
    StableHlo.reshape main_v2 main_v3 rfl shapeCasts_S1024x32x128_S1024x4096,
    StableHlo.binary main_arg1 main_v3 main_v4 (mulf : (⟨S1024x4096, .f32⟩ : BufTy).Contents (Elt F) → (⟨S1024x4096, .f32⟩ : BufTy).Contents (Elt F) → (⟨S1024x4096, .f32⟩ : BufTy).Contents (Elt F)),
    StableHlo.unary main_v4 main_v5 ((transpose S4096x1024 [1, 0] · transposes_S1024x4096_S4096x1024_1_0) : (⟨S1024x4096, .f32⟩ : BufTy).Contents (Elt F) → (⟨S4096x1024, .f32⟩ : BufTy).Contents (Elt F)),
    StableHlo.binary main_arg0 main_v5 main_v6 ((fun l r => Host.dotGeneral dot_S8192x4096_S4096x1024_S8192x1024_1_0_0_1_n_n none l r) : (⟨S8192x4096, .f32⟩ : BufTy).Contents (Elt F) → (⟨S4096x1024, .f32⟩ : BufTy).Contents (Elt F) → (⟨S8192x1024, .f32⟩ : BufTy).Contents (Elt F)) ]

/-- From the product's two column halves to the gated window sum. -/
abbrev segM : List (HloOp τ sig (Elt F)) :=
  [ StableHlo.unary main_v6 main_v7 ((extractStridedSlice S8192x512 ![0, 0] · slices_S8192x1024_S8192x512_0_0) : (⟨S8192x1024, .f32⟩ : BufTy).Contents (Elt F) → (⟨S8192x512, .f32⟩ : BufTy).Contents (Elt F)),
    StableHlo.unary main_v6 main_v8 ((extractStridedSlice S8192x512 ![0, 512] · slices_S8192x1024_S8192x512_0_512) : (⟨S8192x1024, .f32⟩ : BufTy).Contents (Elt F) → (⟨S8192x512, .f32⟩ : BufTy).Contents (Elt F)),
    StableHlo.nullary main_c (constantI S_ 32 4#32),
    StableHlo.TRef.unary (.of main_c : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary (.of main_call0_v2 : StableHlo.TRef sig ⟨S_, .i32⟩) (.of main_call0_v3 : StableHlo.TRef sig ⟨S8192, .i32⟩) (broadcastInDim S8192 ![] bcast_S_S8192),
    StableHlo.TRef.binary (.of main_arg8 : StableHlo.TRef sig ⟨S8192, .i32⟩) (.of main_call0_v3 : StableHlo.TRef sig ⟨S8192, .i32⟩) (.of main_call0_v4 : StableHlo.TRef sig ⟨S8192, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S8192, .i32⟩) (broadcastInDim S8192 ![] bcast_S_S8192),
    StableHlo.TRef.binary (.of main_call0_v4 : StableHlo.TRef sig ⟨S8192, .i32⟩) (.of main_call0_v5 : StableHlo.TRef sig ⟨S8192, .i32⟩) (.of main_call0_v6 : StableHlo.TRef sig ⟨S8192, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S8192, .i32⟩) (broadcastInDim S8192 ![] bcast_S_S8192),
    StableHlo.TRef.binary (.of main_call0_v4 : StableHlo.TRef sig ⟨S8192, .i32⟩) (.of main_call0_v7 : StableHlo.TRef sig ⟨S8192, .i32⟩) (.of main_call0_v8 : StableHlo.TRef sig ⟨S8192, .i1⟩) (cmpi .slt),
    StableHlo.TRef.nullary (.of main_call0_c_3 : StableHlo.TRef sig ⟨S_, .i32⟩) (constantI S_ 32 0#32),
    StableHlo.TRef.binary (.of main_call0_v2 : StableHlo.TRef sig ⟨S_, .i32⟩) (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S8192, .i1⟩) (broadcastInDim S8192 ![] bcast_S_S8192),
    StableHlo.TRef.binary (.of main_call0_v8 : StableHlo.TRef sig ⟨S8192, .i1⟩) (.of main_call0_v10 : StableHlo.TRef sig ⟨S8192, .i1⟩) (.of main_call0_v11 : StableHlo.TRef sig ⟨S8192, .i1⟩) (cmpi .ne),
    StableHlo.TRef.binary (.of main_call0_v11 : StableHlo.TRef sig ⟨S8192, .i1⟩) (.of main_call0_v6 : StableHlo.TRef sig ⟨S8192, .i1⟩) (.of main_call0_v12 : StableHlo.TRef sig ⟨S8192, .i1⟩) andi,
    StableHlo.TRef.unary (.of main_call0_v2 : StableHlo.TRef sig ⟨S_, .i32⟩) (.of main_call0_v13 : StableHlo.TRef sig ⟨S8192, .i32⟩) (broadcastInDim S8192 ![] bcast_S_S8192),
    StableHlo.TRef.binary (.of main_call0_v4 : StableHlo.TRef sig ⟨S8192, .i32⟩) (.of main_call0_v13 : StableHlo.TRef sig ⟨S8192, .i32⟩) (.of main_call0_v14 : StableHlo.TRef sig ⟨S8192, .i32⟩) addi,
    StableHlo.TRef.ternary (.of main_call0_v12 : StableHlo.TRef sig ⟨S8192, .i1⟩) (.of main_call0_v14 : StableHlo.TRef sig ⟨S8192, .i32⟩) (.of main_call0_v4 : StableHlo.TRef sig ⟨S8192, .i32⟩) (.of main_v9 : StableHlo.TRef sig ⟨S8192, .i32⟩) select,
    StableHlo.nullary main_c_0 (constantI S_ 32 0#32),
    StableHlo.unary main_c_0 main_v10 (broadcastInDim S8192 ![] bcast_S_S8192 : (⟨S_, .i32⟩ : BufTy).Contents (Elt F) → (⟨S8192, .i32⟩ : BufTy).Contents (Elt F)),
    StableHlo.binary main_v9 main_v10 main_v11 (cmpi .slt : (⟨S8192, .i32⟩ : BufTy).Contents (Elt F) → (⟨S8192, .i32⟩ : BufTy).Contents (Elt F) → (⟨S8192, .i1⟩ : BufTy).Contents (Elt F)),
    StableHlo.nullary main_c_1 (constantI S_ 32 4#32),
    StableHlo.unary main_c_1 main_v12 (broadcastInDim S8192 ![] bcast_S_S8192 : (⟨S_, .i32⟩ : BufTy).Contents (Elt F) → (⟨S8192, .i32⟩ : BufTy).Contents (Elt F)),
    StableHlo.binary main_v9 main_v12 main_v13 (addi : (⟨S8192, .i32⟩ : BufTy).Contents (Elt F) → (⟨S8192, .i32⟩ : BufTy).Contents (Elt F) → (⟨S8192, .i32⟩ : BufTy).Contents (Elt F)),
    StableHlo.ternary main_v11 main_v13 main_v9 main_v14 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v14 main_v15 (broadcastInDim S8192x1 ![0] bcast_S8192_S8192x1_0 : (⟨S8192, .i32⟩ : BufTy).Contents (Elt F) → (⟨S8192x1, .i32⟩ : BufTy).Contents (Elt F)),
    StableHlo.binary main_arg3 main_v15 main_v16 ((fun x i => Host.gather gather_S4x512_S8192x1_S8192x512_1_0_n_n_0_1_1512 x i) : (⟨S4x512, .f32⟩ : BufTy).Contents (Elt F) → (⟨S8192x1, .i32⟩ : BufTy).Contents (Elt F) → (⟨S8192x512, .f32⟩ : BufTy).Contents (Elt F)),
    StableHlo.binary main_v7 main_v16 main_v17 (addf : (⟨S8192x512, .f32⟩ : BufTy).Contents (Elt F) → (⟨S8192x512, .f32⟩ : BufTy).Contents (Elt F) → (⟨S8192x512, .f32⟩ : BufTy).Contents (Elt F)),
    StableHlo.binary main_v17 main_v8 main_v18 ((fun a b => concatenate S8192x1024 1 [⟨S8192x512, a⟩, ⟨S8192x512, b⟩] concatenates_S8192x512_S8192x512_S8192x1024_d1) : (⟨S8192x512, .f32⟩ : BufTy).Contents (Elt F) → (⟨S8192x512, .f32⟩ : BufTy).Contents (Elt F) → (⟨S8192x1024, .f32⟩ : BufTy).Contents (Elt F)),
    StableHlo.nullary main_c_2 (constantI S_ 32 0#32),
    StableHlo.unary main_c_2 main_v19 (broadcastInDim S8192 ![] bcast_S_S8192 : (⟨S_, .i32⟩ : BufTy).Contents (Elt F) → (⟨S8192, .i32⟩ : BufTy).Contents (Elt F)),
    StableHlo.binary main_arg9 main_v19 main_v20 (cmpi .slt : (⟨S8192, .i32⟩ : BufTy).Contents (Elt F) → (⟨S8192, .i32⟩ : BufTy).Contents (Elt F) → (⟨S8192, .i1⟩ : BufTy).Contents (Elt F)),
    StableHlo.nullary main_c_3 (constantI S_ 32 8192#32),
    StableHlo.unary main_c_3 main_v21 (broadcastInDim S8192 ![] bcast_S_S8192 : (⟨S_, .i32⟩ : BufTy).Contents (Elt F) → (⟨S8192, .i32⟩ : BufTy).Contents (Elt F)),
    StableHlo.binary main_arg9 main_v21 main_v22 (addi : (⟨S8192, .i32⟩ : BufTy).Contents (Elt F) → (⟨S8192, .i32⟩ : BufTy).Contents (Elt F) → (⟨S8192, .i32⟩ : BufTy).Contents (Elt F)),
    StableHlo.ternary main_v20 main_v22 main_arg9 main_v23 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v23 main_v24 (broadcastInDim S8192x1 ![0] bcast_S8192_S8192x1_0 : (⟨S8192, .i32⟩ : BufTy).Contents (Elt F) → (⟨S8192x1, .i32⟩ : BufTy).Contents (Elt F)),
    StableHlo.ternary main_arg6 main_v24 main_v18 main_v25 ((fun x i u => Host.scatter scatter_S8192x1024_S8192x1_S8192x1024_1_0_0_1 (fun _ b => b) x i u) : (⟨S8192x1024, .f32⟩ : BufTy).Contents (Elt F) → (⟨S8192x1, .i32⟩ : BufTy).Contents (Elt F) → (⟨S8192x1024, .f32⟩ : BufTy).Contents (Elt F) → (⟨S8192x1024, .f32⟩ : BufTy).Contents (Elt F)),
    StableHlo.nullary main_c_4 (constantI S_ 32 4#32),
    StableHlo.TRef.unary (.of main_c_4 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary (.of main_call1_v2 : StableHlo.TRef sig ⟨S_, .i32⟩) (.of main_call1_v3 : StableHlo.TRef sig ⟨S8192, .i32⟩) (broadcastInDim S8192 ![] bcast_S_S8192),
    StableHlo.TRef.binary (.of main_arg8 : StableHlo.TRef sig ⟨S8192, .i32⟩) (.of main_call1_v3 : StableHlo.TRef sig ⟨S8192, .i32⟩) (.of main_call1_v4 : StableHlo.TRef sig ⟨S8192, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S8192, .i32⟩) (broadcastInDim S8192 ![] bcast_S_S8192),
    StableHlo.TRef.binary (.of main_call1_v4 : StableHlo.TRef sig ⟨S8192, .i32⟩) (.of main_call1_v5 : StableHlo.TRef sig ⟨S8192, .i32⟩) (.of main_call1_v6 : StableHlo.TRef sig ⟨S8192, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S8192, .i32⟩) (broadcastInDim S8192 ![] bcast_S_S8192),
    StableHlo.TRef.binary (.of main_call1_v4 : StableHlo.TRef sig ⟨S8192, .i32⟩) (.of main_call1_v7 : StableHlo.TRef sig ⟨S8192, .i32⟩) (.of main_call1_v8 : StableHlo.TRef sig ⟨S8192, .i1⟩) (cmpi .slt),
    StableHlo.TRef.nullary (.of main_call1_c_3 : StableHlo.TRef sig ⟨S_, .i32⟩) (constantI S_ 32 0#32),
    StableHlo.TRef.binary (.of main_call1_v2 : StableHlo.TRef sig ⟨S_, .i32⟩) (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S8192, .i1⟩) (broadcastInDim S8192 ![] bcast_S_S8192),
    StableHlo.TRef.binary (.of main_call1_v8 : StableHlo.TRef sig ⟨S8192, .i1⟩) (.of main_call1_v10 : StableHlo.TRef sig ⟨S8192, .i1⟩) (.of main_call1_v11 : StableHlo.TRef sig ⟨S8192, .i1⟩) (cmpi .ne),
    StableHlo.TRef.binary (.of main_call1_v11 : StableHlo.TRef sig ⟨S8192, .i1⟩) (.of main_call1_v6 : StableHlo.TRef sig ⟨S8192, .i1⟩) (.of main_call1_v12 : StableHlo.TRef sig ⟨S8192, .i1⟩) andi,
    StableHlo.TRef.unary (.of main_call1_v2 : StableHlo.TRef sig ⟨S_, .i32⟩) (.of main_call1_v13 : StableHlo.TRef sig ⟨S8192, .i32⟩) (broadcastInDim S8192 ![] bcast_S_S8192),
    StableHlo.TRef.binary (.of main_call1_v4 : StableHlo.TRef sig ⟨S8192, .i32⟩) (.of main_call1_v13 : StableHlo.TRef sig ⟨S8192, .i32⟩) (.of main_call1_v14 : StableHlo.TRef sig ⟨S8192, .i32⟩) addi,
    StableHlo.TRef.ternary (.of main_call1_v12 : StableHlo.TRef sig ⟨S8192, .i1⟩) (.of main_call1_v14 : StableHlo.TRef sig ⟨S8192, .i32⟩) (.of main_call1_v4 : StableHlo.TRef sig ⟨S8192, .i32⟩) (.of main_v26 : StableHlo.TRef sig ⟨S8192, .i32⟩) select,
    StableHlo.nullary main_c_5 (constantI S_ 32 3#32),
    StableHlo.unary main_c_5 main_v27 (broadcastInDim S8192 ![] bcast_S_S8192 : (⟨S_, .i32⟩ : BufTy).Contents (Elt F) → (⟨S8192, .i32⟩ : BufTy).Contents (Elt F)),
    StableHlo.binary main_v26 main_v27 main_v28 (cmpi .eq : (⟨S8192, .i32⟩ : BufTy).Contents (Elt F) → (⟨S8192, .i32⟩ : BufTy).Contents (Elt F) → (⟨S8192, .i1⟩ : BufTy).Contents (Elt F)),
    StableHlo.nullary main_c_6 (constantI S_ 32 3#32),
    StableHlo.unary main_c_6 main_v29 (broadcastInDim S8192 ![] bcast_S_S8192 : (⟨S_, .i32⟩ : BufTy).Contents (Elt F) → (⟨S8192, .i32⟩ : BufTy).Contents (Elt F)),
    StableHlo.binary main_arg8 main_v29 main_v30 (subi : (⟨S8192, .i32⟩ : BufTy).Contents (Elt F) → (⟨S8192, .i32⟩ : BufTy).Contents (Elt F) → (⟨S8192, .i32⟩ : BufTy).Contents (Elt F)),
    StableHlo.unary main_v30 main_v31 (broadcastInDim S8192x1 ![0] bcast_S8192_S8192x1_0 : (⟨S8192, .i32⟩ : BufTy).Contents (Elt F) → (⟨S8192x1, .i32⟩ : BufTy).Contents (Elt F)),
    StableHlo.nullary main_v32 (iotaInDim S4 32 0),
    StableHlo.unary main_v32 main_v33 (broadcastInDim S1x4 ![1] bcast_S4_S1x4_1 : (⟨S4, .i32⟩ : BufTy).Contents (Elt F) → (⟨S1x4, .i32⟩ : BufTy).Contents (Elt F)),
    StableHlo.unary main_v31 main_v34 (broadcastInDim S8192x4 ![0, 1] bcast_S8192x1_S8192x4_0_1 : (⟨S8192x1, .i32⟩ : BufTy).Contents (Elt F) → (⟨S8192x4, .i32⟩ : BufTy).Contents (Elt F)),
    StableHlo.unary main_v33 main_v35 (broadcastInDim S8192x4 ![0, 1] bcast_S1x4_S8192x4_0_1 : (⟨S1x4, .i32⟩ : BufTy).Contents (Elt F) → (⟨S8192x4, .i32⟩ : BufTy).Contents (Elt F)),
    StableHlo.binary main_v34 main_v35 main_v36 (addi : (⟨S8192x4, .i32⟩ : BufTy).Contents (Elt F) → (⟨S8192x4, .i32⟩ : BufTy).Contents (Elt F) → (⟨S8192x4, .i32⟩ : BufTy).Contents (Elt F)),
    StableHlo.nullary main_c_7 (constantI S_ 32 0#32),
    StableHlo.unary main_c_7 main_v37 (broadcastInDim S8192x4 ![] bcast_S_S8192x4 : (⟨S_, .i32⟩ : BufTy).Contents (Elt F) → (⟨S8192x4, .i32⟩ : BufTy).Contents (Elt F)),
    StableHlo.binary main_v36 main_v37 main_v38 (maxsi : (⟨S8192x4, .i32⟩ : BufTy).Contents (Elt F) → (⟨S8192x4, .i32⟩ : BufTy).Contents (Elt F) → (⟨S8192x4, .i32⟩ : BufTy).Contents (Elt F)),
    StableHlo.unary main_arg10 main_v39 (broadcastInDim S8192x1 ![0] bcast_S8192_S8192x1_0 : (⟨S8192, .i32⟩ : BufTy).Contents (Elt F) → (⟨S8192x1, .i32⟩ : BufTy).Contents (Elt F)),
    StableHlo.nullary main_c_8 (constantI S_ 32 64#32),
    StableHlo.TRef.unary (.of main_c_8 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S8192x4, .i32⟩) (broadcastInDim S8192x4 ![] bcast_S_S8192x4),
    StableHlo.TRef.binary (.of main_v38 : StableHlo.TRef sig ⟨S8192x4, .i32⟩) (.of main_call2_v1 : StableHlo.TRef sig ⟨S8192x4, .i32⟩) (.of main_call2_v2 : StableHlo.TRef sig ⟨S8192x4, .i32⟩) Host.divsi,
    StableHlo.TRef.unary (.of main_v38 : StableHlo.TRef sig ⟨S8192x4, .i32⟩) (.of main_call2_v3 : StableHlo.TRef sig ⟨S8192x4, .i32⟩) signi,
    StableHlo.TRef.unary (.of main_call2_v0 : StableHlo.TRef sig ⟨S_, .i32⟩) (.of main_call2_v4 : StableHlo.TRef sig ⟨S_, .i32⟩) signi,
    StableHlo.TRef.unary (.of main_call2_v4 : StableHlo.TRef sig ⟨S_, .i32⟩) (.of main_call2_v5 : StableHlo.TRef sig ⟨S8192x4, .i32⟩) (broadcastInDim S8192x4 ![] bcast_S_S8192x4),
    StableHlo.TRef.binary (.of main_call2_v3 : StableHlo.TRef sig ⟨S8192x4, .i32⟩) (.of main_call2_v5 : StableHlo.TRef sig ⟨S8192x4, .i32⟩) (.of main_call2_v6 : StableHlo.TRef sig ⟨S8192x4, .i1⟩) (cmpi .ne),
    StableHlo.TRef.unary (.of main_call2_v0 : StableHlo.TRef sig ⟨S_, .i32⟩) (.of main_call2_v7 : StableHlo.TRef sig ⟨S8192x4, .i32⟩) (broadcastInDim S8192x4 ![] bcast_S_S8192x4),
    StableHlo.TRef.binary (.of main_v38 : StableHlo.TRef sig ⟨S8192x4, .i32⟩) (.of main_call2_v7 : StableHlo.TRef sig ⟨S8192x4, .i32⟩) (.of main_call2_v8 : StableHlo.TRef sig ⟨S8192x4, .i32⟩) Host.remsi,
    StableHlo.TRef.nullary (.of main_call2_c : StableHlo.TRef sig ⟨S_, .i32⟩) (constantI S_ 32 0#32),
    StableHlo.TRef.unary (.of main_call2_c : StableHlo.TRef sig ⟨S_, .i32⟩) (.of main_call2_v9 : StableHlo.TRef sig ⟨S8192x4, .i32⟩) (broadcastInDim S8192x4 ![] bcast_S_S8192x4),
    StableHlo.TRef.binary (.of main_call2_v8 : StableHlo.TRef sig ⟨S8192x4, .i32⟩) (.of main_call2_v9 : StableHlo.TRef sig ⟨S8192x4, .i32⟩) (.of main_call2_v10 : StableHlo.TRef sig ⟨S8192x4, .i1⟩) (cmpi .ne),
    StableHlo.TRef.binary (.of main_call2_v6 : StableHlo.TRef sig ⟨S8192x4, .i1⟩) (.of main_call2_v10 : StableHlo.TRef sig ⟨S8192x4, .i1⟩) (.of main_call2_v11 : StableHlo.TRef sig ⟨S8192x4, .i1⟩) andi,
    StableHlo.TRef.nullary (.of main_call2_c_0 : StableHlo.TRef sig ⟨S_, .i32⟩) (constantI S_ 32 1#32),
    StableHlo.TRef.unary (.of main_call2_c_0 : StableHlo.TRef sig ⟨S_, .i32⟩) (.of main_call2_v12 : StableHlo.TRef sig ⟨S8192x4, .i32⟩) (broadcastInDim S8192x4 ![] bcast_S_S8192x4),
    StableHlo.TRef.binary (.of main_call2_v2 : StableHlo.TRef sig ⟨S8192x4, .i32⟩) (.of main_call2_v12 : StableHlo.TRef sig ⟨S8192x4, .i32⟩) (.of main_call2_v13 : StableHlo.TRef sig ⟨S8192x4, .i32⟩) subi,
    StableHlo.TRef.ternary (.of main_call2_v11 : StableHlo.TRef sig ⟨S8192x4, .i1⟩) (.of main_call2_v13 : StableHlo.TRef sig ⟨S8192x4, .i32⟩) (.of main_call2_v2 : StableHlo.TRef sig ⟨S8192x4, .i32⟩) (.of main_v40 : StableHlo.TRef sig ⟨S8192x4, .i32⟩) select,
    StableHlo.nullary main_c_9 (constantI S_ 32 0#32),
    StableHlo.unary main_c_9 main_v41 (broadcastInDim S8192x1 ![] bcast_S_S8192x1 : (⟨S_, .i32⟩ : BufTy).Contents (Elt F) → (⟨S8192x1, .i32⟩ : BufTy).Contents (Elt F)),
    StableHlo.binary main_v39 main_v41 main_v42 (cmpi .slt : (⟨S8192x1, .i32⟩ : BufTy).Contents (Elt F) → (⟨S8192x1, .i32⟩ : BufTy).Contents (Elt F) → (⟨S8192x1, .i1⟩ : BufTy).Contents (Elt F)),
    StableHlo.nullary main_c_10 (constantI S_ 32 4#32),
    StableHlo.unary main_c_10 main_v43 (broadcastInDim S8192x1 ![] bcast_S_S8192x1 : (⟨S_, .i32⟩ : BufTy).Contents (Elt F) → (⟨S8192x1, .i32⟩ : BufTy).Contents (Elt F)),
    StableHlo.binary main_v39 main_v43 main_v44 (addi : (⟨S8192x1, .i32⟩ : BufTy).Contents (Elt F) → (⟨S8192x1, .i32⟩ : BufTy).Contents (Elt F) → (⟨S8192x1, .i32⟩ : BufTy).Contents (Elt F)),
    StableHlo.ternary main_v42 main_v44 main_v39 main_v45 (select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)),
    StableHlo.nullary main_c_11 (constantI S_ 32 0#32),
    StableHlo.unary main_c_11 main_v46 (broadcastInDim S8192x4 ![] bcast_S_S8192x4 : (⟨S_, .i32⟩ : BufTy).Contents (Elt F) → (⟨S8192x4, .i32⟩ : BufTy).Contents (Elt F)),
    StableHlo.binary main_v40 main_v46 main_v47 (cmpi .slt : (⟨S8192x4, .i32⟩ : BufTy).Contents (Elt F) → (⟨S8192x4, .i32⟩ : BufTy).Contents (Elt F) → (⟨S8192x4, .i1⟩ : BufTy).Contents (Elt F)),
    StableHlo.nullary main_c_12 (constantI S_ 32 32#32),
    StableHlo.unary main_c_12 main_v48 (broadcastInDim S8192x4 ![] bcast_S_S8192x4 : (⟨S_, .i32⟩ : BufTy).Contents (Elt F) → (⟨S8192x4, .i32⟩ : BufTy).Contents (Elt F)),
    StableHlo.binary main_v40 main_v48 main_v49 (addi : (⟨S8192x4, .i32⟩ : BufTy).Contents (Elt F) → (⟨S8192x4, .i32⟩ : BufTy).Contents (Elt F) → (⟨S8192x4, .i32⟩ : BufTy).Contents (Elt F)),
    StableHlo.ternary main_v47 main_v49 main_v40 main_v50 (select : (⟨S8192x4, .i1⟩ : BufTy).Contents (Elt F) → (⟨S8192x4, .i32⟩ : BufTy).Contents (Elt F) → (⟨S8192x4, .i32⟩ : BufTy).Contents (Elt F) → (⟨S8192x4, .i32⟩ : BufTy).Contents (Elt F)),
    StableHlo.unary main_v45 main_v51 (broadcastInDim S8192x4 ![0, 1] bcast_S8192x1_S8192x4_0_1 : (⟨S8192x1, .i32⟩ : BufTy).Contents (Elt F) → (⟨S8192x4, .i32⟩ : BufTy).Contents (Elt F)),
    StableHlo.unary main_v51 main_v52 (broadcastInDim S8192x4x1 ![0, 1] bcast_S8192x4_S8192x4x1_0_1 : (⟨S8192x4, .i32⟩ : BufTy).Contents (Elt F) → (⟨S8192x4x1, .i32⟩ : BufTy).Contents (Elt F)),
    StableHlo.unary main_v50 main_v53 (broadcastInDim S8192x4x1 ![0, 1] bcast_S8192x4_S8192x4x1_0_1 : (⟨S8192x4, .i32⟩ : BufTy).Contents (Elt F) → (⟨S8192x4x1, .i32⟩ : BufTy).Contents (Elt F)),
    StableHlo.binary main_v52 main_v53 main_v54 ((fun a b => concatenate S8192x4x2 2 [⟨S8192x4x1, a⟩, ⟨S8192x4x1, b⟩] concatenates_S8192x4x1_S8192x4x1_S8192x4x2_d2) : (⟨S8192x4x1, .i32⟩ : BufTy).Contents (Elt F) → (⟨S8192x4x1, .i32⟩ : BufTy).Contents (Elt F) → (⟨S8192x4x2, .i32⟩ : BufTy).Contents (Elt F)),
    StableHlo.binary main_arg11 main_v54 main_v55 ((fun x i => Host.gather gather_S4x32_S8192x4x2_S8192x4_n_01_n_n_01_2_11 x i) : (⟨S4x32, .i32⟩ : BufTy).Contents (Elt F) → (⟨S8192x4x2, .i32⟩ : BufTy).Contents (Elt F) → (⟨S8192x4, .i32⟩ : BufTy).Contents (Elt F)),
    StableHlo.nullary main_c_13 (constantI S_ 32 64#32),
    StableHlo.unary main_c_13 main_v56 (broadcastInDim S8192x4 ![] bcast_S_S8192x4 : (⟨S_, .i32⟩ : BufTy).Contents (Elt F) → (⟨S8192x4, .i32⟩ : BufTy).Contents (Elt F)),
    StableHlo.binary main_v55 main_v56 main_v57 (muli : (⟨S8192x4, .i32⟩ : BufTy).Contents (Elt F) → (⟨S8192x4, .i32⟩ : BufTy).Contents (Elt F) → (⟨S8192x4, .i32⟩ : BufTy).Contents (Elt F)),
    StableHlo.nullary main_c_14 (constantI S_ 32 64#32),
    StableHlo.TRef.unary (.of main_c_14 : StableHlo.TRef sig ⟨S_, .i32⟩) (.of main_call3_v0 : StableHlo.TRef sig ⟨S_, .i32⟩) id,
    StableHlo.TRef.nullary (.of main_call3_c : StableHlo.TRef sig ⟨S_, .i32⟩) (constantI S_ 32 0#32),
    StableHlo.TRef.binary (.of main_call3_v0 : StableHlo.TRef sig ⟨S_, .i32⟩) (.of main_call3_c : StableHlo.TRef sig ⟨S_, .i32⟩) (.of main_call3_v1 : StableHlo.TRef sig ⟨S_, .i1⟩) (cmpi .eq),
    StableHlo.TRef.nullary (.of main_call3_c_0 : StableHlo.TRef sig ⟨S_, .i32⟩) (constantI S_ 32 1#32),
    StableHlo.TRef.ternary (.of main_call3_v1 : StableHlo.TRef sig ⟨S_, .i1⟩) (.of main_call3_c_0 : StableHlo.TRef sig ⟨S_, .i32⟩) (.of main_call3_v0 : StableHlo.TRef sig ⟨S_, .i32⟩) (.of main_call3_v2 : StableHlo.TRef sig ⟨S_, .i32⟩) select,
    StableHlo.TRef.unary (.of main_call3_v2 : StableHlo.TRef sig ⟨S_, .i32⟩) (.of main_call3_v3 : StableHlo.TRef sig ⟨S8192x4, .i32⟩) (broadcastInDim S8192x4 ![] bcast_S_S8192x4),
    StableHlo.TRef.binary (.of main_v38 : StableHlo.TRef sig ⟨S8192x4, .i32⟩) (.of main_call3_v3 : StableHlo.TRef sig ⟨S8192x4, .i32⟩) (.of main_call3_v4 : StableHlo.TRef sig ⟨S8192x4, .i32⟩) Host.remsi,
    StableHlo.TRef.nullary (.of main_call3_c_1 : StableHlo.TRef sig ⟨S_, .i32⟩) (constantI S_ 32 0#32),
    StableHlo.TRef.unary (.of main_call3_c_1 : StableHlo.TRef sig ⟨S_, .i32⟩) (.of main_call3_v5 : StableHlo.TRef sig ⟨S8192x4, .i32⟩) (broadcastInDim S8192x4 ![] bcast_S_S8192x4),
    StableHlo.TRef.binary (.of main_call3_v4 : StableHlo.TRef sig ⟨S8192x4, .i32⟩) (.of main_call3_v5 : StableHlo.TRef sig ⟨S8192x4, .i32⟩) (.of main_call3_v6 : StableHlo.TRef sig ⟨S8192x4, .i1⟩) (cmpi .ne),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v7 : StableHlo.TRef sig ⟨S8192x4, .i32⟩) (broadcastInDim S8192x4 ![] bcast_S_S8192x4),
    StableHlo.TRef.binary (.of main_call3_v4 : StableHlo.TRef sig ⟨S8192x4, .i32⟩) (.of main_call3_v7 : StableHlo.TRef sig ⟨S8192x4, .i32⟩) (.of main_call3_v8 : StableHlo.TRef sig ⟨S8192x4, .i1⟩) (cmpi .slt),
    StableHlo.TRef.nullary (.of main_call3_c_3 : StableHlo.TRef sig ⟨S_, .i32⟩) (constantI S_ 32 0#32),
    StableHlo.TRef.binary (.of main_call3_v2 : StableHlo.TRef sig ⟨S_, .i32⟩) (.of main_call3_c_3 : StableHlo.TRef sig ⟨S_, .i32⟩) (.of main_call3_v9 : StableHlo.TRef sig ⟨S_, .i1⟩) (cmpi .slt),
    StableHlo.TRef.unary (.of main_call3_v9 : StableHlo.TRef sig ⟨S_, .i1⟩) (.of main_call3_v10 : StableHlo.TRef sig ⟨S8192x4, .i1⟩) (broadcastInDim S8192x4 ![] bcast_S_S8192x4),
    StableHlo.TRef.binary (.of main_call3_v8 : StableHlo.TRef sig ⟨S8192x4, .i1⟩) (.of main_call3_v10 : StableHlo.TRef sig ⟨S8192x4, .i1⟩) (.of main_call3_v11 : StableHlo.TRef sig ⟨S8192x4, .i1⟩) (cmpi .ne),
    StableHlo.TRef.binary (.of main_call3_v11 : StableHlo.TRef sig ⟨S8192x4, .i1⟩) (.of main_call3_v6 : StableHlo.TRef sig ⟨S8192x4, .i1⟩) (.of main_call3_v12 : StableHlo.TRef sig ⟨S8192x4, .i1⟩) andi,
    StableHlo.TRef.unary (.of main_call3_v2 : StableHlo.TRef sig ⟨S_, .i32⟩) (.of main_call3_v13 : StableHlo.TRef sig ⟨S8192x4, .i32⟩) (broadcastInDim S8192x4 ![] bcast_S_S8192x4),
    StableHlo.TRef.binary (.of main_call3_v4 : StableHlo.TRef sig ⟨S8192x4, .i32⟩) (.of main_call3_v13 : StableHlo.TRef sig ⟨S8192x4, .i32⟩) (.of main_call3_v14 : StableHlo.TRef sig ⟨S8192x4, .i32⟩) addi,
    StableHlo.TRef.ternary (.of main_call3_v12 : StableHlo.TRef sig ⟨S8192x4, .i1⟩) (.of main_call3_v14 : StableHlo.TRef sig ⟨S8192x4, .i32⟩) (.of main_call3_v4 : StableHlo.TRef sig ⟨S8192x4, .i32⟩) (.of main_v58 : StableHlo.TRef sig ⟨S8192x4, .i32⟩) select,
    StableHlo.binary main_v57 main_v58 main_v59 (addi : (⟨S8192x4, .i32⟩ : BufTy).Contents (Elt F) → (⟨S8192x4, .i32⟩ : BufTy).Contents (Elt F) → (⟨S8192x4, .i32⟩ : BufTy).Contents (Elt F)),
    StableHlo.nullary main_c_15 (constantI S_ 32 0#32),
    StableHlo.unary main_c_15 main_v60 (broadcastInDim S8192x4 ![] bcast_S_S8192x4 : (⟨S_, .i32⟩ : BufTy).Contents (Elt F) → (⟨S8192x4, .i32⟩ : BufTy).Contents (Elt F)),
    StableHlo.binary main_v59 main_v60 main_v61 (cmpi .slt : (⟨S8192x4, .i32⟩ : BufTy).Contents (Elt F) → (⟨S8192x4, .i32⟩ : BufTy).Contents (Elt F) → (⟨S8192x4, .i1⟩ : BufTy).Contents (Elt F)),
    StableHlo.nullary main_c_16 (constantI S_ 32 8192#32),
    StableHlo.unary main_c_16 main_v62 (broadcastInDim S8192x4 ![] bcast_S_S8192x4 : (⟨S_, .i32⟩ : BufTy).Contents (Elt F) → (⟨S8192x4, .i32⟩ : BufTy).Contents (Elt F)),
    StableHlo.binary main_v59 main_v62 main_v63 (addi : (⟨S8192x4, .i32⟩ : BufTy).Contents (Elt F) → (⟨S8192x4, .i32⟩ : BufTy).Contents (Elt F) → (⟨S8192x4, .i32⟩ : BufTy).Contents (Elt F)),
    StableHlo.ternary main_v61 main_v63 main_v59 main_v64 (select : (⟨S8192x4, .i1⟩ : BufTy).Contents (Elt F) → (⟨S8192x4, .i32⟩ : BufTy).Contents (Elt F) → (⟨S8192x4, .i32⟩ : BufTy).Contents (Elt F) → (⟨S8192x4, .i32⟩ : BufTy).Contents (Elt F)),
    StableHlo.unary main_v64 main_v65 (broadcastInDim S8192x4x1 ![0, 1] bcast_S8192x4_S8192x4x1_0_1 : (⟨S8192x4, .i32⟩ : BufTy).Contents (Elt F) → (⟨S8192x4x1, .i32⟩ : BufTy).Contents (Elt F)),
    StableHlo.binary main_v25 main_v65 main_v66 ((fun x i => Host.gather gather_S8192x1024_S8192x4x1_S8192x4x1024_2_0_n_n_0_2_11024 x i) : (⟨S8192x1024, .f32⟩ : BufTy).Contents (Elt F) → (⟨S8192x4x1, .i32⟩ : BufTy).Contents (Elt F) → (⟨S8192x4x1024, .f32⟩ : BufTy).Contents (Elt F)),
    StableHlo.unary main_v66 main_v67 ((extractStridedSlice S8192x4x512 ![0, 0, 0] · slices_S8192x4x1024_S8192x4x512_0_0_0) : (⟨S8192x4x1024, .f32⟩ : BufTy).Contents (Elt F) → (⟨S8192x4x512, .f32⟩ : BufTy).Contents (Elt F)),
    StableHlo.unary main_v66 main_v68 ((extractStridedSlice S8192x4x512 ![0, 0, 512] · slices_S8192x4x1024_S8192x4x512_0_0_512) : (⟨S8192x4x1024, .f32⟩ : BufTy).Contents (Elt F) → (⟨S8192x4x512, .f32⟩ : BufTy).Contents (Elt F)),
    StableHlo.nullary main_cst (constant S_ .f32 0xFF800000#32),
    StableHlo.binary main_v68 main_cst main_v69 ((fun x v => Host.reduce FloatOps.maximumf x v reducesTo_S8192x4x512_S8192x512_d1 h_S_) : (⟨S8192x4x512, .f32⟩ : BufTy).Contents (Elt F) → (⟨S_, .f32⟩ : BufTy).Contents (Elt F) → (⟨S8192x512, .f32⟩ : BufTy).Contents (Elt F)),
    StableHlo.nullary main_cst_17 (constant S_ .f32 0xFF800000#32),
    StableHlo.unary main_cst_17 main_v70 (broadcastInDim S8192x512 ![] bcast_S_S8192x512 : (⟨S_, .f32⟩ : BufTy).Contents (Elt F) → (⟨S8192x512, .f32⟩ : BufTy).Contents (Elt F)),
    StableHlo.binary main_v70 main_v69 main_v71 (maximumf : (⟨S8192x512, .f32⟩ : BufTy).Contents (Elt F) → (⟨S8192x512, .f32⟩ : BufTy).Contents (Elt F) → (⟨S8192x512, .f32⟩ : BufTy).Contents (Elt F)),
    StableHlo.unary main_v71 main_v72 (broadcastInDim S8192x1x512 ![0, 2] bcast_S8192x512_S8192x1x512_0_2 : (⟨S8192x512, .f32⟩ : BufTy).Contents (Elt F) → (⟨S8192x1x512, .f32⟩ : BufTy).Contents (Elt F)),
    StableHlo.unary main_v72 main_v73 (broadcastInDim S8192x4x512 ![0, 1, 2] bcast_S8192x1x512_S8192x4x512_0_1_2 : (⟨S8192x1x512, .f32⟩ : BufTy).Contents (Elt F) → (⟨S8192x4x512, .f32⟩ : BufTy).Contents (Elt F)),
    StableHlo.binary main_v68 main_v73 main_v74 (subf : (⟨S8192x4x512, .f32⟩ : BufTy).Contents (Elt F) → (⟨S8192x4x512, .f32⟩ : BufTy).Contents (Elt F) → (⟨S8192x4x512, .f32⟩ : BufTy).Contents (Elt F)),
    StableHlo.unary main_v74 main_v75 (Host.exp : (⟨S8192x4x512, .f32⟩ : BufTy).Contents (Elt F) → (⟨S8192x4x512, .f32⟩ : BufTy).Contents (Elt F)),
    StableHlo.nullary main_cst_18 (constant S_ .f32 0x00000000#32),
    StableHlo.binary main_v75 main_cst_18 main_v76 ((fun x v => Host.reduceAdd x v reducesTo_S8192x4x512_S8192x512_d1 h_S_) : (⟨S8192x4x512, .f32⟩ : BufTy).Contents (Elt F) → (⟨S_, .f32⟩ : BufTy).Contents (Elt F) → (⟨S8192x512, .f32⟩ : BufTy).Contents (Elt F)),
    StableHlo.unary main_v76 main_v77 (broadcastInDim S8192x1x512 ![0, 2] bcast_S8192x512_S8192x1x512_0_2 : (⟨S8192x512, .f32⟩ : BufTy).Contents (Elt F) → (⟨S8192x1x512, .f32⟩ : BufTy).Contents (Elt F)),
    StableHlo.unary main_v77 main_v78 (broadcastInDim S8192x4x512 ![0, 1, 2] bcast_S8192x1x512_S8192x4x512_0_1_2 : (⟨S8192x1x512, .f32⟩ : BufTy).Contents (Elt F) → (⟨S8192x4x512, .f32⟩ : BufTy).Contents (Elt F)),
    StableHlo.binary main_v75 main_v78 main_v79 (Host.divf : (⟨S8192x4x512, .f32⟩ : BufTy).Contents (Elt F) → (⟨S8192x4x512, .f32⟩ : BufTy).Contents (Elt F) → (⟨S8192x4x512, .f32⟩ : BufTy).Contents (Elt F)),
    StableHlo.binary main_v79 main_v67 main_v80 (mulf : (⟨S8192x4x512, .f32⟩ : BufTy).Contents (Elt F) → (⟨S8192x4x512, .f32⟩ : BufTy).Contents (Elt F) → (⟨S8192x4x512, .f32⟩ : BufTy).Contents (Elt F)),
    StableHlo.nullary main_cst_19 (constant S_ .f32 0x00000000#32),
    StableHlo.binary main_v80 main_cst_19 main_v81 ((fun x v => Host.reduceAdd x v reducesTo_S8192x4x512_S8192x512_d1 h_S_) : (⟨S8192x4x512, .f32⟩ : BufTy).Contents (Elt F) → (⟨S_, .f32⟩ : BufTy).Contents (Elt F) → (⟨S8192x512, .f32⟩ : BufTy).Contents (Elt F)) ]

/-- The normalisation and rotation of the window sum, and the rotary rows' gather. -/
abbrev segR : List (HloOp τ sig (Elt F)) :=
  [ StableHlo.reshape main_v81 main_v82 rfl shapeCasts_S8192x512_S8192x2x256,
    StableHlo.binary main_v82 main_v82 main_v83 (mulf : (⟨S8192x2x256, .f32⟩ : BufTy).Contents (Elt F) → (⟨S8192x2x256, .f32⟩ : BufTy).Contents (Elt F) → (⟨S8192x2x256, .f32⟩ : BufTy).Contents (Elt F)),
    StableHlo.nullary main_cst_20 (constant S_ .f32 0x00000000#32),
    StableHlo.binary main_v83 main_cst_20 main_v84 ((fun x v => Host.reduceAdd x v reducesTo_S8192x2x256_S8192x2_d2 h_S_) : (⟨S8192x2x256, .f32⟩ : BufTy).Contents (Elt F) → (⟨S_, .f32⟩ : BufTy).Contents (Elt F) → (⟨S8192x2, .f32⟩ : BufTy).Contents (Elt F)),
    StableHlo.unary main_v84 main_v85 (broadcastInDim S8192x2x1 ![0, 1] bcast_S8192x2_S8192x2x1_0_1 : (⟨S8192x2, .f32⟩ : BufTy).Contents (Elt F) → (⟨S8192x2x1, .f32⟩ : BufTy).Contents (Elt F)),
    StableHlo.nullary main_cst_21 (constant S_ .f32 0x43800000#32),
    StableHlo.unary main_cst_21 main_v86 (broadcastInDim S8192x2x1 ![] bcast_S_S8192x2x1 : (⟨S_, .f32⟩ : BufTy).Contents (Elt F) → (⟨S8192x2x1, .f32⟩ : BufTy).Contents (Elt F)),
    StableHlo.binary main_v85 main_v86 main_v87 (Host.divf : (⟨S8192x2x1, .f32⟩ : BufTy).Contents (Elt F) → (⟨S8192x2x1, .f32⟩ : BufTy).Contents (Elt F) → (⟨S8192x2x1, .f32⟩ : BufTy).Contents (Elt F)),
    StableHlo.nullary main_cst_22 (constant S_ .f32 0x358637BD#32),
    StableHlo.unary main_cst_22 main_v88 (broadcastInDim S8192x2x1 ![] bcast_S_S8192x2x1 : (⟨S_, .f32⟩ : BufTy).Contents (Elt F) → (⟨S8192x2x1, .f32⟩ : BufTy).Contents (Elt F)),
    StableHlo.binary main_v87 main_v88 main_v89 (addf : (⟨S8192x2x1, .f32⟩ : BufTy).Contents (Elt F) → (⟨S8192x2x1, .f32⟩ : BufTy).Contents (Elt F) → (⟨S8192x2x1, .f32⟩ : BufTy).Contents (Elt F)),
    StableHlo.unary main_v89 main_v90 (Host.rsqrt : (⟨S8192x2x1, .f32⟩ : BufTy).Contents (Elt F) → (⟨S8192x2x1, .f32⟩ : BufTy).Contents (Elt F)),
    StableHlo.unary main_v90 main_v91 (broadcastInDim S8192x2x256 ![0, 1, 2] bcast_S8192x2x1_S8192x2x256_0_1_2 : (⟨S8192x2x1, .f32⟩ : BufTy).Contents (Elt F) → (⟨S8192x2x256, .f32⟩ : BufTy).Contents (Elt F)),
    StableHlo.binary main_v82 main_v91 main_v92 (mulf : (⟨S8192x2x256, .f32⟩ : BufTy).Contents (Elt F) → (⟨S8192x2x256, .f32⟩ : BufTy).Contents (Elt F) → (⟨S8192x2x256, .f32⟩ : BufTy).Contents (Elt F)),
    StableHlo.unary main_arg4 main_v93 (broadcastInDim S1x1x256 ![2] bcast_S256_S1x1x256_2 : (⟨S256, .f32⟩ : BufTy).Contents (Elt F) → (⟨S1x1x256, .f32⟩ : BufTy).Contents (Elt F)),
    StableHlo.unary main_v93 main_v94 (broadcastInDim S8192x2x256 ![0, 1, 2] bcast_S1x1x256_S8192x2x256_0_1_2 : (⟨S1x1x256, .f32⟩ : BufTy).Contents (Elt F) → (⟨S8192x2x256, .f32⟩ : BufTy).Contents (Elt F)),
    StableHlo.binary main_v92 main_v94 main_v95 (mulf : (⟨S8192x2x256, .f32⟩ : BufTy).Contents (Elt F) → (⟨S8192x2x256, .f32⟩ : BufTy).Contents (Elt F) → (⟨S8192x2x256, .f32⟩ : BufTy).Contents (Elt F)),
    StableHlo.nullary main_c_23 (constantI S_ 32 4#32),
    StableHlo.TRef.unary (.of main_c_23 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S8192, .i32⟩) (broadcastInDim S8192 ![] bcast_S_S8192),
    StableHlo.TRef.binary (.of main_arg8 : StableHlo.TRef sig ⟨S8192, .i32⟩) (.of main_call4_v1 : StableHlo.TRef sig ⟨S8192, .i32⟩) (.of main_call4_v2 : StableHlo.TRef sig ⟨S8192, .i32⟩) Host.divsi,
    StableHlo.TRef.unary (.of main_arg8 : StableHlo.TRef sig ⟨S8192, .i32⟩) (.of main_call4_v3 : StableHlo.TRef sig ⟨S8192, .i32⟩) signi,
    StableHlo.TRef.unary (.of main_call4_v0 : StableHlo.TRef sig ⟨S_, .i32⟩) (.of main_call4_v4 : StableHlo.TRef sig ⟨S_, .i32⟩) signi,
    StableHlo.TRef.unary (.of main_call4_v4 : StableHlo.TRef sig ⟨S_, .i32⟩) (.of main_call4_v5 : StableHlo.TRef sig ⟨S8192, .i32⟩) (broadcastInDim S8192 ![] bcast_S_S8192),
    StableHlo.TRef.binary (.of main_call4_v3 : StableHlo.TRef sig ⟨S8192, .i32⟩) (.of main_call4_v5 : StableHlo.TRef sig ⟨S8192, .i32⟩) (.of main_call4_v6 : StableHlo.TRef sig ⟨S8192, .i1⟩) (cmpi .ne),
    StableHlo.TRef.unary (.of main_call4_v0 : StableHlo.TRef sig ⟨S_, .i32⟩) (.of main_call4_v7 : StableHlo.TRef sig ⟨S8192, .i32⟩) (broadcastInDim S8192 ![] bcast_S_S8192),
    StableHlo.TRef.binary (.of main_arg8 : StableHlo.TRef sig ⟨S8192, .i32⟩) (.of main_call4_v7 : StableHlo.TRef sig ⟨S8192, .i32⟩) (.of main_call4_v8 : StableHlo.TRef sig ⟨S8192, .i32⟩) Host.remsi,
    StableHlo.TRef.nullary (.of main_call4_c : StableHlo.TRef sig ⟨S_, .i32⟩) (constantI S_ 32 0#32),
    StableHlo.TRef.unary (.of main_call4_c : StableHlo.TRef sig ⟨S_, .i32⟩) (.of main_call4_v9 : StableHlo.TRef sig ⟨S8192, .i32⟩) (broadcastInDim S8192 ![] bcast_S_S8192),
    StableHlo.TRef.binary (.of main_call4_v8 : StableHlo.TRef sig ⟨S8192, .i32⟩) (.of main_call4_v9 : StableHlo.TRef sig ⟨S8192, .i32⟩) (.of main_call4_v10 : StableHlo.TRef sig ⟨S8192, .i1⟩) (cmpi .ne),
    StableHlo.TRef.binary (.of main_call4_v6 : StableHlo.TRef sig ⟨S8192, .i1⟩) (.of main_call4_v10 : StableHlo.TRef sig ⟨S8192, .i1⟩) (.of main_call4_v11 : StableHlo.TRef sig ⟨S8192, .i1⟩) andi,
    StableHlo.TRef.nullary (.of main_call4_c_0 : StableHlo.TRef sig ⟨S_, .i32⟩) (constantI S_ 32 1#32),
    StableHlo.TRef.unary (.of main_call4_c_0 : StableHlo.TRef sig ⟨S_, .i32⟩) (.of main_call4_v12 : StableHlo.TRef sig ⟨S8192, .i32⟩) (broadcastInDim S8192 ![] bcast_S_S8192),
    StableHlo.TRef.binary (.of main_call4_v2 : StableHlo.TRef sig ⟨S8192, .i32⟩) (.of main_call4_v12 : StableHlo.TRef sig ⟨S8192, .i32⟩) (.of main_call4_v13 : StableHlo.TRef sig ⟨S8192, .i32⟩) subi,
    StableHlo.TRef.ternary (.of main_call4_v11 : StableHlo.TRef sig ⟨S8192, .i1⟩) (.of main_call4_v13 : StableHlo.TRef sig ⟨S8192, .i32⟩) (.of main_call4_v2 : StableHlo.TRef sig ⟨S8192, .i32⟩) (.of main_v96 : StableHlo.TRef sig ⟨S8192, .i32⟩) select,
    StableHlo.nullary main_c_24 (constantI S_ 32 0#32),
    StableHlo.unary main_c_24 main_v97 (broadcastInDim S8192 ![] bcast_S_S8192 : (⟨S_, .i32⟩ : BufTy).Contents (Elt F) → (⟨S8192, .i32⟩ : BufTy).Contents (Elt F)),
    StableHlo.binary main_v96 main_v97 main_v98 (cmpi .slt : (⟨S8192, .i32⟩ : BufTy).Contents (Elt F) → (⟨S8192, .i32⟩ : BufTy).Contents (Elt F) → (⟨S8192, .i1⟩ : BufTy).Contents (Elt F)),
    StableHlo.nullary main_c_25 (constantI S_ 32 512#32),
    StableHlo.unary main_c_25 main_v99 (broadcastInDim S8192 ![] bcast_S_S8192 : (⟨S_, .i32⟩ : BufTy).Contents (Elt F) → (⟨S8192, .i32⟩ : BufTy).Contents (Elt F)),
    StableHlo.binary main_v96 main_v99 main_v100 (addi : (⟨S8192, .i32⟩ : BufTy).Contents (Elt F) → (⟨S8192, .i32⟩ : BufTy).Contents (Elt F) → (⟨S8192, .i32⟩ : BufTy).Contents (Elt F)),
    StableHlo.ternary main_v98 main_v100 main_v96 main_v101 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v101 main_v102 (broadcastInDim S8192x1 ![0] bcast_S8192_S8192x1_0 : (⟨S8192, .i32⟩ : BufTy).Contents (Elt F) → (⟨S8192x1, .i32⟩ : BufTy).Contents (Elt F)),
    StableHlo.binary main_arg5 main_v102 main_v103 ((fun x i => Host.gather gather_S512x256_S8192x1_S8192x256_1_0_n_n_0_1_1256 x i) : (⟨S512x256, .f32⟩ : BufTy).Contents (Elt F) → (⟨S8192x1, .i32⟩ : BufTy).Contents (Elt F) → (⟨S8192x256, .f32⟩ : BufTy).Contents (Elt F)),
    StableHlo.unary main_v103 main_v104 ((extractStridedSlice S8192x128 ![0, 0] · slices_S8192x256_S8192x128_0_0) : (⟨S8192x256, .f32⟩ : BufTy).Contents (Elt F) → (⟨S8192x128, .f32⟩ : BufTy).Contents (Elt F)),
    StableHlo.unary main_v104 main_v105 (broadcastInDim S8192x1x128 ![0, 2] bcast_S8192x128_S8192x1x128_0_2 : (⟨S8192x128, .f32⟩ : BufTy).Contents (Elt F) → (⟨S8192x1x128, .f32⟩ : BufTy).Contents (Elt F)),
    StableHlo.unary main_v103 main_v106 ((extractStridedSlice S8192x128 ![0, 128] · slices_S8192x256_S8192x128_0_128) : (⟨S8192x256, .f32⟩ : BufTy).Contents (Elt F) → (⟨S8192x128, .f32⟩ : BufTy).Contents (Elt F)),
    StableHlo.unary main_v106 main_v107 (broadcastInDim S8192x1x128 ![0, 2] bcast_S8192x128_S8192x1x128_0_2 : (⟨S8192x128, .f32⟩ : BufTy).Contents (Elt F) → (⟨S8192x1x128, .f32⟩ : BufTy).Contents (Elt F)),
    StableHlo.unary main_v95 main_v108 ((extractStridedSlice S8192x2x128 ![0, 0, 0] · slices_S8192x2x256_S8192x2x128_0_0_0) : (⟨S8192x2x256, .f32⟩ : BufTy).Contents (Elt F) → (⟨S8192x2x128, .f32⟩ : BufTy).Contents (Elt F)),
    StableHlo.unary main_v95 main_v109 ((extractStridedSlice S8192x2x128 ![0, 0, 128] · slices_S8192x2x256_S8192x2x128_0_0_128) : (⟨S8192x2x256, .f32⟩ : BufTy).Contents (Elt F) → (⟨S8192x2x128, .f32⟩ : BufTy).Contents (Elt F)),
    StableHlo.unary main_v105 main_v110 (broadcastInDim S8192x2x128 ![0, 1, 2] bcast_S8192x1x128_S8192x2x128_0_1_2 : (⟨S8192x1x128, .f32⟩ : BufTy).Contents (Elt F) → (⟨S8192x2x128, .f32⟩ : BufTy).Contents (Elt F)),
    StableHlo.binary main_v108 main_v110 main_v111 (mulf : (⟨S8192x2x128, .f32⟩ : BufTy).Contents (Elt F) → (⟨S8192x2x128, .f32⟩ : BufTy).Contents (Elt F) → (⟨S8192x2x128, .f32⟩ : BufTy).Contents (Elt F)),
    StableHlo.unary main_v107 main_v112 (broadcastInDim S8192x2x128 ![0, 1, 2] bcast_S8192x1x128_S8192x2x128_0_1_2 : (⟨S8192x1x128, .f32⟩ : BufTy).Contents (Elt F) → (⟨S8192x2x128, .f32⟩ : BufTy).Contents (Elt F)),
    StableHlo.binary main_v109 main_v112 main_v113 (mulf : (⟨S8192x2x128, .f32⟩ : BufTy).Contents (Elt F) → (⟨S8192x2x128, .f32⟩ : BufTy).Contents (Elt F) → (⟨S8192x2x128, .f32⟩ : BufTy).Contents (Elt F)),
    StableHlo.binary main_v111 main_v113 main_v114 (subf : (⟨S8192x2x128, .f32⟩ : BufTy).Contents (Elt F) → (⟨S8192x2x128, .f32⟩ : BufTy).Contents (Elt F) → (⟨S8192x2x128, .f32⟩ : BufTy).Contents (Elt F)),
    StableHlo.unary main_v105 main_v115 (broadcastInDim S8192x2x128 ![0, 1, 2] bcast_S8192x1x128_S8192x2x128_0_1_2 : (⟨S8192x1x128, .f32⟩ : BufTy).Contents (Elt F) → (⟨S8192x2x128, .f32⟩ : BufTy).Contents (Elt F)),
    StableHlo.binary main_v109 main_v115 main_v116 (mulf : (⟨S8192x2x128, .f32⟩ : BufTy).Contents (Elt F) → (⟨S8192x2x128, .f32⟩ : BufTy).Contents (Elt F) → (⟨S8192x2x128, .f32⟩ : BufTy).Contents (Elt F)),
    StableHlo.unary main_v107 main_v117 (broadcastInDim S8192x2x128 ![0, 1, 2] bcast_S8192x1x128_S8192x2x128_0_1_2 : (⟨S8192x1x128, .f32⟩ : BufTy).Contents (Elt F) → (⟨S8192x2x128, .f32⟩ : BufTy).Contents (Elt F)),
    StableHlo.binary main_v108 main_v117 main_v118 (mulf : (⟨S8192x2x128, .f32⟩ : BufTy).Contents (Elt F) → (⟨S8192x2x128, .f32⟩ : BufTy).Contents (Elt F) → (⟨S8192x2x128, .f32⟩ : BufTy).Contents (Elt F)),
    StableHlo.binary main_v116 main_v118 main_v119 (addf : (⟨S8192x2x128, .f32⟩ : BufTy).Contents (Elt F) → (⟨S8192x2x128, .f32⟩ : BufTy).Contents (Elt F) → (⟨S8192x2x128, .f32⟩ : BufTy).Contents (Elt F)),
    StableHlo.binary main_v114 main_v119 main_v120 ((fun a b => concatenate S8192x2x256 2 [⟨S8192x2x128, a⟩, ⟨S8192x2x128, b⟩] concatenates_S8192x2x128_S8192x2x128_S8192x2x256_d2) : (⟨S8192x2x128, .f32⟩ : BufTy).Contents (Elt F) → (⟨S8192x2x128, .f32⟩ : BufTy).Contents (Elt F) → (⟨S8192x2x256, .f32⟩ : BufTy).Contents (Elt F)),
    StableHlo.reshape main_v120 main_v121 rfl shapeCasts_S8192x2x256_S8192x512 ]

/-- The scatter into the compressed cache and its last slice. -/
abbrev sufT : List (HloOp τ sig (Elt F)) :=
  [ StableHlo.nullary main_c_26 (constantI S_ 32 2048#32),
    StableHlo.TRef.unary (.of main_c_26 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S8192, .i32⟩) (broadcastInDim S8192 ![] bcast_S_S8192),
    StableHlo.TRef.ternary (.of main_v28 : StableHlo.TRef sig ⟨S8192, .i1⟩) (.of main_arg12 : StableHlo.TRef sig ⟨S8192, .i32⟩) (.of main_call5_v1 : StableHlo.TRef sig ⟨S8192, .i32⟩) (.of main_v122 : StableHlo.TRef sig ⟨S8192, .i32⟩) select,
    StableHlo.nullary main_cst_27 (constant S_ .f32 0x00000000#32),
    StableHlo.unary main_cst_27 main_v123 (broadcastInDim S1x512 ![] bcast_S_S1x512 : (⟨S_, .f32⟩ : BufTy).Contents (Elt F) → (⟨S1x512, .f32⟩ : BufTy).Contents (Elt F)),
    StableHlo.binary main_arg7 main_v123 main_v124 ((fun a b => concatenate S2049x512 0 [⟨S2048x512, a⟩, ⟨S1x512, b⟩] concatenates_S2048x512_S1x512_S2049x512_d0) : (⟨S2048x512, .f32⟩ : BufTy).Contents (Elt F) → (⟨S1x512, .f32⟩ : BufTy).Contents (Elt F) → (⟨S2049x512, .f32⟩ : BufTy).Contents (Elt F)),
    StableHlo.nullary main_c_28 (constantI S_ 32 0#32),
    StableHlo.unary main_c_28 main_v125 (broadcastInDim S8192 ![] bcast_S_S8192 : (⟨S_, .i32⟩ : BufTy).Contents (Elt F) → (⟨S8192, .i32⟩ : BufTy).Contents (Elt F)),
    StableHlo.binary main_v122 main_v125 main_v126 (cmpi .slt : (⟨S8192, .i32⟩ : BufTy).Contents (Elt F) → (⟨S8192, .i32⟩ : BufTy).Contents (Elt F) → (⟨S8192, .i1⟩ : BufTy).Contents (Elt F)),
    StableHlo.nullary main_c_29 (constantI S_ 32 2049#32),
    StableHlo.unary main_c_29 main_v127 (broadcastInDim S8192 ![] bcast_S_S8192 : (⟨S_, .i32⟩ : BufTy).Contents (Elt F) → (⟨S8192, .i32⟩ : BufTy).Contents (Elt F)),
    StableHlo.binary main_v122 main_v127 main_v128 (addi : (⟨S8192, .i32⟩ : BufTy).Contents (Elt F) → (⟨S8192, .i32⟩ : BufTy).Contents (Elt F) → (⟨S8192, .i32⟩ : BufTy).Contents (Elt F)),
    StableHlo.ternary main_v126 main_v128 main_v122 main_v129 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v129 main_v130 (broadcastInDim S8192x1 ![0] bcast_S8192_S8192x1_0 : (⟨S8192, .i32⟩ : BufTy).Contents (Elt F) → (⟨S8192x1, .i32⟩ : BufTy).Contents (Elt F)),
    StableHlo.ternary main_v124 main_v130 main_v121 main_v131 ((fun x i u => Host.scatter scatter_S2049x512_S8192x1_S8192x512_1_0_0_1 (fun _ b => b) x i u) : (⟨S2049x512, .f32⟩ : BufTy).Contents (Elt F) → (⟨S8192x1, .i32⟩ : BufTy).Contents (Elt F) → (⟨S8192x512, .f32⟩ : BufTy).Contents (Elt F) → (⟨S2049x512, .f32⟩ : BufTy).Contents (Elt F)),
    StableHlo.unary main_v131 main_v132 ((extractStridedSlice S2048x512 ![0, 0] · slices_S2049x512_S2048x512_0_0) : (⟨S2049x512, .f32⟩ : BufTy).Contents (Elt F) → (⟨S2048x512, .f32⟩ : BufTy).Contents (Elt F)) ]

set_option maxRecDepth 65536 in
theorem ops_eq : (RefRun.ops : List (HloOp τ sig (Elt F))) = pre ++ (segM ++ (segR ++ sufT)) := rfl

theorem after_ops (V : Valuation τ sig (Elt F)) :
    StableHlo.after RefRun.ops V = StableHlo.after sufT (StableHlo.after segR (StableHlo.after segM (StableHlo.after pre V))) := by
  rw [ops_eq, RefRun.after_append, RefRun.after_append, RefRun.after_append]

end Cert.ReferenceIdeal.RefCuts

end
-- ==== Proof.DequantSpec.lean ====
/-
  The block-scaled dequantized matrix product, as one function of whole arrays.

  With activations `a : [8192, 4096]`, weights `w : [1024, 4096]` and the transposed scale table `st : [32, 8]`
  (one scale per 128 x 128 tile of `w`: tile row `n / 128`, tile column `k / 128`, stored at `st (k / 128, n / 128)`),
  the result at `(r, n)` is

      sum over k < 4096 of  a (r, k) * (w (n, k) * st (k / 128, n / 128)).

  The contraction is also written as eight chunks of 512 columns, accumulated in order from zero:
  `(((0 + C 0) + C 1) + ... ) + C 7` with `C c = sum over j < 512` of the same term at `k = 512 c + j`.  Over the
  extended reals the two arrangements are equal by associativity of addition and `0 + x = x` alone: a sum over
  `Fin 4096` is re-indexed through `Fin 8 x Fin 512`; nothing here needs a value to be finite.
-/
import Idealize.ShloMosaic.PureOps.Ideal
import Idealize.ShloMosaic.Lib.ValueIdx

noncomputable section

open scoped BigOperators

namespace Cert.KernelIdeal.Dequant

open Idealize.ShloMosaic Idealize.ShloMosaic.ValueIdx

/-- The scale table's row for contraction column `k`: its tile column `k / 128`. -/
def sRow (k : Fin 4096) : Fin 32 := ⟨k.val / 128, by have := k.isLt; omega⟩
/-- The scale table's column for output column `n`: its tile row `n / 128`. -/
def sCol (n : Fin 1024) : Fin 8 := ⟨n.val / 128, by have := n.isLt; omega⟩

/-- One term of the contraction: a row of activations against row `n` of the dequantized weights, at column `k`. -/
def term (arow : Fin 4096 → EReal) (w : (⟨2, ![1024, 4096]⟩ : Shape).Idx → EReal) (st : (⟨2, ![32, 8]⟩ : Shape).Idx → EReal)
    (n : Fin 1024) (k : Fin 4096) : EReal :=
  arow k * (w (ix2 n k) * st (ix2 (sRow k) (sCol n)))

/-- The whole contraction of one row of activations against row `n` of the dequantized weights. -/
def rowDot (arow : Fin 4096 → EReal) (w : (⟨2, ![1024, 4096]⟩ : Shape).Idx → EReal) (st : (⟨2, ![32, 8]⟩ : Shape).Idx → EReal)
    (n : Fin 1024) : EReal :=
  ∑ k : Fin 4096, term arow w st n k

/-- THE RESULT ARRAY: `Gmat a w st (r, n) = sum over k of a (r, k) * (w (n, k) * st (k / 128, n / 128))`. -/
def Gmat (a : (⟨2, ![8192, 4096]⟩ : Shape).Idx → EReal) (w : (⟨2, ![1024, 4096]⟩ : Shape).Idx → EReal)
    (st : (⟨2, ![32, 8]⟩ : Shape).Idx → EReal) : (⟨2, ![8192, 1024]⟩ : Shape).Idx → EReal :=
  fun i => rowDot (fun k => a (ix2 (i 0) k)) w st (i 1)

/-- The same function of a block of 256 rows of activations. -/
def Gblk (a : (⟨2, ![256, 4096]⟩ : Shape).Idx → EReal) (w : (⟨2, ![1024, 4096]⟩ : Shape).Idx → EReal)
    (st : (⟨2, ![32, 8]⟩ : Shape).Idx → EReal) : (⟨2, ![256, 1024]⟩ : Shape).Idx → EReal :=
  fun i => rowDot (fun k => a (ix2 (i 0) k)) w st (i 1)

/-- The result at an index given by coordinates, as the flat sum. -/
theorem Gmat_apply (a : (⟨2, ![8192, 4096]⟩ : Shape).Idx → EReal) (w : (⟨2, ![1024, 4096]⟩ : Shape).Idx → EReal)
    (st : (⟨2, ![32, 8]⟩ : Shape).Idx → EReal) (r : Fin 8192) (n : Fin 1024) :
    Gmat a w st (ix2 r n) = ∑ k : Fin 4096, a (ix2 r k) * (w (ix2 n k) * st (ix2 (sRow k) (sCol n))) := rfl

/-- Column `j` of chunk `c`: contraction column `512 c + j`. -/
def kidx (c : Fin 8) (j : Fin 512) : Fin 4096 := ⟨512 * c.val + j.val, by have := c.isLt; have := j.isLt; omega⟩

/-- The contraction columns are the eight chunks of 512. -/
def kEquiv : Fin 8 × Fin 512 ≃ Fin 4096 where
  toFun p := kidx p.1 p.2
  invFun k := (⟨k.val / 512, by have := k.isLt; omega⟩, ⟨k.val % 512, Nat.mod_lt _ (by decide)⟩)
  left_inv p := by
    obtain ⟨c, j⟩ := p
    have hc := c.isLt
    have hj := j.isLt
    refine Prod.ext (Fin.ext ?_) (Fin.ext ?_)
    · show (512 * c.val + j.val) / 512 = c.val
      omega
    · show (512 * c.val + j.val) % 512 = j.val
      omega
  right_inv k := by
    refine Fin.ext ?_
    show 512 * (k.val / 512) + k.val % 512 = k.val
    omega

/-- One chunk's part of the contraction. -/
def chunkDot (arow : Fin 4096 → EReal) (w : (⟨2, ![1024, 4096]⟩ : Shape).Idx → EReal) (st : (⟨2, ![32, 8]⟩ : Shape).Idx → EReal)
    (n : Fin 1024) (c : Fin 8) : EReal :=
  ∑ j : Fin 512, term arow w st n (kidx c j)

/-- The eight chunks accumulated in order from zero. -/
def chunked (arow : Fin 4096 → EReal) (w : (⟨2, ![1024, 4096]⟩ : Shape).Idx → EReal) (st : (⟨2, ![32, 8]⟩ : Shape).Idx → EReal)
    (n : Fin 1024) : EReal :=
  (((((((0 + chunkDot arow w st n 0) + chunkDot arow w st n 1) + chunkDot arow w st n 2) + chunkDot arow w st n 3)
    + chunkDot arow w st n 4) + chunkDot arow w st n 5) + chunkDot arow w st n 6) + chunkDot arow w st n 7

/-- THE LAW: the chunks accumulated in order are the flat sum (associativity of `+` and `0 + x = x`). -/
theorem chunked_eq_rowDot (arow : Fin 4096 → EReal) (w : (⟨2, ![1024, 4096]⟩ : Shape).Idx → EReal)
    (st : (⟨2, ![32, 8]⟩ : Shape).Idx → EReal) (n : Fin 1024) : chunked arow w st n = rowDot arow w st n := by
  unfold chunked rowDot chunkDot
  rw [← Equiv.sum_comp kEquiv (fun k => term arow w st n k), Fintype.sum_prod_type, Fin.sum_univ_eight, zero_add]
  rfl

end Cert.KernelIdeal.Dequant

end
-- ==== Proof.DequantChunk.lean ====
/-
  One chunk of the contraction, read at an index of the output block.

  A chunk takes 512 columns of the weights `w : [1024, 512]`, the four rows of the transposed scale table that belong
  to those columns `s : [4, 8]`, the same 512 columns of a block of activations `a : [256, 512]` and the running
  sum `acc : [256, 1024]`.  The scales are laid out over the weights by a transpose to `[8, 4]`, a reshape to
  `[8, 1, 4, 1]`, a broadcast to `[8, 128, 4, 128]` and a reshape to `[1024, 512]`: position `(n, j)` of the result
  is row-major position `((n / 128) * 128 + n % 128) * 512 + (j / 128) * 128 + j % 128` of the broadcast, so it holds
  `s (j / 128, n / 128)`.  The product with the transposed dequantized weights, accumulated from zero, adds
  `sum over j < 512 of a (r, j) * (w (n, j) * s (j / 128, n / 128))` to `acc (r, n)`.
-/
import proofs.«114737_j78752520339581_1_alg».proof.Proof.DequantSpec
import proofs.«114737_j78752520339581_1_alg».proof.Proof.Gen.KernelIdeal.Skeleton
import Idealize.ShloMosaic.Lib.ValueLayout
import Idealize.ShloMosaic.PureOps.Ideal.Laws

noncomputable section

open scoped BigOperators
open Idealize.ShloMosaic Idealize.ShloMosaic.ValueIdx

namespace Cert.KernelIdeal.Dequant
open Cert.KernelIdeal Cert.KernelIdeal.Gen

variable {α : Type}

/-- The scales laid out over a `[1024, 512]` chunk of weights: position `(n, j)` holds `s (j / 128, n / 128)`. -/
theorem expand_apply (s : S4x8.Idx → α) (h1 : S4x8.ShapeCasts S4x8) (h2 : S4x8.Transposes [1, 0] S8x4)
    (h3 : S8x4.ShapeCasts S8x1x4x1) (h4 : S8x1x4x1.ShapeCasts S8x1x4x1) (h5 : S8x1x4x1.Broadcasts S8x128x4x128)
    (h6 : S8x128x4x128.ShapeCasts S1024x512) (n : Fin 1024) (j : Fin 512) :
    shapeCast S1024x512 (broadcastTo S8x128x4x128 (shapeCast S8x1x4x1 (shapeCast S8x1x4x1
      (transpose S8x4 [1, 0] (shapeCast S4x8 s h1) h2) h3) h4) h5) h6 (ix2 n j)
      = s (ix2 (⟨j.val / 128, by have := j.isLt; omega⟩ : Fin 4) (⟨n.val / 128, by have := n.isLt; omega⟩ : Fin 8)) := by
  have hn := n.isLt
  have hj := j.isLt
  -- the reshape to [1024, 512] reads the broadcast at (n / 128, n % 128, j / 128, j % 128)
  refine (shapeCast_apply _ h6 (ix2 n j)
    (ix4 (⟨n.val / 128, by omega⟩ : Fin 8) (⟨n.val % 128, Nat.mod_lt _ (by decide)⟩ : Fin 128)
      (⟨j.val / 128, by omega⟩ : Fin 4) (⟨j.val % 128, Nat.mod_lt _ (by decide)⟩ : Fin 128)) ?_).trans ?_
  · rw [Shape.rowMajor_val_four, Shape.rowMajor_val_two]
    show ((n.val / 128 * 128 + n.val % 128) * 4 + j.val / 128) * 128 + j.val % 128 = n.val * 512 + j.val
    omega
  -- the broadcast reads its operand at (n / 128, 0, j / 128, 0)
  refine (broadcastTo_apply _ h5 _ (ix4 (⟨n.val / 128, by omega⟩ : Fin 8) (0 : Fin 1) (⟨j.val / 128, by omega⟩ : Fin 4) (0 : Fin 1))
    (fun a => by match a with | ⟨0, _⟩ => rfl | ⟨1, _⟩ => rfl | ⟨2, _⟩ => rfl | ⟨3, _⟩ => rfl)).trans ?_
  -- the reshape of a shape to itself is the identity
  refine (congrFun (shapeCast_self _ h4) _).trans ?_
  -- the reshape [8, 4] → [8, 1, 4, 1] reads (n / 128, j / 128)
  refine (shapeCast_apply _ h3 _ (ix2 (⟨n.val / 128, by omega⟩ : Fin 8) (⟨j.val / 128, by omega⟩ : Fin 4)) ?_).trans ?_
  · rw [Shape.rowMajor_val_four, Shape.rowMajor_val_two]
    show n.val / 128 * 4 + j.val / 128 = ((n.val / 128 * 1 + 0) * 4 + j.val / 128) * 1 + 0
    omega
  -- the transpose swaps the two coordinates
  refine (transpose_ix2_apply _ h2 _ _).trans ?_
  exact congrFun (shapeCast_self _ h1) _

/-- The contraction index of the chunk's product is one coordinate below 512. -/
abbrev cEquiv : (dot_S256x512_S512x1024_S256x1024_1_0_0_1_n_n).contr.Idx ≃ Fin 512 :=
  contrEquiv1 dot_S256x512_S512x1024_S256x1024_1_0_0_1_n_n 512 rfl rfl

/-- At output position `(r, n)` and contraction coordinate `j` the left operand is read at `(r, j)`, -/
theorem lhsIdx_eq (r : Fin 256) (n : Fin 1024) (j : Fin 512) :
    (dot_S256x512_S512x1024_S256x1024_1_0_0_1_n_n).lhsIdx (ix2 r n) (cEquiv.symm j) = ix2 r j := by
  funext ax
  refine Fin.ext ?_
  match ax with
  | ⟨0, _⟩ => rfl
  | ⟨1, _⟩ =>
    exact (DotDims.lhsIdx_val_of_single (d := dot_S256x512_S512x1024_S256x1024_1_0_0_1_n_n) (cl := (1 : Fin 2)) rfl (ix2 r n) (cEquiv.symm j)).trans
      (contrEquiv1_symm_val dot_S256x512_S512x1024_S256x1024_1_0_0_1_n_n 512 rfl rfl j)

/-- and the right operand at `(j, n)`. -/
theorem rhsIdx_eq (r : Fin 256) (n : Fin 1024) (j : Fin 512) :
    (dot_S256x512_S512x1024_S256x1024_1_0_0_1_n_n).rhsIdx (ix2 r n) (cEquiv.symm j) = ix2 j n := by
  funext ax
  refine Fin.ext ?_
  match ax with
  | ⟨0, _⟩ =>
    exact (DotDims.rhsIdx_val_of_single (d := dot_S256x512_S512x1024_S256x1024_1_0_0_1_n_n) (cr := (0 : Fin 2)) rfl (ix2 r n) (cEquiv.symm j)).trans
      (contrEquiv1_symm_val dot_S256x512_S512x1024_S256x1024_1_0_0_1_n_n 512 rfl rfl j)
  | ⟨1, _⟩ => rfl

/-- ONE CHUNK at an index of the output block: the running sum plus the chunk's part of the contraction. -/
theorem chunk_apply (w : Vec Ideal S1024x512 .f32) (s : Vec Ideal S4x8 .f32) (a : Vec Ideal S256x512 .f32)
    (acc : Vec Ideal S256x1024 .f32) (r : Fin 256) (n : Fin 1024) :
    k0_pay3 (F := Ideal) w s a acc (ix2 r n)
      = acc (ix2 r n) + ∑ j : Fin 512, a (ix2 r j) * (w (ix2 n j)
          * s (ix2 (⟨j.val / 128, by have := j.isLt; omega⟩ : Fin 4) (⟨n.val / 128, by have := n.isLt; omega⟩ : Fin 8))) := by
  unfold k0_pay3
  refine (congrFun (shapeCast_self _ _) _).trans ?_
  refine (addf_apply _ _ _).trans ?_
  refine congrArg (acc (ix2 r n) + ·) ?_
  refine (Ideal.matmul_constant_zero_apply dot_S256x512_S512x1024_S256x1024_1_0_0_1_n_n none _ _ (ix2 r n)).trans ?_
  refine (Equiv.sum_comp cEquiv.symm _).symm.trans ?_
  refine Finset.sum_congr rfl fun j _ => ?_
  show (truncf .bf16 a _ : FVec Ideal S256x512 .bf16) (DotDims.lhsIdx _ (ix2 r n) (cEquiv.symm j))
      * (transpose S512x1024 [1, 0] _ _ : FVec Ideal S512x1024 .bf16) (DotDims.rhsIdx _ (ix2 r n) (cEquiv.symm j)) = _
  rw [lhsIdx_eq, rhsIdx_eq]
  refine congrArg₂ (· * ·) rfl ?_
  refine (transpose_ix2_apply _ _ j n).trans ?_
  refine (truncf_apply (φ := .f32) (ψ := .bf16) _ bitsLt_bf16_f32 (ix2 n j)).trans ?_
  refine (mulf_apply (φ := .f32) w _ (ix2 n j)).trans ?_
  exact congrArg (w (ix2 n j) * ·) (expand_apply s _ _ _ _ _ _ n j)

end Cert.KernelIdeal.Dequant

end
-- ==== Proof.DequantBlock.lean ====
/-
  What one grid point leaves in its block of the output, as a value of the three input blocks.

  The body keeps a running sum in a scratch buffer: it stores the zero block, then eight times reads the sum back,
  adds one chunk's product and stores it again, and finally copies the sum to the output block.  Every store covers
  the whole buffer, so each read-back is exactly the value stored last, and the output block is the eight chunk
  steps composed over the zero block.  The eight steps are one function of (weights chunk, scale rows, activation
  chunk, running sum); they differ only in which columns and rows of the inputs they load.
-/
import proofs.«114737_j78752520339581_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Dequant
open Cert.KernelIdeal Cert.KernelIdeal.Gen

variable {F : FTy → Type} [FloatOps F]

theorem hz : (![0, 0] : Fin 2 → Nat) = fun _ => 0 := funext fun a => by fin_cases a <;> rfl

/-! ## Every chunk is the same function of its four operands -/

theorem pay6_eq (w : Vec F S1024x512 .f32) (s : Vec F S4x8 .f32) (a : Vec F S256x512 .f32) (acc : Vec F S256x1024 .f32) :
    k0_pay6 (k0_pay4 w s) (k0_pay5 a) acc = k0_pay3 w s a acc := rfl
theorem pay7_eq (w : Vec F S1024x512 .f32) (s : Vec F S4x8 .f32) (a : Vec F S256x512 .f32) (acc : Vec F S256x1024 .f32) :
    k0_pay7 w s a acc = k0_pay3 w s a acc := rfl
theorem pay10_eq (w : Vec F S1024x512 .f32) (s : Vec F S4x8 .f32) (a : Vec F S256x512 .f32) (acc : Vec F S256x1024 .f32) :
    k0_pay10 (k0_pay8 w s) (k0_pay9 a) acc = k0_pay3 w s a acc := rfl
theorem pay11_eq (w : Vec F S1024x512 .f32) (s : Vec F S4x8 .f32) (a : Vec F S256x512 .f32) (acc : Vec F S256x1024 .f32) :
    k0_pay11 w s a acc = k0_pay3 w s a acc := rfl
theorem pay13_eq (w : Vec F S1024x512 .f32) (s : Vec F S4x8 .f32) (a : Vec F S256x512 .f32) (acc : Vec F S256x1024 .f32) :
    k0_pay13 (k0_pay12 w s) a acc = k0_pay3 w s a acc := rfl
theorem pay14_eq (w : Vec F S1024x512 .f32) (s : Vec F S4x8 .f32) (a : Vec F S256x512 .f32) (acc : Vec F S256x1024 .f32) :
    k0_pay14 w s a acc = k0_pay3 w s a acc := rfl
theorem pay1_eq (w : Vec F S1024x512 .f32) (s : Vec F S4x8 .f32) (a : Vec F S256x512 .f32) (acc : Vec F S256x1024 .f32) :
    k0_pay1 (k0_pay15 w s) a acc = k0_pay3 w s a acc := rfl

/-- What the body leaves in the output block, of the three input blocks: the zero block, then the eight chunks in order,
    chunk `c` over columns `512 c ..` of the weights and activations and rows `4 c ..` of the scale table. -/
def body (x0 : Vec F S256x4096 .f32) (x1 : Vec F S1024x4096 .f32) (x2 : Vec F S32x8 .f32) : Vec F S256x1024 .f32 :=
  (k0_pay3 (View.ld x1 (Rect.unit (s := S1024x4096) ![0, 3584] S1024x512.size inb_S1024x4096_S1024x512_0_3584))
      (View.ld x2 (Rect.unit (s := S32x8) ![28, 0] S4x8.size inb_S32x8_S4x8_28_0))
      (View.ld x0 (Rect.unit (s := S256x4096) ![0, 3584] S256x512.size inb_S256x4096_S256x512_0_3584))
    (k0_pay3 (View.ld x1 (Rect.unit (s := S1024x4096) ![0, 3072] S1024x512.size inb_S1024x4096_S1024x512_0_3072))
      (View.ld x2 (Rect.unit (s := S32x8) ![24, 0] S4x8.size inb_S32x8_S4x8_24_0))
      (View.ld x0 (Rect.unit (s := S256x4096) ![0, 3072] S256x512.size inb_S256x4096_S256x512_0_3072))
    (k0_pay3 (View.ld x1 (Rect.unit (s := S1024x4096) ![0, 2560] S1024x512.size inb_S1024x4096_S1024x512_0_2560))
      (View.ld x2 (Rect.unit (s := S32x8) ![20, 0] S4x8.size inb_S32x8_S4x8_20_0))
      (View.ld x0 (Rect.unit (s := S256x4096) ![0, 2560] S256x512.size inb_S256x4096_S256x512_0_2560))
    (k0_pay3 (View.ld x1 (Rect.unit (s := S1024x4096) ![0, 2048] S1024x512.size inb_S1024x4096_S1024x512_0_2048))
      (View.ld x2 (Rect.unit (s := S32x8) ![16, 0] S4x8.size inb_S32x8_S4x8_16_0))
      (View.ld x0 (Rect.unit (s := S256x4096) ![0, 2048] S256x512.size inb_S256x4096_S256x512_0_2048))
    (k0_pay3 (View.ld x1 (Rect.unit (s := S1024x4096) ![0, 1536] S1024x512.size inb_S1024x4096_S1024x512_0_1536))
      (View.ld x2 (Rect.unit (s := S32x8) ![12, 0] S4x8.size inb_S32x8_S4x8_12_0))
      (View.ld x0 (Rect.unit (s := S256x4096) ![0, 1536] S256x512.size inb_S256x4096_S256x512_0_1536))
    (k0_pay3 (View.ld x1 (Rect.unit (s := S1024x4096) ![0, 1024] S1024x512.size inb_S1024x4096_S1024x512_0_1024))
      (View.ld x2 (Rect.unit (s := S32x8) ![8, 0] S4x8.size inb_S32x8_S4x8_8_0))
      (View.ld x0 (Rect.unit (s := S256x4096) ![0, 1024] S256x512.size inb_S256x4096_S256x512_0_1024))
    (k0_pay3 (View.ld x1 (Rect.unit (s := S1024x4096) ![0, 512] S1024x512.size inb_S1024x4096_S1024x512_0_512))
      (View.ld x2 (Rect.unit (s := S32x8) ![4, 0] S4x8.size inb_S32x8_S4x8_4_0))
      (View.ld x0 (Rect.unit (s := S256x4096) ![0, 512] S256x512.size inb_S256x4096_S256x512_0_512))
    (k0_pay3 (View.ld x1 (Rect.unit (s := S1024x4096) ![0, 0] S1024x512.size inb_S1024x4096_S1024x512_0_0))
      (View.ld x2 (Rect.unit (s := S32x8) ![0, 0] S4x8.size inb_S32x8_S4x8_0_0))
      (View.ld x0 (Rect.unit (s := S256x4096) ![0, 0] S256x512.size inb_S256x4096_S256x512_0_0))
    (k0_pay2 (F := F))))))))))

/-- The run's one covering store holds that value: each read-back of the accumulator is the payload stored last. -/
theorem out_eq_body (c : Dev nD) (i : grid0.Coords) (arg1 : Memref sig .tc .vmem S256x4096 .f32) (harg1 : arg1.IsWhole) (arg2 : Memref sig .tc .vmem S1024x4096 .f32) (harg2 : arg2.IsWhole) (arg3 : Memref sig .tc .vmem S32x8 .f32) (harg3 : arg3.IsWhole) (arg4 : Memref sig .tc .vmem S256x1024 .f32) (harg4 : arg4.IsWhole) (arg5 : Memref sig .tc .vmem S256x1024 .f32) (harg5 : arg5.IsWhole)
    (x0 : Vec F S256x4096 .f32) (x1 : Vec F S1024x4096 .f32) (x2 : Vec F S32x8 .f32) :
    out0_A_3 c i arg1 harg1 arg2 harg2 arg3 harg3 arg4 harg4 arg5 harg5 x0 x1 x2 = body x0 x1 x2 := by
  unfold out0_A_3
  rw [View.read_writes_eq_canon _ _ _ (cover0_A_3 c i arg1 harg1 arg2 harg2 arg3 harg3 arg4 harg4 arg5 harg5 x0 x1 x2)]
  unfold kernelRun0_A
  dsimp only
  sl_unfold_words
  rw [View.canon_unit_zero hz]
  simp only [View.readCov_cons_toLoadRect, View.readAt_eq_ld, harg1.read_unread, harg2.read_unread, harg3.read_unread,
    pay1_eq, pay6_eq, pay7_eq, pay10_eq, pay11_eq, pay13_eq, pay14_eq]
  rfl

end Cert.KernelIdeal.Dequant
end
-- ==== Proof.DequantValue.lean ====
/-
  The block-scaled dequantized product as the kernel computes it, read as one function of whole arrays.

  At a grid point `t` the kernel sees rows `256 t .. 256 t + 255` of the activations, all of the weights and all of the
  transposed scale table, and writes rows `256 t .. 256 t + 255` of the result.  Inside the block, chunk `c` of the
  contraction loads columns `512 c ..` of the weights and activations and rows `4 c ..` of the scale table, so the
  term it adds at contraction coordinate `j` is the term of the whole contraction at column `512 c + j`, whose scale
  row is `(512 c + j) / 128 = 4 c + j / 128`.  The eight chunks accumulated from zero are the whole contraction of the
  row (associativity of addition on the extended reals); the row of a block is a row of the array; and the 32 blocks
  cover the result: row `r` lies in the block of point `r / 256`.
-/
import proofs.«114737_j78752520339581_1_alg».proof.Proof.DequantChunk
import proofs.«114737_j78752520339581_1_alg».proof.Proof.DequantBlock

noncomputable section

open scoped BigOperators
open Idealize.ShloMosaic Idealize.ShloMosaic.TcCoe Idealize.SL.Sem Idealize.ShloMosaic.ValueIdx
open Idealize.ShloMosaic.Pipeline (Dat)

namespace Cert.KernelIdeal.Dequant
open Cert.KernelIdeal Cert.KernelIdeal.Gen

/-! ## Loads of column and row ranges, at an index -/

section Loads
variable {Val : EltTy → Type} {e : EltTy}

/-- Columns `o ..` of a block of activations: position `(r, j)` is the block at `(r, o + j)`. -/
theorem ld_act (x0 : S256x4096.Idx → Val e) (o : Nat)
    (inb : ∀ a, (![0, o] : Fin 2 → Nat) a + S256x512.size a ≤ S256x4096.size a) (r : Fin 256) (j : Fin 512) (k : Fin 4096)
    (hk : k.val = o + j.val) :
    View.ld x0 (Rect.unit (s := S256x4096) ![0, o] S256x512.size inb) (ix2 r j) = x0 (ix2 r k) := by
  show x0 _ = x0 _
  refine congrArg x0 (funext fun a => Fin.ext ?_)
  match a with
  | ⟨0, _⟩ => show 0 + 1 * r.val = r.val; omega
  | ⟨1, _⟩ => show o + 1 * j.val = k.val; omega

/-- Columns `o ..` of the weights: position `(n, j)` is the weights at `(n, o + j)`. -/
theorem ld_wt (x1 : S1024x4096.Idx → Val e) (o : Nat)
    (inb : ∀ a, (![0, o] : Fin 2 → Nat) a + S1024x512.size a ≤ S1024x4096.size a) (n : Fin 1024) (j : Fin 512) (k : Fin 4096)
    (hk : k.val = o + j.val) :
    View.ld x1 (Rect.unit (s := S1024x4096) ![0, o] S1024x512.size inb) (ix2 n j) = x1 (ix2 n k) := by
  show x1 _ = x1 _
  refine congrArg x1 (funext fun a => Fin.ext ?_)
  match a with
  | ⟨0, _⟩ => show 0 + 1 * n.val = n.val; omega
  | ⟨1, _⟩ => show o + 1 * j.val = k.val; omega

/-- Rows `o ..` of the scale table: position `(q, p)` is the table at `(o + q, p)`. -/
theorem ld_sc (x2 : S32x8.Idx → Val e) (o : Nat)
    (inb : ∀ a, (![o, 0] : Fin 2 → Nat) a + S4x8.size a ≤ S32x8.size a) (q : Fin 4) (p : Fin 8) (k : Fin 32)
    (hk : k.val = o + q.val) :
    View.ld x2 (Rect.unit (s := S32x8) ![o, 0] S4x8.size inb) (ix2 q p) = x2 (ix2 k p) := by
  show x2 _ = x2 _
  refine congrArg x2 (funext fun a => Fin.ext ?_)
  match a with
  | ⟨0, _⟩ => show o + 1 * q.val = k.val; omega
  | ⟨1, _⟩ => show 0 + 1 * p.val = p.val; omega

end Loads

/-! ## The block at an index, at the ideal values -/

/-- The zero block. -/
theorem pay2_apply (r : Fin 256) (n : Fin 1024) : k0_pay2 (F := Ideal) (ix2 r n) = 0 := by
  unfold k0_pay2
  refine (congrFun (shapeCast_self _ _) _).trans ?_
  exact Ideal.ofBits_zero_f32

/-- Chunk `c` over its loads adds chunk `c` of the whole contraction of the row. -/
theorem chunk_ld (x0 : Vec Ideal S256x4096 .f32) (x1 : Vec Ideal S1024x4096 .f32) (x2 : Vec Ideal S32x8 .f32)
    (c : Fin 8) (o o' : Nat) (ho : o = 512 * c.val) (ho' : o' = 4 * c.val)
    (inb1 : ∀ a, (![0, o] : Fin 2 → Nat) a + S1024x512.size a ≤ S1024x4096.size a)
    (inb2 : ∀ a, (![o', 0] : Fin 2 → Nat) a + S4x8.size a ≤ S32x8.size a)
    (inb0 : ∀ a, (![0, o] : Fin 2 → Nat) a + S256x512.size a ≤ S256x4096.size a)
    (acc : Vec Ideal S256x1024 .f32) (r : Fin 256) (n : Fin 1024) :
    k0_pay3 (F := Ideal) (View.ld x1 (Rect.unit (s := S1024x4096) ![0, o] S1024x512.size inb1))
        (View.ld x2 (Rect.unit (s := S32x8) ![o', 0] S4x8.size inb2))
        (View.ld x0 (Rect.unit (s := S256x4096) ![0, o] S256x512.size inb0)) acc (ix2 r n)
      = acc (ix2 r n) + chunkDot (fun k => x0 (ix2 r k)) x1 x2 n c := by
  refine (chunk_apply _ _ _ acc r n).trans ?_
  refine congrArg (acc (ix2 r n) + ·) ?_
  unfold chunkDot term
  refine Finset.sum_congr rfl fun j _ => ?_
  have hc := c.isLt
  have hj := j.isLt
  have hn := n.isLt
  exact congrArg₂ (· * ·)
    (ld_act x0 o inb0 r j (kidx c j) (by show 512 * c.val + j.val = o + j.val; omega))
    (congrArg₂ (· * ·)
      (ld_wt x1 o inb1 n j (kidx c j) (by show 512 * c.val + j.val = o + j.val; omega))
      (ld_sc x2 o' inb2 _ _ (sRow (kidx c j)) (by show (512 * c.val + j.val) / 128 = o' + j.val / 128; omega)))

/-- THE BLOCK at `(r, n)`: the whole contraction of row `r` of the activation block. -/
theorem body_apply (x0 : Vec Ideal S256x4096 .f32) (x1 : Vec Ideal S1024x4096 .f32) (x2 : Vec Ideal S32x8 .f32)
    (r : Fin 256) (n : Fin 1024) :
    body (F := Ideal) x0 x1 x2 (ix2 r n) = rowDot (fun k => x0 (ix2 r k)) x1 x2 n := by
  rw [← chunked_eq_rowDot]
  unfold body chunked
  rw [chunk_ld x0 x1 x2 7 3584 28 (by decide) (by decide),
    chunk_ld x0 x1 x2 6 3072 24 (by decide) (by decide),
    chunk_ld x0 x1 x2 5 2560 20 (by decide) (by decide),
    chunk_ld x0 x1 x2 4 2048 16 (by decide) (by decide),
    chunk_ld x0 x1 x2 3 1536 12 (by decide) (by decide),
    chunk_ld x0 x1 x2 2 1024 8 (by decide) (by decide),
    chunk_ld x0 x1 x2 1 512 4 (by decide) (by decide),
    chunk_ld x0 x1 x2 0 0 0 (by decide) (by decide),
    pay2_apply]

/-! ## From blocks to the array -/

/-- The contraction of a row depends only on the row's entries and on the two tables. -/
theorem rowDot_congr {a a' : Fin 4096 → EReal} {w w' : (⟨2, ![1024, 4096]⟩ : Shape).Idx → EReal}
    {st st' : (⟨2, ![32, 8]⟩ : Shape).Idx → EReal} (ha : ∀ k, a k = a' k) (hw : w = w') (hs : st = st') (n : Fin 1024) :
    rowDot a w st n = rowDot a' w' st' n := by
  subst hw hs
  exact congrArg (fun f => rowDot f w st n) (funext ha)

section Array
variable (V : (c : Dev nD) → (b : Ref sig .tc) → Buf (Elt Ideal) ((c : Thread nD τ).loc b))

/-- The index maps over the grid: the activations' and the result's block row is the point, every other block
    index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The activations' block at point `t` holds rows `256 t ..` of the array. -/
theorem iblk_act (c : Dev nD) (t : Fin cfg0.N) (r : Fin 256) (k : Fin 4096) (R : Fin 8192) (hR : R.val = 256 * t.val + r.val) :
    (iblk0 V c 0 t : Vec Ideal S256x4096 .f32) (ix2 r k) = (V c main_arg0 : Vec Ideal S8192x4096 .f32) (ix2 R k) := by
  have hi := idx_facts t
  unfold iblk0
  rw [View.read_apply]
  show V c main_arg0 _ = V c main_arg0 _
  congr 1
  funext a
  apply Fin.ext
  match a with
  | ⟨0, _⟩ => show win0_0.index t (0 : Fin 2) * 256 + 1 * r.val = R.val; rw [hi.1]; omega
  | ⟨1, _⟩ => show win0_0.index t (1 : Fin 2) * 4096 + 1 * k.val = k.val; rw [hi.2.1]; omega

/-- The weights' block is the whole array at every point. -/
theorem iblk_wt (c : Dev nD) (t : Fin cfg0.N) : (iblk0 V c 1 t : Vec Ideal S1024x4096 .f32) = V c main_arg1 := by
  have hi := idx_facts t
  funext j
  unfold iblk0
  rw [View.read_apply]
  show V c main_arg1 _ = V c main_arg1 _
  congr 1
  funext a
  apply Fin.ext
  match a with
  | ⟨0, _⟩ => show win0_1.index t (0 : Fin 2) * 1024 + 1 * (j 0).val = (j 0).val; rw [hi.2.2.1]; omega
  | ⟨1, _⟩ => show win0_1.index t (1 : Fin 2) * 4096 + 1 * (j 1).val = (j 1).val; rw [hi.2.2.2.1]; omega

/-- The scale table's block is the whole table at every point. -/
theorem iblk_sc (c : Dev nD) (t : Fin cfg0.N) : (iblk0 V c 2 t : Vec Ideal S32x8 .f32) = V c main_v0 := by
  have hi := idx_facts t
  funext j
  unfold iblk0
  rw [View.read_apply]
  show V c main_v0 _ = V c main_v0 _
  congr 1
  funext a
  apply Fin.ext
  match a with
  | ⟨0, _⟩ => show win0_2.index t (0 : Fin 2) * 32 + 1 * (j 0).val = (j 0).val; rw [hi.2.2.2.2.1]; omega
  | ⟨1, _⟩ => show win0_2.index t (1 : Fin 2) * 8 + 1 * (j 1).val = (j 1).val; rw [hi.2.2.2.2.2.1]; omega

/-- WHAT POINT `t` WRITES BACK is block `t` of the product of the whole arrays. -/
theorem flushed_eq (c : Dev nD) (t : Fin cfg0.N) :
    (dat0 (F := Ideal) V c).flushed 3 t
      = ((cfg0.win 3).blk t).view.read (Elt Ideal) (Gmat (V c main_arg0) (V c main_arg1) (V c main_v0)) := by
  show (cfg0.win 3).cut (grid0.coords t) ((dat0 V c).after 3 t) = _
  rw [after0_3]
  unfold outsAt0
  rw [out_eq_body]
  have hi := idx_facts t
  have ht : t.val < 32 := lt_of_lt_of_eq t.isLt N_0
  funext y
  obtain ⟨r, n, rfl⟩ : ∃ (r : Fin 256) (n : Fin 1024), y = ix2 r n := ⟨y 0, y 1, eq_ix2 y⟩
  show body (F := Ideal) (iblk0 V c 0 t) (iblk0 V c 1 t) (iblk0 V c 2 t) (ix2 r n)
    = Gmat (V c main_arg0) (V c main_arg1) (V c main_v0) (((cfg0.win 3).blk t).view.emb (ix2 r n))
  refine (body_apply _ _ _ r n).trans ?_
  have e3 : ((cfg0.win 3).blk t).view.emb (ix2 r n) = ix2 (⟨256 * t.val + r.val, by have := r.isLt; omega⟩ : Fin 8192) n := by
    funext a
    apply Fin.ext
    match a with
    | ⟨0, _⟩ => show win0_3.index t (0 : Fin 2) * 256 + 1 * r.val = 256 * t.val + r.val; rw [hi.2.2.2.2.2.2.1]; omega
    | ⟨1, _⟩ => show win0_3.index t (1 : Fin 2) * 1024 + 1 * n.val = n.val; rw [hi.2.2.2.2.2.2.2]; omega
  rw [e3]
  exact rowDot_congr (fun k => iblk_act V c t r k _ rfl) (iblk_wt V c t) (iblk_sc V c t) n

/-- Row `r` of the result lies in the block of point `r / 256`. -/
theorem cover (i : S8192x1024.Idx) :
    ∃ t : Fin cfg0.N, (cfg0.win 3).flush t = true ∧ i ∈ ((cfg0.win 3).blk t).view.set := by
  have h0 : (i 0).val < 8192 := (i 0).isLt
  have h1 : (i 1).val < 1024 := (i 1).isLt
  obtain ⟨t, htv⟩ : ∃ t : Fin cfg0.N, t.val = (i 0).val / 256 :=
    ⟨⟨(i 0).val / 256, lt_of_lt_of_eq (by omega : (i 0).val / 256 < 32) N_0.symm⟩, rfl⟩
  have hi := idx_facts t
  refine ⟨t, flush0_3 t, ?_⟩
  show i ∈ ((View.whole main_v1).slice (win0_3.rect t)).set
  rw [View.set_slice_whole, Rect.mem_set_unit]
  intro a
  match a with
  | ⟨0, _⟩ =>
    show win0_3.index t (0 : Fin 2) * 256 ≤ (i 0).val ∧ (i 0).val < win0_3.index t (0 : Fin 2) * 256 + 256
    rw [hi.2.2.2.2.2.2.1, htv]; omega
  | ⟨1, _⟩ =>
    show win0_3.index t (1 : Fin 2) * 1024 ≤ (i 1).val ∧ (i 1).val < win0_3.index t (1 : Fin 2) * 1024 + 1024
    rw [hi.2.2.2.2.2.2.2]; omega

/-- THE RESULT ARRAY of the region: the block-scaled dequantized product of the arrays the region finds. -/
theorem region0_array (c : Dev nD) :
    (dat0 (F := Ideal) V c).arrAt 3 cfg0.N = Gmat (V c main_arg0) (V c main_arg1) (V c main_v0) :=
  (dat0 V c).arrAt_eq_of_cover 3 (Gmat (V c main_arg0) (V c main_arg1) (V c main_v0)) (fun t _ => flushed_eq V c t) cover

end Array

end Cert.KernelIdeal.Dequant

end
-- ==== Proof.DequantLaw.lean ====
/-
  The reference's dequantized product is the same function of the arrays.

  The reference lays the scale table `s : [8, 32]` (tile row, tile column) over the weights by repeating each entry
  128 times along the rows and 128 times along the columns: a broadcast to `[8, 128, 32]`, a reshape to `[1024, 32]`,
  a broadcast to `[1024, 32, 128]` and a reshape to `[1024, 4096]`.  Position `(n, k)` of the result is row-major
  position `(n * 32 + k / 128) * 128 + k % 128` of the second broadcast, and row `n` of the first reshape is
  `(n / 128, n % 128)` of the first broadcast, so it holds `s (n / 128, k / 128)`.  The weights times these scales,
  transposed, contracted with the activations along the 4096 columns give at `(r, n)` the sum over `k` of
  `a (r, k) * (w (n, k) * s (n / 128, k / 128))`: the specification at the transposed table, term by term.
-/
import proofs.«114737_j78752520339581_1_alg».proof.Proof.DequantSpec
import proofs.«114737_j78752520339581_1_alg».proof.Proof.Gen.ReferenceIdeal
import Idealize.ShloMosaic.Lib.ValueLayout
import Idealize.ShloMosaic.PureOps.Ideal.Laws

noncomputable section

open scoped BigOperators
open Idealize.ShloMosaic Idealize.ShloMosaic.ValueIdx

namespace Cert.KernelIdeal.Dequant

/-- The contraction index of the reference's product is one coordinate below 4096. -/
abbrev rEquiv : (Cert.ReferenceIdeal.dot_S8192x4096_S4096x1024_S8192x1024_1_0_0_1_n_n).contr.Idx ≃ Fin 4096 :=
  contrEquiv1 Cert.ReferenceIdeal.dot_S8192x4096_S4096x1024_S8192x1024_1_0_0_1_n_n 4096 rfl rfl

/-- At output position `(r, n)` and contraction coordinate `k` the activations are read at `(r, k)`, -/
theorem ref_lhsIdx (r : Fin 8192) (n : Fin 1024) (k : Fin 4096) :
    (Cert.ReferenceIdeal.dot_S8192x4096_S4096x1024_S8192x1024_1_0_0_1_n_n).lhsIdx (ix2 r n) (rEquiv.symm k) = ix2 r k := by
  funext ax
  refine Fin.ext ?_
  match ax with
  | ⟨0, _⟩ => rfl
  | ⟨1, _⟩ =>
    exact (DotDims.lhsIdx_val_of_single (d := Cert.ReferenceIdeal.dot_S8192x4096_S4096x1024_S8192x1024_1_0_0_1_n_n) (cl := (1 : Fin 2)) rfl (ix2 r n) (rEquiv.symm k)).trans
      (contrEquiv1_symm_val Cert.ReferenceIdeal.dot_S8192x4096_S4096x1024_S8192x1024_1_0_0_1_n_n 4096 rfl rfl k)

/-- and the transposed dequantized weights at `(k, n)`. -/
theorem ref_rhsIdx (r : Fin 8192) (n : Fin 1024) (k : Fin 4096) :
    (Cert.ReferenceIdeal.dot_S8192x4096_S4096x1024_S8192x1024_1_0_0_1_n_n).rhsIdx (ix2 r n) (rEquiv.symm k) = ix2 k n := by
  funext ax
  refine Fin.ext ?_
  match ax with
  | ⟨0, _⟩ =>
    exact (DotDims.rhsIdx_val_of_single (d := Cert.ReferenceIdeal.dot_S8192x4096_S4096x1024_S8192x1024_1_0_0_1_n_n) (cr := (0 : Fin 2)) rfl (ix2 r n) (rEquiv.symm k)).trans
      (contrEquiv1_symm_val Cert.ReferenceIdeal.dot_S8192x4096_S4096x1024_S8192x1024_1_0_0_1_n_n 4096 rfl rfl k)
  | ⟨1, _⟩ => rfl

/-- The scale table laid over the weights: position `(n, k)` holds `s (n / 128, k / 128)`. -/
theorem scales_apply {α : Type} (s : (⟨2, ![8, 32]⟩ : Shape).Idx → α)
    (hb1 : (⟨2, ![8, 32]⟩ : Shape).BroadcastsInDim ⟨3, ![8, 128, 32]⟩ (![0, 2] : Fin 2 → Fin 3))
    (hc1 : (⟨3, ![8, 128, 32]⟩ : Shape).ShapeCasts ⟨2, ![1024, 32]⟩)
    (hb2 : (⟨2, ![1024, 32]⟩ : Shape).BroadcastsInDim ⟨3, ![1024, 32, 128]⟩ (![0, 1] : Fin 2 → Fin 3))
    (hc2 : (⟨3, ![1024, 32, 128]⟩ : Shape).ShapeCasts ⟨2, ![1024, 4096]⟩) (n : Fin 1024) (k : Fin 4096) :
    shapeCast ⟨2, ![1024, 4096]⟩ (broadcastInDim ⟨3, ![1024, 32, 128]⟩ (![0, 1] : Fin 2 → Fin 3) hb2
      (shapeCast ⟨2, ![1024, 32]⟩ (broadcastInDim ⟨3, ![8, 128, 32]⟩ (![0, 2] : Fin 2 → Fin 3) hb1 s) hc1)) hc2 (ix2 n k)
      = s (ix2 (sCol n) (sRow k)) := by
  have hn := n.isLt
  have hk := k.isLt
  -- the reshape to [1024, 4096] reads the second broadcast at (n, k / 128, k % 128)
  refine (shapeCast_apply _ hc2 (ix2 n k)
    (ix3 n (⟨k.val / 128, by omega⟩ : Fin 32) (⟨k.val % 128, Nat.mod_lt _ (by decide)⟩ : Fin 128)) ?_).trans ?_
  · rw [Shape.rowMajor_val_three, Shape.rowMajor_val_two]
    show (n.val * 32 + k.val / 128) * 128 + k.val % 128 = n.val * 4096 + k.val
    omega
  -- the second broadcast reads its operand at (n, k / 128)
  refine (broadcastInDim_apply _ hb2 _ _ (ix2 n (⟨k.val / 128, by omega⟩ : Fin 32))
    (fun a => by match a with | ⟨0, _⟩ => rfl | ⟨1, _⟩ => rfl)).trans ?_
  -- the reshape [8, 128, 32] → [1024, 32] reads (n / 128, n % 128, k / 128)
  refine (shapeCast_apply _ hc1 _
    (ix3 (⟨n.val / 128, by omega⟩ : Fin 8) (⟨n.val % 128, Nat.mod_lt _ (by decide)⟩ : Fin 128) (⟨k.val / 128, by omega⟩ : Fin 32)) ?_).trans ?_
  · rw [Shape.rowMajor_val_three, Shape.rowMajor_val_two]
    show (n.val / 128 * 128 + n.val % 128) * 32 + k.val / 128 = n.val * 32 + k.val / 128
    omega
  -- the first broadcast reads the table at (n / 128, k / 128)
  exact broadcastInDim_apply _ hb1 _ _ (ix2 (sCol n) (sRow k))
    (fun a => by match a with | ⟨0, _⟩ => rfl | ⟨1, _⟩ => rfl)

/-- THE LAW: the reference's product of the activations with the transposed dequantized weights is the specification
    at the transposed scale table. -/
theorem ref_matmul (a : FVec Ideal ⟨2, ![8192, 4096]⟩ .f32) (w : FVec Ideal ⟨2, ![1024, 4096]⟩ .f32)
    (s : FVec Ideal ⟨2, ![8, 32]⟩ .f32)
    (hb1 : (⟨2, ![8, 32]⟩ : Shape).BroadcastsInDim ⟨3, ![8, 128, 32]⟩ (![0, 2] : Fin 2 → Fin 3))
    (hc1 : (⟨3, ![8, 128, 32]⟩ : Shape).ShapeCasts ⟨2, ![1024, 32]⟩)
    (hb2 : (⟨2, ![1024, 32]⟩ : Shape).BroadcastsInDim ⟨3, ![1024, 32, 128]⟩ (![0, 1] : Fin 2 → Fin 3))
    (hc2 : (⟨3, ![1024, 32, 128]⟩ : Shape).ShapeCasts ⟨2, ![1024, 4096]⟩)
    (ht : (⟨2, ![1024, 4096]⟩ : Shape).Transposes [1, 0] ⟨2, ![4096, 1024]⟩)
    (hk : (⟨2, ![8, 32]⟩ : Shape).Transposes [1, 0] ⟨2, ![32, 8]⟩) :
    Host.dotGeneral Cert.ReferenceIdeal.dot_S8192x4096_S4096x1024_S8192x1024_1_0_0_1_n_n none a
        (transpose ⟨2, ![4096, 1024]⟩ [1, 0] (mulf w
          (shapeCast ⟨2, ![1024, 4096]⟩ (broadcastInDim ⟨3, ![1024, 32, 128]⟩ (![0, 1] : Fin 2 → Fin 3) hb2
            (shapeCast ⟨2, ![1024, 32]⟩ (broadcastInDim ⟨3, ![8, 128, 32]⟩ (![0, 2] : Fin 2 → Fin 3) hb1 s) hc1)) hc2)) ht)
      = Gmat a w (transpose ⟨2, ![32, 8]⟩ [1, 0] s hk) := by
  funext i
  obtain ⟨r, n, rfl⟩ : ∃ (r : Fin 8192) (n : Fin 1024), i = ix2 r n := ⟨i 0, i 1, eq_ix2 i⟩
  rw [Gmat_apply]
  refine (Ideal.dotGeneral_apply Cert.ReferenceIdeal.dot_S8192x4096_S4096x1024_S8192x1024_1_0_0_1_n_n none .single a _ (ix2 r n)).trans ?_
  refine (Equiv.sum_comp rEquiv.symm _).symm.trans ?_
  refine Finset.sum_congr rfl fun k _ => ?_
  show a (DotDims.lhsIdx _ (ix2 r n) (rEquiv.symm k))
      * (transpose ⟨2, ![4096, 1024]⟩ [1, 0] _ ht : FVec Ideal ⟨2, ![4096, 1024]⟩ .f32) (DotDims.rhsIdx _ (ix2 r n) (rEquiv.symm k)) = _
  rw [ref_lhsIdx, ref_rhsIdx]
  refine congrArg (a (ix2 r k) * ·) ?_
  refine (transpose_ix2_apply _ ht k n).trans ?_
  refine (mulf_apply (φ := .f32) w _ (ix2 n k)).trans ?_
  refine congrArg (w (ix2 n k) * ·) ?_
  refine (scales_apply s hb1 hc1 hb2 hc2 n k).trans ?_
  exact (transpose_ix2_apply s hk (sRow k) (sCol n)).symm

end Cert.KernelIdeal.Dequant

end
-- ==== Proof.BridgeEnds.lean ====
/-
  Two small bridges between the idealized kernel's program and the reference's line of operations.

  Before the first region the kernel's program only transposes the scale table, and the region leaves in its result
  array the block-scaled dequantized product of the activations, the weights and that transposed table; the
  reference's first seven operations compute the same product from the same three arguments.  After the second
  region both programs finish with the same scatter of the rotated rows into the compressed cache, applied to
  buffers that hold equal contents.
-/
import proofs.«114737_j78752520339581_1_alg».proof.Proof.KernelRun
import proofs.«114737_j78752520339581_1_alg».proof.Proof.RefCuts
import proofs.«114737_j78752520339581_1_alg».proof.Proof.LibHostWalk
import proofs.«114737_j78752520339581_1_alg».proof.Proof.DequantValue
import proofs.«114737_j78752520339581_1_alg».proof.Proof.DequantLaw

set_option maxRecDepth 16384

noncomputable section

namespace Cert.Bridge

open Idealize.ShloMosaic Idealize.ShloMosaic.TcCoe Idealize.SL.Sem Idealize.ShloMosaic.StableHlo
open Cert.HostWalk Cert.KernelIdeal.Dequant

/-- What the first region leaves in its result array, of the launch contents of the three arguments. -/
theorem x0_left (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W2 m ρ c (Proc.devRef .tc Cert.KernelIdeal.main_v1)
      = Gmat (Cert.KernelIdeal.Gen.W0 m ρ c (Proc.devRef .tc Cert.KernelIdeal.main_arg0)) (Cert.KernelIdeal.Gen.W0 m ρ c (Proc.devRef .tc Cert.KernelIdeal.main_arg1))
          (transpose Cert.KernelIdeal.S32x8 [1, 0] (Cert.KernelIdeal.Gen.W0 m ρ c (Proc.devRef .tc Cert.KernelIdeal.main_arg2)) Cert.KernelIdeal.Gen.transposes_S8x32_S32x8_1_0) := by
  refine ((Cert.KernelIdeal.Gen.W2_arr m ρ c 3).trans (region0_array (Cert.KernelIdeal.Gen.V1 m ρ) c)).trans ?_
  have e0 : Cert.KernelIdeal.Gen.V1 m ρ c Cert.KernelIdeal.main_arg0 = Cert.KernelIdeal.Gen.W0 m ρ c (Proc.devRef .tc Cert.KernelIdeal.main_arg0) := by
    show StableHlo.after Cert.KernelIdeal.Gen.hostOps0 (Cert.KernelIdeal.Gen.W0 m ρ c) (Proc.devRef .tc Cert.KernelIdeal.main_arg0) = _
    walk_back []
  have e1 : Cert.KernelIdeal.Gen.V1 m ρ c Cert.KernelIdeal.main_arg1 = Cert.KernelIdeal.Gen.W0 m ρ c (Proc.devRef .tc Cert.KernelIdeal.main_arg1) := by
    show StableHlo.after Cert.KernelIdeal.Gen.hostOps0 (Cert.KernelIdeal.Gen.W0 m ρ c) (Proc.devRef .tc Cert.KernelIdeal.main_arg1) = _
    walk_back []
  have e2 : Cert.KernelIdeal.Gen.V1 m ρ c Cert.KernelIdeal.main_v0
      = transpose Cert.KernelIdeal.S32x8 [1, 0] (Cert.KernelIdeal.Gen.W0 m ρ c (Proc.devRef .tc Cert.KernelIdeal.main_arg2)) Cert.KernelIdeal.Gen.transposes_S8x32_S32x8_1_0 := by
    show StableHlo.after Cert.KernelIdeal.Gen.hostOps0 (Cert.KernelIdeal.Gen.W0 m ρ c) (Proc.devRef .tc Cert.KernelIdeal.main_v0) = _
    walk_back []
  rw [e0, e1, e2]

/-- What the reference's first seven operations leave at the product's buffer, of the contents they start from. -/
theorem x0_right (WR : Valuation Cert.ReferenceIdeal.τ Cert.ReferenceIdeal.sig (Elt Ideal)) :
    StableHlo.after Cert.ReferenceIdeal.RefCuts.pre WR (Proc.devRef .tc Cert.ReferenceIdeal.main_v6)
      = Gmat (WR (Proc.devRef .tc Cert.ReferenceIdeal.main_arg0)) (WR (Proc.devRef .tc Cert.ReferenceIdeal.main_arg1))
          (transpose Cert.KernelIdeal.S32x8 [1, 0] (WR (Proc.devRef .tc Cert.ReferenceIdeal.main_arg2)) Cert.KernelIdeal.Gen.transposes_S8x32_S32x8_1_0) := by
  walk_back []
  exact ref_matmul _ _ _ _ _ _ _ _ _

/-- THE FIRST BRIDGE: the first region's result array is what the reference's first seven operations leave at the
    product's buffer, when the three arguments hold equal contents in the two programs. -/
theorem x0_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (WR : Valuation Cert.ReferenceIdeal.τ Cert.ReferenceIdeal.sig (Elt Ideal))
    (h0 : Cert.KernelIdeal.Gen.W0 m ρ c (Proc.devRef .tc Cert.KernelIdeal.main_arg0) = WR (Proc.devRef .tc Cert.ReferenceIdeal.main_arg0))
    (h1 : Cert.KernelIdeal.Gen.W0 m ρ c (Proc.devRef .tc Cert.KernelIdeal.main_arg1) = WR (Proc.devRef .tc Cert.ReferenceIdeal.main_arg1))
    (h2 : Cert.KernelIdeal.Gen.W0 m ρ c (Proc.devRef .tc Cert.KernelIdeal.main_arg2) = WR (Proc.devRef .tc Cert.ReferenceIdeal.main_arg2)) :
    Cert.KernelIdeal.Gen.W2 m ρ c (Proc.devRef .tc Cert.KernelIdeal.main_v1) = StableHlo.after Cert.ReferenceIdeal.RefCuts.pre WR (Proc.devRef .tc Cert.ReferenceIdeal.main_v6) := by
  have hl := x0_left m ρ c
  rw [h0, h1, h2] at hl
  exact hl.trans (x0_right WR).symm

/-- THE SECOND BRIDGE: after the second region both programs scatter the rotated rows into the compressed cache by
    the same operations; from equal contents of the four buffers those operations read, the two last slices are equal. -/
theorem tail_eq (V14 : Valuation Cert.KernelIdeal.τ Cert.KernelIdeal.sig (Elt Ideal)) (WR : Valuation Cert.ReferenceIdeal.τ Cert.ReferenceIdeal.sig (Elt Ideal))
    (h86 : V14 (Proc.devRef .tc Cert.KernelIdeal.main_v86) = WR (Proc.devRef .tc Cert.ReferenceIdeal.main_v121))
    (h23 : V14 (Proc.devRef .tc Cert.KernelIdeal.main_v23) = WR (Proc.devRef .tc Cert.ReferenceIdeal.main_v28))
    (h12 : V14 (Proc.devRef .tc Cert.KernelIdeal.main_arg12) = WR (Proc.devRef .tc Cert.ReferenceIdeal.main_arg12))
    (h7 : V14 (Proc.devRef .tc Cert.KernelIdeal.main_arg7) = WR (Proc.devRef .tc Cert.ReferenceIdeal.main_arg7)) :
    StableHlo.after Cert.KernelIdeal.Gen.hostOps2_2 (StableHlo.after Cert.KernelIdeal.Gen.hostOps2_1 (StableHlo.after Cert.KernelIdeal.Gen.hostOps2 V14))
        (Proc.devRef .tc Cert.KernelIdeal.main_v97)
      = StableHlo.after Cert.ReferenceIdeal.RefCuts.sufT WR (Proc.devRef .tc Cert.ReferenceIdeal.main_v132) := by
  walk_back []
  rw [h86, h23, h12, h7]
  rfl

end Cert.Bridge

end
-- ==== Proof.BridgeSkips.lean ====
/-
  Which buffers a line of host operations, or a region, leaves alone.

  A line of host operations rewrites only the buffers its operations write, and a region only its own arrays; every
  other buffer holds after it what it held before.  The arguments are written by no operation and are arrays of a
  region only as inputs, so each boundary of either program holds an argument's launch contents; and a result that is
  complete at one boundary is carried unchanged through the later lines and regions, which write other buffers.
-/
import proofs.«114737_j78752520339581_1_alg».proof.Proof.KernelRun
import proofs.«114737_j78752520339581_1_alg».proof.Proof.RefCuts
import proofs.«114737_j78752520339581_1_alg».proof.Proof.LibHostWalk
set_option maxRecDepth 16384

noncomputable section

namespace Cert.Bridge

open Idealize.ShloMosaic Idealize.ShloMosaic.TcCoe Idealize.ShloMosaic.StableHlo Idealize.SL.Sem Cert.HostWalk

variable {F : FTy → Type} [FloatOps F]

local notation "κ" b:max => Proc.devRef (τ := Cert.KernelIdeal.τ) (sig := Cert.KernelIdeal.sig) Proc.tc b
local notation "ϱ" b:max => Proc.devRef (τ := Cert.ReferenceIdeal.τ) (sig := Cert.ReferenceIdeal.sig) Proc.tc b

/-! ## The idealized kernel's program -/

section Kernel
variable (m : (ℓ : Loc Cert.KernelIdeal.nD Cert.KernelIdeal.τ Cert.KernelIdeal.sig) → Buf (Elt F) ℓ) (ρ : Dev Cert.KernelIdeal.nD → PrngReg) (c : Dev Cert.KernelIdeal.nD)

/-- At launch argument 0 holds its launch contents. -/
theorem kW0_arg0 : Cert.KernelIdeal.Gen.W0 m ρ c (κ Cert.KernelIdeal.main_arg0) = m ((c.tc : Thread Cert.KernelIdeal.nD Cert.KernelIdeal.τ).loc Cert.KernelIdeal.main_arg0) := rfl
/-- At launch argument 1 holds its launch contents. -/
theorem kW0_arg1 : Cert.KernelIdeal.Gen.W0 m ρ c (κ Cert.KernelIdeal.main_arg1) = m ((c.tc : Thread Cert.KernelIdeal.nD Cert.KernelIdeal.τ).loc Cert.KernelIdeal.main_arg1) := rfl
/-- At launch argument 2 holds its launch contents. -/
theorem kW0_arg2 : Cert.KernelIdeal.Gen.W0 m ρ c (κ Cert.KernelIdeal.main_arg2) = m ((c.tc : Thread Cert.KernelIdeal.nD Cert.KernelIdeal.τ).loc Cert.KernelIdeal.main_arg2) := rfl
/-- At launch argument 3 holds its launch contents. -/
theorem kW0_arg3 : Cert.KernelIdeal.Gen.W0 m ρ c (κ Cert.KernelIdeal.main_arg3) = m ((c.tc : Thread Cert.KernelIdeal.nD Cert.KernelIdeal.τ).loc Cert.KernelIdeal.main_arg3) := rfl
/-- At launch argument 4 holds its launch contents. -/
theorem kW0_arg4 : Cert.KernelIdeal.Gen.W0 m ρ c (κ Cert.KernelIdeal.main_arg4) = m ((c.tc : Thread Cert.KernelIdeal.nD Cert.KernelIdeal.τ).loc Cert.KernelIdeal.main_arg4) := rfl
/-- At launch argument 5 holds its launch contents. -/
theorem kW0_arg5 : Cert.KernelIdeal.Gen.W0 m ρ c (κ Cert.KernelIdeal.main_arg5) = m ((c.tc : Thread Cert.KernelIdeal.nD Cert.KernelIdeal.τ).loc Cert.KernelIdeal.main_arg5) := rfl
/-- At launch argument 6 holds its launch contents. -/
theorem kW0_arg6 : Cert.KernelIdeal.Gen.W0 m ρ c (κ Cert.KernelIdeal.main_arg6) = m ((c.tc : Thread Cert.KernelIdeal.nD Cert.KernelIdeal.τ).loc Cert.KernelIdeal.main_arg6) := rfl
/-- At launch argument 7 holds its launch contents. -/
theorem kW0_arg7 : Cert.KernelIdeal.Gen.W0 m ρ c (κ Cert.KernelIdeal.main_arg7) = m ((c.tc : Thread Cert.KernelIdeal.nD Cert.KernelIdeal.τ).loc Cert.KernelIdeal.main_arg7) := rfl
/-- At launch argument 8 holds its launch contents. -/
theorem kW0_arg8 : Cert.KernelIdeal.Gen.W0 m ρ c (κ Cert.KernelIdeal.main_arg8) = m ((c.tc : Thread Cert.KernelIdeal.nD Cert.KernelIdeal.τ).loc Cert.KernelIdeal.main_arg8) := rfl
/-- At launch argument 9 holds its launch contents. -/
theorem kW0_arg9 : Cert.KernelIdeal.Gen.W0 m ρ c (κ Cert.KernelIdeal.main_arg9) = m ((c.tc : Thread Cert.KernelIdeal.nD Cert.KernelIdeal.τ).loc Cert.KernelIdeal.main_arg9) := rfl
/-- At launch argument 10 holds its launch contents. -/
theorem kW0_arg10 : Cert.KernelIdeal.Gen.W0 m ρ c (κ Cert.KernelIdeal.main_arg10) = m ((c.tc : Thread Cert.KernelIdeal.nD Cert.KernelIdeal.τ).loc Cert.KernelIdeal.main_arg10) := rfl
/-- At launch argument 11 holds its launch contents. -/
theorem kW0_arg11 : Cert.KernelIdeal.Gen.W0 m ρ c (κ Cert.KernelIdeal.main_arg11) = m ((c.tc : Thread Cert.KernelIdeal.nD Cert.KernelIdeal.τ).loc Cert.KernelIdeal.main_arg11) := rfl
/-- At launch argument 12 holds its launch contents. -/
theorem kW0_arg12 : Cert.KernelIdeal.Gen.W0 m ρ c (κ Cert.KernelIdeal.main_arg12) = m ((c.tc : Thread Cert.KernelIdeal.nD Cert.KernelIdeal.τ).loc Cert.KernelIdeal.main_arg12) := rfl
/-- The first region and the transpose before it leave argument 3 alone. -/
theorem kW2_arg3 : Cert.KernelIdeal.Gen.W2 m ρ c (κ Cert.KernelIdeal.main_arg3) = Cert.KernelIdeal.Gen.W0 m ρ c (κ Cert.KernelIdeal.main_arg3) := by
  refine (Cert.KernelIdeal.Gen.W2_of_ne m ρ c Cert.KernelIdeal.main_arg3 (by decide)).trans ?_
  show after Cert.KernelIdeal.Gen.hostOps0 (Cert.KernelIdeal.Gen.W0 m ρ c) (κ Cert.KernelIdeal.main_arg3) = _
  walk_back []
/-- The first region and the transpose before it leave argument 4 alone. -/
theorem kW2_arg4 : Cert.KernelIdeal.Gen.W2 m ρ c (κ Cert.KernelIdeal.main_arg4) = Cert.KernelIdeal.Gen.W0 m ρ c (κ Cert.KernelIdeal.main_arg4) := by
  refine (Cert.KernelIdeal.Gen.W2_of_ne m ρ c Cert.KernelIdeal.main_arg4 (by decide)).trans ?_
  show after Cert.KernelIdeal.Gen.hostOps0 (Cert.KernelIdeal.Gen.W0 m ρ c) (κ Cert.KernelIdeal.main_arg4) = _
  walk_back []
/-- The first region and the transpose before it leave argument 5 alone. -/
theorem kW2_arg5 : Cert.KernelIdeal.Gen.W2 m ρ c (κ Cert.KernelIdeal.main_arg5) = Cert.KernelIdeal.Gen.W0 m ρ c (κ Cert.KernelIdeal.main_arg5) := by
  refine (Cert.KernelIdeal.Gen.W2_of_ne m ρ c Cert.KernelIdeal.main_arg5 (by decide)).trans ?_
  show after Cert.KernelIdeal.Gen.hostOps0 (Cert.KernelIdeal.Gen.W0 m ρ c) (κ Cert.KernelIdeal.main_arg5) = _
  walk_back []
/-- The first region and the transpose before it leave argument 6 alone. -/
theorem kW2_arg6 : Cert.KernelIdeal.Gen.W2 m ρ c (κ Cert.KernelIdeal.main_arg6) = Cert.KernelIdeal.Gen.W0 m ρ c (κ Cert.KernelIdeal.main_arg6) := by
  refine (Cert.KernelIdeal.Gen.W2_of_ne m ρ c Cert.KernelIdeal.main_arg6 (by decide)).trans ?_
  show after Cert.KernelIdeal.Gen.hostOps0 (Cert.KernelIdeal.Gen.W0 m ρ c) (κ Cert.KernelIdeal.main_arg6) = _
  walk_back []
/-- The first region and the transpose before it leave argument 7 alone. -/
theorem kW2_arg7 : Cert.KernelIdeal.Gen.W2 m ρ c (κ Cert.KernelIdeal.main_arg7) = Cert.KernelIdeal.Gen.W0 m ρ c (κ Cert.KernelIdeal.main_arg7) := by
  refine (Cert.KernelIdeal.Gen.W2_of_ne m ρ c Cert.KernelIdeal.main_arg7 (by decide)).trans ?_
  show after Cert.KernelIdeal.Gen.hostOps0 (Cert.KernelIdeal.Gen.W0 m ρ c) (κ Cert.KernelIdeal.main_arg7) = _
  walk_back []
/-- The first region and the transpose before it leave argument 8 alone. -/
theorem kW2_arg8 : Cert.KernelIdeal.Gen.W2 m ρ c (κ Cert.KernelIdeal.main_arg8) = Cert.KernelIdeal.Gen.W0 m ρ c (κ Cert.KernelIdeal.main_arg8) := by
  refine (Cert.KernelIdeal.Gen.W2_of_ne m ρ c Cert.KernelIdeal.main_arg8 (by decide)).trans ?_
  show after Cert.KernelIdeal.Gen.hostOps0 (Cert.KernelIdeal.Gen.W0 m ρ c) (κ Cert.KernelIdeal.main_arg8) = _
  walk_back []
/-- The first region and the transpose before it leave argument 9 alone. -/
theorem kW2_arg9 : Cert.KernelIdeal.Gen.W2 m ρ c (κ Cert.KernelIdeal.main_arg9) = Cert.KernelIdeal.Gen.W0 m ρ c (κ Cert.KernelIdeal.main_arg9) := by
  refine (Cert.KernelIdeal.Gen.W2_of_ne m ρ c Cert.KernelIdeal.main_arg9 (by decide)).trans ?_
  show after Cert.KernelIdeal.Gen.hostOps0 (Cert.KernelIdeal.Gen.W0 m ρ c) (κ Cert.KernelIdeal.main_arg9) = _
  walk_back []
/-- The first region and the transpose before it leave argument 10 alone. -/
theorem kW2_arg10 : Cert.KernelIdeal.Gen.W2 m ρ c (κ Cert.KernelIdeal.main_arg10) = Cert.KernelIdeal.Gen.W0 m ρ c (κ Cert.KernelIdeal.main_arg10) := by
  refine (Cert.KernelIdeal.Gen.W2_of_ne m ρ c Cert.KernelIdeal.main_arg10 (by decide)).trans ?_
  show after Cert.KernelIdeal.Gen.hostOps0 (Cert.KernelIdeal.Gen.W0 m ρ c) (κ Cert.KernelIdeal.main_arg10) = _
  walk_back []
/-- The first region and the transpose before it leave argument 11 alone. -/
theorem kW2_arg11 : Cert.KernelIdeal.Gen.W2 m ρ c (κ Cert.KernelIdeal.main_arg11) = Cert.KernelIdeal.Gen.W0 m ρ c (κ Cert.KernelIdeal.main_arg11) := by
  refine (Cert.KernelIdeal.Gen.W2_of_ne m ρ c Cert.KernelIdeal.main_arg11 (by decide)).trans ?_
  show after Cert.KernelIdeal.Gen.hostOps0 (Cert.KernelIdeal.Gen.W0 m ρ c) (κ Cert.KernelIdeal.main_arg11) = _
  walk_back []
/-- The first region and the transpose before it leave argument 12 alone. -/
theorem kW2_arg12 : Cert.KernelIdeal.Gen.W2 m ρ c (κ Cert.KernelIdeal.main_arg12) = Cert.KernelIdeal.Gen.W0 m ρ c (κ Cert.KernelIdeal.main_arg12) := by
  refine (Cert.KernelIdeal.Gen.W2_of_ne m ρ c Cert.KernelIdeal.main_arg12 (by decide)).trans ?_
  show after Cert.KernelIdeal.Gen.hostOps0 (Cert.KernelIdeal.Gen.W0 m ρ c) (κ Cert.KernelIdeal.main_arg12) = _
  walk_back []
/-- The second region leaves main_v2 alone. -/
theorem kW14_main_v2 : Cert.KernelIdeal.Gen.W14 m ρ c (κ Cert.KernelIdeal.main_v2) = Cert.KernelIdeal.Gen.W13 m ρ c (κ Cert.KernelIdeal.main_v2) :=
  Cert.KernelIdeal.Gen.W14_of_ne m ρ c Cert.KernelIdeal.main_v2 (by decide)
/-- The second region leaves main_v3 alone. -/
theorem kW14_main_v3 : Cert.KernelIdeal.Gen.W14 m ρ c (κ Cert.KernelIdeal.main_v3) = Cert.KernelIdeal.Gen.W13 m ρ c (κ Cert.KernelIdeal.main_v3) :=
  Cert.KernelIdeal.Gen.W14_of_ne m ρ c Cert.KernelIdeal.main_v3 (by decide)
/-- The second region leaves main_v20 alone. -/
theorem kW14_main_v20 : Cert.KernelIdeal.Gen.W14 m ρ c (κ Cert.KernelIdeal.main_v20) = Cert.KernelIdeal.Gen.W13 m ρ c (κ Cert.KernelIdeal.main_v20) :=
  Cert.KernelIdeal.Gen.W14_of_ne m ρ c Cert.KernelIdeal.main_v20 (by decide)
/-- The second region leaves main_v23 alone. -/
theorem kW14_main_v23 : Cert.KernelIdeal.Gen.W14 m ρ c (κ Cert.KernelIdeal.main_v23) = Cert.KernelIdeal.Gen.W13 m ρ c (κ Cert.KernelIdeal.main_v23) :=
  Cert.KernelIdeal.Gen.W14_of_ne m ρ c Cert.KernelIdeal.main_v23 (by decide)
/-- The second region leaves main_arg7 alone. -/
theorem kW14_main_arg7 : Cert.KernelIdeal.Gen.W14 m ρ c (κ Cert.KernelIdeal.main_arg7) = Cert.KernelIdeal.Gen.W13 m ρ c (κ Cert.KernelIdeal.main_arg7) :=
  Cert.KernelIdeal.Gen.W14_of_ne m ρ c Cert.KernelIdeal.main_arg7 (by decide)
/-- The second region leaves main_arg12 alone. -/
theorem kW14_main_arg12 : Cert.KernelIdeal.Gen.W14 m ρ c (κ Cert.KernelIdeal.main_arg12) = Cert.KernelIdeal.Gen.W13 m ρ c (κ Cert.KernelIdeal.main_arg12) :=
  Cert.KernelIdeal.Gen.W14_of_ne m ρ c Cert.KernelIdeal.main_arg12 (by decide)

end Kernel

/-- The kernel's last scatter leaves main_v2 alone. -/
theorem kTail_main_v2 (V14 : Valuation Cert.KernelIdeal.τ Cert.KernelIdeal.sig (Elt F)) :
    after Cert.KernelIdeal.Gen.hostOps2_2 (after Cert.KernelIdeal.Gen.hostOps2_1 (after Cert.KernelIdeal.Gen.hostOps2 V14)) (κ Cert.KernelIdeal.main_v2) = V14 (κ Cert.KernelIdeal.main_v2) := by
  walk_back []

/-- The kernel's last scatter leaves main_v3 alone. -/
theorem kTail_main_v3 (V14 : Valuation Cert.KernelIdeal.τ Cert.KernelIdeal.sig (Elt F)) :
    after Cert.KernelIdeal.Gen.hostOps2_2 (after Cert.KernelIdeal.Gen.hostOps2_1 (after Cert.KernelIdeal.Gen.hostOps2 V14)) (κ Cert.KernelIdeal.main_v3) = V14 (κ Cert.KernelIdeal.main_v3) := by
  walk_back []

/-- The kernel's last scatter leaves main_v20 alone. -/
theorem kTail_main_v20 (V14 : Valuation Cert.KernelIdeal.τ Cert.KernelIdeal.sig (Elt F)) :
    after Cert.KernelIdeal.Gen.hostOps2_2 (after Cert.KernelIdeal.Gen.hostOps2_1 (after Cert.KernelIdeal.Gen.hostOps2 V14)) (κ Cert.KernelIdeal.main_v20) = V14 (κ Cert.KernelIdeal.main_v20) := by
  walk_back []

/-! ## The kernel's line between its two regions -/

set_option maxHeartbeats 0 in
/-- The host operations between the two regions leave argument 4 alone. -/
theorem kMid_arg4 (VK : Valuation Cert.KernelIdeal.τ Cert.KernelIdeal.sig (Elt F)) :
    after Cert.KernelIdeal.Gen.hostOps1_10 (after Cert.KernelIdeal.Gen.hostOps1_9 (after Cert.KernelIdeal.Gen.hostOps1_8 (after Cert.KernelIdeal.Gen.hostOps1_7 (after Cert.KernelIdeal.Gen.hostOps1_6
      (after Cert.KernelIdeal.Gen.hostOps1_5 (after Cert.KernelIdeal.Gen.hostOps1_4 (after Cert.KernelIdeal.Gen.hostOps1_3 (after Cert.KernelIdeal.Gen.hostOps1_2 (after Cert.KernelIdeal.Gen.hostOps1_1
        (after Cert.KernelIdeal.Gen.hostOps1 VK)))))))))) (κ Cert.KernelIdeal.main_arg4) = VK (κ Cert.KernelIdeal.main_arg4) := by
  walk_back []

set_option maxHeartbeats 0 in
/-- The host operations between the two regions leave argument 5 alone. -/
theorem kMid_arg5 (VK : Valuation Cert.KernelIdeal.τ Cert.KernelIdeal.sig (Elt F)) :
    after Cert.KernelIdeal.Gen.hostOps1_10 (after Cert.KernelIdeal.Gen.hostOps1_9 (after Cert.KernelIdeal.Gen.hostOps1_8 (after Cert.KernelIdeal.Gen.hostOps1_7 (after Cert.KernelIdeal.Gen.hostOps1_6
      (after Cert.KernelIdeal.Gen.hostOps1_5 (after Cert.KernelIdeal.Gen.hostOps1_4 (after Cert.KernelIdeal.Gen.hostOps1_3 (after Cert.KernelIdeal.Gen.hostOps1_2 (after Cert.KernelIdeal.Gen.hostOps1_1
        (after Cert.KernelIdeal.Gen.hostOps1 VK)))))))))) (κ Cert.KernelIdeal.main_arg5) = VK (κ Cert.KernelIdeal.main_arg5) := by
  walk_back []

set_option maxHeartbeats 0 in
/-- The host operations between the two regions leave argument 7 alone. -/
theorem kMid_arg7 (VK : Valuation Cert.KernelIdeal.τ Cert.KernelIdeal.sig (Elt F)) :
    after Cert.KernelIdeal.Gen.hostOps1_10 (after Cert.KernelIdeal.Gen.hostOps1_9 (after Cert.KernelIdeal.Gen.hostOps1_8 (after Cert.KernelIdeal.Gen.hostOps1_7 (after Cert.KernelIdeal.Gen.hostOps1_6
      (after Cert.KernelIdeal.Gen.hostOps1_5 (after Cert.KernelIdeal.Gen.hostOps1_4 (after Cert.KernelIdeal.Gen.hostOps1_3 (after Cert.KernelIdeal.Gen.hostOps1_2 (after Cert.KernelIdeal.Gen.hostOps1_1
        (after Cert.KernelIdeal.Gen.hostOps1 VK)))))))))) (κ Cert.KernelIdeal.main_arg7) = VK (κ Cert.KernelIdeal.main_arg7) := by
  walk_back []

set_option maxHeartbeats 0 in
/-- The host operations between the two regions leave argument 8 alone. -/
theorem kMid_arg8 (VK : Valuation Cert.KernelIdeal.τ Cert.KernelIdeal.sig (Elt F)) :
    after Cert.KernelIdeal.Gen.hostOps1_10 (after Cert.KernelIdeal.Gen.hostOps1_9 (after Cert.KernelIdeal.Gen.hostOps1_8 (after Cert.KernelIdeal.Gen.hostOps1_7 (after Cert.KernelIdeal.Gen.hostOps1_6
      (after Cert.KernelIdeal.Gen.hostOps1_5 (after Cert.KernelIdeal.Gen.hostOps1_4 (after Cert.KernelIdeal.Gen.hostOps1_3 (after Cert.KernelIdeal.Gen.hostOps1_2 (after Cert.KernelIdeal.Gen.hostOps1_1
        (after Cert.KernelIdeal.Gen.hostOps1 VK)))))))))) (κ Cert.KernelIdeal.main_arg8) = VK (κ Cert.KernelIdeal.main_arg8) := by
  walk_back []

set_option maxHeartbeats 0 in
/-- The host operations between the two regions leave argument 12 alone. -/
theorem kMid_arg12 (VK : Valuation Cert.KernelIdeal.τ Cert.KernelIdeal.sig (Elt F)) :
    after Cert.KernelIdeal.Gen.hostOps1_10 (after Cert.KernelIdeal.Gen.hostOps1_9 (after Cert.KernelIdeal.Gen.hostOps1_8 (after Cert.KernelIdeal.Gen.hostOps1_7 (after Cert.KernelIdeal.Gen.hostOps1_6
      (after Cert.KernelIdeal.Gen.hostOps1_5 (after Cert.KernelIdeal.Gen.hostOps1_4 (after Cert.KernelIdeal.Gen.hostOps1_3 (after Cert.KernelIdeal.Gen.hostOps1_2 (after Cert.KernelIdeal.Gen.hostOps1_1
        (after Cert.KernelIdeal.Gen.hostOps1 VK)))))))))) (κ Cert.KernelIdeal.main_arg12) = VK (κ Cert.KernelIdeal.main_arg12) := by
  walk_back []

/-! ## The reference's line -/

/-- The reference's first seven operations leave main_arg3 alone. -/
theorem r_pre_main_arg3 (WR : Valuation Cert.ReferenceIdeal.τ Cert.ReferenceIdeal.sig (Elt F)) :
    after Cert.ReferenceIdeal.RefCuts.pre WR (ϱ Cert.ReferenceIdeal.main_arg3) = WR (ϱ Cert.ReferenceIdeal.main_arg3) := by
  walk_back []

/-- The reference's first seven operations leave main_arg4 alone. -/
theorem r_pre_main_arg4 (WR : Valuation Cert.ReferenceIdeal.τ Cert.ReferenceIdeal.sig (Elt F)) :
    after Cert.ReferenceIdeal.RefCuts.pre WR (ϱ Cert.ReferenceIdeal.main_arg4) = WR (ϱ Cert.ReferenceIdeal.main_arg4) := by
  walk_back []

/-- The reference's first seven operations leave main_arg5 alone. -/
theorem r_pre_main_arg5 (WR : Valuation Cert.ReferenceIdeal.τ Cert.ReferenceIdeal.sig (Elt F)) :
    after Cert.ReferenceIdeal.RefCuts.pre WR (ϱ Cert.ReferenceIdeal.main_arg5) = WR (ϱ Cert.ReferenceIdeal.main_arg5) := by
  walk_back []

/-- The reference's first seven operations leave main_arg6 alone. -/
theorem r_pre_main_arg6 (WR : Valuation Cert.ReferenceIdeal.τ Cert.ReferenceIdeal.sig (Elt F)) :
    after Cert.ReferenceIdeal.RefCuts.pre WR (ϱ Cert.ReferenceIdeal.main_arg6) = WR (ϱ Cert.ReferenceIdeal.main_arg6) := by
  walk_back []

/-- The reference's first seven operations leave main_arg7 alone. -/
theorem r_pre_main_arg7 (WR : Valuation Cert.ReferenceIdeal.τ Cert.ReferenceIdeal.sig (Elt F)) :
    after Cert.ReferenceIdeal.RefCuts.pre WR (ϱ Cert.ReferenceIdeal.main_arg7) = WR (ϱ Cert.ReferenceIdeal.main_arg7) := by
  walk_back []

/-- The reference's first seven operations leave main_arg8 alone. -/
theorem r_pre_main_arg8 (WR : Valuation Cert.ReferenceIdeal.τ Cert.ReferenceIdeal.sig (Elt F)) :
    after Cert.ReferenceIdeal.RefCuts.pre WR (ϱ Cert.ReferenceIdeal.main_arg8) = WR (ϱ Cert.ReferenceIdeal.main_arg8) := by
  walk_back []

/-- The reference's first seven operations leave main_arg9 alone. -/
theorem r_pre_main_arg9 (WR : Valuation Cert.ReferenceIdeal.τ Cert.ReferenceIdeal.sig (Elt F)) :
    after Cert.ReferenceIdeal.RefCuts.pre WR (ϱ Cert.ReferenceIdeal.main_arg9) = WR (ϱ Cert.ReferenceIdeal.main_arg9) := by
  walk_back []

/-- The reference's first seven operations leave main_arg10 alone. -/
theorem r_pre_main_arg10 (WR : Valuation Cert.ReferenceIdeal.τ Cert.ReferenceIdeal.sig (Elt F)) :
    after Cert.ReferenceIdeal.RefCuts.pre WR (ϱ Cert.ReferenceIdeal.main_arg10) = WR (ϱ Cert.ReferenceIdeal.main_arg10) := by
  walk_back []

/-- The reference's first seven operations leave main_arg11 alone. -/
theorem r_pre_main_arg11 (WR : Valuation Cert.ReferenceIdeal.τ Cert.ReferenceIdeal.sig (Elt F)) :
    after Cert.ReferenceIdeal.RefCuts.pre WR (ϱ Cert.ReferenceIdeal.main_arg11) = WR (ϱ Cert.ReferenceIdeal.main_arg11) := by
  walk_back []

/-- The reference's first seven operations leave main_arg12 alone. -/
theorem r_pre_main_arg12 (WR : Valuation Cert.ReferenceIdeal.τ Cert.ReferenceIdeal.sig (Elt F)) :
    after Cert.ReferenceIdeal.RefCuts.pre WR (ϱ Cert.ReferenceIdeal.main_arg12) = WR (ϱ Cert.ReferenceIdeal.main_arg12) := by
  walk_back []

set_option maxHeartbeats 0 in
/-- The operations up to the gated window sum leave main_arg4 alone. -/
theorem r_segM_main_arg4 (WR : Valuation Cert.ReferenceIdeal.τ Cert.ReferenceIdeal.sig (Elt F)) :
    after Cert.ReferenceIdeal.RefCuts.segM WR (ϱ Cert.ReferenceIdeal.main_arg4) = WR (ϱ Cert.ReferenceIdeal.main_arg4) := by
  walk_back []

set_option maxHeartbeats 0 in
/-- The operations up to the gated window sum leave main_arg5 alone. -/
theorem r_segM_main_arg5 (WR : Valuation Cert.ReferenceIdeal.τ Cert.ReferenceIdeal.sig (Elt F)) :
    after Cert.ReferenceIdeal.RefCuts.segM WR (ϱ Cert.ReferenceIdeal.main_arg5) = WR (ϱ Cert.ReferenceIdeal.main_arg5) := by
  walk_back []

set_option maxHeartbeats 0 in
/-- The operations up to the gated window sum leave main_arg7 alone. -/
theorem r_segM_main_arg7 (WR : Valuation Cert.ReferenceIdeal.τ Cert.ReferenceIdeal.sig (Elt F)) :
    after Cert.ReferenceIdeal.RefCuts.segM WR (ϱ Cert.ReferenceIdeal.main_arg7) = WR (ϱ Cert.ReferenceIdeal.main_arg7) := by
  walk_back []

set_option maxHeartbeats 0 in
/-- The operations up to the gated window sum leave main_arg8 alone. -/
theorem r_segM_main_arg8 (WR : Valuation Cert.ReferenceIdeal.τ Cert.ReferenceIdeal.sig (Elt F)) :
    after Cert.ReferenceIdeal.RefCuts.segM WR (ϱ Cert.ReferenceIdeal.main_arg8) = WR (ϱ Cert.ReferenceIdeal.main_arg8) := by
  walk_back []

set_option maxHeartbeats 0 in
/-- The operations up to the gated window sum leave main_arg12 alone. -/
theorem r_segM_main_arg12 (WR : Valuation Cert.ReferenceIdeal.τ Cert.ReferenceIdeal.sig (Elt F)) :
    after Cert.ReferenceIdeal.RefCuts.segM WR (ϱ Cert.ReferenceIdeal.main_arg12) = WR (ϱ Cert.ReferenceIdeal.main_arg12) := by
  walk_back []

set_option maxHeartbeats 0 in
/-- The normalisation and rotation leave main_arg7 alone. -/
theorem r_segR_main_arg7 (WR : Valuation Cert.ReferenceIdeal.τ Cert.ReferenceIdeal.sig (Elt F)) :
    after Cert.ReferenceIdeal.RefCuts.segR WR (ϱ Cert.ReferenceIdeal.main_arg7) = WR (ϱ Cert.ReferenceIdeal.main_arg7) := by
  walk_back []

set_option maxHeartbeats 0 in
/-- The normalisation and rotation leave main_arg12 alone. -/
theorem r_segR_main_arg12 (WR : Valuation Cert.ReferenceIdeal.τ Cert.ReferenceIdeal.sig (Elt F)) :
    after Cert.ReferenceIdeal.RefCuts.segR WR (ϱ Cert.ReferenceIdeal.main_arg12) = WR (ϱ Cert.ReferenceIdeal.main_arg12) := by
  walk_back []

set_option maxHeartbeats 0 in
/-- The normalisation and rotation leave main_v7 alone. -/
theorem r_segR_main_v7 (WR : Valuation Cert.ReferenceIdeal.τ Cert.ReferenceIdeal.sig (Elt F)) :
    after Cert.ReferenceIdeal.RefCuts.segR WR (ϱ Cert.ReferenceIdeal.main_v7) = WR (ϱ Cert.ReferenceIdeal.main_v7) := by
  walk_back []

set_option maxHeartbeats 0 in
/-- The normalisation and rotation leave main_v8 alone. -/
theorem r_segR_main_v8 (WR : Valuation Cert.ReferenceIdeal.τ Cert.ReferenceIdeal.sig (Elt F)) :
    after Cert.ReferenceIdeal.RefCuts.segR WR (ϱ Cert.ReferenceIdeal.main_v8) = WR (ϱ Cert.ReferenceIdeal.main_v8) := by
  walk_back []

set_option maxHeartbeats 0 in
/-- The normalisation and rotation leave main_v25 alone. -/
theorem r_segR_main_v25 (WR : Valuation Cert.ReferenceIdeal.τ Cert.ReferenceIdeal.sig (Elt F)) :
    after Cert.ReferenceIdeal.RefCuts.segR WR (ϱ Cert.ReferenceIdeal.main_v25) = WR (ϱ Cert.ReferenceIdeal.main_v25) := by
  walk_back []

set_option maxHeartbeats 0 in
/-- The normalisation and rotation leave main_v28 alone. -/
theorem r_segR_main_v28 (WR : Valuation Cert.ReferenceIdeal.τ Cert.ReferenceIdeal.sig (Elt F)) :
    after Cert.ReferenceIdeal.RefCuts.segR WR (ϱ Cert.ReferenceIdeal.main_v28) = WR (ϱ Cert.ReferenceIdeal.main_v28) := by
  walk_back []

set_option maxHeartbeats 0 in
/-- The reference's last scatter leave main_v7 alone. -/
theorem r_sufT_main_v7 (WR : Valuation Cert.ReferenceIdeal.τ Cert.ReferenceIdeal.sig (Elt F)) :
    after Cert.ReferenceIdeal.RefCuts.sufT WR (ϱ Cert.ReferenceIdeal.main_v7) = WR (ϱ Cert.ReferenceIdeal.main_v7) := by
  walk_back []

set_option maxHeartbeats 0 in
/-- The reference's last scatter leave main_v8 alone. -/
theorem r_sufT_main_v8 (WR : Valuation Cert.ReferenceIdeal.τ Cert.ReferenceIdeal.sig (Elt F)) :
    after Cert.ReferenceIdeal.RefCuts.sufT WR (ϱ Cert.ReferenceIdeal.main_v8) = WR (ϱ Cert.ReferenceIdeal.main_v8) := by
  walk_back []

set_option maxHeartbeats 0 in
/-- The reference's last scatter leave main_v25 alone. -/
theorem r_sufT_main_v25 (WR : Valuation Cert.ReferenceIdeal.τ Cert.ReferenceIdeal.sig (Elt F)) :
    after Cert.ReferenceIdeal.RefCuts.sufT WR (ϱ Cert.ReferenceIdeal.main_v25) = WR (ϱ Cert.ReferenceIdeal.main_v25) := by
  walk_back []

end Cert.Bridge

end
-- ==== Proof.BridgeMid.lean ====
/-
  The host operations between the kernel's two regions against the same operations of the reference. Both programs
  run, on the matrix product's array and on the arguments, the same line: the two column halves, the positional term
  added to the first, the scatter of the state rows, the window's slots looked up in the block table, the gather of the
  window's rows, the softmax gate over the window and the gated sum. Each side is read, from the buffer back to the
  contents the line started from, as one composed term; with the starting contents equal the two terms are one.
-/
import proofs.«114737_j78752520339581_1_alg».proof.Proof.KernelRun
import proofs.«114737_j78752520339581_1_alg».proof.Proof.RefCuts
import proofs.«114737_j78752520339581_1_alg».proof.Proof.LibHostWalk

set_option maxRecDepth 16384

noncomputable section

namespace Cert.Bridge

open Idealize.ShloMosaic Idealize.ShloMosaic.TcCoe Idealize.ShloMosaic.StableHlo Cert.HostWalk

variable {F : FTy → Type} [FloatOps F]

local notation "κ" b:max => Proc.devRef (τ := Cert.KernelIdeal.τ) (sig := Cert.KernelIdeal.sig) Proc.tc b
local notation "ϱ" b:max => Proc.devRef (τ := Cert.ReferenceIdeal.τ) (sig := Cert.ReferenceIdeal.sig) Proc.tc b

/-- The kernel's line of host operations between its two regions, from the contents region 0 leaves. -/
abbrev midK (VK : Valuation Cert.KernelIdeal.τ Cert.KernelIdeal.sig (Elt F)) : Valuation Cert.KernelIdeal.τ Cert.KernelIdeal.sig (Elt F) :=
  after Cert.KernelIdeal.Gen.hostOps1_10 (after Cert.KernelIdeal.Gen.hostOps1_9 (after Cert.KernelIdeal.Gen.hostOps1_8 (after Cert.KernelIdeal.Gen.hostOps1_7 (after Cert.KernelIdeal.Gen.hostOps1_6
    (after Cert.KernelIdeal.Gen.hostOps1_5 (after Cert.KernelIdeal.Gen.hostOps1_4 (after Cert.KernelIdeal.Gen.hostOps1_3 (after Cert.KernelIdeal.Gen.hostOps1_2 (after Cert.KernelIdeal.Gen.hostOps1_1
      (after Cert.KernelIdeal.Gen.hostOps1 VK))))))))))

set_option maxHeartbeats 0 in
/-- The first result: the left column half of the product. -/
theorem mid_v2 (VK : Valuation Cert.KernelIdeal.τ Cert.KernelIdeal.sig (Elt F)) (WR : Valuation Cert.ReferenceIdeal.τ Cert.ReferenceIdeal.sig (Elt F))
    (h1 : VK (κ Cert.KernelIdeal.main_v1) = WR (ϱ Cert.ReferenceIdeal.main_v6)) :
    midK VK (κ Cert.KernelIdeal.main_v2) = after Cert.ReferenceIdeal.RefCuts.segM WR (ϱ Cert.ReferenceIdeal.main_v7) := by
  walk_back []
  rw [h1]

set_option maxHeartbeats 0 in
/-- The second result: the right column half of the product. -/
theorem mid_v3 (VK : Valuation Cert.KernelIdeal.τ Cert.KernelIdeal.sig (Elt F)) (WR : Valuation Cert.ReferenceIdeal.τ Cert.ReferenceIdeal.sig (Elt F))
    (h1 : VK (κ Cert.KernelIdeal.main_v1) = WR (ϱ Cert.ReferenceIdeal.main_v6)) :
    midK VK (κ Cert.KernelIdeal.main_v3) = after Cert.ReferenceIdeal.RefCuts.segM WR (ϱ Cert.ReferenceIdeal.main_v8) := by
  walk_back []
  rw [h1]

set_option maxHeartbeats 0 in
/-- The third result: the state cache with the rows (left half plus positional term | right half) scattered in. -/
theorem mid_v20 (VK : Valuation Cert.KernelIdeal.τ Cert.KernelIdeal.sig (Elt F)) (WR : Valuation Cert.ReferenceIdeal.τ Cert.ReferenceIdeal.sig (Elt F))
    (h1 : VK (κ Cert.KernelIdeal.main_v1) = WR (ϱ Cert.ReferenceIdeal.main_v6))
    (h3 : VK (κ Cert.KernelIdeal.main_arg3) = WR (ϱ Cert.ReferenceIdeal.main_arg3))
    (h6 : VK (κ Cert.KernelIdeal.main_arg6) = WR (ϱ Cert.ReferenceIdeal.main_arg6))
    (h8 : VK (κ Cert.KernelIdeal.main_arg8) = WR (ϱ Cert.ReferenceIdeal.main_arg8))
    (h9 : VK (κ Cert.KernelIdeal.main_arg9) = WR (ϱ Cert.ReferenceIdeal.main_arg9)) :
    midK VK (κ Cert.KernelIdeal.main_v20) = after Cert.ReferenceIdeal.RefCuts.segM WR (ϱ Cert.ReferenceIdeal.main_v25) := by
  walk_back []
  rw [h1, h3, h6, h8, h9]
  rfl

set_option maxHeartbeats 0 in
/-- The mask of the tokens that end a window. -/
theorem mid_v23 (VK : Valuation Cert.KernelIdeal.τ Cert.KernelIdeal.sig (Elt F)) (WR : Valuation Cert.ReferenceIdeal.τ Cert.ReferenceIdeal.sig (Elt F))
    (h8 : VK (κ Cert.KernelIdeal.main_arg8) = WR (ϱ Cert.ReferenceIdeal.main_arg8)) :
    midK VK (κ Cert.KernelIdeal.main_v23) = after Cert.ReferenceIdeal.RefCuts.segM WR (ϱ Cert.ReferenceIdeal.main_v28) := by
  walk_back []
  rw [h8]

set_option maxHeartbeats 0 in
/-- The gated window sum. -/
theorem mid_v76 (VK : Valuation Cert.KernelIdeal.τ Cert.KernelIdeal.sig (Elt F)) (WR : Valuation Cert.ReferenceIdeal.τ Cert.ReferenceIdeal.sig (Elt F))
    (h1 : VK (κ Cert.KernelIdeal.main_v1) = WR (ϱ Cert.ReferenceIdeal.main_v6))
    (h3 : VK (κ Cert.KernelIdeal.main_arg3) = WR (ϱ Cert.ReferenceIdeal.main_arg3))
    (h6 : VK (κ Cert.KernelIdeal.main_arg6) = WR (ϱ Cert.ReferenceIdeal.main_arg6))
    (h8 : VK (κ Cert.KernelIdeal.main_arg8) = WR (ϱ Cert.ReferenceIdeal.main_arg8))
    (h9 : VK (κ Cert.KernelIdeal.main_arg9) = WR (ϱ Cert.ReferenceIdeal.main_arg9))
    (h10 : VK (κ Cert.KernelIdeal.main_arg10) = WR (ϱ Cert.ReferenceIdeal.main_arg10))
    (h11 : VK (κ Cert.KernelIdeal.main_arg11) = WR (ϱ Cert.ReferenceIdeal.main_arg11)) :
    midK VK (κ Cert.KernelIdeal.main_v76) = after Cert.ReferenceIdeal.RefCuts.segM WR (ϱ Cert.ReferenceIdeal.main_v81) := by
  walk_back []
  rw [h1, h3, h6, h8, h9, h10, h11]
  rfl

end Cert.Bridge

end
-- ==== Proof.RopeSpec.lean ====
/-
  The fused RMS-normalisation + rotary-embedding stage as ONE whole-array function of its three operands,
  written index by index over the extended reals.

  A row of the [8192, 512] operand is two halves of 256 columns. Each half is normalised on its own:
  with `ms = (∑_{k<256} x_k²) / 256`, entry `k` becomes `x_k · rsqrt (ms + ε) · w_k` (`nrm`). The
  normalised half is then rotated pairwise against the row's 256 table columns `c` (the first 128 the
  cosines, the last 128 the sines): for `j < 128`
    out_j       = n_j · c_j − n_{128+j} · c_{128+j}        (`rot1`)
    out_{128+j} = n_{128+j} · c_j + n_j · c_{128+j}        (`rot2`)
  `ropeRow` is the whole 512-wide output row as a function of the input row, the weights and the
  table row; `Grope` reads it at every row of the arrays. The operations are kept in this order and
  the two float literals (256 and ε) as their bit patterns, so both programs meet the same term.
-/
import Idealize.ShloMosaic.PureOps.Ideal
import Idealize.ShloMosaic.Lib.ValueIdx

noncomputable section

open scoped BigOperators

namespace Cert.KernelIdeal.Rope

open Idealize.ShloMosaic Idealize.ShloMosaic.ValueIdx

/-- Column `256 h + k` of a 512-wide row: entry `k` of half `h`. -/
def col (h : Fin 2) (k : Fin 256) : Fin 512 := ⟨256 * h.val + k.val, by have := h.isLt; have := k.isLt; omega⟩

/-- Entry `j` of the first 128 of a 256-wide half. -/
def lo (j : Fin 128) : Fin 256 := ⟨j.val, by have := j.isLt; omega⟩

/-- Entry `128 + j` of a 256-wide half. -/
def hi (j : Fin 128) : Fin 256 := ⟨128 + j.val, by have := j.isLt; omega⟩

theorem col_val (h : Fin 2) (k : Fin 256) : (col h k).val = 256 * h.val + k.val := rfl
theorem lo_val (j : Fin 128) : (lo j).val = j.val := rfl
theorem hi_val (j : Fin 128) : (hi j).val = 128 + j.val := rfl

/-- The mean of the squares of a 256-wide half: the sum of the squares, divided by the literal 256. -/
def meanSq (xh : Fin 256 → EReal) : EReal :=
  Ideal.div (∑ k : Fin 256, xh k * xh k) (Ideal.ofBits .f32 0x43800000#32)

/-- Entry `k` of the normalised half: `x_k · rsqrt (meanSq + ε) · w_k`, in that order. -/
def nrm (xh : Fin 256 → EReal) (w : Fin 256 → EReal) (k : Fin 256) : EReal :=
  xh k * Ideal.rsqrt (meanSq xh + Ideal.ofBits .f32 0x358637BD#32) * w k

/-- The rotated half's entry `j < 128`: `n_j · c_j − n_{128+j} · c_{128+j}`. -/
def rot1 (xh : Fin 256 → EReal) (w : Fin 256 → EReal) (cr : Fin 256 → EReal) (j : Fin 128) : EReal :=
  nrm xh w (lo j) * cr (lo j) - nrm xh w (hi j) * cr (hi j)

/-- The rotated half's entry `128 + j`: `n_{128+j} · c_j + n_j · c_{128+j}`. -/
def rot2 (xh : Fin 256 → EReal) (w : Fin 256 → EReal) (cr : Fin 256 → EReal) (j : Fin 128) : EReal :=
  nrm xh w (hi j) * cr (lo j) + nrm xh w (lo j) * cr (hi j)

/-- Half `h` of a 512-wide row. -/
def half (xr : Fin 512 → EReal) (h : Fin 2) : Fin 256 → EReal := fun k => xr (col h k)

/-- The output row at column `q`: half `q / 256` normalised and rotated, its entry `q % 256`. -/
def ropeRow (xr : Fin 512 → EReal) (w : Fin 256 → EReal) (cr : Fin 256 → EReal) (q : Fin 512) : EReal :=
  if hq : q.val % 256 < 128 then
    rot1 (half xr ⟨q.val / 256, by have := q.isLt; omega⟩) w cr ⟨q.val % 256, hq⟩
  else
    rot2 (half xr ⟨q.val / 256, by have := q.isLt; omega⟩) w cr ⟨q.val % 256 - 128, by omega⟩

/-- Column `256 h + j`, `j < 128`, of the output row is `rot1` of half `h` at `j`. -/
theorem ropeRow_first (xr : Fin 512 → EReal) (w cr : Fin 256 → EReal) (h : Fin 2) (j : Fin 128) (q : Fin 512)
    (hq : q.val = 256 * h.val + j.val) : ropeRow xr w cr q = rot1 (half xr h) w cr j := by
  have hh := h.isLt
  have hj := j.isLt
  have h1 : q.val % 256 = j.val := by omega
  have h2 : q.val / 256 = h.val := by omega
  unfold ropeRow
  rw [dif_pos (by omega)]
  congr 1
  · congr 1; exact Fin.ext h2
  · exact Fin.ext h1

/-- Column `256 h + 128 + j`, `j < 128`, of the output row is `rot2` of half `h` at `j`. -/
theorem ropeRow_second (xr : Fin 512 → EReal) (w cr : Fin 256 → EReal) (h : Fin 2) (j : Fin 128) (q : Fin 512)
    (hq : q.val = 256 * h.val + 128 + j.val) : ropeRow xr w cr q = rot2 (half xr h) w cr j := by
  have hh := h.isLt
  have hj := j.isLt
  have h1 : q.val % 256 = 128 + j.val := by omega
  have h2 : q.val / 256 = h.val := by omega
  unfold ropeRow
  rw [dif_neg (by omega)]
  congr 1
  · congr 1; exact Fin.ext h2
  · exact Fin.ext (by show q.val % 256 - 128 = j.val; omega)

/-- Row `r` of a two-axis array as a function of the column. -/
def rowOf {R C : Nat} (X : (⟨2, ![R, C]⟩ : Shape).Idx → EReal) (r : Fin R) : Fin C → EReal := fun q => X (ix2 r q)

/-- THE STAGE AS ONE FUNCTION: entry `(r, q)` of the result is `ropeRow` of row `r` of the operand, the one row of
    the weights, and row `r` of the table, at column `q`. -/
def Grope (x : (⟨2, ![8192, 512]⟩ : Shape).Idx → EReal) (nw : (⟨2, ![1, 256]⟩ : Shape).Idx → EReal)
    (cs : (⟨2, ![8192, 256]⟩ : Shape).Idx → EReal) : (⟨2, ![8192, 512]⟩ : Shape).Idx → EReal :=
  fun i => ropeRow (rowOf x (i 0)) (rowOf nw (0 : Fin 1)) (rowOf cs (i 0)) (i 1)

/-- `Grope` at an index written by its coordinates. -/
theorem Grope_ix2 (x : (⟨2, ![8192, 512]⟩ : Shape).Idx → EReal) (nw : (⟨2, ![1, 256]⟩ : Shape).Idx → EReal)
    (cs : (⟨2, ![8192, 256]⟩ : Shape).Idx → EReal) (r : Fin 8192) (q : Fin 512) :
    Grope x nw cs (ix2 r q) = ropeRow (rowOf x r) (rowOf nw (0 : Fin 1)) (rowOf cs r) q := rfl

end Cert.KernelIdeal.Rope

end
-- ==== Proof.RopePay.lean ====
/-
  The body's arithmetic read at an index, at the extended reals.

  The kernel body normalises each 256-column half of its [1024, 512] block and rotates it against the
  [1024, 256] table block; its four stored values are the four 128-column quarters of the result. Here each
  stored value is read at an entry `(p, j)` as the specification's `rot1` / `rot2` of row `p`:
  the lane sum is a `Fin 256`-indexed sum, the keep-dims column [1024] → [1024, 1] and its broadcast back
  over the columns read the row's one value, the one-row weight broadcast reads the weight's column, and a
  column slice at offset 0 or 128 reads column `j` or `128 + j`.
-/
import proofs.«114737_j78752520339581_1_alg».proof.Proof.Gen.KernelIdeal.Skeleton
import proofs.«114737_j78752520339581_1_alg».proof.Proof.RopeSpec
import Idealize.ShloMosaic.PureOps.Ideal.Laws
import Idealize.ShloMosaic.Lib.Pipeline.Value
import Idealize.ShloMosaic.Lib.ValueLayout

noncomputable section

open scoped BigOperators

namespace Cert.KernelIdeal.Rope

open Cert.KernelIdeal Cert.KernelIdeal.Gen Idealize.ShloMosaic Idealize.ShloMosaic.ValueIdx

/-! ## Layout operations of the keep-dims column, at coordinates -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first 128 columns of a 256-column block: column `j`. -/
theorem sliceLo_apply {α : Type} (X : S1024x256.Idx → α) (h : S1024x256.Slices ![0, 0] S1024x128) (p : Fin 1024) (j : Fin 128) :
    extractStridedSlice S1024x128 ![0, 0] X h (ix2 p j) = X (ix2 p (lo j)) :=
  slice2_axis1_apply 0 X h p j (lo j) (Nat.zero_add _).symm

/-- The last 128 columns of a 256-column block: column `128 + j`. -/
theorem sliceHi_apply {α : Type} (X : S1024x256.Idx → α) (h : S1024x256.Slices ![0, 128] S1024x128) (p : Fin 1024) (j : Fin 128) :
    extractStridedSlice S1024x128 ![0, 128] X h (ix2 p j) = X (ix2 p (hi j)) :=
  slice2_axis1_apply 128 X h p j (hi j) rfl

/-! ## The lane sum -/

/-- The sum over the columns of a [1024, 256] block, at row `p`, is the `Fin 256`-indexed sum of the row. -/
theorem rowSum_apply (src : FVec Ideal S1024x256 .f32) (h : S1024x256.Reduces [1] S1024) (hφ : FKind.Formats .f32)
    (hacc : (0x00000000#32 : BitVec 32) = 0x00000000#32) (p : Fin 1024) :
    multiReduction .add [1] S1024 src 0x00000000#32 h hφ hacc (ix1 p) = ∑ k : Fin 256, src (ix2 p k) := by
  refine (Ideal.multiReduction_add_single src 0x00000000#32 h hφ hacc (ix1 p)).trans ?_
  refine Finset.sum_congr rfl fun k _ => congrArg src ?_
  funext a
  apply Fin.ext
  match a with
  | ⟨0, _⟩ => rfl
  | ⟨1, _⟩ => rfl

/-- The mean-square column plus ε, at row `p`: the specification's `meanSq` of the row, plus ε. -/
theorem msqEps_apply (v : FVec Ideal S1024x256 .f32) (h : S1024x256.Reduces [1] S1024) (hφ : FKind.Formats .f32)
    (hacc : (0x00000000#32 : BitVec 32) = 0x00000000#32) (hc : S1024.ShapeCasts S1024x1) (p : Fin 1024) (u : Fin 1) :
    addf (divf (shapeCast S1024x1 (multiReduction .add [1] S1024 (mulf v v) 0x00000000#32 h hφ hacc) hc)
        (broadcast S1024x1 (Scalar.ofBits (F := Ideal) .f32 0x43800000#32)))
      (broadcast S1024x1 (Scalar.ofBits (F := Ideal) .f32 0x358637BD#32)) (ix2 p u)
      = meanSq (rowOf v p) + Ideal.ofBits .f32 0x358637BD#32 := by
  show Ideal.div (shapeCast S1024x1 (multiReduction .add [1] S1024 (mulf v v) 0x00000000#32 h hφ hacc) hc (ix2 p u))
      (Ideal.ofBits .f32 0x43800000#32) + Ideal.ofBits .f32 0x358637BD#32 = _
  rw [shapeCast_a_a1_apply, rowSum_apply]
  rfl

/-! ## A normalised half, and its rotation -/

/-- A half times the broadcast `rsqrt` of its mean-square column times the broadcast weights, at `(p, k)`. -/
theorem nrm_apply (v : FVec Ideal S1024x256 .f32) (w : FVec Ideal S1x256 .f32) (M : FVec Ideal S1024x1 .f32)
    (hb1 : S1024x1.Broadcasts S1024x256) (hb2 : S1x256.Broadcasts S1024x256) (p : Fin 1024) (k : Fin 256)
    (hM : M (ix2 p (0 : Fin 1)) = meanSq (rowOf v p) + Ideal.ofBits .f32 0x358637BD#32) :
    mulf (mulf v (broadcastTo S1024x256 (rsqrt M) hb1)) (broadcastTo S1024x256 w hb2) (ix2 p k)
      = nrm (rowOf v p) (rowOf w (0 : Fin 1)) k := by
  show v (ix2 p k) * broadcastTo S1024x256 (rsqrt M) hb1 (ix2 p k) * broadcastTo S1024x256 w hb2 (ix2 p k) = _
  rw [broadcastTo_a1_ab_apply, broadcastTo_1b_ab_apply]
  show v (ix2 p k) * Ideal.rsqrt (M (ix2 p (0 : Fin 1))) * w (ix2 (0 : Fin 1) k) = _
  rw [hM]
  rfl

/-- The first stored quarter of a half: `n_j · c_j − n_{128+j} · c_{128+j}`. -/
theorem rot1_apply (N C : FVec Ideal S1024x256 .f32) (h0 : S1024x256.Slices ![0, 0] S1024x128)
    (h1 : S1024x256.Slices ![0, 128] S1024x128) (p : Fin 1024) (j : Fin 128) (xh w cr : Fin 256 → EReal)
    (hN : ∀ k, N (ix2 p k) = nrm xh w k) (hC : ∀ k, C (ix2 p k) = cr k) :
    subf (mulf (extractStridedSlice S1024x128 ![0, 0] N h0) (extractStridedSlice S1024x128 ![0, 0] C h0))
        (mulf (extractStridedSlice S1024x128 ![0, 128] N h1) (extractStridedSlice S1024x128 ![0, 128] C h1)) (ix2 p j)
      = rot1 xh w cr j := by
  show extractStridedSlice S1024x128 ![0, 0] N h0 (ix2 p j) * extractStridedSlice S1024x128 ![0, 0] C h0 (ix2 p j)
      - extractStridedSlice S1024x128 ![0, 128] N h1 (ix2 p j) * extractStridedSlice S1024x128 ![0, 128] C h1 (ix2 p j) = _
  rw [sliceLo_apply, sliceLo_apply, sliceHi_apply, sliceHi_apply, hN, hN, hC, hC]
  rfl

/-- The second stored quarter of a half: `n_{128+j} · c_j + n_j · c_{128+j}`. -/
theorem rot2_apply (N C : FVec Ideal S1024x256 .f32) (h0 : S1024x256.Slices ![0, 0] S1024x128)
    (h1 : S1024x256.Slices ![0, 128] S1024x128) (p : Fin 1024) (j : Fin 128) (xh w cr : Fin 256 → EReal)
    (hN : ∀ k, N (ix2 p k) = nrm xh w k) (hC : ∀ k, C (ix2 p k) = cr k) :
    addf (mulf (extractStridedSlice S1024x128 ![0, 128] N h1) (extractStridedSlice S1024x128 ![0, 0] C h0))
        (mulf (extractStridedSlice S1024x128 ![0, 0] N h0) (extractStridedSlice S1024x128 ![0, 128] C h1)) (ix2 p j)
      = rot2 xh w cr j := by
  show extractStridedSlice S1024x128 ![0, 128] N h1 (ix2 p j) * extractStridedSlice S1024x128 ![0, 0] C h0 (ix2 p j)
      + extractStridedSlice S1024x128 ![0, 0] N h0 (ix2 p j) * extractStridedSlice S1024x128 ![0, 128] C h1 (ix2 p j) = _
  rw [sliceHi_apply, sliceLo_apply, sliceLo_apply, sliceHi_apply, hN, hN, hC, hC]
  rfl

/-! ## The body's named values -/

/-- The first half normalised (`%21`), at `(p, k)`. -/
theorem pay11_apply (v0 : Vec Ideal S1x256 .f32) (v6 : Vec Ideal S1024x256 .f32) (p : Fin 1024) (k : Fin 256) :
    k1_pay11 v0 v6 (ix2 p k) = nrm (rowOf v6 p) (rowOf v0 (0 : Fin 1)) k := by
  unfold k1_pay11 k1_pay6
  dsimp only
  simp only [shapeCast_self]
  exact nrm_apply v6 v0 _ _ _ p k (msqEps_apply v6 _ _ _ _ p 0)

/-- The second half's mean-square column plus ε (`%38`), at row `p`. -/
theorem pay16_apply (v8 : Vec Ideal S1024x256 .f32) (p : Fin 1024) (u : Fin 1) :
    k1_pay16 v8 (ix2 p u) = meanSq (rowOf v8 p) + Ideal.ofBits .f32 0x358637BD#32 := by
  unfold k1_pay16 k1_pay10
  dsimp only
  simp only [shapeCast_self]
  exact msqEps_apply v8 _ _ _ _ p u

/-- The second half normalised (`%43`), at `(p, k)`. -/
theorem pay1_apply (v0 : Vec Ideal S1x256 .f32) (v8 : Vec Ideal S1024x256 .f32) (p : Fin 1024) (k : Fin 256) :
    k1_pay1 (k1_pay6 v0) (k1_pay10 v8) (k1_pay16 v8) (ix2 p k) = nrm (rowOf v8 p) (rowOf v0 (0 : Fin 1)) k := by
  unfold k1_pay1 k1_pay6 k1_pay10
  dsimp only
  simp only [shapeCast_self]
  exact nrm_apply v8 v0 _ _ _ p k (pay16_apply v8 p 0)

/-- The table block through its identity cast, at `(p, k)`. -/
theorem pay7_apply (v2 : Vec Ideal S1024x256 .f32) (p : Fin 1024) (k : Fin 256) :
    k1_pay7 v2 (ix2 p k) = rowOf v2 p k := by
  unfold k1_pay7
  simp only [shapeCast_self]
  rfl

/-- Stored quarter 0 (`%26`): the first half's `rot1`. -/
theorem pay14_apply (v0 : Vec Ideal S1x256 .f32) (v2 v6 : Vec Ideal S1024x256 .f32) (p : Fin 1024) (j : Fin 128) :
    k1_pay14 v0 v2 v6 (ix2 p j) = rot1 (rowOf v6 p) (rowOf v0 (0 : Fin 1)) (rowOf v2 p) j := by
  unfold k1_pay14 k1_pay12 k1_pay13 k1_pay8 k1_pay9
  dsimp only
  exact rot1_apply (k1_pay11 v0 v6) (k1_pay7 v2) _ _ p j _ _ _ (pay11_apply v0 v6 p) (pay7_apply v2 p)

/-- Stored quarter 1 (`%29`): the first half's `rot2`. -/
theorem pay15_apply (v0 : Vec Ideal S1x256 .f32) (v2 v6 : Vec Ideal S1024x256 .f32) (p : Fin 1024) (j : Fin 128) :
    k1_pay15 v0 v2 v6 (ix2 p j) = rot2 (rowOf v6 p) (rowOf v0 (0 : Fin 1)) (rowOf v2 p) j := by
  unfold k1_pay15 k1_pay12 k1_pay13 k1_pay8 k1_pay9
  dsimp only
  exact rot2_apply (k1_pay11 v0 v6) (k1_pay7 v2) _ _ p j _ _ _ (pay11_apply v0 v6 p) (pay7_apply v2 p)

/-- Stored quarter 2 (`%48`): the second half's `rot1`. -/
theorem pay4_apply (v0 : Vec Ideal S1x256 .f32) (v2 v8 : Vec Ideal S1024x256 .f32) (p : Fin 1024) (j : Fin 128) :
    k1_pay4 (k1_pay6 v0) (k1_pay8 v2) (k1_pay9 v2) (k1_pay10 v8) (k1_pay16 v8) (ix2 p j)
      = rot1 (rowOf v8 p) (rowOf v0 (0 : Fin 1)) (rowOf v2 p) j := by
  unfold k1_pay4 k1_pay2 k1_pay3 k1_pay8 k1_pay9
  dsimp only
  exact rot1_apply (k1_pay1 (k1_pay6 v0) (k1_pay10 v8) (k1_pay16 v8)) (k1_pay7 v2) _ _ p j _ _ _ (pay1_apply v0 v8 p) (pay7_apply v2 p)

/-- Stored quarter 3 (`%51`): the second half's `rot2`. -/
theorem pay5_apply (v0 : Vec Ideal S1x256 .f32) (v2 v8 : Vec Ideal S1024x256 .f32) (p : Fin 1024) (j : Fin 128) :
    k1_pay5 (k1_pay6 v0) (k1_pay8 v2) (k1_pay9 v2) (k1_pay10 v8) (k1_pay16 v8) (ix2 p j)
      = rot2 (rowOf v8 p) (rowOf v0 (0 : Fin 1)) (rowOf v2 p) j := by
  unfold k1_pay5 k1_pay2 k1_pay3 k1_pay8 k1_pay9
  dsimp only
  exact rot2_apply (k1_pay1 (k1_pay6 v0) (k1_pay10 v8) (k1_pay16 v8)) (k1_pay7 v2) _ _ p j _ _ _ (pay1_apply v0 v8 p) (pay7_apply v2 p)

end Cert.KernelIdeal.Rope

end
-- ==== Proof.RopeValue.lean ====
/-
  Region 1 of the idealized program — the fused normalisation + rotary stage on a grid of 8 row blocks — read as
  one whole-array function: after the region the result array holds `Grope` of the three operand arrays as the
  region finds them.

  The body's four stores are the four 128-column quarters of its [1024, 512] output block, and each quarter's
  stored value is, entry by entry, the specification's `ropeRow` of the block's row (`out_eq`: the canonical
  form of the stores agrees with one function of the block index). A block's row `p` at grid point `t` is row
  `1024 t + p` of the array, for the operand, the table and the result alike, and the weights' one block is the
  whole [1, 256] array; `ropeRow` depends on nothing but that row, so what point `t` writes back is block `t` of
  `Grope` (`flushed_eq`). Row `r` lies in the block of point `r / 1024`, so the blocks cover the array.
-/
import proofs.«114737_j78752520339581_1_alg».proof.Proof.Gen.KernelIdeal.Frame
import proofs.«114737_j78752520339581_1_alg».proof.Proof.RopePay
import Idealize.ShloMosaic.Lib.Pipeline.Value
import Idealize.ShloMosaic.Lib.Tactic

set_option maxRecDepth 16384

noncomputable section

namespace Cert.KernelIdeal.Rope

open Cert.KernelIdeal Cert.KernelIdeal.Gen Idealize.ShloMosaic Idealize.ShloMosaic.TcCoe Idealize.SL.Sem
open Idealize.ShloMosaic.ValueIdx
open Idealize.ShloMosaic.Pipeline (Dat)

/-! ## The body's output block as one function of its input blocks -/

/-- Entry `y` of the output block: `ropeRow` of row `y 0` of the operand block, the weights, row `y 0` of the table
    block, at column `y 1`. -/
def blockRope (x0 : Vec Ideal S1024x512 .f32) (x1 : Vec Ideal S1x256 .f32) (x2 : Vec Ideal S1024x256 .f32) :
    Vec Ideal S1024x512 .f32 :=
  fun y => ropeRow (rowOf x0 (y 0)) (rowOf x1 (0 : Fin 1)) (rowOf x2 (y 0)) (y 1)

/-- `blockRope` at an index whose coordinates are named. -/
theorem blockRope_apply (x0 : Vec Ideal S1024x512 .f32) (x1 : Vec Ideal S1x256 .f32) (x2 : Vec Ideal S1024x256 .f32)
    (y : S1024x512.Idx) (p : Fin 1024) (q : Fin 512) (h0 : (y 0).val = p.val) (h1 : (y 1).val = q.val) :
    blockRope x0 x1 x2 y = ropeRow (rowOf x0 p) (rowOf x1 (0 : Fin 1)) (rowOf x2 p) q := by
  obtain rfl : y = ix2 p q := funext fun a => Fin.ext (by
    match a with
    | ⟨0, _⟩ => exact h0
    | ⟨1, _⟩ => exact h1)
  rfl

theorem hz : (![0, 0] : Fin 2 → Nat) = fun _ => 0 := funext fun a => by fin_cases a <;> rfl

/-- The weights are loaded whole. -/
theorem ld_weights (x1 : Vec Ideal S1x256 .f32) : View.ld x1 r1_0 = x1 :=
  View.ld_unit_zero (Val := Elt Ideal) (S := S1x256) (e := .f32) hz _ x1

/-- The table block is loaded whole. -/
theorem ld_table (x2 : Vec Ideal S1024x256 .f32) : View.ld x2 r1_1 = x2 :=
  View.ld_unit_zero (Val := Elt Ideal) (S := S1024x256) (e := .f32) hz _ x2

/-- The load of columns 0…255 of the operand block reads, at row `p`, the row's first half. -/
theorem ld_half0 (x0 : Vec Ideal S1024x512 .f32) (p : Fin 1024) :
    rowOf (View.ld x0 r1_2) p = half (rowOf x0 p) (0 : Fin 2) := by
  funext k
  show x0 (r1_2.emb (ix2 p k)) = x0 (ix2 p (col 0 k))
  refine congrArg x0 (funext fun a => Fin.ext ?_)
  match a with
  | ⟨0, _⟩ => show 0 + 1 * p.val = p.val; omega
  | ⟨1, _⟩ => show 0 + 1 * k.val = 256 * 0 + k.val; omega

/-- The load of columns 256…511 reads, at row `p`, the row's second half. -/
theorem ld_half1 (x0 : Vec Ideal S1024x512 .f32) (p : Fin 1024) :
    rowOf (View.ld x0 r1_3) p = half (rowOf x0 p) (1 : Fin 2) := by
  funext k
  show x0 (r1_3.emb (ix2 p k)) = x0 (ix2 p (col 1 k))
  refine congrArg x0 (funext fun a => Fin.ext ?_)
  match a with
  | ⟨0, _⟩ => show 0 + 1 * p.val = p.val; omega
  | ⟨1, _⟩ => show 256 + 1 * k.val = 256 * 1 + k.val; omega

/-- The store at columns 0…127: the first half's first quarter. -/
theorem piece4 (x0 : Vec Ideal S1024x512 .f32) (x1 : Vec Ideal S1x256 .f32) (x2 : Vec Ideal S1024x256 .f32) (z : S1024x128.Idx) :
    k1_pay14 (View.ld x1 r1_0) (View.ld x2 r1_1) (View.ld x0 r1_2) z = blockRope x0 x1 x2 (r1_4.emb z) := by
  obtain ⟨p, j, rfl⟩ : ∃ (p : Fin 1024) (j : Fin 128), z = ix2 p j := ⟨z 0, z 1, eq_ix2 z⟩
  refine (pay14_apply _ _ _ p j).trans ?_
  refine Eq.symm ((blockRope_apply x0 x1 x2 _ p ⟨j.val, by have := j.isLt; omega⟩
    (by show 0 + 1 * p.val = p.val; omega) (by show 0 + 1 * j.val = j.val; omega)).trans ?_)
  rw [ropeRow_first _ _ _ (0 : Fin 2) j _ (by show j.val = 256 * 0 + j.val; omega), ld_weights, ld_table, ld_half0]

/-- The store at columns 128…255: the first half's second quarter. -/
theorem piece5 (x0 : Vec Ideal S1024x512 .f32) (x1 : Vec Ideal S1x256 .f32) (x2 : Vec Ideal S1024x256 .f32) (z : S1024x128.Idx) :
    k1_pay15 (View.ld x1 r1_0) (View.ld x2 r1_1) (View.ld x0 r1_2) z = blockRope x0 x1 x2 (r1_5.emb z) := by
  obtain ⟨p, j, rfl⟩ : ∃ (p : Fin 1024) (j : Fin 128), z = ix2 p j := ⟨z 0, z 1, eq_ix2 z⟩
  refine (pay15_apply _ _ _ p j).trans ?_
  refine Eq.symm ((blockRope_apply x0 x1 x2 _ p ⟨128 + j.val, by have := j.isLt; omega⟩
    (by show 0 + 1 * p.val = p.val; omega) (by show 128 + 1 * j.val = 128 + j.val; omega)).trans ?_)
  rw [ropeRow_second _ _ _ (0 : Fin 2) j _ (by show 128 + j.val = 256 * 0 + 128 + j.val; omega), ld_weights, ld_table, ld_half0]

/-- The store at columns 256…383: the second half's first quarter. -/
theorem piece6 (x0 : Vec Ideal S1024x512 .f32) (x1 : Vec Ideal S1x256 .f32) (x2 : Vec Ideal S1024x256 .f32) (z : S1024x128.Idx) :
    k1_pay4 (k1_pay6 (View.ld x1 r1_0)) (k1_pay8 (View.ld x2 r1_1)) (k1_pay9 (View.ld x2 r1_1)) (k1_pay10 (View.ld x0 r1_3))
        (k1_pay16 (View.ld x0 r1_3)) z = blockRope x0 x1 x2 (r1_6.emb z) := by
  obtain ⟨p, j, rfl⟩ : ∃ (p : Fin 1024) (j : Fin 128), z = ix2 p j := ⟨z 0, z 1, eq_ix2 z⟩
  refine (pay4_apply _ _ _ p j).trans ?_
  refine Eq.symm ((blockRope_apply x0 x1 x2 _ p ⟨256 + j.val, by have := j.isLt; omega⟩
    (by show 0 + 1 * p.val = p.val; omega) (by show 256 + 1 * j.val = 256 + j.val; omega)).trans ?_)
  rw [ropeRow_first _ _ _ (1 : Fin 2) j _ (by show 256 + j.val = 256 * 1 + j.val; omega), ld_weights, ld_table, ld_half1]

/-- The store at columns 384…511: the second half's second quarter. -/
theorem piece7 (x0 : Vec Ideal S1024x512 .f32) (x1 : Vec Ideal S1x256 .f32) (x2 : Vec Ideal S1024x256 .f32) (z : S1024x128.Idx) :
    k1_pay5 (k1_pay6 (View.ld x1 r1_0)) (k1_pay8 (View.ld x2 r1_1)) (k1_pay9 (View.ld x2 r1_1)) (k1_pay10 (View.ld x0 r1_3))
        (k1_pay16 (View.ld x0 r1_3)) z = blockRope x0 x1 x2 (r1_7.emb z) := by
  obtain ⟨p, j, rfl⟩ : ∃ (p : Fin 1024) (j : Fin 128), z = ix2 p j := ⟨z 0, z 1, eq_ix2 z⟩
  refine (pay5_apply _ _ _ p j).trans ?_
  refine Eq.symm ((blockRope_apply x0 x1 x2 _ p ⟨384 + j.val, by have := j.isLt; omega⟩
    (by show 0 + 1 * p.val = p.val; omega) (by show 384 + 1 * j.val = 384 + j.val; omega)).trans ?_)
  rw [ropeRow_second _ _ _ (1 : Fin 2) j _ (by show 384 + j.val = 256 * 1 + 128 + j.val; omega), ld_weights, ld_table, ld_half1]

/-- THE OUTPUT BLOCK: the four stores leave `blockRope` of the input blocks — each store's value is the quarter of it
    that the store's rectangle names, and the four rectangles cover the block. -/
theorem out_eq (x0 : Vec Ideal S1024x512 .f32) (x1 : Vec Ideal S1x256 .f32) (x2 : Vec Ideal S1024x256 .f32) :
    out1_3 x0 x1 x2 = blockRope x0 x1 x2 := by
  funext y
  unfold out1_3
  refine View.canon_apply_of_pieces (blockRope x0 x1 x2) _ ?_ y (cover1_3 _ _ _ _ y)
  intro pc hpc z
  simp only [List.mem_cons, List.mem_singleton, List.not_mem_nil, or_false] at hpc
  rcases hpc with rfl | rfl | rfl | rfl
  · exact piece7 x0 x1 x2 z
  · exact piece6 x0 x1 x2 z
  · exact piece5 x0 x1 x2 z
  · exact piece4 x0 x1 x2 z

/-! ## From blocks to the array -/

section Region
variable (V : (c : Dev nD) → (b : Ref sig .tc) → Buf (Elt Ideal) ((c : Thread nD τ).loc b))

/-- The printed index maps over the grid: the operand's, the table's and the result's block at point `t` is row
    block `t`, column block 0; the weights' block is always the one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Row `p` of the operand's block at point `t` is row `1024 t + p` of the operand array. -/
theorem iblk0_apply (c : Dev nD) (t : Fin cfg1.N) (p : Fin 1024) (q : Fin 512) (r : Fin 8192) (hr : r.val = t.val * 1024 + p.val) :
    (iblk1 V c 0 t : Vec Ideal S1024x512 .f32) (ix2 p q) = (V c main_v76 : S8192x512.Idx → EReal) (ix2 r q) := by
  obtain ⟨e0, e1, -⟩ := idx_facts t
  unfold iblk1
  rw [View.read_apply]
  show V c main_v76 _ = V c main_v76 _
  refine congrArg (V c main_v76) (funext fun a => Fin.ext ?_)
  match a with
  | ⟨0, _⟩ => show win1_0.index t (0 : Fin 2) * 1024 + 1 * p.val = r.val; rw [e0, hr]; omega
  | ⟨1, _⟩ => show win1_0.index t (1 : Fin 2) * 512 + 1 * q.val = q.val; rw [e1]; omega

/-- The weights' block at any point is the weights array. -/
theorem iblk1_apply (c : Dev nD) (t : Fin cfg1.N) (u : Fin 1) (k : Fin 256) :
    (iblk1 V c 1 t : Vec Ideal S1x256 .f32) (ix2 u k) = (V c main_v85 : S1x256.Idx → EReal) (ix2 u k) := by
  obtain ⟨-, -, e0, e1, -⟩ := idx_facts t
  unfold iblk1
  rw [View.read_apply]
  show V c main_v85 _ = V c main_v85 _
  refine congrArg (V c main_v85) (funext fun a => Fin.ext ?_)
  match a with
  | ⟨0, _⟩ => show win1_1.index t (0 : Fin 2) * 1 + 1 * u.val = u.val; rw [e0]; omega
  | ⟨1, _⟩ => show win1_1.index t (1 : Fin 2) * 256 + 1 * k.val = k.val; rw [e1]; omega

/-- Row `p` of the table's block at point `t` is row `1024 t + p` of the table array. -/
theorem iblk2_apply (c : Dev nD) (t : Fin cfg1.N) (p : Fin 1024) (k : Fin 256) (r : Fin 8192) (hr : r.val = t.val * 1024 + p.val) :
    (iblk1 V c 2 t : Vec Ideal S1024x256 .f32) (ix2 p k) = (V c main_v84 : S8192x256.Idx → EReal) (ix2 r k) := by
  obtain ⟨-, -, -, -, e0, e1, -⟩ := idx_facts t
  unfold iblk1
  rw [View.read_apply]
  show V c main_v84 _ = V c main_v84 _
  refine congrArg (V c main_v84) (funext fun a => Fin.ext ?_)
  match a with
  | ⟨0, _⟩ => show win1_2.index t (0 : Fin 2) * 1024 + 1 * p.val = r.val; rw [e0, hr]; omega
  | ⟨1, _⟩ => show win1_2.index t (1 : Fin 2) * 256 + 1 * k.val = k.val; rw [e1]; omega

/-- `ropeRow` reads one row: a block whose rows are rows `1024 b + p` of the arrays has, as its `blockRope`, those
    rows of `Grope`. -/
theorem blockRope_eq_Grope (X : S8192x512.Idx → EReal) (W : S1x256.Idx → EReal) (C : S8192x256.Idx → EReal)
    (x0 : Vec Ideal S1024x512 .f32) (x1 : Vec Ideal S1x256 .f32) (x2 : Vec Ideal S1024x256 .f32) (b : Nat)
    (h0 : ∀ (p : Fin 1024) (q : Fin 512) (r : Fin 8192), r.val = b * 1024 + p.val → x0 (ix2 p q) = X (ix2 r q))
    (h1 : ∀ k : Fin 256, x1 (ix2 (0 : Fin 1) k) = W (ix2 (0 : Fin 1) k))
    (h2 : ∀ (p : Fin 1024) (k : Fin 256) (r : Fin 8192), r.val = b * 1024 + p.val → x2 (ix2 p k) = C (ix2 r k))
    (y : S1024x512.Idx) (i : S8192x512.Idx) (hi0 : (i 0).val = b * 1024 + (y 0).val) (hi1 : (i 1).val = (y 1).val) :
    blockRope x0 x1 x2 y = Grope X W C i := by
  obtain ⟨p, q, rfl⟩ : ∃ (p : Fin 1024) (q : Fin 512), y = ix2 p q := ⟨y 0, y 1, eq_ix2 y⟩
  obtain ⟨r, q', rfl⟩ : ∃ (r : Fin 8192) (q' : Fin 512), i = ix2 r q' := ⟨i 0, i 1, eq_ix2 i⟩
  obtain rfl : q' = q := Fin.ext hi1
  have e0 : rowOf x0 p = rowOf X r := funext fun q => h0 p q r hi0
  have e1 : rowOf x1 (0 : Fin 1) = rowOf W (0 : Fin 1) := funext h1
  have e2 : rowOf x2 p = rowOf C r := funext fun k => h2 p k r hi0
  show ropeRow (rowOf x0 p) (rowOf x1 (0 : Fin 1)) (rowOf x2 p) q' = ropeRow (rowOf X r) (rowOf W (0 : Fin 1)) (rowOf C r) q'
  rw [e0, e1, e2]

/-- WHAT POINT `t` WRITES BACK is block `t` of `Grope` of the operand arrays as the region finds them. -/
theorem flushed_eq (c : Dev nD) (t : Fin cfg1.N) :
    (dat1 (F := Ideal) V c).flushed 3 t
      = ((cfg1.win 3).blk t).view.read (Elt Ideal) (Grope (V c main_v76) (V c main_v85) (V c main_v84)) := by
  show (cfg1.win 3).cut (grid1.coords t) ((dat1 (F := Ideal) V c).after 3 t) = _
  rw [after1_3]
  obtain ⟨-, -, -, -, -, -, e0, e1⟩ := idx_facts t
  funext y
  rw [View.read_apply]
  refine (congrFun (out_eq (iblk1 V c 0 t) (iblk1 V c 1 t) (iblk1 V c 2 t)) ((cfg1.win 3).xinj (grid1.coords t) y)).trans ?_
  refine blockRope_eq_Grope (V c main_v76) (V c main_v85) (V c main_v84) (iblk1 V c 0 t) (iblk1 V c 1 t) (iblk1 V c 2 t) t.val
    (fun p q r hr => iblk0_apply V c t p q r hr) (fun k => iblk1_apply V c t 0 k) (fun p k r hr => iblk2_apply V c t p k r hr)
    ((cfg1.win 3).xinj (grid1.coords t) y) (((cfg1.win 3).blk t).view.emb y) ?_ ?_
  · show win1_3.index t (0 : Fin 2) * 1024 + 1 * (y 0).val = t.val * 1024 + (y 0).val
    rw [e0]; omega
  · show win1_3.index t (1 : Fin 2) * 512 + 1 * (y 1).val = (y 1).val
    rw [e1]; omega

/-- An index of the result array is in point `t`'s block iff each coordinate is in the block's range on its axis. -/
theorem mem_blk (t : Fin cfg1.N) (i : S8192x512.Idx) :
    i ∈ ((cfg1.win 3).blk t).view.set ↔ ∀ a : Fin 2, win1_3.index t a * S1024x512.size a ≤ (i a).val
      ∧ (i a).val < win1_3.index t a * S1024x512.size a + S1024x512.size a := by
  show i ∈ ((View.whole main_v86).slice (win1_3.rect t)).set ↔ _
  rw [View.set_slice_whole, Rect.mem_set_unit]
  exact Iff.rfl

/-- Row `r` of the result lies in the block of point `r / 1024`: the eight blocks cover the array. -/
theorem cover (i : S8192x512.Idx) : ∃ t : Fin cfg1.N, (cfg1.win 3).flush t = true ∧ i ∈ ((cfg1.win 3).blk t).view.set := by
  have hi0 : (i 0).val < 8192 := (i 0).isLt
  have hi1 : (i 1).val < 512 := (i 1).isLt
  have hN : grid1.N = 8 := N_1
  have ht : (i 0).val / 1024 < cfg1.N := by show (i 0).val / 1024 < grid1.N; rw [hN]; omega
  refine ⟨⟨(i 0).val / 1024, ht⟩, flush1_3 _, ?_⟩
  rw [mem_blk]
  obtain ⟨-, -, -, -, -, -, e0, e1⟩ := idx_facts ⟨(i 0).val / 1024, ht⟩
  intro a
  match a with
  | ⟨0, _⟩ =>
    show win1_3.index ⟨(i 0).val / 1024, ht⟩ (0 : Fin 2) * 1024 ≤ (i 0).val
      ∧ (i 0).val < win1_3.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win1_3.index ⟨(i 0).val / 1024, ht⟩ (1 : Fin 2) * 512 ≤ (i 1).val
      ∧ (i 1).val < win1_3.index ⟨(i 0).val / 1024, ht⟩ (1 : Fin 2) * 512 + 512
    rw [e1]
    omega

/-- THE RESULT ARRAY after the region: `Grope` of the operand, the weights and the table as the region finds them. -/
theorem region1_array (c : Dev nD) :
    (dat1 (F := Ideal) V c).arrAt 3 cfg1.N = Grope (V c main_v76) (V c main_v85) (V c main_v84) :=
  (dat1 (F := Ideal) V c).arrAt_eq_of_cover 3 (Grope (V c main_v76) (V c main_v85) (V c main_v84))
    (fun t _ => flushed_eq V c t) cover

end Region

end Cert.KernelIdeal.Rope

end
-- ==== Proof.RopeLaw.lean ====
/-
  The reference's normalisation + rotary chain is the specification `Grope`.

  The reference reshapes the [8192, 512] operand to [8192, 2, 256] (row `r`, half `h`, entry `k` is column
  `256 h + k`), squares, sums over the last axis from the zero initial value, divides by 256, adds ε, takes
  `rsqrt`, broadcasts it back over the last axis, multiplies by the operand and by the weights broadcast over
  rows and halves; it slices the table's columns 0…127 and 128…255, broadcasts each over the halves, forms
  `x₁ c − x₂ s` and `x₂ c + x₁ s` of the normalised halves' two 128-entry parts, concatenates them on the
  last axis and reshapes back. Read at an index this is `rot1` / `rot2` of the row's half: the host sum is the
  initial value (zero) plus the `Fin 256`-indexed sum, every broadcast reads the one entry it repeats, a slice
  shifts the last coordinate, the concatenation reads its first piece below 128 and its second from 128 on, and
  the two reshapes are the column arithmetic `q = 256 h + k`.
-/
import proofs.«114737_j78752520339581_1_alg».proof.Proof.Gen.ReferenceIdeal
import proofs.«114737_j78752520339581_1_alg».proof.Proof.RopeSpec
import Idealize.ShloMosaic.PureOps.Ideal.Laws
import Idealize.ShloMosaic.Lib.Pipeline.Value
import Idealize.ShloMosaic.Lib.ValueLayout

noncomputable section

open scoped BigOperators

namespace Cert.ReferenceIdeal.Rope

open Cert.ReferenceIdeal Cert.ReferenceIdeal.Facts₀ Cert.KernelIdeal.Rope Idealize.ShloMosaic Idealize.ShloMosaic.ValueIdx

/-! ## The chain, with the reference's own operations and shape facts -/

/-- The reference's statements from the reshape of the [8192, 512] operand to the reshape back, as one function of
    the operand `x`, the weights `nw` and the gathered table `cs`. -/
def refRope (x : FVec Ideal S8192x512 .f32) (nw : FVec Ideal S256 .f32) (cs : FVec Ideal S8192x256 .f32) :
    FVec Ideal S8192x512 .f32 :=
  have v82 : FVec Ideal S8192x2x256 .f32 := shapeCast S8192x2x256 x shapeCasts_S8192x512_S8192x2x256
  have v83 : FVec Ideal S8192x2x256 .f32 := mulf v82 v82
  have v84 : FVec Ideal S8192x2 .f32 :=
    Host.reduceAdd v83 (constant (F := Ideal) S_ .f32 0x00000000#32) reducesTo_S8192x2x256_S8192x2_d2 h_S_
  have v85 : FVec Ideal S8192x2x1 .f32 := broadcastInDim S8192x2x1 ![0, 1] bcast_S8192x2_S8192x2x1_0_1 v84
  have v86 : FVec Ideal S8192x2x1 .f32 :=
    broadcastInDim S8192x2x1 ![] bcast_S_S8192x2x1 (constant (F := Ideal) S_ .f32 0x43800000#32)
  have v87 : FVec Ideal S8192x2x1 .f32 := Host.divf v85 v86
  have v88 : FVec Ideal S8192x2x1 .f32 :=
    broadcastInDim S8192x2x1 ![] bcast_S_S8192x2x1 (constant (F := Ideal) S_ .f32 0x358637BD#32)
  have v89 : FVec Ideal S8192x2x1 .f32 := addf v87 v88
  have v90 : FVec Ideal S8192x2x1 .f32 := Host.rsqrt v89
  have v91 : FVec Ideal S8192x2x256 .f32 := broadcastInDim S8192x2x256 ![0, 1, 2] bcast_S8192x2x1_S8192x2x256_0_1_2 v90
  have v92 : FVec Ideal S8192x2x256 .f32 := mulf v82 v91
  have v93 : FVec Ideal S1x1x256 .f32 := broadcastInDim S1x1x256 ![2] bcast_S256_S1x1x256_2 nw
  have v94 : FVec Ideal S8192x2x256 .f32 := broadcastInDim S8192x2x256 ![0, 1, 2] bcast_S1x1x256_S8192x2x256_0_1_2 v93
  have v95 : FVec Ideal S8192x2x256 .f32 := mulf v92 v94
  have v104 : FVec Ideal S8192x128 .f32 := extractStridedSlice S8192x128 ![0, 0] cs slices_S8192x256_S8192x128_0_0
  have v105 : FVec Ideal S8192x1x128 .f32 := broadcastInDim S8192x1x128 ![0, 2] bcast_S8192x128_S8192x1x128_0_2 v104
  have v106 : FVec Ideal S8192x128 .f32 := extractStridedSlice S8192x128 ![0, 128] cs slices_S8192x256_S8192x128_0_128
  have v107 : FVec Ideal S8192x1x128 .f32 := broadcastInDim S8192x1x128 ![0, 2] bcast_S8192x128_S8192x1x128_0_2 v106
  have v108 : FVec Ideal S8192x2x128 .f32 := extractStridedSlice S8192x2x128 ![0, 0, 0] v95 slices_S8192x2x256_S8192x2x128_0_0_0
  have v109 : FVec Ideal S8192x2x128 .f32 := extractStridedSlice S8192x2x128 ![0, 0, 128] v95 slices_S8192x2x256_S8192x2x128_0_0_128
  have v110 : FVec Ideal S8192x2x128 .f32 := broadcastInDim S8192x2x128 ![0, 1, 2] bcast_S8192x1x128_S8192x2x128_0_1_2 v105
  have v111 : FVec Ideal S8192x2x128 .f32 := mulf v108 v110
  have v112 : FVec Ideal S8192x2x128 .f32 := broadcastInDim S8192x2x128 ![0, 1, 2] bcast_S8192x1x128_S8192x2x128_0_1_2 v107
  have v113 : FVec Ideal S8192x2x128 .f32 := mulf v109 v112
  have v114 : FVec Ideal S8192x2x128 .f32 := subf v111 v113
  have v115 : FVec Ideal S8192x2x128 .f32 := broadcastInDim S8192x2x128 ![0, 1, 2] bcast_S8192x1x128_S8192x2x128_0_1_2 v105
  have v116 : FVec Ideal S8192x2x128 .f32 := mulf v109 v115
  have v117 : FVec Ideal S8192x2x128 .f32 := broadcastInDim S8192x2x128 ![0, 1, 2] bcast_S8192x1x128_S8192x2x128_0_1_2 v107
  have v118 : FVec Ideal S8192x2x128 .f32 := mulf v108 v117
  have v119 : FVec Ideal S8192x2x128 .f32 := addf v116 v118
  have v120 : FVec Ideal S8192x2x256 .f32 :=
    concatenate S8192x2x256 2 [⟨S8192x2x128, v114⟩, ⟨S8192x2x128, v119⟩] concatenates_S8192x2x128_S8192x2x128_S8192x2x256_d2
  shapeCast S8192x512 v120 shapeCasts_S8192x2x256_S8192x512

/-! ## The same chain by stages -/

/-- The operand as [8192, 2, 256]. -/
def halves (x : FVec Ideal S8192x512 .f32) : FVec Ideal S8192x2x256 .f32 :=
  shapeCast S8192x2x256 x shapeCasts_S8192x512_S8192x2x256

/-- The mean of squares plus ε, a keep-dims column [8192, 2, 1]. -/
def msqEps (x : FVec Ideal S8192x512 .f32) : FVec Ideal S8192x2x1 .f32 :=
  addf (Host.divf
      (broadcastInDim S8192x2x1 ![0, 1] bcast_S8192x2_S8192x2x1_0_1
        (Host.reduceAdd (mulf (halves x) (halves x)) (constant (F := Ideal) S_ .f32 0x00000000#32)
          reducesTo_S8192x2x256_S8192x2_d2 h_S_))
      (broadcastInDim S8192x2x1 ![] bcast_S_S8192x2x1 (constant (F := Ideal) S_ .f32 0x43800000#32)))
    (broadcastInDim S8192x2x1 ![] bcast_S_S8192x2x1 (constant (F := Ideal) S_ .f32 0x358637BD#32))

/-- The normalised halves. -/
def normed (x : FVec Ideal S8192x512 .f32) (nw : FVec Ideal S256 .f32) : FVec Ideal S8192x2x256 .f32 :=
  mulf (mulf (halves x) (broadcastInDim S8192x2x256 ![0, 1, 2] bcast_S8192x2x1_S8192x2x256_0_1_2 (Host.rsqrt (msqEps x))))
    (broadcastInDim S8192x2x256 ![0, 1, 2] bcast_S1x1x256_S8192x2x256_0_1_2
      (broadcastInDim S1x1x256 ![2] bcast_S256_S1x1x256_2 nw))

/-- The table's columns 0…127 over the halves. -/
def tabLo (cs : FVec Ideal S8192x256 .f32) : FVec Ideal S8192x2x128 .f32 :=
  broadcastInDim S8192x2x128 ![0, 1, 2] bcast_S8192x1x128_S8192x2x128_0_1_2
    (broadcastInDim S8192x1x128 ![0, 2] bcast_S8192x128_S8192x1x128_0_2
      (extractStridedSlice S8192x128 ![0, 0] cs slices_S8192x256_S8192x128_0_0))

/-- The table's columns 128…255 over the halves. -/
def tabHi (cs : FVec Ideal S8192x256 .f32) : FVec Ideal S8192x2x128 .f32 :=
  broadcastInDim S8192x2x128 ![0, 1, 2] bcast_S8192x1x128_S8192x2x128_0_1_2
    (broadcastInDim S8192x1x128 ![0, 2] bcast_S8192x128_S8192x1x128_0_2
      (extractStridedSlice S8192x128 ![0, 128] cs slices_S8192x256_S8192x128_0_128))

/-- The rotated halves' first 128 entries. -/
def rotLo (x : FVec Ideal S8192x512 .f32) (nw : FVec Ideal S256 .f32) (cs : FVec Ideal S8192x256 .f32) : FVec Ideal S8192x2x128 .f32 :=
  subf (mulf (extractStridedSlice S8192x2x128 ![0, 0, 0] (normed x nw) slices_S8192x2x256_S8192x2x128_0_0_0) (tabLo cs))
    (mulf (extractStridedSlice S8192x2x128 ![0, 0, 128] (normed x nw) slices_S8192x2x256_S8192x2x128_0_0_128) (tabHi cs))

/-- The rotated halves' last 128 entries. -/
def rotHi (x : FVec Ideal S8192x512 .f32) (nw : FVec Ideal S256 .f32) (cs : FVec Ideal S8192x256 .f32) : FVec Ideal S8192x2x128 .f32 :=
  addf (mulf (extractStridedSlice S8192x2x128 ![0, 0, 128] (normed x nw) slices_S8192x2x256_S8192x2x128_0_0_128) (tabLo cs))
    (mulf (extractStridedSlice S8192x2x128 ![0, 0, 0] (normed x nw) slices_S8192x2x256_S8192x2x128_0_0_0) (tabHi cs))

/-- The chain is its stages composed: the two spellings are one term. -/
theorem refRope_stages (x : FVec Ideal S8192x512 .f32) (nw : FVec Ideal S256 .f32) (cs : FVec Ideal S8192x256 .f32) :
    refRope x nw cs = shapeCast S8192x512
      (concatenate S8192x2x256 2 [⟨S8192x2x128, rotLo x nw cs⟩, ⟨S8192x2x128, rotHi x nw cs⟩]
        concatenates_S8192x2x128_S8192x2x128_S8192x2x256_d2) shapeCasts_S8192x2x256_S8192x512 := rfl

/-! ## Layout operations at coordinates -/

section Layout
variable {α : Type}

/-- [8192, 512] read as [8192, 2, 256]: entry `(r, h, k)` is column `256 h + k` of row `r`. -/
theorem reshape_in_apply (x : S8192x512.Idx → α) (hc : S8192x512.ShapeCasts S8192x2x256) (r : Fin 8192) (h : Fin 2) (k : Fin 256) :
    shapeCast S8192x2x256 x hc (ix3 r h k) = x (ix2 r (col h k)) :=
  shapeCast_apply x hc _ _ (by
    rw [Shape.rowMajor_val_two, Shape.rowMajor_val_three]
    show r.val * 512 + (256 * h.val + k.val) = (r.val * 2 + h.val) * 256 + k.val
    omega)

/-- [8192, 2, 256] read back as [8192, 512]: column `q = 256 h + k` of row `r` is entry `(r, h, k)`. -/
theorem reshape_out_apply (v : S8192x2x256.Idx → α) (hc : S8192x2x256.ShapeCasts S8192x512) (r : Fin 8192) (q : Fin 512)
    (h : Fin 2) (k : Fin 256) (hq : q.val = 256 * h.val + k.val) :
    shapeCast S8192x512 v hc (ix2 r q) = v (ix3 r h k) :=
  shapeCast_apply v hc _ _ (by
    rw [Shape.rowMajor_val_two, Shape.rowMajor_val_three]
    show (r.val * 2 + h.val) * 256 + k.val = r.val * 512 + q.val
    omega)

/-- [8192, 2] as the keep-dims column [8192, 2, 1]. -/
theorem bcol_apply (v : S8192x2.Idx → α) (hb : S8192x2.BroadcastsInDim S8192x2x1 (![0, 1] : Fin 2 → Fin S8192x2x1.rank))
    (r : Fin 8192) (h : Fin 2) (u : Fin 1) : broadcastInDim S8192x2x1 ![0, 1] hb v (ix3 r h u) = v (ix2 r h) :=
  broadcastInDim_apply _ hb v _ _ (fun a => by
    match a with
    | ⟨0, _⟩ => rfl
    | ⟨1, _⟩ => rfl)

/-- The column [8192, 2, 1] over the 256 entries. -/
theorem blane_apply (v : S8192x2x1.Idx → α) (hb : S8192x2x1.BroadcastsInDim S8192x2x256 (![0, 1, 2] : Fin 3 → Fin S8192x2x256.rank))
    (r : Fin 8192) (h : Fin 2) (k : Fin 256) :
    broadcastInDim S8192x2x256 ![0, 1, 2] hb v (ix3 r h k) = v (ix3 r h (0 : Fin 1)) :=
  broadcastInDim_apply _ hb v _ _ (fun a => by
    match a with
    | ⟨0, _⟩ => rfl
    | ⟨1, _⟩ => rfl
    | ⟨2, _⟩ => rfl)

/-- The weights [256] as [1, 1, 256]. -/
theorem bw1_apply (w : S256.Idx → α) (hb : S256.BroadcastsInDim S1x1x256 (![2] : Fin 1 → Fin S1x1x256.rank))
    (u1 u2 : Fin 1) (k : Fin 256) : broadcastInDim S1x1x256 ![2] hb w (ix3 u1 u2 k) = w (ix1 k) :=
  broadcastInDim_apply _ hb w _ _ (fun a => by
    match a with
    | ⟨0, _⟩ => rfl)

/-- [1, 1, 256] over rows and halves. -/
theorem bw2_apply (v : S1x1x256.Idx → α) (hb : S1x1x256.BroadcastsInDim S8192x2x256 (![0, 1, 2] : Fin 3 → Fin S8192x2x256.rank))
    (r : Fin 8192) (h : Fin 2) (k : Fin 256) :
    broadcastInDim S8192x2x256 ![0, 1, 2] hb v (ix3 r h k) = v (ix3 (0 : Fin 1) (0 : Fin 1) k) :=
  broadcastInDim_apply _ hb v _ _ (fun a => by
    match a with
    | ⟨0, _⟩ => rfl
    | ⟨1, _⟩ => rfl
    | ⟨2, _⟩ => rfl)

/-- [8192, 128] as [8192, 1, 128]. -/
theorem bcs1_apply (v : S8192x128.Idx → α) (hb : S8192x128.BroadcastsInDim S8192x1x128 (![0, 2] : Fin 2 → Fin S8192x1x128.rank))
    (r : Fin 8192) (u : Fin 1) (j : Fin 128) : broadcastInDim S8192x1x128 ![0, 2] hb v (ix3 r u j) = v (ix2 r j) :=
  broadcastInDim_apply _ hb v _ _ (fun a => by
    match a with
    | ⟨0, _⟩ => rfl
    | ⟨1, _⟩ => rfl)

/-- [8192, 1, 128] over the halves. -/
theorem bcs2_apply (v : S8192x1x128.Idx → α) (hb : S8192x1x128.BroadcastsInDim S8192x2x128 (![0, 1, 2] : Fin 3 → Fin S8192x2x128.rank))
    (r : Fin 8192) (h : Fin 2) (j : Fin 128) :
    broadcastInDim S8192x2x128 ![0, 1, 2] hb v (ix3 r h j) = v (ix3 r (0 : Fin 1) j) :=
  broadcastInDim_apply _ hb v _ _ (fun a => by
    match a with
    | ⟨0, _⟩ => rfl
    | ⟨1, _⟩ => rfl
    | ⟨2, _⟩ => rfl)

/-- A rank-3 array cut along its last axis from `o`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- The concatenation on the last axis below 128: the first piece. -/
theorem concat_lo_apply (A B : S8192x2x128.Idx → α) (hc : Shape.Concatenates [S8192x2x128, S8192x2x128] S8192x2x256 2)
    (r : Fin 8192) (h : Fin 2) (j : Fin 128) :
    concatenate S8192x2x256 2 [⟨S8192x2x128, A⟩, ⟨S8192x2x128, B⟩] hc (ix3 r h (lo j)) = A (ix3 r h j) :=
  concatenate_pair_apply_left 2 A B hc (ix3 r h (lo j)) rfl (ix3 r h j) (fun b => by
    match b with
    | ⟨0, _⟩ => rfl
    | ⟨1, _⟩ => rfl
    | ⟨2, _⟩ => rfl)

/-- The concatenation on the last axis from 128 on: the second piece, 128 less. -/
theorem concat_hi_apply (A B : S8192x2x128.Idx → α) (hc : Shape.Concatenates [S8192x2x128, S8192x2x128] S8192x2x256 2)
    (r : Fin 8192) (h : Fin 2) (j : Fin 128) :
    concatenate S8192x2x256 2 [⟨S8192x2x128, A⟩, ⟨S8192x2x128, B⟩] hc (ix3 r h (hi j)) = B (ix3 r h j) :=
  concatenate_pair_apply_right 2 A B hc (ix3 r h (hi j)) rfl rfl (ix3 r h j) (fun b hb => by
    match b with
    | ⟨0, _⟩ => rfl
    | ⟨1, _⟩ => rfl
    | ⟨2, _⟩ => exact absurd rfl hb) (by show j.val + 128 = 128 + j.val; omega)

end Layout

/-- The host's sum over the last axis from the zero word: the `Fin 256`-indexed sum. -/
theorem hostSum_apply (v : FVec Ideal S8192x2x256 .f32) (h' : S8192x2x256.ReducesTo [2] S8192x2) (hu : 0 < S_.numel)
    (r : Fin 8192) (h : Fin 2) :
    Host.reduceAdd v (constant (F := Ideal) S_ .f32 0x00000000#32) h' hu (ix2 r h) = ∑ k : Fin 256, v (ix3 r h k) := by
  have hR : S8192x2x256.Reduces [2] S8192x2 := by decide
  show Ideal.hostReduceAdd h' v (Ideal.ofBits .f32 0x00000000#32) (ix2 r h) = _
  rw [Ideal.hostReduceAdd_single h' hR, Ideal.ofBits_zero_f32, zero_add]
  refine Finset.sum_congr rfl fun k _ => congrArg v ?_
  funext a
  apply Fin.ext
  match a with
  | ⟨0, _⟩ => rfl
  | ⟨1, _⟩ => rfl
  | ⟨2, _⟩ => rfl

/-! ## The stages at an index -/

section Law
variable (x : FVec Ideal S8192x512 .f32) (nw : FVec Ideal S256 .f32) (cs : FVec Ideal S8192x256 .f32)

/-- Entry `(r, h, k)` of the reshaped operand is entry `k` of half `h` of row `r`. -/
theorem halves_apply (r : Fin 8192) (h : Fin 2) (k : Fin 256) : halves x (ix3 r h k) = half (rowOf x r) h k :=
  reshape_in_apply x _ r h k

/-- The keep-dims column at `(r, h)`: the mean of squares of the half, plus ε. -/
theorem msqEps_apply (r : Fin 8192) (h : Fin 2) (u : Fin 1) :
    msqEps x (ix3 r h u) = meanSq (half (rowOf x r) h) + Ideal.ofBits .f32 0x358637BD#32 := by
  show Ideal.div (broadcastInDim S8192x2x1 ![0, 1] bcast_S8192x2_S8192x2x1_0_1
        (Host.reduceAdd (mulf (halves x) (halves x)) (constant (F := Ideal) S_ .f32 0x00000000#32)
          reducesTo_S8192x2x256_S8192x2_d2 h_S_) (ix3 r h u)) (Ideal.ofBits .f32 0x43800000#32)
      + Ideal.ofBits .f32 0x358637BD#32 = _
  rw [bcol_apply, hostSum_apply]
  unfold meanSq
  refine congrArg (fun s => Ideal.div s (Ideal.ofBits .f32 0x43800000#32) + Ideal.ofBits .f32 0x358637BD#32) ?_
  refine Finset.sum_congr rfl fun k _ => ?_
  show halves x (ix3 r h k) * halves x (ix3 r h k) = _
  rw [halves_apply]

/-- The normalised halves at `(r, h, k)`: the specification's `nrm`, the weights read through their [1, 256] reshape. -/
theorem normed_apply (hsc : (⟨1, ![256]⟩ : Shape).ShapeCasts ⟨2, ![1, 256]⟩) (r : Fin 8192) (h : Fin 2) (k : Fin 256) :
    normed x nw (ix3 r h k)
      = nrm (half (rowOf x r) h) (rowOf (shapeCast (⟨2, ![1, 256]⟩ : Shape) nw hsc) (0 : Fin 1)) k := by
  show halves x (ix3 r h k)
      * broadcastInDim S8192x2x256 ![0, 1, 2] bcast_S8192x2x1_S8192x2x256_0_1_2 (Host.rsqrt (msqEps x)) (ix3 r h k)
      * broadcastInDim S8192x2x256 ![0, 1, 2] bcast_S1x1x256_S8192x2x256_0_1_2
          (broadcastInDim S1x1x256 ![2] bcast_S256_S1x1x256_2 nw) (ix3 r h k) = _
  rw [halves_apply, blane_apply, bw2_apply, bw1_apply]
  show half (rowOf x r) h k * Ideal.rsqrt (msqEps x (ix3 r h (0 : Fin 1))) * nw (ix1 k) = _
  rw [msqEps_apply]
  unfold nrm
  rw [show rowOf (shapeCast (⟨2, ![1, 256]⟩ : Shape) nw hsc) (0 : Fin 1) k = nw (ix1 k) from
    shapeCast_a_1a_apply nw hsc 0 k]

/-- The first table slice over the halves, at `(r, h, j)`: column `j` of the table's row. -/
theorem tabLo_apply (r : Fin 8192) (h : Fin 2) (j : Fin 128) : tabLo cs (ix3 r h j) = rowOf cs r (lo j) := by
  unfold tabLo
  rw [bcs2_apply, bcs1_apply]
  exact slice2_axis1_apply 0 cs _ r j (lo j) (Nat.zero_add _).symm

/-- The second table slice over the halves, at `(r, h, j)`: column `128 + j` of the table's row. -/
theorem tabHi_apply (r : Fin 8192) (h : Fin 2) (j : Fin 128) : tabHi cs (ix3 r h j) = rowOf cs r (hi j) := by
  unfold tabHi
  rw [bcs2_apply, bcs1_apply]
  exact slice2_axis1_apply 128 cs _ r j (hi j) rfl

/-- `x₁ c − x₂ s` at `(r, h, j)` is the specification's `rot1`. -/
theorem rotLo_apply (hsc : (⟨1, ![256]⟩ : Shape).ShapeCasts ⟨2, ![1, 256]⟩) (r : Fin 8192) (h : Fin 2) (j : Fin 128) :
    rotLo x nw cs (ix3 r h j)
      = rot1 (half (rowOf x r) h) (rowOf (shapeCast (⟨2, ![1, 256]⟩ : Shape) nw hsc) (0 : Fin 1)) (rowOf cs r) j := by
  show extractStridedSlice S8192x2x128 ![0, 0, 0] (normed x nw) slices_S8192x2x256_S8192x2x128_0_0_0 (ix3 r h j) * tabLo cs (ix3 r h j)
      - extractStridedSlice S8192x2x128 ![0, 0, 128] (normed x nw) slices_S8192x2x256_S8192x2x128_0_0_128 (ix3 r h j) * tabHi cs (ix3 r h j) = _
  rw [slice3_axis2_apply 0 (normed x nw) _ r h j (lo j) (Nat.zero_add _).symm,
    slice3_axis2_apply 128 (normed x nw) _ r h j (hi j) rfl,
    tabLo_apply, tabHi_apply, normed_apply x nw hsc, normed_apply x nw hsc]
  rfl

/-- `x₂ c + x₁ s` at `(r, h, j)` is the specification's `rot2`. -/
theorem rotHi_apply (hsc : (⟨1, ![256]⟩ : Shape).ShapeCasts ⟨2, ![1, 256]⟩) (r : Fin 8192) (h : Fin 2) (j : Fin 128) :
    rotHi x nw cs (ix3 r h j)
      = rot2 (half (rowOf x r) h) (rowOf (shapeCast (⟨2, ![1, 256]⟩ : Shape) nw hsc) (0 : Fin 1)) (rowOf cs r) j := by
  show extractStridedSlice S8192x2x128 ![0, 0, 128] (normed x nw) slices_S8192x2x256_S8192x2x128_0_0_128 (ix3 r h j) * tabLo cs (ix3 r h j)
      + extractStridedSlice S8192x2x128 ![0, 0, 0] (normed x nw) slices_S8192x2x256_S8192x2x128_0_0_0 (ix3 r h j) * tabHi cs (ix3 r h j) = _
  rw [slice3_axis2_apply 128 (normed x nw) _ r h j (hi j) rfl,
    slice3_axis2_apply 0 (normed x nw) _ r h j (lo j) (Nat.zero_add _).symm,
    tabLo_apply, tabHi_apply, normed_apply x nw hsc, normed_apply x nw hsc]
  rfl

/-- THE LAW: the reference's chain is `Grope` of the operand, the weights reshaped to [1, 256] as the kernel's
    program reshapes them, and the gathered table. -/
theorem ref_rope (hsc : (⟨1, ![256]⟩ : Shape).ShapeCasts ⟨2, ![1, 256]⟩) :
    refRope x nw cs = Grope x (shapeCast (⟨2, ![1, 256]⟩ : Shape) nw hsc) cs := by
  rw [refRope_stages]
  funext i
  obtain ⟨r, q, rfl⟩ : ∃ (r : Fin 8192) (q : Fin 512), i = ix2 r q := ⟨i 0, i 1, eq_ix2 i⟩
  rw [Grope_ix2]
  have hq := q.isLt
  have hh : q.val / 256 < 2 := by omega
  by_cases hlt : q.val % 256 < 128
  · rw [reshape_out_apply _ _ r q ⟨q.val / 256, hh⟩ (lo ⟨q.val % 256, hlt⟩)
        (by show q.val = 256 * (q.val / 256) + q.val % 256; omega),
      concat_lo_apply, rotLo_apply x nw cs hsc,
      ropeRow_first _ _ _ ⟨q.val / 256, hh⟩ ⟨q.val % 256, hlt⟩ q
        (by show q.val = 256 * (q.val / 256) + q.val % 256; omega)]
  · have hj : q.val % 256 - 128 < 128 := by omega
    rw [reshape_out_apply _ _ r q ⟨q.val / 256, hh⟩ (hi ⟨q.val % 256 - 128, hj⟩)
        (by show q.val = 256 * (q.val / 256) + (128 + (q.val % 256 - 128)); omega),
      concat_hi_apply, rotHi_apply x nw cs hsc,
      ropeRow_second _ _ _ ⟨q.val / 256, hh⟩ ⟨q.val % 256 - 128, hj⟩ q
        (by show q.val = 256 * (q.val / 256) + 128 + (q.val % 256 - 128); omega)]

end Law

end Cert.ReferenceIdeal.Rope

end
-- ==== Proof.BridgeRope.lean ====
/-
  Region 1 of the idealized program against the reference's normalisation-and-rotation stretch.

  The kernel's program enters region 1 with three operand arrays: the window sum, the weights reshaped to one row,
  and the rows of the rotary table gathered at positions computed from the position argument (floor division by
  four, wrapped into the table's 512 rows). Region 1 leaves `Grope` of them in its result array. The reference
  computes the same gather from the same two arguments inside its own stretch, and its chain from the window sum
  to the reshaped rotation is `Grope` of the window sum, the weights and that gather. So when the two programs
  agree on the window sum and on the three arguments the stretch reads, the kernel's result array is what the
  reference's stretch leaves at its last buffer.
-/
import proofs.«114737_j78752520339581_1_alg».proof.Proof.KernelRun
import proofs.«114737_j78752520339581_1_alg».proof.Proof.RefCuts
import proofs.«114737_j78752520339581_1_alg».proof.Proof.LibHostWalk
import proofs.«114737_j78752520339581_1_alg».proof.Proof.RopeValue
import proofs.«114737_j78752520339581_1_alg».proof.Proof.RopeLaw

set_option maxRecDepth 16384

noncomputable section

namespace Cert.Bridge

open Idealize.ShloMosaic Idealize.ShloMosaic.TcCoe Idealize.SL.Sem Cert.HostWalk

/-! ## The kernel's program: region 1's operands and result -/

section Kernel
open Cert.KernelIdeal Cert.KernelIdeal.Gen

variable (m : (ℓ : Loc nD τ sig) → Buf (Elt Ideal) ℓ) (ρ : Dev nD → PrngReg)

/-- The rotary rows as the kernel's host operations form them: the positions floor-divided by four (the quotient,
    one less where the remainder is non-zero and the signs differ), a negative row index wrapped by 512, and the
    table's rows gathered there. -/
def kTable (a5 : FVec Ideal S512x256 .f32) (a8 : IVec S8192 32) : FVec Ideal S8192x256 .f32 :=
  Host.gather gather_S512x256_S8192x1_S8192x256_1_0_n_n_0_1_1256 a5
    (broadcastInDim S8192x1 ![0] bcast_S8192_S8192x1_0
      (select
        (cmpi CmpIPredicate.slt
          (select
            (andi
              (cmpi CmpIPredicate.ne (signi a8) (broadcastInDim S8192 ![] bcast_S_S8192 (signi (id (constantI S_ 32 4#32)))))
              (cmpi CmpIPredicate.ne (Host.remsi a8 (broadcastInDim S8192 ![] bcast_S_S8192 (id (constantI S_ 32 4#32))))
                (broadcastInDim S8192 ![] bcast_S_S8192 (constantI S_ 32 0#32))))
            (subi (Host.divsi a8 (broadcastInDim S8192 ![] bcast_S_S8192 (id (constantI S_ 32 4#32))))
              (broadcastInDim S8192 ![] bcast_S_S8192 (constantI S_ 32 1#32)))
            (Host.divsi a8 (broadcastInDim S8192 ![] bcast_S_S8192 (id (constantI S_ 32 4#32)))))
          (broadcastInDim S8192 ![] bcast_S_S8192 (constantI S_ 32 0#32)))
        (addi
          (select
            (andi
              (cmpi CmpIPredicate.ne (signi a8) (broadcastInDim S8192 ![] bcast_S_S8192 (signi (id (constantI S_ 32 4#32)))))
              (cmpi CmpIPredicate.ne (Host.remsi a8 (broadcastInDim S8192 ![] bcast_S_S8192 (id (constantI S_ 32 4#32))))
                (broadcastInDim S8192 ![] bcast_S_S8192 (constantI S_ 32 0#32))))
            (subi (Host.divsi a8 (broadcastInDim S8192 ![] bcast_S_S8192 (id (constantI S_ 32 4#32))))
              (broadcastInDim S8192 ![] bcast_S_S8192 (constantI S_ 32 1#32)))
            (Host.divsi a8 (broadcastInDim S8192 ![] bcast_S_S8192 (id (constantI S_ 32 4#32)))))
          (broadcastInDim S8192 ![] bcast_S_S8192 (constantI S_ 32 512#32)))
        (select
          (andi
            (cmpi CmpIPredicate.ne (signi a8) (broadcastInDim S8192 ![] bcast_S_S8192 (signi (id (constantI S_ 32 4#32)))))
            (cmpi CmpIPredicate.ne (Host.remsi a8 (broadcastInDim S8192 ![] bcast_S_S8192 (id (constantI S_ 32 4#32))))
              (broadcastInDim S8192 ![] bcast_S_S8192 (constantI S_ 32 0#32))))
          (subi (Host.divsi a8 (broadcastInDim S8192 ![] bcast_S_S8192 (id (constantI S_ 32 4#32))))
            (broadcastInDim S8192 ![] bcast_S_S8192 (constantI S_ 32 1#32)))
          (Host.divsi a8 (broadcastInDim S8192 ![] bcast_S_S8192 (id (constantI S_ 32 4#32)))))))

set_option maxHeartbeats 0 in
/-- The weights operand at region 1's entry: the weight argument, as region 0 left it, reshaped to one row. -/
theorem k_weights (c : Dev nD) :
    W13 (F := Ideal) m ρ c (Proc.devRef .tc main_v85)
      = shapeCast S1x256 (W2 m ρ c (Proc.devRef .tc main_arg4)) shapeCasts_S256_S1x256 := by
  walk_back []
  rfl

set_option maxHeartbeats 0 in
/-- The table operand at region 1's entry: the rotary rows of the table argument at the positions argument, both as
    region 0 left them. -/
theorem k_table (c : Dev nD) :
    W13 (F := Ideal) m ρ c (Proc.devRef .tc main_v84)
      = kTable (W2 m ρ c (Proc.devRef .tc main_arg5)) (W2 m ρ c (Proc.devRef .tc main_arg8)) := by
  walk_back []
  rfl

/-- Region 1's result array at its exit: `Grope` of the three operands at its entry. -/
theorem k_exit (c : Dev nD) :
    W14 (F := Ideal) m ρ c (Proc.devRef .tc main_v86)
      = Rope.Grope (W13 m ρ c (Proc.devRef .tc main_v76)) (W13 m ρ c (Proc.devRef .tc main_v85))
          (W13 m ρ c (Proc.devRef .tc main_v84)) :=
  (W14_arr m ρ c 3).trans (Rope.region1_array (V13 m ρ) c)

end Kernel

/-! ## The reference: its stretch from the window sum to the reshaped rotation -/

section Reference
open Cert.ReferenceIdeal Cert.ReferenceIdeal.Gen

/-- The rotary rows as the reference's operations form them (the same operations as the kernel's program's). -/
def rTable (a5 : FVec Ideal S512x256 .f32) (a8 : IVec S8192 32) : FVec Ideal S8192x256 .f32 :=
  Host.gather gather_S512x256_S8192x1_S8192x256_1_0_n_n_0_1_1256 a5
    (broadcastInDim S8192x1 ![0] bcast_S8192_S8192x1_0
      (select
        (cmpi CmpIPredicate.slt
          (select
            (andi
              (cmpi CmpIPredicate.ne (signi a8) (broadcastInDim S8192 ![] bcast_S_S8192 (signi (id (constantI S_ 32 4#32)))))
              (cmpi CmpIPredicate.ne (Host.remsi a8 (broadcastInDim S8192 ![] bcast_S_S8192 (id (constantI S_ 32 4#32))))
                (broadcastInDim S8192 ![] bcast_S_S8192 (constantI S_ 32 0#32))))
            (subi (Host.divsi a8 (broadcastInDim S8192 ![] bcast_S_S8192 (id (constantI S_ 32 4#32))))
              (broadcastInDim S8192 ![] bcast_S_S8192 (constantI S_ 32 1#32)))
            (Host.divsi a8 (broadcastInDim S8192 ![] bcast_S_S8192 (id (constantI S_ 32 4#32)))))
          (broadcastInDim S8192 ![] bcast_S_S8192 (constantI S_ 32 0#32)))
        (addi
          (select
            (andi
              (cmpi CmpIPredicate.ne (signi a8) (broadcastInDim S8192 ![] bcast_S_S8192 (signi (id (constantI S_ 32 4#32)))))
              (cmpi CmpIPredicate.ne (Host.remsi a8 (broadcastInDim S8192 ![] bcast_S_S8192 (id (constantI S_ 32 4#32))))
                (broadcastInDim S8192 ![] bcast_S_S8192 (constantI S_ 32 0#32))))
            (subi (Host.divsi a8 (broadcastInDim S8192 ![] bcast_S_S8192 (id (constantI S_ 32 4#32))))
              (broadcastInDim S8192 ![] bcast_S_S8192 (constantI S_ 32 1#32)))
            (Host.divsi a8 (broadcastInDim S8192 ![] bcast_S_S8192 (id (constantI S_ 32 4#32)))))
          (broadcastInDim S8192 ![] bcast_S_S8192 (constantI S_ 32 512#32)))
        (select
          (andi
            (cmpi CmpIPredicate.ne (signi a8) (broadcastInDim S8192 ![] bcast_S_S8192 (signi (id (constantI S_ 32 4#32)))))
            (cmpi CmpIPredicate.ne (Host.remsi a8 (broadcastInDim S8192 ![] bcast_S_S8192 (id (constantI S_ 32 4#32))))
              (broadcastInDim S8192 ![] bcast_S_S8192 (constantI S_ 32 0#32))))
          (subi (Host.divsi a8 (broadcastInDim S8192 ![] bcast_S_S8192 (id (constantI S_ 32 4#32))))
            (broadcastInDim S8192 ![] bcast_S_S8192 (constantI S_ 32 1#32)))
          (Host.divsi a8 (broadcastInDim S8192 ![] bcast_S_S8192 (id (constantI S_ 32 4#32)))))))

set_option maxHeartbeats 0 in
/-- What the stretch leaves at its last buffer: the chain `refRope` of the window sum, the weights and the
    gathered rows, each read where the stretch starts. -/
theorem r_walk (WR : Valuation τ sig (Elt Ideal)) :
    StableHlo.after (RefCuts.segR (F := Ideal)) WR (Proc.devRef .tc main_v121)
      = Rope.refRope (WR (Proc.devRef .tc main_v81)) (WR (Proc.devRef .tc main_arg4))
          (rTable (WR (Proc.devRef .tc main_arg5)) (WR (Proc.devRef .tc main_arg8))) := by
  walk_back []
  rfl

end Reference

/-! ## The two meet -/

/-- The two programs' rotary rows are one function: the same operations under the two programs' names. -/
theorem kTable_eq_rTable (a5 : (⟨2, ![512, 256]⟩ : Shape).Idx → EReal) (a8 : (⟨1, ![8192]⟩ : Shape).Idx → BitVec 32) :
    kTable a5 a8 = rTable a5 a8 := rfl

/-- REGION 1 AGAINST THE REFERENCE'S STRETCH. If the kernel's program enters region 1 with the window sum the
    reference's stretch starts from, and region 0 left the weight, table and position arguments as the stretch finds
    them, then region 1's result array is what the stretch leaves at its last buffer. -/
theorem rope_bridge
    (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (WR : Valuation Cert.ReferenceIdeal.τ Cert.ReferenceIdeal.sig (Elt Ideal))
    (h76 : (Cert.KernelIdeal.Gen.W13 m ρ c (Proc.devRef .tc Cert.KernelIdeal.main_v76) : (⟨2, ![8192, 512]⟩ : Shape).Idx → EReal)
      = WR (Proc.devRef .tc Cert.ReferenceIdeal.main_v81))
    (h4 : (Cert.KernelIdeal.Gen.W2 m ρ c (Proc.devRef .tc Cert.KernelIdeal.main_arg4) : (⟨1, ![256]⟩ : Shape).Idx → EReal)
      = WR (Proc.devRef .tc Cert.ReferenceIdeal.main_arg4))
    (h5 : (Cert.KernelIdeal.Gen.W2 m ρ c (Proc.devRef .tc Cert.KernelIdeal.main_arg5) : (⟨2, ![512, 256]⟩ : Shape).Idx → EReal)
      = WR (Proc.devRef .tc Cert.ReferenceIdeal.main_arg5))
    (h8 : (Cert.KernelIdeal.Gen.W2 m ρ c (Proc.devRef .tc Cert.KernelIdeal.main_arg8) : (⟨1, ![8192]⟩ : Shape).Idx → BitVec 32)
      = WR (Proc.devRef .tc Cert.ReferenceIdeal.main_arg8)) :
    (Cert.KernelIdeal.Gen.W14 m ρ c (Proc.devRef .tc Cert.KernelIdeal.main_v86) : (⟨2, ![8192, 512]⟩ : Shape).Idx → EReal)
      = StableHlo.after (Cert.ReferenceIdeal.RefCuts.segR (F := Ideal)) WR (Proc.devRef .tc Cert.ReferenceIdeal.main_v121) := by
  rw [r_walk WR, Cert.ReferenceIdeal.Rope.ref_rope _ _ _ Cert.KernelIdeal.Gen.shapeCasts_S256_S1x256,
    k_exit m ρ c, k_weights m ρ c, k_table m ρ c, h76, h4, h5, h8, kTable_eq_rTable]

end Cert.Bridge

end
-- ==== Proof.Algebraic.lean ====
/-
  The composition: the idealized kernel's program and the reference compute equal results.

  Both programs are the same computation cut at different places.  The kernel's program transposes the scale table,
  runs the block-scaled matrix product as its first region, runs a line of host operations on the product and the
  arguments, normalises and rotates the gated window sum in its second region, and scatters the rotated rows into the
  compressed cache; the reference is one line of host operations doing the same five things.  Boundary by boundary
  the kernel's buffers hold what the reference's line holds at the matching cut: the arguments everywhere, the
  product after the first region, the three early results and the gated sum and the window mask after the host
  operations, the rotated rows after the second region, the last result at the end.  The results are then read off
  the two programs' runs.
-/
import proofs.«114737_j78752520339581_1_alg».proof.Defs
import proofs.«114737_j78752520339581_1_alg».proof.Proof.Gen.Kernel.Frame
import proofs.«114737_j78752520339581_1_alg».proof.Proof.Gen.Pre_finite_inputs
import proofs.«114737_j78752520339581_1_alg».proof.Proof.BridgeEnds
import proofs.«114737_j78752520339581_1_alg».proof.Proof.BridgeSkips
import proofs.«114737_j78752520339581_1_alg».proof.Proof.BridgeMid
import proofs.«114737_j78752520339581_1_alg».proof.Proof.BridgeRope

set_option maxRecDepth 16384

noncomputable section

namespace Cert.Proof.Parts

open Idealize.ShloMosaic Idealize.ShloMosaic.TcCoe Idealize.ShloMosaic.StableHlo Idealize.SL.Sem Cert.Bridge

local notation "κ" b:max => Proc.devRef (τ := Cert.KernelIdeal.τ) (sig := Cert.KernelIdeal.sig) Proc.tc b
local notation "ϱ" b:max => Proc.devRef (τ := Cert.ReferenceIdeal.τ) (sig := Cert.ReferenceIdeal.sig) Proc.tc b

/-! ## The two programs, boundary by boundary, on one core -/

section Core
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The launch memories agree on the thirteen arguments of core `c`. -/
abbrev Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)

/-- The reference's buffers at launch, after its first seven operations, after the operations up to the gated
    window sum, and after the normalisation and rotation. -/
abbrev L0 : Valuation Cert.ReferenceIdeal.τ Cert.ReferenceIdeal.sig (Elt Ideal) := StableHlo.launchContents m' c
abbrev L1 : Valuation Cert.ReferenceIdeal.τ Cert.ReferenceIdeal.sig (Elt Ideal) := after Cert.ReferenceIdeal.RefCuts.pre (L0 m' c)
abbrev L2 : Valuation Cert.ReferenceIdeal.τ Cert.ReferenceIdeal.sig (Elt Ideal) := after Cert.ReferenceIdeal.RefCuts.segM (L1 m' c)
abbrev L3 : Valuation Cert.ReferenceIdeal.τ Cert.ReferenceIdeal.sig (Elt Ideal) := after Cert.ReferenceIdeal.RefCuts.segR (L2 m' c)

/-- The whole line is its four pieces in order. -/
theorem ops_cut (b : DevRef Cert.ReferenceIdeal.τ Cert.ReferenceIdeal.sig) :
    after Cert.ReferenceIdeal.RefRun.ops (L0 m' c) b = after Cert.ReferenceIdeal.RefCuts.sufT (L3 m' c) b := by
  rw [Cert.ReferenceIdeal.RefCuts.after_ops]

/-- Argument 3 after the first region holds what the reference holds after its first seven operations. -/
theorem ag1_3 (hag : Agree m m' c) : Cert.KernelIdeal.Gen.W2 m ρ c (κ Cert.KernelIdeal.main_arg3) = L1 m' c (ϱ Cert.ReferenceIdeal.main_arg3) :=
  (kW2_arg3 m ρ c).trans ((kW0_arg3 m ρ c).trans ((hag.2.2.2.1).symm.trans (r_pre_main_arg3 (L0 m' c)).symm))
/-- Argument 4 after the first region holds what the reference holds after its first seven operations. -/
theorem ag1_4 (hag : Agree m m' c) : Cert.KernelIdeal.Gen.W2 m ρ c (κ Cert.KernelIdeal.main_arg4) = L1 m' c (ϱ Cert.ReferenceIdeal.main_arg4) :=
  (kW2_arg4 m ρ c).trans ((kW0_arg4 m ρ c).trans ((hag.2.2.2.2.1).symm.trans (r_pre_main_arg4 (L0 m' c)).symm))
/-- Argument 5 after the first region holds what the reference holds after its first seven operations. -/
theorem ag1_5 (hag : Agree m m' c) : Cert.KernelIdeal.Gen.W2 m ρ c (κ Cert.KernelIdeal.main_arg5) = L1 m' c (ϱ Cert.ReferenceIdeal.main_arg5) :=
  (kW2_arg5 m ρ c).trans ((kW0_arg5 m ρ c).trans ((hag.2.2.2.2.2.1).symm.trans (r_pre_main_arg5 (L0 m' c)).symm))
/-- Argument 6 after the first region holds what the reference holds after its first seven operations. -/
theorem ag1_6 (hag : Agree m m' c) : Cert.KernelIdeal.Gen.W2 m ρ c (κ Cert.KernelIdeal.main_arg6) = L1 m' c (ϱ Cert.ReferenceIdeal.main_arg6) :=
  (kW2_arg6 m ρ c).trans ((kW0_arg6 m ρ c).trans ((hag.2.2.2.2.2.2.1).symm.trans (r_pre_main_arg6 (L0 m' c)).symm))
/-- Argument 7 after the first region holds what the reference holds after its first seven operations. -/
theorem ag1_7 (hag : Agree m m' c) : Cert.KernelIdeal.Gen.W2 m ρ c (κ Cert.KernelIdeal.main_arg7) = L1 m' c (ϱ Cert.ReferenceIdeal.main_arg7) :=
  (kW2_arg7 m ρ c).trans ((kW0_arg7 m ρ c).trans ((hag.2.2.2.2.2.2.2.1).symm.trans (r_pre_main_arg7 (L0 m' c)).symm))
/-- Argument 8 after the first region holds what the reference holds after its first seven operations. -/
theorem ag1_8 (hag : Agree m m' c) : Cert.KernelIdeal.Gen.W2 m ρ c (κ Cert.KernelIdeal.main_arg8) = L1 m' c (ϱ Cert.ReferenceIdeal.main_arg8) :=
  (kW2_arg8 m ρ c).trans ((kW0_arg8 m ρ c).trans ((hag.2.2.2.2.2.2.2.2.1).symm.trans (r_pre_main_arg8 (L0 m' c)).symm))
/-- Argument 9 after the first region holds what the reference holds after its first seven operations. -/
theorem ag1_9 (hag : Agree m m' c) : Cert.KernelIdeal.Gen.W2 m ρ c (κ Cert.KernelIdeal.main_arg9) = L1 m' c (ϱ Cert.ReferenceIdeal.main_arg9) :=
  (kW2_arg9 m ρ c).trans ((kW0_arg9 m ρ c).trans ((hag.2.2.2.2.2.2.2.2.2.1).symm.trans (r_pre_main_arg9 (L0 m' c)).symm))
/-- Argument 10 after the first region holds what the reference holds after its first seven operations. -/
theorem ag1_10 (hag : Agree m m' c) : Cert.KernelIdeal.Gen.W2 m ρ c (κ Cert.KernelIdeal.main_arg10) = L1 m' c (ϱ Cert.ReferenceIdeal.main_arg10) :=
  (kW2_arg10 m ρ c).trans ((kW0_arg10 m ρ c).trans ((hag.2.2.2.2.2.2.2.2.2.2.1).symm.trans (r_pre_main_arg10 (L0 m' c)).symm))
/-- Argument 11 after the first region holds what the reference holds after its first seven operations. -/
theorem ag1_11 (hag : Agree m m' c) : Cert.KernelIdeal.Gen.W2 m ρ c (κ Cert.KernelIdeal.main_arg11) = L1 m' c (ϱ Cert.ReferenceIdeal.main_arg11) :=
  (kW2_arg11 m ρ c).trans ((kW0_arg11 m ρ c).trans ((hag.2.2.2.2.2.2.2.2.2.2.2.1).symm.trans (r_pre_main_arg11 (L0 m' c)).symm))
/-- Argument 12 after the first region holds what the reference holds after its first seven operations. -/
theorem ag1_12 (hag : Agree m m' c) : Cert.KernelIdeal.Gen.W2 m ρ c (κ Cert.KernelIdeal.main_arg12) = L1 m' c (ϱ Cert.ReferenceIdeal.main_arg12) :=
  (kW2_arg12 m ρ c).trans ((kW0_arg12 m ρ c).trans ((hag.2.2.2.2.2.2.2.2.2.2.2.2).symm.trans (r_pre_main_arg12 (L0 m' c)).symm))

/-- Argument 4 after the first region holds what the reference holds after the gated window sum. -/
theorem ag2_4 (hag : Agree m m' c) : Cert.KernelIdeal.Gen.W2 m ρ c (κ Cert.KernelIdeal.main_arg4) = L2 m' c (ϱ Cert.ReferenceIdeal.main_arg4) :=
  (ag1_4 m ρ m' c hag).trans (r_segM_main_arg4 (L1 m' c)).symm
/-- Argument 5 after the first region holds what the reference holds after the gated window sum. -/
theorem ag2_5 (hag : Agree m m' c) : Cert.KernelIdeal.Gen.W2 m ρ c (κ Cert.KernelIdeal.main_arg5) = L2 m' c (ϱ Cert.ReferenceIdeal.main_arg5) :=
  (ag1_5 m ρ m' c hag).trans (r_segM_main_arg5 (L1 m' c)).symm
/-- Argument 8 after the first region holds what the reference holds after the gated window sum. -/
theorem ag2_8 (hag : Agree m m' c) : Cert.KernelIdeal.Gen.W2 m ρ c (κ Cert.KernelIdeal.main_arg8) = L2 m' c (ϱ Cert.ReferenceIdeal.main_arg8) :=
  (ag1_8 m ρ m' c hag).trans (r_segM_main_arg8 (L1 m' c)).symm

/-- Argument 7 after the second region holds what the reference holds after the normalisation and rotation. -/
theorem ag3_7 (hag : Agree m m' c) : Cert.KernelIdeal.Gen.W14 m ρ c (κ Cert.KernelIdeal.main_arg7) = L3 m' c (ϱ Cert.ReferenceIdeal.main_arg7) :=
  (kW14_main_arg7 m ρ c).trans ((kMid_arg7 (Cert.KernelIdeal.Gen.W2 m ρ c)).trans ((ag1_7 m ρ m' c hag).trans
    ((r_segM_main_arg7 (L1 m' c)).symm.trans (r_segR_main_arg7 (L2 m' c)).symm)))
/-- Argument 12 after the second region holds what the reference holds after the normalisation and rotation. -/
theorem ag3_12 (hag : Agree m m' c) : Cert.KernelIdeal.Gen.W14 m ρ c (κ Cert.KernelIdeal.main_arg12) = L3 m' c (ϱ Cert.ReferenceIdeal.main_arg12) :=
  (kW14_main_arg12 m ρ c).trans ((kMid_arg12 (Cert.KernelIdeal.Gen.W2 m ρ c)).trans ((ag1_12 m ρ m' c hag).trans
    ((r_segM_main_arg12 (L1 m' c)).symm.trans (r_segR_main_arg12 (L2 m' c)).symm)))

/-- The first region's result array is the reference's matrix product. -/
theorem prod_eq (hag : Agree m m' c) : Cert.KernelIdeal.Gen.W2 m ρ c (κ Cert.KernelIdeal.main_v1) = L1 m' c (ϱ Cert.ReferenceIdeal.main_v6) :=
  x0_eq m ρ c (L0 m' c) (hag.1).symm (hag.2.1).symm (hag.2.2.1).symm

/-- The first result: the left column half of the product. -/
theorem eq_v7 (hag : Agree m m' c) : after Cert.ReferenceIdeal.RefRun.ops (L0 m' c) (ϱ Cert.ReferenceIdeal.main_v7) = Cert.KernelIdeal.Gen.W17 m ρ c (κ Cert.KernelIdeal.main_v2) :=
  (ops_cut m' c _).trans ((r_sufT_main_v7 (L3 m' c)).trans ((r_segR_main_v7 (L2 m' c)).trans
    ((mid_v2 (Cert.KernelIdeal.Gen.W2 m ρ c) (L1 m' c) (prod_eq m ρ m' c hag)).symm.trans
      ((kW14_main_v2 m ρ c).symm.trans (kTail_main_v2 (Cert.KernelIdeal.Gen.W14 m ρ c)).symm))))

/-- The second result: the right column half of the product. -/
theorem eq_v8 (hag : Agree m m' c) : after Cert.ReferenceIdeal.RefRun.ops (L0 m' c) (ϱ Cert.ReferenceIdeal.main_v8) = Cert.KernelIdeal.Gen.W17 m ρ c (κ Cert.KernelIdeal.main_v3) :=
  (ops_cut m' c _).trans ((r_sufT_main_v8 (L3 m' c)).trans ((r_segR_main_v8 (L2 m' c)).trans
    ((mid_v3 (Cert.KernelIdeal.Gen.W2 m ρ c) (L1 m' c) (prod_eq m ρ m' c hag)).symm.trans
      ((kW14_main_v3 m ρ c).symm.trans (kTail_main_v3 (Cert.KernelIdeal.Gen.W14 m ρ c)).symm))))

/-- The third result: the state cache with the new rows scattered in. -/
theorem eq_v25 (hag : Agree m m' c) : after Cert.ReferenceIdeal.RefRun.ops (L0 m' c) (ϱ Cert.ReferenceIdeal.main_v25) = Cert.KernelIdeal.Gen.W17 m ρ c (κ Cert.KernelIdeal.main_v20) :=
  (ops_cut m' c _).trans ((r_sufT_main_v25 (L3 m' c)).trans ((r_segR_main_v25 (L2 m' c)).trans
    ((mid_v20 (Cert.KernelIdeal.Gen.W2 m ρ c) (L1 m' c) (prod_eq m ρ m' c hag) (ag1_3 m ρ m' c hag) (ag1_6 m ρ m' c hag)
        (ag1_8 m ρ m' c hag) (ag1_9 m ρ m' c hag)).symm.trans
      ((kW14_main_v20 m ρ c).symm.trans (kTail_main_v20 (Cert.KernelIdeal.Gen.W14 m ρ c)).symm))))

/-- The gated window sum entering the second region. -/
theorem gate_eq (hag : Agree m m' c) : Cert.KernelIdeal.Gen.W13 m ρ c (κ Cert.KernelIdeal.main_v76) = L2 m' c (ϱ Cert.ReferenceIdeal.main_v81) :=
  mid_v76 (Cert.KernelIdeal.Gen.W2 m ρ c) (L1 m' c) (prod_eq m ρ m' c hag) (ag1_3 m ρ m' c hag) (ag1_6 m ρ m' c hag)
    (ag1_8 m ρ m' c hag) (ag1_9 m ρ m' c hag) (ag1_10 m ρ m' c hag) (ag1_11 m ρ m' c hag)

/-- The mask of the tokens that end a window, after the second region. -/
theorem mask_eq (hag : Agree m m' c) : Cert.KernelIdeal.Gen.W14 m ρ c (κ Cert.KernelIdeal.main_v23) = L3 m' c (ϱ Cert.ReferenceIdeal.main_v28) :=
  (kW14_main_v23 m ρ c).trans ((mid_v23 (Cert.KernelIdeal.Gen.W2 m ρ c) (L1 m' c) (ag1_8 m ρ m' c hag)).trans
    (r_segR_main_v28 (L2 m' c)).symm)

/-- The second region's result array is the reference's normalised and rotated rows. -/
theorem rot_eq (hag : Agree m m' c) : Cert.KernelIdeal.Gen.W14 m ρ c (κ Cert.KernelIdeal.main_v86) = L3 m' c (ϱ Cert.ReferenceIdeal.main_v121) :=
  rope_bridge m ρ c (L2 m' c) (gate_eq m ρ m' c hag) (ag2_4 m ρ m' c hag) (ag2_5 m ρ m' c hag) (ag2_8 m ρ m' c hag)

/-- The fourth result: the compressed cache with the rotated rows scattered in. -/
theorem eq_v132 (hag : Agree m m' c) : after Cert.ReferenceIdeal.RefRun.ops (L0 m' c) (ϱ Cert.ReferenceIdeal.main_v132) = Cert.KernelIdeal.Gen.W17 m ρ c (κ Cert.KernelIdeal.main_v97) :=
  (ops_cut m' c _).trans
    (tail_eq (Cert.KernelIdeal.Gen.W14 m ρ c) (L3 m' c) (rot_eq m ρ m' c hag) (mask_eq m ρ m' c hag) (ag3_12 m ρ m' c hag)
      (ag3_7 m ρ m' c hag)).symm

end Core

/-! ## The claims -/

/-- The word-level kernel's frame is the generated one. -/
theorem frame_K : Cert.frame_Kernel (hKernel := Cert.Kernel.Gen.facts) (hPre_finite_inputs := Cert.Pre_finite_inputs.Gen.facts) :=
  fun m ρ _ => Cert.Kernel.Gen.frame m ρ

/-- The idealized kernel's frame is the generated one. -/
theorem frame_KI : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the four results dropped. -/
theorem frame_RI : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2) (Cert.ReferenceIdeal.RefRun.run (F := Ideal) m ρ)

/-- THE ALGEBRAIC CLAIM: from launch memories that agree on the thirteen arguments both programs run, leave the
    arguments as they found them, and end with equal results: the idealized kernel's four result buffers at what
    its last boundary holds there, and the reference's four at the same contents. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W17 m ρ c (κ Cert.KernelIdeal.main_v2), fun c => Cert.KernelIdeal.Gen.W17 m ρ c (κ Cert.KernelIdeal.main_v3),
    fun c => Cert.KernelIdeal.Gen.W17 m ρ c (κ Cert.KernelIdeal.main_v20), fun c => Cert.KernelIdeal.Gen.W17 m ρ c (κ Cert.KernelIdeal.main_v97), ?_, ?_⟩
  · exact (θ_run Cert.KernelIdeal.defs _ _).mono (fun r h c =>
      ⟨h c Cert.KernelIdeal.main_v2 (by decide), h c Cert.KernelIdeal.main_v3 (by decide), h c Cert.KernelIdeal.main_v20 (by decide), h c Cert.KernelIdeal.main_v97 (by decide),
        (h c Cert.KernelIdeal.main_arg0 (by decide)).trans (Cert.KernelIdeal.Gen.W17_main_arg0 m ρ c),
        (h c Cert.KernelIdeal.main_arg1 (by decide)).trans (Cert.KernelIdeal.Gen.W17_main_arg1 m ρ c),
        (h c Cert.KernelIdeal.main_arg2 (by decide)).trans (Cert.KernelIdeal.Gen.W17_main_arg2 m ρ c),
        (h c Cert.KernelIdeal.main_arg3 (by decide)).trans (Cert.KernelIdeal.Gen.W17_main_arg3 m ρ c),
        (h c Cert.KernelIdeal.main_arg4 (by decide)).trans (Cert.KernelIdeal.Gen.W17_main_arg4 m ρ c),
        (h c Cert.KernelIdeal.main_arg5 (by decide)).trans (Cert.KernelIdeal.Gen.W17_main_arg5 m ρ c),
        (h c Cert.KernelIdeal.main_arg6 (by decide)).trans (Cert.KernelIdeal.Gen.W17_main_arg6 m ρ c),
        (h c Cert.KernelIdeal.main_arg7 (by decide)).trans (Cert.KernelIdeal.Gen.W17_main_arg7 m ρ c),
        (h c Cert.KernelIdeal.main_arg8 (by decide)).trans (Cert.KernelIdeal.Gen.W17_main_arg8 m ρ c),
        (h c Cert.KernelIdeal.main_arg9 (by decide)).trans (Cert.KernelIdeal.Gen.W17_main_arg9 m ρ c),
        (h c Cert.KernelIdeal.main_arg10 (by decide)).trans (Cert.KernelIdeal.Gen.W17_main_arg10 m ρ c),
        (h c Cert.KernelIdeal.main_arg11 (by decide)).trans (Cert.KernelIdeal.Gen.W17_main_arg11 m ρ c),
        (h c Cert.KernelIdeal.main_arg12 (by decide)).trans (Cert.KernelIdeal.Gen.W17_main_arg12 m ρ c)⟩)
      (Cert.KernelIdeal.KRun.run_all (F := Ideal) m ρ)
  · exact (θ_run Cert.ReferenceIdeal.defs _ _).mono (fun r h c =>
      ⟨(h c).1.trans (eq_v7 m ρ m' c (hagree c)), (h c).2.1.trans (eq_v8 m ρ m' c (hagree c)),
        (h c).2.2.1.trans (eq_v25 m ρ m' c (hagree c)), (h c).2.2.2.1.trans (eq_v132 m ρ m' c (hagree c)), (h c).2.2.2.2⟩)
      (Cert.ReferenceIdeal.RefRun.run (F := Ideal) m' ρ')

end Cert.Proof.Parts

end
-- ==== Proof.lean ====
/-
  The kernel and its reference are one function of the arguments over the extended reals.

  The kernel computes the compressor's state and compressed-kv caches with two pallas_calls among host operations. Its
  first region forms, for each block of 256 tokens, the product of the hidden states with the block-scaled weight: the
  4096 contracted columns in eight chunks of 512, each chunk's weight multiplied by its 128×128 scale (the transposed
  scale table re-laid to the chunk) and accumulated into a zero start. At the ideal instance a change of float format
  is the identity and a sum may be regrouped, so the region's output array is, entry by entry, the sum over all 4096
  columns of hidden · (weight · scale): what the reference's single dot_general of the hidden states with the scaled,
  transposed weight is. From that array both programs run the same host operations: the two column halves (the first
  two results), the positional term added to the first half, the scatter of the state rows (the third result), the
  window's slots looked up in the block table, the gather of the window's rows, the softmax gate and the gated window
  sum. The kernel's second region normalises each 256-wide half of that sum by the root of its mean square plus the
  shared epsilon, scales it by the norm weight and rotates it by the gathered cosine and sine rows; the reference does
  the same after reshaping the sum to [tokens, 2, 256]. The last scatter into the compressed cache and its slice (the
  fourth result) are again the same operations on both sides. No step uses finiteness of the inputs: only that
  addition on the extended reals is commutative and associative with 0 neutral, and bookkeeping of indices.

  The three frames are the generated frame runs (the reference's is its run with the results dropped), the ideal pass
  rewrote nothing, and the value claim is assembled in Proof/Algebraic.lean from the run of each program with every
  result named (Proof/KernelRun.lean, Proof/RefRun.lean), the two regions read as whole-array functions
  (Proof/DequantValue.lean, Proof/RopeValue.lean), the two laws against the reference (Proof/DequantLaw.lean,
  Proof/RopeLaw.lean) and the host lines of the two programs read side by side (Proof/BridgeEnds.lean,
  Proof/BridgeMid.lean, Proof/BridgeRope.lean, Proof/BridgeSkips.lean).
-/
import proofs.«114737_j78752520339581_1_alg».proof.Defs
import proofs.«114737_j78752520339581_1_alg».proof.Proof.Gen.Kernel
import proofs.«114737_j78752520339581_1_alg».proof.Proof.Gen.Kernel.Skeleton
import proofs.«114737_j78752520339581_1_alg».proof.Proof.Gen.Kernel.Launch
import proofs.«114737_j78752520339581_1_alg».proof.Proof.Gen.Kernel.Points
import proofs.«114737_j78752520339581_1_alg».proof.Proof.Gen.Kernel.Frame
import proofs.«114737_j78752520339581_1_alg».proof.Proof.Gen.KernelIdeal
import proofs.«114737_j78752520339581_1_alg».proof.Proof.Gen.KernelIdeal.Skeleton
import proofs.«114737_j78752520339581_1_alg».proof.Proof.Gen.KernelIdeal.Launch
import proofs.«114737_j78752520339581_1_alg».proof.Proof.Gen.KernelIdeal.Points
import proofs.«114737_j78752520339581_1_alg».proof.Proof.Gen.KernelIdeal.Frame
import proofs.«114737_j78752520339581_1_alg».proof.Proof.Gen.ReferenceIdeal
import proofs.«114737_j78752520339581_1_alg».proof.Proof.Gen.Pre_finite_inputs
import proofs.«114737_j78752520339581_1_alg».proof.Proof.Algebraic
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Cert.Proof.Parts.frame_K, Cert.Proof.Parts.frame_KI, Cert.Proof.Parts.frame_RI, trivial, Cert.Proof.Parts.algebraic⟩

end Cert.Proof

end
